-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x1024x1024 : Shape := ⟨4, ![32, 3, 1024, 1024]⟩
abbrev S132x256 : Shape := ⟨2, ![132, 256]⟩
abbrev S256 : Shape := ⟨1, ![256]⟩
abbrev S_ : Shape := ⟨0, ![]⟩

class Facts : Prop where
  bcast_S_S32x3x1024x1024 : S_.BroadcastsInDim S32x3x1024x1024 (![] : Fin 0 → Fin S32x3x1024x1024.rank)
  reducesTo_S32x3x1024x1024_S_d0_1_2_3 : S32x3x1024x1024.ReducesTo [0, 1, 2, 3] S_
  h_S_ : 0 < S_.numel
  bcast_S_S132x256 : S_.BroadcastsInDim S132x256 (![] : Fin 0 → Fin S132x256.rank)
  reducesTo_S132x256_S_d0_1 : S132x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x3x1024x1024 .f32) (main_arg1 : FVec F S132x256 .f32) (main_arg2 : FVec F S256 .f32) (main_arg3 : FVec F S256 .f32) (main_arg4 : FVec F S256 .f32) : IVec S_ 1 :=
  let main_v0 : FVec F S32x3x1024x1024 .f32 := Host.absf main_arg0
  let main_cst : FVec F S_ .f32 := constant S_ .f32 0x7F800000#32
  let main_v1 : FVec F S32x3x1024x1024 .f32 := broadcastInDim S32x3x1024x1024 ![] bcast_S_S32x3x1024x1024 main_cst
  let main_v2 : IVec S32x3x1024x1024 1 := cmpf .olt main_v0 main_v1
  let main_c : IVec S_ 1 := constantI S_ 1 1#1
  let main_v3 : IVec S_ 1 := (fun x v => Host.reduce IntOp.andi x v reducesTo_S32x3x1024x1024_S_d0_1_2_3 h_S_) main_v2 main_c
  let main_v4 : FVec F S132x256 .f32 := Host.absf main_arg1
  let main_cst_0 : FVec F S_ .f32 := constant S_ .f32 0x7F800000#32
  let main_v5 : FVec F S132x256 .f32 := broadcastInDim S132x256 ![] bcast_S_S132x256 main_cst_0
  let main_v6 : IVec S132x256 1 := cmpf .olt main_v4 main_v5
  let main_c_1 : IVec S_ 1 := constantI S_ 1 1#1
  let main_v7 : IVec S_ 1 := (fun x v => Host.reduce IntOp.andi x v reducesTo_S132x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S32x3x1024x1024 : Shape := ⟨4, ![32, 3, 1024, 1024]⟩
abbrev S132x256 : Shape := ⟨2, ![132, 256]⟩
abbrev S256 : Shape := ⟨1, ![256]⟩
abbrev S32x1x132 : Shape := ⟨3, ![32, 1, 132]⟩
abbrev S1x1x1024x1024 : Shape := ⟨4, ![1, 1, 1024, 1024]⟩
abbrev S1x1x132 : Shape := ⟨3, ![1, 1, 132]⟩
abbrev S1x64x1 : Shape := ⟨3, ![1, 64, 1]⟩
abbrev S1x64 : Shape := ⟨2, ![1, 64]⟩
abbrev S1x1 : Shape := ⟨2, ![1, 1]⟩
abbrev S1x1x16x1024 : Shape := ⟨4, ![1, 1, 16, 1024]⟩
abbrev S16x1024 : Shape := ⟨2, ![16, 1024]⟩
abbrev S16x1x1024 : Shape := ⟨3, ![16, 1, 1024]⟩
abbrev S16x64x1024 : Shape := ⟨3, ![16, 64, 1024]⟩
abbrev S16x64 : Shape := ⟨2, ![16, 64]⟩
abbrev S64 : Shape := ⟨1, ![64]⟩
abbrev S16 : Shape := ⟨1, ![16]⟩
abbrev S16x1 : Shape := ⟨2, ![16, 1]⟩
abbrev S1 : Shape := ⟨1, ![1]⟩
abbrev S2x8x128x8 : Shape := ⟨4, ![2, 8, 128, 8]⟩
abbrev S2x8x128 : Shape := ⟨3, ![2, 8, 128]⟩
abbrev S2x128 : Shape := ⟨2, ![2, 128]⟩
abbrev S2 : Shape := ⟨1, ![2]⟩
abbrev S2x1 : Shape := ⟨2, ![2, 1]⟩
abbrev S1x132 : Shape := ⟨2, ![1, 132]⟩
abbrev S32x132 : Shape := ⟨2, ![32, 132]⟩
abbrev S32x256 : Shape := ⟨2, ![32, 256]⟩
abbrev S1x256 : Shape := ⟨2, ![1, 256]⟩

abbrev nBuf : Space → Nat
  | .hbm => 8
  | .vmem => 12
  | .smem => 0
  | _ => 0

abbrev bufTy : (tb : Table) → Fin (tcTables nBuf tb) → BufTy
  | .hbm, ⟨0, _⟩ => ⟨S32x3x1024x1024, .f32⟩
  | .hbm, ⟨1, _⟩ => ⟨S132x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S32x1x132, .f32⟩
  | .hbm, ⟨6, _⟩ => ⟨S32x132, .f32⟩
  | .hbm, ⟨7, _⟩ => ⟨S32x256, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x132, .f32⟩
  | .local _ .vmem, ⟨5, _⟩ => ⟨S1x1x132, .f32⟩
  | .local _ .vmem, ⟨6, _⟩ => ⟨S32x132, .f32⟩
  | .local _ .vmem, ⟨7, _⟩ => ⟨S132x256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S32x256, .f32⟩
  | _, _ => ⟨S32x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c64_i32 : BitVec 32 := 64#32
  let v5 : BitVec 32 := Scalar.addi c0_i32 c64_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c16_i32 : BitVec 32 := 16#32
  let v46 : BitVec 32 := Scalar.muli arg4 c16_i32
  v46
def k0_off1 (k0_t1 : Fin k0_t1_loop.trips) : Fin 4 → Nat :=
  let c0_24 : Index := 0#32
  let c0_25 : Index := 0#32
  let c0_i32 : BitVec 32 := 0#32
  let c1_i32 : BitVec 32 := 1#32
  let arg4 : BitVec 32 := Scf.iv c0_i32 c1_i32 k0_t1
  let c16_i32 : BitVec 32 := 16#32
  let v46 : BitVec 32 := Scalar.muli arg4 c16_i32
  let v47 : BitVec 32 := v46
  let v48 : Index := Scalar.indexCast v47
  let c0_26 : Index := 0#32
  ![0, 0, v48.toNat, 0]
@[reducible] def k0_t2_loop : Scf.Loop 32 :=
  let c0_i32_13 : BitVec 32 := 0#32
  let c64_i32_14 : BitVec 32 := 64#32
  let v26 : BitVec 32 := Scalar.addi c0_i32_13 c64_i32_14
  let c1_i32_15 : BitVec 32 := 1#32
  ⟨c0_i32_13, v26, c1_i32_15⟩
def k0_mult2 (k0_t2 : Fin k0_t2_loop.trips) : BitVec 32 :=
  let c0_i32_13 : BitVec 32 := 0#32
  let c1_i32_15 : BitVec 32 := 1#32
  let arg4 : BitVec 32 := Scf.iv c0_i32_13 c1_i32_15 k0_t2
  let c16_i32 : BitVec 32 := 16#32
  let v46 : BitVec 32 := Scalar.muli arg4 c16_i32
  v46
def k0_off2 (k0_t2 : Fin k0_t2_loop.trips) : Fin 4 → Nat :=
  let c0_24 : Index := 0#32
  let c0_25 : Index := 0#32
  let c0_i32_13 : BitVec 32 := 0#32
  let c1_i32_15 : BitVec 32 := 1#32
  let arg4 : BitVec 32 := Scf.iv c0_i32_13 c1_i32_15 k0_t2
  let c16_i32 : BitVec 32 := 16#32
  let v46 : BitVec 32 := Scalar.muli arg4 c16_i32
  let v47 : BitVec 32 := v46
  let v48 : Index := Scalar.indexCast v47
  let c0_26 : Index := 0#32
  ![0, 0, v48.toNat, 0]
def cc0_transform_0 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_1 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x132 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x132 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S132x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  iota_S1x64x1_d1_w32 : S1x64x1.Iotas .tc 32 [1]
  h_S1x1x16x1024 : 0 < S1x1x16x1024.numel
  shapeCasts_S1x1x16x1024_S16x1024 : S1x1x16x1024.ShapeCasts S16x1024
  shapeCasts_S16x1024_S16x1x1024 : S16x1024.ShapeCasts S16x1x1024
  broadcasts_S16x1x1024_S16x64x1024 : S16x1x1024.Broadcasts S16x64x1024
  broadcasts_S1x64x1_S16x64x1024 : S1x64x1.Broadcasts S16x64x1024
  natLt_1_32 : 1 < 32
  reduces_S16x64x1024_S16x64 : S16x64x1024.Reduces [2] S16x64
  reduces_S16x64_S64 : S16x64.Reduces [0] S64
  shapeCasts_S64_S1x64 : S64.ShapeCasts S1x64
  reduces_S16x1024_S16 : S16x1024.Reduces [1] S16
  shapeCasts_S16_S16x1 : S16.ShapeCasts S16x1
  reduces_S16x1_S1 : S16x1.Reduces [0] S1
  shapeCasts_S1_S1x1 : S1.ShapeCasts S1x1
  shapeCasts_S16x1024_S2x8x128x8 : S16x1024.ShapeCasts S2x8x128x8
  reduces_S2x8x128x8_S2x8x128 : S2x8x128x8.Reduces [3] S2x8x128
  reduces_S2x8x128_S2x128 : S2x8x128.Reduces [1] S2x128
  reduces_S2x128_S2 : S2x128.Reduces [1] S2
  shapeCasts_S2_S2x1 : S2.ShapeCasts S2x1
  reduces_S2x1_S1 : S2x1.Reduces [0] S1
  reduces_S1x64_S1 : S1x64.Reduces [1] S1
  broadcasts_S1x1_S1x64 : S1x1.Broadcasts S1x64
  concatenates_S1x64_S1x64_S1x1_S1x1_S1x1_S1x1_S1x132_d1 : Shape.Concatenates [S1x64, S1x64, S1x1, S1x1, S1x1, S1x1] S1x132 1
  inb_S1x1x132_S1x1x132_0_0_0 : ∀ a, (![0, 0, 0] : Fin 3 → Nat) a + S1x1x132.size a ≤ S1x1x132.size a
  h_S1x1x132 : 0 < S1x1x132.numel
  shapeCasts_S1x1x132_S1x132 : S1x1x132.ShapeCasts S1x132
  shapeCasts_S1x132_S1x1x132 : S1x132.ShapeCasts S1x1x132
  shapeCasts_S32x1x132_S32x132 : S32x1x132.ShapeCasts S32x132
  inb_S32x132_S32x132_0_0 : ∀ a, (![0, 0] : Fin 2 → Nat) a + S32x132.size a ≤ S32x132.size a
  h_S32x132 : 0 < S32x132.numel
  shapeCasts_S32x132_S32x132 : S32x132.ShapeCasts S32x132
  inb_S132x256_S132x256_0_0 : ∀ a, (![0, 0] : Fin 2 → Nat) a + S132x256.size a ≤ S132x256.size a
  h_S132x256 : 0 < S132x256.numel
  inb_S256_S256_0 : ∀ a, (![0] : Fin 1 → Nat) a + S256.size a ≤ S256.size a
  h_S256 : 0 < S256.numel
  shapeCasts_S256_S1x256 : S256.ShapeCasts S1x256
  broadcasts_S1x256_S32x256 : S1x256.Broadcasts S32x256
  reduces_S32x256_S256 : S32x256.Reduces [0] S256
  inb_S32x256_S32x256_0_0 : ∀ a, (![0, 0] : Fin 2 → Nat) a + S32x256.size a ≤ S32x256.size a
  h_S32x256 : 0 < S32x256.numel
  dot_S32x132_S132x256_S32x256_1_0_0_1_n_n_wf : DotDims.WF S32x132 S132x256 S32x256 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1x1x16x1024.size a ≤ S1x1x1024x1024.size a
  k0_t2_ok : k0_t2_loop.OK
  k0_mult2_dvd : ∀ k0_t2 : Fin k0_t2_loop.trips, 16 ∣ (k0_mult2 k0_t2).toNat
  k0_off2_inb : ∀ k0_t2 : Fin k0_t2_loop.trips, ∀ a, (k0_off2 k0_t2) a + S1x1x16x1024.size a ≤ S1x1x1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x1024.size a ≤ S32x3x1024x1024.size a
  hwx0_0 : ∀ i : grid0.Coords, EltTy.bits .f32 = 32 ∨ (Rect.block (s := S32x3x1024x1024) S1x1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x1024.size a ≤ S32x3x1024x1024.size a
  hwx0_1 : ∀ i : grid0.Coords, EltTy.bits .f32 = 32 ∨ (Rect.block (s := S32x3x1024x1024) S1x1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x132.size a ≤ S32x1x132.size a
  hwx0_2 : ∀ i : grid0.Coords, EltTy.bits .f32 = 32 ∨ (Rect.block (s := S32x1x132) S1x1x132.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x132.size a ≤ S32x132.size a
  hwx1_0 : ∀ i : grid1.Coords, EltTy.bits .f32 = 32 ∨ (Rect.block (s := S32x132) S32x132.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S132x256.size a ≤ S132x256.size a
  hwx1_1 : ∀ i : grid1.Coords, EltTy.bits .f32 = 32 ∨ (Rect.block (s := S132x256) S132x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x256.size a ≤ S32x256.size a
  hwx1_5 : ∀ i : grid1.Coords, EltTy.bits .f32 = 32 ∨ (Rect.block (s := S32x256) S32x256.size (cc1_transform_5 i) (hinb1_5 i)).WholeWords (EltTy.packing .f32)

variable [Facts₀]

def dot_S32x132_S132x256_S32x256_1_0_0_1_n_n : DotDims S32x132 S132x256 S32x256 where
  lhsContracting := [1]
  rhsContracting := [0]
  lhsNonContracting := [0]
  rhsNonContracting := [1]
  lhsBatch := []
  rhsBatch := []
  wf := dot_S32x132_S132x256_S32x256_1_0_0_1_n_n_wf

abbrev win0_0 : Pipeline.Window sig grid0 :=
  Pipeline.Window.ofSpec (Memref.whole main_arg0) S1x1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x132.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S32x132.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S132x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S32x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x3x1024x1024 : Shape := ⟨4, ![32, 3, 1024, 1024]⟩
abbrev S132x256 : Shape := ⟨2, ![132, 256]⟩
abbrev S256 : Shape := ⟨1, ![256]⟩
abbrev S32x1x1024x1024 : Shape := ⟨4, ![32, 1, 1024, 1024]⟩
abbrev S32x1024x1024 : Shape := ⟨3, ![32, 1024, 1024]⟩
abbrev S32x1048576 : Shape := ⟨2, ![32, 1048576]⟩
abbrev S_ : Shape := ⟨0, ![]⟩
abbrev S32 : Shape := ⟨1, ![32]⟩
abbrev S32x1 : Shape := ⟨2, ![32, 1]⟩
abbrev S33554432 : Shape := ⟨1, ![33554432]⟩
abbrev S2048 : Shape := ⟨1, ![2048]⟩
abbrev S33554432x1 : Shape := ⟨2, ![33554432, 1]⟩
abbrev S32x64 : Shape := ⟨2, ![32, 64]⟩
abbrev S32x128x8x128x8 : Shape := ⟨5, ![32, 128, 8, 128, 8]⟩
abbrev S32x128x128x8x8 : Shape := ⟨5, ![32, 128, 128, 8, 8]⟩
abbrev S32x16384x64 : Shape := ⟨3, ![32, 16384, 64]⟩
abbrev S32x16384 : Shape := ⟨2, ![32, 16384]⟩
abbrev S32x16384x1 : Shape := ⟨3, ![32, 16384, 1]⟩
abbrev S32x4 : Shape := ⟨2, ![32, 4]⟩
abbrev S32x132 : Shape := ⟨2, ![32, 132]⟩
abbrev S32x256 : Shape := ⟨2, ![32, 256]⟩
abbrev S1x256 : Shape := ⟨2, ![1, 256]⟩

abbrev nBuf : Space → Nat
  | .hbm => 200
  | .vmem => 0
  | .smem => 0
  | _ => 0

abbrev hbmTy0_0 (i : Nat) : BufTy := match i % 128 with
  | 0 => ⟨S32x3x1024x1024, .f32⟩
  | 1 => ⟨S132x256, .f32⟩
  | 2 => ⟨S256, .f32⟩
  | 3 => ⟨S256, .f32⟩
  | 4 => ⟨S256, .f32⟩
  | 5 => ⟨S32x1x1024x1024, .f32⟩
  | 6 => ⟨S32x1024x1024, .f32⟩
  | 7 => ⟨S32x1x1024x1024, .f32⟩
  | 8 => ⟨S32x1024x1024, .f32⟩
  | 9 => ⟨S32x1048576, .f32⟩
  | 10 => ⟨S_, .f32⟩
  | 11 => ⟨S32x1048576, .f32⟩
  | 12 => ⟨S32x1048576, .f32⟩
  | 13 => ⟨S32x1048576, .f32⟩
  | 14 => ⟨S_, .i32⟩
  | 15 => ⟨S_, .i32⟩
  | 16 => ⟨S_, .f32⟩
  | 17 => ⟨S32x1048576, .f32⟩
  | 18 => ⟨S32x1048576, .f32⟩
  | 19 => ⟨S_, .f32⟩
  | 20 => ⟨S32x1048576, .f32⟩
  | 21 => ⟨S32x1048576, .f32⟩
  | 22 => ⟨S32x1048576, .i32⟩
  | 23 => ⟨S32, .i32⟩
  | 24 => ⟨S32x1, .i32⟩
  | 25 => ⟨S_, .i32⟩
  | 26 => ⟨S32x1, .i32⟩
  | 27 => ⟨S32x1, .i32⟩
  | 28 => ⟨S32x1048576, .i32⟩
  | 29 => ⟨S32x1048576, .i32⟩
  | 30 => ⟨S33554432, .i32⟩
  | 31 => ⟨S_, .f32⟩
  | 32 => ⟨S33554432, .f32⟩
  | 33 => ⟨S_, .f32⟩
  | 34 => ⟨S2048, .f32⟩
  | 35 => ⟨S33554432x1, .i32⟩
  | 36 => ⟨S2048, .f32⟩
  | 37 => ⟨S32x64, .f32⟩
  | 38 => ⟨S_, .f32⟩
  | 39 => ⟨S32, .f32⟩
  | 40 => ⟨S32x1, .f32⟩
  | 41 => ⟨S_, .f32⟩
  | 42 => ⟨S32x1, .f32⟩
  | 43 => ⟨S32x1, .f32⟩
  | 44 => ⟨S32x64, .f32⟩
  | 45 => ⟨S32x64, .f32⟩
  | 46 => ⟨S32x1048576, .f32⟩
  | 47 => ⟨S_, .f32⟩
  | 48 => ⟨S32x1048576, .f32⟩
  | 49 => ⟨S32x1048576, .f32⟩
  | 50 => ⟨S32x1048576, .f32⟩
  | 51 => ⟨S_, .i32⟩
  | 52 => ⟨S_, .i32⟩
  | 53 => ⟨S_, .f32⟩
  | 54 => ⟨S32x1048576, .f32⟩
  | 55 => ⟨S32x1048576, .f32⟩
  | 56 => ⟨S_, .f32⟩
  | 57 => ⟨S32x1048576, .f32⟩
  | 58 => ⟨S32x1048576, .f32⟩
  | 59 => ⟨S32x1048576, .i32⟩
  | 60 => ⟨S32, .i32⟩
  | 61 => ⟨S32x1, .i32⟩
  | 62 => ⟨S_, .i32⟩
  | 63 => ⟨S32x1, .i32⟩
  | 64 => ⟨S32x1, .i32⟩
  | 65 => ⟨S32x1048576, .i32⟩
  | 66 => ⟨S32x1048576, .i32⟩
  | 67 => ⟨S33554432, .i32⟩
  | 68 => ⟨S_, .f32⟩
  | 69 => ⟨S33554432, .f32⟩
  | 70 => ⟨S_, .f32⟩
  | 71 => ⟨S2048, .f32⟩
  | 72 => ⟨S33554432x1, .i32⟩
  | 73 => ⟨S2048, .f32⟩
  | 74 => ⟨S32x64, .f32⟩
  | 75 => ⟨S_, .f32⟩
  | 76 => ⟨S32, .f32⟩
  | 77 => ⟨S32x1, .f32⟩
  | 78 => ⟨S_, .f32⟩
  | 79 => ⟨S32x1, .f32⟩
  | 80 => ⟨S32x1, .f32⟩
  | 81 => ⟨S32x64, .f32⟩
  | 82 => ⟨S32x64, .f32⟩
  | 83 => ⟨S32x1048576, .f32⟩
  | 84 => ⟨S_, .f32⟩
  | 85 => ⟨S32, .f32⟩
  | 86 => ⟨S32x1, .f32⟩
  | 87 => ⟨S_, .f32⟩
  | 88 => ⟨S32x1, .f32⟩
  | 89 => ⟨S32x1, .f32⟩
  | 90 => ⟨S32x1048576, .f32⟩
  | 91 => ⟨S32x1048576, .f32⟩
  | 92 => ⟨S32x1048576, .f32⟩
  | 93 => ⟨S_, .f32⟩
  | 94 => ⟨S32, .f32⟩
  | 95 => ⟨S_, .f32⟩
  | 96 => ⟨S32, .f32⟩
  | 97 => ⟨S32, .f32⟩
  | 98 => ⟨S32x128x8x128x8, .f32⟩
  | 99 => ⟨S32x128x128x8x8, .f32⟩
  | 100 => ⟨S32x16384x64, .f32⟩
  | 101 => ⟨S_, .f32⟩
  | 102 => ⟨S32x16384, .f32⟩
  | 103 => ⟨S32x16384x1, .f32⟩
  | 104 => ⟨S_, .f32⟩
  | 105 => ⟨S32x16384x1, .f32⟩
  | 106 => ⟨S32x16384x1, .f32⟩
  | 107 => ⟨S32x16384x64, .f32⟩
  | 108 => ⟨S32x16384x64, .f32⟩
  | 109 => ⟨S32x16384x64, .f32⟩
  | 110 => ⟨S_, .f32⟩
  | 111 => ⟨S32x16384, .f32⟩
  | 112 => ⟨S_, .f32⟩
  | 113 => ⟨S32x16384, .f32⟩
  | 114 => ⟨S32x16384, .f32⟩
  | 115 => ⟨S_, .f32⟩
  | 116 => ⟨S32, .f32⟩
  | 117 => ⟨S_, .f32⟩
  | 118 => ⟨S32, .f32⟩
  | 119 => ⟨S32, .f32⟩
  | 120 => ⟨S32x1048576, .f32⟩
  | 121 => ⟨S_, .f32⟩
  | 122 => ⟨S32, .f32⟩
  | 123 => ⟨S32x1, .f32⟩
  | 124 => ⟨S_, .f32⟩
  | 125 => ⟨S32x1, .f32⟩
  | 126 => ⟨S32x1, .f32⟩
  | 127 => ⟨S32x1048576, .f32⟩
  | _ => ⟨S32x3x1024x1024, .f32⟩

abbrev hbmTy0_1 (i : Nat) : BufTy := match i % 128 with
  | 0 => ⟨S32x1048576, .f32⟩
  | 1 => ⟨S32x1048576, .f32⟩
  | 2 => ⟨S_, .f32⟩
  | 3 => ⟨S32, .f32⟩
  | 4 => ⟨S_, .f32⟩
  | 5 => ⟨S32, .f32⟩
  | 6 => ⟨S32, .f32⟩
  | 7 => ⟨S32x128x8x128x8, .f32⟩
  | 8 => ⟨S32x128x128x8x8, .f32⟩
  | 9 => ⟨S32x16384x64, .f32⟩
  | 10 => ⟨S_, .f32⟩
  | 11 => ⟨S32x16384, .f32⟩
  | 12 => ⟨S32x16384x1, .f32⟩
  | 13 => ⟨S_, .f32⟩
  | 14 => ⟨S32x16384x1, .f32⟩
  | 15 => ⟨S32x16384x1, .f32⟩
  | 16 => ⟨S32x16384x64, .f32⟩
  | 17 => ⟨S32x16384x64, .f32⟩
  | 18 => ⟨S32x16384x64, .f32⟩
  | 19 => ⟨S_, .f32⟩
  | 20 => ⟨S32x16384, .f32⟩
  | 21 => ⟨S_, .f32⟩
  | 22 => ⟨S32x16384, .f32⟩
  | 23 => ⟨S32x16384, .f32⟩
  | 24 => ⟨S_, .f32⟩
  | 25 => ⟨S32, .f32⟩
  | 26 => ⟨S_, .f32⟩
  | 27 => ⟨S32, .f32⟩
  | 28 => ⟨S32, .f32⟩
  | 29 => ⟨S32x1, .f32⟩
  | 30 => ⟨S32x1, .f32⟩
  | 31 => ⟨S32x1, .f32⟩
  | 32 => ⟨S32x1, .f32⟩
  | 33 => ⟨S32x4, .f32⟩
  | 34 => ⟨S32x132, .f32⟩
  | 35 => ⟨S32x256, .f32⟩
  | 36 => ⟨S1x256, .f32⟩
  | 37 => ⟨S32x256, .f32⟩
  | 38 => ⟨S32x256, .f32⟩
  | 39 => ⟨S_, .f32⟩
  | 40 => ⟨S32x256, .f32⟩
  | 41 => ⟨S32x256, .f32⟩
  | 42 => ⟨S_, .f32⟩
  | 43 => ⟨S256, .f32⟩
  | 44 => ⟨S_, .f32⟩
  | 45 => ⟨S256, .f32⟩
  | 46 => ⟨S256, .f32⟩
  | 47 => ⟨S1x256, .f32⟩
  | 48 => ⟨S32x256, .f32⟩
  | 49 => ⟨S32x256, .f32⟩
  | 50 => ⟨S32x256, .f32⟩
  | 51 => ⟨S_, .f32⟩
  | 52 => ⟨S256, .f32⟩
  | 53 => ⟨S_, .f32⟩
  | 54 => ⟨S256, .f32⟩
  | 55 => ⟨S256, .f32⟩
  | 56 => ⟨S1x256, .f32⟩
  | 57 => ⟨S32x256, .f32⟩
  | 58 => ⟨S32x256, .f32⟩
  | 59 => ⟨S1x256, .f32⟩
  | 60 => ⟨S32x256, .f32⟩
  | 61 => ⟨S32x256, .f32⟩
  | 62 => ⟨S_, .f32⟩
  | 63 => ⟨S256, .f32⟩
  | 64 => ⟨S256, .f32⟩
  | 65 => ⟨S256, .f32⟩
  | 66 => ⟨S1x256, .f32⟩
  | 67 => ⟨S32x256, .f32⟩
  | 68 => ⟨S32x256, .f32⟩
  | 69 => ⟨S1x256, .f32⟩
  | 70 => ⟨S32x256, .f32⟩
  | 71 => ⟨S32x256, .f32⟩
  | _ => ⟨S32x3x1024x1024, .f32⟩

abbrev hbmTy (i : Nat) : BufTy := match i / 128 with
  | 0 => hbmTy0_0 i
  | 1 => hbmTy0_1 i
  | _ => ⟨S32x3x1024x1024, .f32⟩

abbrev bufTy : (tb : Table) → Fin (tcTables nBuf tb) → BufTy
  | .hbm, ⟨i, _⟩ => hbmTy i
  | _, _ => ⟨S32x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_c_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_c_8 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_9 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_10 : Ref sig .tc := ⟨.hbm, 68, rfl⟩
abbrev main_v41 : Ref sig .tc := ⟨.hbm, 69, rfl⟩
abbrev main_cst_11 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_12 : Ref sig .tc := ⟨.hbm, 75, rfl⟩
abbrev main_v46 : Ref sig .tc := ⟨.hbm, 76, rfl⟩
abbrev main_v47 : Ref sig .tc := ⟨.hbm, 77, rfl⟩
abbrev main_cst_13 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_14 : Ref sig .tc := ⟨.hbm, 84, rfl⟩
abbrev main_v53 : Ref sig .tc := ⟨.hbm, 85, rfl⟩
abbrev main_v54 : Ref sig .tc := ⟨.hbm, 86, rfl⟩
abbrev main_cst_15 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_16 : Ref sig .tc := ⟨.hbm, 93, rfl⟩
abbrev main_v60 : Ref sig .tc := ⟨.hbm, 94, rfl⟩
abbrev main_cst_17 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_18 : Ref sig .tc := ⟨.hbm, 101, rfl⟩
abbrev main_v66 : Ref sig .tc := ⟨.hbm, 102, rfl⟩
abbrev main_v67 : Ref sig .tc := ⟨.hbm, 103, rfl⟩
abbrev main_cst_19 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_20 : Ref sig .tc := ⟨.hbm, 110, rfl⟩
abbrev main_v73 : Ref sig .tc := ⟨.hbm, 111, rfl⟩
abbrev main_cst_21 : Ref sig .tc := ⟨.hbm, 112, rfl⟩
abbrev main_v74 : Ref sig .tc := ⟨.hbm, 113, rfl⟩
abbrev main_v75 : Ref sig .tc := ⟨.hbm, 114, rfl⟩
abbrev main_cst_22 : Ref sig .tc := ⟨.hbm, 115, rfl⟩
abbrev main_v76 : Ref sig .tc := ⟨.hbm, 116, rfl⟩
abbrev main_cst_23 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_24 : Ref sig .tc := ⟨.hbm, 121, rfl⟩
abbrev main_v80 : Ref sig .tc := ⟨.hbm, 122, rfl⟩
abbrev main_v81 : Ref sig .tc := ⟨.hbm, 123, rfl⟩
abbrev main_cst_25 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_26 : Ref sig .tc := ⟨.hbm, 130, rfl⟩
abbrev main_v87 : Ref sig .tc := ⟨.hbm, 131, rfl⟩
abbrev main_cst_27 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_cst_28 : Ref sig .tc := ⟨.hbm, 138, rfl⟩
abbrev main_v93 : Ref sig .tc := ⟨.hbm, 139, rfl⟩
abbrev main_v94 : Ref sig .tc := ⟨.hbm, 140, rfl⟩
abbrev main_cst_29 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_30 : Ref sig .tc := ⟨.hbm, 147, rfl⟩
abbrev main_v100 : Ref sig .tc := ⟨.hbm, 148, rfl⟩
abbrev main_cst_31 : Ref sig .tc := ⟨.hbm, 149, rfl⟩
abbrev main_v101 : Ref sig .tc := ⟨.hbm, 150, rfl⟩
abbrev main_v102 : Ref sig .tc := ⟨.hbm, 151, rfl⟩
abbrev main_cst_32 : Ref sig .tc := ⟨.hbm, 152, rfl⟩
abbrev main_v103 : Ref sig .tc := ⟨.hbm, 153, rfl⟩
abbrev main_cst_33 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_call2_cst : Ref sig .tc := ⟨.hbm, 167, rfl⟩
abbrev main_call2_v0 : Ref sig .tc := ⟨.hbm, 168, rfl⟩
abbrev main_v116 : Ref sig .tc := ⟨.hbm, 169, rfl⟩
abbrev main_cst_34 : Ref sig .tc := ⟨.hbm, 170, rfl⟩
abbrev main_v117 : Ref sig .tc := ⟨.hbm, 171, rfl⟩
abbrev main_cst_35 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_36 : Ref sig .tc := ⟨.hbm, 179, rfl⟩
abbrev main_v124 : Ref sig .tc := ⟨.hbm, 180, rfl⟩
abbrev main_cst_37 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_38 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩

abbrev nD : Nat := 1
abbrev τ : Topo := Topo.v7x

variable {F : FTy → Type} [FloatOps F]

class Facts₀ : Prop where
  slices_S32x3x1024x1024_S32x1x1024x1024_0_1_0_0 : S32x3x1024x1024.Slices ![0, 1, 0, 0] S32x1x1024x1024
  shapeCasts_S32x1x1024x1024_S32x1024x1024 : S32x1x1024x1024.ShapeCasts S32x1024x1024
  slices_S32x3x1024x1024_S32x1x1024x1024_0_2_0_0 : S32x3x1024x1024.Slices ![0, 2, 0, 0] S32x1x1024x1024
  shapeCasts_S32x1024x1024_S32x1048576 : S32x1024x1024.ShapeCasts S32x1048576
  bcast_S_S32x1048576 : S_.BroadcastsInDim S32x1048576 (![] : Fin 0 → Fin S32x1048576.rank)
  bcast_S32_S32x1_0 : S32.BroadcastsInDim S32x1 (![0] : Fin 1 → Fin S32x1.rank)
  bcast_S_S32x1 : S_.BroadcastsInDim S32x1 (![] : Fin 0 → Fin S32x1.rank)
  bcast_S32x1_S32x1048576_0_1 : S32x1.BroadcastsInDim S32x1048576 (![0, 1] : Fin 2 → Fin S32x1048576.rank)
  shapeCasts_S32x1048576_S33554432 : S32x1048576.ShapeCasts S33554432
  bcast_S_S33554432 : S_.BroadcastsInDim S33554432 (![] : Fin 0 → Fin S33554432.rank)
  bcast_S_S2048 : S_.BroadcastsInDim S2048 (![] : Fin 0 → Fin S2048.rank)
  bcast_S33554432_S33554432x1_0 : S33554432.BroadcastsInDim S33554432x1 (![0] : Fin 1 → Fin S33554432x1.rank)
  shapeCasts_S2048_S32x64 : S2048.ShapeCasts S32x64
  reducesTo_S32x64_S32_d1 : S32x64.ReducesTo [1] S32
  h_S_ : 0 < S_.numel
  bcast_S32x1_S32x64_0_1 : S32x1.BroadcastsInDim S32x64 (![0, 1] : Fin 2 → Fin S32x64.rank)
  reducesTo_S32x1048576_S32_d1 : S32x1048576.ReducesTo [1] S32
  bcast_S_S32 : S_.BroadcastsInDim S32 (![] : Fin 0 → Fin S32.rank)
  shapeCasts_S32x1024x1024_S32x128x8x128x8 : S32x1024x1024.ShapeCasts S32x128x8x128x8
  transposes_S32x128x8x128x8_S32x128x128x8x8_0_1_3_2_4 : S32x128x8x128x8.Transposes [0, 1, 3, 2, 4] S32x128x128x8x8
  shapeCasts_S32x128x128x8x8_S32x16384x64 : S32x128x128x8x8.ShapeCasts S32x16384x64
  reducesTo_S32x16384x64_S32x16384_d2 : S32x16384x64.ReducesTo [2] S32x16384
  bcast_S32x16384_S32x16384x1_0_1 : S32x16384.BroadcastsInDim S32x16384x1 (![0, 1] : Fin 2 → Fin S32x16384x1.rank)
  bcast_S_S32x16384x1 : S_.BroadcastsInDim S32x16384x1 (![] : Fin 0 → Fin S32x16384x1.rank)
  bcast_S32x16384x1_S32x16384x64_0_1_2 : S32x16384x1.BroadcastsInDim S32x16384x64 (![0, 1, 2] : Fin 3 → Fin S32x16384x64.rank)
  bcast_S_S32x16384 : S_.BroadcastsInDim S32x16384 (![] : Fin 0 → Fin S32x16384.rank)
  reducesTo_S32x16384_S32_d1 : S32x16384.ReducesTo [1] S32
  concatenates_S32x1_S32x1_S32x1_S32x1_S32x4_d1 : Shape.Concatenates [S32x1, S32x1, S32x1, S32x1] S32x4 1
  concatenates_S32x64_S32x64_S32x4_S32x132_d1 : Shape.Concatenates [S32x64, S32x64, S32x4] S32x132 1
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  reducesTo_S32x256_S256_d0 : S32x256.ReducesTo [0] S256
  bcast_S_S256 : S_.BroadcastsInDim S256 (![] : Fin 0 → Fin S256.rank)
  scatter_S2048_S33554432x1_S33554432_n_0_0_1_wf : ScatterDims.WF S2048 S33554432x1 S33554432 [] [0] [0] 1
  dot_S32x132_S132x256_S32x256_1_0_0_1_n_n_wf : DotDims.WF S32x132 S132x256 S32x256 [1] [0] [0] [1] [] []

variable [Facts₀]

def scatter_S2048_S33554432x1_S33554432_n_0_0_1 : ScatterDims S2048 S33554432x1 S33554432 where
  updateWindowDims := []
  insertedWindowDims := [0]
  scatterDimsToOperandDims := [0]
  indexVectorDim := 1
  wf := scatter_S2048_S33554432x1_S33554432_n_0_0_1_wf
def dot_S32x132_S132x256_S32x256_1_0_0_1_n_n : DotDims S32x132 S132x256 S32x256 where
  lhsContracting := [1]
  rhsContracting := [0]
  lhsNonContracting := [0]
  rhsNonContracting := [1]
  lhsBatch := []
  rhsBatch := []
  wf := dot_S32x132_S132x256_S32x256_1_0_0_1_n_n_wf

class Facts : Prop extends Facts₀ where

variable [Facts]
-- ==== Proof.KBodies.lean ====
/-
  The two kernel bodies as triples over whole staging memrefs, at any float instance.

  Region 0's body sweeps each of its two input blocks in 64 chunks of 16 rows, carrying four
  accumulators per channel through a counted loop, and stores one row of 132 features; region 1's
  body loads five blocks and stores one. Each triple hands the input memrefs back at the contents
  it found them with and the output memref with the body's stores written over whatever it held;
  the list of stored pieces is the witness the run itself finds.
-/
import proofs.«117902_j75557064671630_2_alg».proof.Proof.Gen.KernelIdeal.Launch
import proofs.«117902_j75557064671630_2_alg».proof.Proof.Gen.KernelIdeal.Skeleton
import proofs.«117902_j75557064671630_2_alg».proof.Proof.Gen.KernelIdeal.Loops
import proofs.«117902_j75557064671630_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- Region 1's body: the five input memrefs keep their contents; the output memref ends with the
    body's stores written. -/
noncomputable def kernelRun1 (c : Dev nD) (i : grid1.Coords)
    (arg1 : Memref sig .tc .vmem S32x132 .f32) (harg1 : arg1.IsWhole) (arg2 : Memref sig .tc .vmem S132x256 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S32x256 .f32) (harg6 : arg6.IsWhole)
    (x0 : Vec F S32x132 .f32) (x1 : Vec F S132x256 .f32) (x2 : Vec F S256 .f32) (x3 : Vec F S256 .f32) (x4 : Vec F S256 .f32) :
    { L : List (View.Piece (Elt F) S32x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L)) -∗ K ⟨⟩))
          ⊢ wp frame (wpE (defs₀ (F := F)) Variants.none c none) E (cc1__mlp_bn_kernel i arg1 harg1 arg2 harg2 arg3 harg3 arg4 harg4 arg5 harg5 arg6 harg6) K } := by
  refine ⟨?_, fun E K => ?run⟩
  case run =>
    simp only [cc1__mlp_bn_kernel_eq_skeleton]; unfold cc1__mlp_bn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

set_option maxHeartbeats 8000000 in
/-- Region 0's body: the two input memrefs keep their contents through both loops; the output
    memref ends with the body's one store written. -/
noncomputable def kernelRun0 (c : Dev nD) (i : grid0.Coords)
    (arg1 : Memref sig .tc .vmem S1x1x1024x1024 .f32) (harg1 : arg1.IsWhole) (arg2 : Memref sig .tc .vmem S1x1x1024x1024 .f32) (harg2 : arg2.IsWhole)
    (arg3 : Memref sig .tc .vmem S1x1x132 .f32) (harg3 : arg3.IsWhole)
    (x0 : Vec F S1x1x1024x1024 .f32) (x1 : Vec F S1x1x1024x1024 .f32) :
    { L : List (View.Piece (Elt F) S1x1x132 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__hist_var_kernel i arg1 harg1 arg2 harg2 arg3 harg3) K } := by
  refine ⟨?_, fun E K => ?run⟩
  case run =>
    simp only [cc0__hist_var_kernel_eq_skeleton]; unfold cc0__hist_var_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Frm

end
-- ==== Proof.KRegions.lean ====
/-
  The two regions' proof data, at the buffer contents `V` each region is entered with.

  Region 0 hands ONE array to its two input windows (the Cb plane and the Cr plane of an image are
  blocks (p,1,·,·) and (p,2,·,·) of the same array), so the array's full share is dealt in two
  halves, one per window; its output window holds the full share of its own array. After the body
  at a grid point each input staging buffer holds its block and the output buffer holds the body's
  stores read back. Region 1 is the same with five inputs on distinct arrays.
-/
import proofs.«117902_j75557064671630_2_alg».proof.Proof.KBodies

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S1x1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x132 .f32 := win0_2.stage (cfg0.slots t 2)
abbrev hs0_2 (t : Fin cfg0.N) : (ms0_2 t).IsWhole := hstage0_2 ((cfg0.slots t 2).cast nbuf0_2)

/-- One staging buffer of region 0's output window, through which its contents are stated. -/
abbrev VO0_2 : View sig .tc .vmem S1x1x132 .f32 := (Memref.whole cc0_stg2_0 : Memref sig .tc .vmem S1x1x132 .f32).view

/-- The body's stores cover the output block. -/
theorem cover0_2 (c : Dev nD) (i : grid0.Coords) (arg1 : Memref sig .tc .vmem S1x1x1024x1024 .f32) (harg1 : arg1.IsWhole) (arg2 : Memref sig .tc .vmem S1x1x1024x1024 .f32) (harg2 : arg2.IsWhole)
    (arg3 : Memref sig .tc .vmem S1x1x132 .f32) (harg3 : arg3.IsWhole) (x0 x1 : Vec F S1x1x1024x1024 .f32) (y : S1x1x132.Idx) :
    ∃ pc ∈ (kernelRun0 c i arg1 harg1 arg2 harg2 arg3 harg3 x0 x1).1, y ∈ pc.1.set :=
  View.cover_of_tiledL (kernelRun0 c i arg1 harg1 arg2 harg2 arg3 harg3 x0 x1).1 S1x1x132.size (by sl_kernel_rfl) y

/-- What the body leaves in the output staging buffer: its stores read back over junk. -/
def out0_2 (c : Dev nD) (i : grid0.Coords) (arg1 : Memref sig .tc .vmem S1x1x1024x1024 .f32) (harg1 : arg1.IsWhole) (arg2 : Memref sig .tc .vmem S1x1x1024x1024 .f32) (harg2 : arg2.IsWhole)
    (arg3 : Memref sig .tc .vmem S1x1x132 .f32) (harg3 : arg3.IsWhole) (x0 x1 : Vec F S1x1x1024x1024 .f32) : Vec F S1x1x132 .f32 :=
  VO0_2.read (Elt F) (VO0_2.writes (Elt F) VO0_2.junk (kernelRun0 c i arg1 harg1 arg2 harg2 arg3 harg3 x0 x1).1)

/-- Region 0's proof data on core `c`. The two input windows read one array: each holds half of its share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (ms0_0 t) (hs0_0 t) (ms0_1 t) (hs0_1 t) (ms0_2 t) (hs0_2 t) (iblk0 V c 0 t) (iblk0 V c 1 t)
  Φ _ := Pipeline.ΦA spec0 c
  q w := match w with
    | ⟨0, _⟩ => (fullShare : PosShare TreeShare).left
    | ⟨1, _⟩ => (fullShare : PosShare TreeShare).right
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t
    = out0_2 c (grid0.coords t) (ms0_0 t) (hs0_0 t) (ms0_1 t) (hs0_1 t) (ms0_2 t) (hs0_2 t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1000000 in
/-- The body at any point: the input memrefs hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold out0_2
  iintro ⟨HΦ, Ho, ⟨%d0, H0⟩, ⟨%d1, H1⟩, ⟨%d2, H2⟩⟩
  iapply ((kernelRun0 c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _)

theorem body_obligation0 (c : Dev nD) : BodyObligation (dat0 (F := F) V c) (defs₀ (F := F)) Variants.none () Set.univ := fun t => by
  rw [bigSep_W0, bigSep_W0]
  exact sound_body0 V c t

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S32x132 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S132x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x256 .f32 := win1_5.stage (cfg1.slots t 5)
abbrev hs1_5 (t : Fin cfg1.N) : (ms1_5 t).IsWhole := hstage1_5 ((cfg1.slots t 5).cast nbuf1_5)

abbrev VO1_5 : View sig .tc .vmem S32x256 .f32 := (Memref.whole cc1_stg5_0 : Memref sig .tc .vmem S32x256 .f32).view

theorem cover1_5 (c : Dev nD) (i : grid1.Coords)
    (arg1 : Memref sig .tc .vmem S32x132 .f32) (harg1 : arg1.IsWhole) (arg2 : Memref sig .tc .vmem S132x256 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S32x256 .f32) (harg6 : arg6.IsWhole)
    (x0 : Vec F S32x132 .f32) (x1 : Vec F S132x256 .f32) (x2 x3 x4 : Vec F S256 .f32) (y : S32x256.Idx) :
    ∃ pc ∈ (kernelRun1 c i arg1 harg1 arg2 harg2 arg3 harg3 arg4 harg4 arg5 harg5 arg6 harg6 x0 x1 x2 x3 x4).1, y ∈ pc.1.set :=
  View.cover_of_tiledL (kernelRun1 c i arg1 harg1 arg2 harg2 arg3 harg3 arg4 harg4 arg5 harg5 arg6 harg6 x0 x1 x2 x3 x4).1 S32x256.size (by sl_kernel_rfl) y

def out1_5 (c : Dev nD) (i : grid1.Coords)
    (arg1 : Memref sig .tc .vmem S32x132 .f32) (harg1 : arg1.IsWhole) (arg2 : Memref sig .tc .vmem S132x256 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S32x256 .f32) (harg6 : arg6.IsWhole)
    (x0 : Vec F S32x132 .f32) (x1 : Vec F S132x256 .f32) (x2 x3 x4 : Vec F S256 .f32) : Vec F S32x256 .f32 :=
  VO1_5.read (Elt F) (VO1_5.writes (Elt F) VO1_5.junk (kernelRun1 c i arg1 harg1 arg2 harg2 arg3 harg3 arg4 harg4 arg5 harg5 arg6 harg6 x0 x1 x2 x3 x4).1)

/-- Region 1's proof data on core `c`: six windows on six distinct arrays, each at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 c (grid1.coords t) (ms1_0 t) (hs1_0 t) (ms1_1 t) (hs1_1 t) (ms1_2 t) (hs1_2 t) (ms1_3 t) (hs1_3 t) (ms1_4 t) (hs1_4 t) (ms1_5 t) (hs1_5 t)
        (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem before1_0 (c : Dev nD) (t : Fin cfg1.N) (d) : (dat1 V c).before 0 t d = iblk1 V c 0 t :=
  before1_0_of V (dat1 V c) (A_eq1 V c 0) (after1_0 V c) t d
theorem after1_1 (c : Dev nD) (t : Fin cfg1.N) : (dat1 V c).after 1 t = iblk1 V c 1 t := by dsimp only [dat1]
theorem before1_1 (c : Dev nD) (t : Fin cfg1.N) (d) : (dat1 V c).before 1 t d = iblk1 V c 1 t :=
  before1_1_of V (dat1 V c) (A_eq1 V c 1) (after1_1 V c) t d
theorem after1_2 (c : Dev nD) (t : Fin cfg1.N) : (dat1 V c).after 2 t = iblk1 V c 2 t := by dsimp only [dat1]
theorem before1_2 (c : Dev nD) (t : Fin cfg1.N) (d) : (dat1 V c).before 2 t d = iblk1 V c 2 t :=
  before1_2_of V (dat1 V c) (A_eq1 V c 2) (after1_2 V c) t d
theorem after1_3 (c : Dev nD) (t : Fin cfg1.N) : (dat1 V c).after 3 t = iblk1 V c 3 t := by dsimp only [dat1]
theorem before1_3 (c : Dev nD) (t : Fin cfg1.N) (d) : (dat1 V c).before 3 t d = iblk1 V c 3 t :=
  before1_3_of V (dat1 V c) (A_eq1 V c 3) (after1_3 V c) t d
theorem after1_4 (c : Dev nD) (t : Fin cfg1.N) : (dat1 V c).after 4 t = iblk1 V c 4 t := by dsimp only [dat1]
theorem before1_4 (c : Dev nD) (t : Fin cfg1.N) (d) : (dat1 V c).before 4 t d = iblk1 V c 4 t :=
  before1_4_of V (dat1 V c) (A_eq1 V c 4) (after1_4 V c) t d
theorem after1_5 (c : Dev nD) (t : Fin cfg1.N) : (dat1 V c).after 5 t
    = out1_5 c (grid1.coords t) (ms1_0 t) (hs1_0 t) (ms1_1 t) (hs1_1 t) (ms1_2 t) (hs1_2 t) (ms1_3 t) (hs1_3 t) (ms1_4 t) (hs1_4 t) (ms1_5 t) (hs1_5 t)
        (iblk1 V c 0 t) (iblk1 V c 1 t) (iblk1 V c 2 t) (iblk1 V c 3 t) (iblk1 V c 4 t) := by dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KRun.lean ====
/-
  The run of the whole program: region 0, the host reshape, region 1.

  Between two items a core holds every unscoped buffer whole at known contents: the launch memory
  `B0`; after region 0 the same with the feature array at what the write-backs left (`B1`); after
  the reshape (`B2`); after region 1 with the result array at what its write-back left (`B3`).
  Region 0's two input windows read ONE array: at entry its full share is split in two halves, one
  per window, and at exit the halves are joined again — an input window never changes its array, so
  both halves still hold the entry contents. Every weakly fair execution terminates and ends with
  every unscoped buffer at `B3`; in particular the arguments are unchanged.
-/
import proofs.«117902_j75557064671630_2_alg».proof.Proof.KRegions
import proofs.«117902_j75557064671630_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.Pipeline (Seg HostSeg RegionSeg)

variable {F : FTy → Type} [FloatOps F]

local notation "𝕄" => MT nD τ sig Unit (Elt F) ℕ (UR sig nD τ) ℕ

/-! ## Region 0's arrays against the core's unscoped buffers -/

section Shared

variable (V : (c : Dev nD) → (b : Ref sig .tc) → Buf (Elt F) ((c : Thread nD τ).loc b))

/-- The core's unscoped buffers, one by one. -/
theorem unscopedBufs_chain (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_arg1) ↦{fullShare} W main_arg1)
        ∗ (((c : Thread nD τ).loc main_arg2) ↦{fullShare} W main_arg2) ∗ (((c : Thread nD τ).loc main_arg3) ↦{fullShare} W main_arg3)
        ∗ (((c : Thread nD τ).loc main_arg4) ↦{fullShare} W main_arg4) ∗ (((c : Thread nD τ).loc main_v0) ↦{fullShare} W main_v0)
        ∗ (((c : Thread nD τ).loc main_v1) ↦{fullShare} W main_v1) ∗ (((c : Thread nD τ).loc main_v2) ↦{fullShare} W main_v2)) := by
  unfold unscopedBufs
  exact bigSep_eq_bigSepL_of_eq [main_arg0, main_arg1, main_arg2, main_arg3, main_arg4, main_v0, main_v1, main_v2] (by decide) (by decide) _

/-- Region 0's three windowed arrays: the shared argument array at its two half shares, the feature array whole. -/
theorem arrays0_eq (c : Dev nD) (Fv : (w : Fin cfg0.W) → Buf (Elt F) ((cfg0.win w).arr.view.loc (c : Thread nD τ))) :
    ((dat0 V c).arrays Fv : sProp 𝕄)
      = iprop((((c : Thread nD τ).loc main_arg0) ↦{(fullShare : PosShare TreeShare).left} Fv 0)
        ∗ (((c : Thread nD τ).loc main_arg0) ↦{(fullShare : PosShare TreeShare).right} Fv 1)
        ∗ (((c : Thread nD τ).loc main_v0) ↦{fullShare} Fv 2)) := by
  unfold Pipeline.Dat.arrays
  rw [bigSep_W0, (arr_whole0 0).set_eq_univ, (arr_whole0 2).set_eq_univ]
  rfl

/-- ENTRY: the unscoped buffers at `V` are region 0's arrays at their entry contents and the rest. -/
theorem entry0 (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [unscopedBufs_chain, arrays0_eq, unscopedRest0_eq]
  iintro ⟨Ha0, Ha1, Ha2, Ha3, Ha4, Hv0, Hv1, Hv2⟩
  ihave Hs := (pointsTo_share (PosShare.mem_left_op_right (fullShare : PosShare TreeShare))).1 $$ Ha0
  icases Hs with ⟨HL, HR⟩
  isplitl [HL HR Hv0]
  · isplitl [HL]; · iexact HL
    isplitl [HR]; · iexact HR
    iexact Hv0
  isplitl [Ha1]; · iexact Ha1
  isplitl [Ha2]; · iexact Ha2
  isplitl [Ha3]; · iexact Ha3
  isplitl [Ha4]; · iexact Ha4
  isplitl [Hv1]; · iexact Hv1
  iexact Hv2

/-- EXIT: region 0's arrays at their final contents and the rest at `V` are the unscoped buffers at any `V'` that
    has the feature array at what the write-backs left and agrees with `V` elsewhere. -/
theorem exit0 (c : Dev nD) (V' : (b : Ref sig .tc) → Buf (Elt F) ((c : Thread nD τ).loc b))
    (h0 : V' main_v0 = (dat0 V c).arrAt 2 cfg0.N)
    (ha0 : V' main_arg0 = V c main_arg0) (ha1 : V' main_arg1 = V c main_arg1) (ha2 : V' main_arg2 = V c main_arg2)
    (ha3 : V' main_arg3 = V c main_arg3) (ha4 : V' main_arg4 = V c main_arg4) (hv1 : V' main_v1 = V c main_v1) (hv2 : V' main_v2 = V c main_v2) :
    iprop((dat0 V c).arrays ((dat0 V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [unscopedBufs_chain, arrays0_eq, unscopedRest0_eq, h0, ha0, ha1, ha2, ha3, ha4, hv1, hv2,
    show (dat0 V c).arrAt 0 cfg0.N = V c main_arg0 from ((dat0 V c).arrAt_in 0 rfl _).trans (A_eq0 V c 0),
    show (dat0 V c).arrAt 1 cfg0.N = V c main_arg0 from ((dat0 V c).arrAt_in 1 rfl _).trans (A_eq0 V c 1)]
  iintro ⟨⟨HL, HR, Hv0⟩, Ha1, Ha2, Ha3, Ha4, Hv1, Hv2⟩
  isplitl [HL HR]
  · iapply (pointsTo_share (PosShare.mem_left_op_right (fullShare : PosShare TreeShare))).2
    isplitl [HL]; · iexact HL
    iexact HR
  isplitl [Ha1]; · iexact Ha1
  isplitl [Ha2]; · iexact Ha2
  isplitl [Ha3]; · iexact Ha3
  isplitl [Ha4]; · iexact Ha4
  isplitl [Hv0]; · iexact Hv0
  isplitl [Hv1]; · iexact Hv1
  iexact Hv2

end Shared

/-! ## The buffer contents at each boundary -/

variable (m : (ℓ : Loc nD τ sig) → Buf (Elt F) ℓ) (ρ : Dev nD → PrngReg)

/-- Core `c`'s buffers at launch. -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b
/-- After region 0: the feature array at what the write-backs left, everything else as launched. -/
def B1 (c : Dev nD) : Valuation τ sig (Elt F) :=
  Function.update (B0 m ρ c) main_v0 ((dat0 (E0 m ρ) c).arrAt 2 cfg0.N : Buf (Elt F) ((c : Thread nD τ).loc main_v0))
abbrev E1 : (c : Dev nD) → (b : Ref sig .tc) → Buf (Elt F) ((c : Thread nD τ).loc b) := fun c b => B1 m ρ c b
theorem B1_v0 (c : Dev nD) : E1 m ρ c main_v0 = (dat0 (E0 m ρ) c).arrAt 2 cfg0.N := by
  show Function.update _ _ _ _ = _; exact Function.update_self ..
theorem B1_of_ne (c : Dev nD) (r : Ref sig .tc) (h : r ≠ main_v0) : E1 m ρ c r = E0 m ρ c r := by
  show Function.update _ _ _ _ = _
  exact Function.update_of_ne (StableHlo.devRef_ne_of_ne h : (Proc.devRef .tc r : DevRef τ sig) ≠ Proc.devRef .tc main_v0) ..
/-- After the host reshape. -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b
/-- After region 1: its arrays at what the pipeline leaves, every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- The host reshape writes the reshaped feature array only. -/
theorem B2_of_ne (c : Dev nD) (r : Ref sig .tc) (h : r ∉ hostOps1_W) : E2 m ρ c r = E1 m ρ c r :=
  StableHlo.after_of_writes_sub hostOps1 _ hostOps1_writes h

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- REGION 0: entered from every unscoped buffer at `B0`, left at `B1`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := entry0 (E0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (E0 m ρ) c (E1 m ρ c) (B1_v0 m ρ c)
      (B1_of_ne m ρ c main_arg0 (by decide)) (B1_of_ne m ρ c main_arg1 (by decide)) (B1_of_ne m ρ c main_arg2 (by decide))
      (B1_of_ne m ρ c main_arg3 (by decide)) (B1_of_ne m ρ c main_arg4 (by decide)) (B1_of_ne m ρ c main_v1 (by decide)) (B1_of_ne m ρ c main_v2 (by decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1: entered from every unscoped buffer at `B2`, left at `B3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsF : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ) ]

theorem main_run (c : Dev nD) : main (F := F) c = Pipeline.Seg.run (segsF m ρ) := (main_chain c).trans (by chain_rfl)

set_option backward.isDefEq.respectTransparency.types false in
/-- THE RUN: from any memory with zero counters every weakly fair execution terminates, nothing faulting, and every
    final state holds every unscoped buffer at `B3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-! ## The arguments end as launched -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := B1_of_ne m ρ c main_arg0 (by decide)
    _ = m ((c : Thread nD τ).loc main_arg0) := rfl
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := (B3_arr m ρ c 1).trans (((dat1 (E2 m ρ) c).arrAt_in 1 rfl _).trans (A_eq1 (E2 m ρ) c 1))
    _ = B1 m ρ c (Proc.devRef .tc main_arg1) := B2_of_ne m ρ c main_arg1 (by decide)
    _ = B0 m ρ c (Proc.devRef .tc main_arg1) := B1_of_ne m ρ c main_arg1 (by decide)
    _ = m ((c : Thread nD τ).loc main_arg1) := rfl
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := (B3_arr m ρ c 2).trans (((dat1 (E2 m ρ) c).arrAt_in 2 rfl _).trans (A_eq1 (E2 m ρ) c 2))
    _ = B1 m ρ c (Proc.devRef .tc main_arg2) := B2_of_ne m ρ c main_arg2 (by decide)
    _ = B0 m ρ c (Proc.devRef .tc main_arg2) := B1_of_ne m ρ c main_arg2 (by decide)
    _ = m ((c : Thread nD τ).loc main_arg2) := rfl
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := (B3_arr m ρ c 3).trans (((dat1 (E2 m ρ) c).arrAt_in 3 rfl _).trans (A_eq1 (E2 m ρ) c 3))
    _ = B1 m ρ c (Proc.devRef .tc main_arg3) := B2_of_ne m ρ c main_arg3 (by decide)
    _ = B0 m ρ c (Proc.devRef .tc main_arg3) := B1_of_ne m ρ c main_arg3 (by decide)
    _ = m ((c : Thread nD τ).loc main_arg3) := rfl
theorem B3_main_arg4 (c : Dev nD) : B3 m ρ c (Proc.devRef .tc main_arg4) = m ((c : Thread nD τ).loc main_arg4) :=
  calc B3 m ρ c (Proc.devRef .tc main_arg4)
    _ = B2 m ρ c (Proc.devRef .tc main_arg4) := (B3_arr m ρ c 4).trans (((dat1 (E2 m ρ) c).arrAt_in 4 rfl _).trans (A_eq1 (E2 m ρ) c 4))
    _ = B1 m ρ c (Proc.devRef .tc main_arg4) := B2_of_ne m ρ c main_arg4 (by decide)
    _ = B0 m ρ c (Proc.devRef .tc main_arg4) := B1_of_ne m ρ c main_arg4 (by decide)
    _ = m ((c : Thread nD τ).loc main_arg4) := rfl

/-- THE FRAME at any float instance: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c)⟩) (run_main m ρ)

/-- The result array ends at what region 1's write-back left. -/
theorem result_eq (c : Dev nD) : B3 m ρ c (Proc.devRef .tc main_v2) = (dat1 (E2 m ρ) c).arrAt 5 cfg1.N := B3_arr m ρ c 5

end Cert.KernelIdeal.Frm

end
-- ==== Proof.BBodies.lean ====
/-
  The two kernel bodies as triples over whole staging memrefs, at any float instance.

  Region 0's body sweeps each of its two input blocks in 64 chunks of 16 rows, carrying four
  accumulators per channel through a counted loop, and stores one row of 132 features; region 1's
  body loads five blocks and stores one. Each triple hands the input memrefs back at the contents
  it found them with and the output memref with the body's stores written over whatever it held;
  the list of stored pieces is the witness the run itself finds.
-/
import proofs.«117902_j75557064671630_2_alg».proof.Proof.Gen.Kernel.Launch
import proofs.«117902_j75557064671630_2_alg».proof.Proof.Gen.Kernel.Skeleton
import proofs.«117902_j75557064671630_2_alg».proof.Proof.Gen.Kernel.Loops
import proofs.«117902_j75557064671630_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- Region 1's body: the five input memrefs keep their contents; the output memref ends with the
    body's stores written. -/
noncomputable def kernelRun1 (c : Dev nD) (i : grid1.Coords)
    (arg1 : Memref sig .tc .vmem S32x132 .f32) (harg1 : arg1.IsWhole) (arg2 : Memref sig .tc .vmem S132x256 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S32x256 .f32) (harg6 : arg6.IsWhole)
    (x0 : Vec F S32x132 .f32) (x1 : Vec F S132x256 .f32) (x2 : Vec F S256 .f32) (x3 : Vec F S256 .f32) (x4 : Vec F S256 .f32) :
    { L : List (View.Piece (Elt F) S32x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L)) -∗ K ⟨⟩))
          ⊢ wp frame (wpE (defs₀ (F := F)) Variants.none c none) E (cc1__mlp_bn_kernel i arg1 harg1 arg2 harg2 arg3 harg3 arg4 harg4 arg5 harg5 arg6 harg6) K } := by
  refine ⟨?_, fun E K => ?run⟩
  case run =>
    simp only [cc1__mlp_bn_kernel_eq_skeleton]; unfold cc1__mlp_bn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

set_option maxHeartbeats 8000000 in
/-- Region 0's body: the two input memrefs keep their contents through both loops; the output
    memref ends with the body's one store written. -/
noncomputable def kernelRun0 (c : Dev nD) (i : grid0.Coords)
    (arg1 : Memref sig .tc .vmem S1x1x1024x1024 .f32) (harg1 : arg1.IsWhole) (arg2 : Memref sig .tc .vmem S1x1x1024x1024 .f32) (harg2 : arg2.IsWhole)
    (arg3 : Memref sig .tc .vmem S1x1x132 .f32) (harg3 : arg3.IsWhole)
    (x0 : Vec F S1x1x1024x1024 .f32) (x1 : Vec F S1x1x1024x1024 .f32) :
    { L : List (View.Piece (Elt F) S1x1x132 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__hist_var_kernel i arg1 harg1 arg2 harg2 arg3 harg3) K } := by
  refine ⟨?_, fun E K => ?run⟩
  case run =>
    simp only [cc0__hist_var_kernel_eq_skeleton]; unfold cc0__hist_var_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Frm

end
-- ==== Proof.BRegions.lean ====
/-
  The two regions' proof data, at the buffer contents `V` each region is entered with.

  Region 0 hands ONE array to its two input windows (the Cb plane and the Cr plane of an image are
  blocks (p,1,·,·) and (p,2,·,·) of the same array), so the array's full share is dealt in two
  halves, one per window; its output window holds the full share of its own array. After the body
  at a grid point each input staging buffer holds its block and the output buffer holds the body's
  stores read back. Region 1 is the same with five inputs on distinct arrays.
-/
import proofs.«117902_j75557064671630_2_alg».proof.Proof.BBodies

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev ms0_0 (t : Fin cfg0.N) : Memref sig .tc .vmem S1x1x1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x132 .f32 := win0_2.stage (cfg0.slots t 2)
abbrev hs0_2 (t : Fin cfg0.N) : (ms0_2 t).IsWhole := hstage0_2 ((cfg0.slots t 2).cast nbuf0_2)

/-- One staging buffer of region 0's output window, through which its contents are stated. -/
abbrev VO0_2 : View sig .tc .vmem S1x1x132 .f32 := (Memref.whole cc0_stg2_0 : Memref sig .tc .vmem S1x1x132 .f32).view

/-- The body's stores cover the output block. -/
theorem cover0_2 (c : Dev nD) (i : grid0.Coords) (arg1 : Memref sig .tc .vmem S1x1x1024x1024 .f32) (harg1 : arg1.IsWhole) (arg2 : Memref sig .tc .vmem S1x1x1024x1024 .f32) (harg2 : arg2.IsWhole)
    (arg3 : Memref sig .tc .vmem S1x1x132 .f32) (harg3 : arg3.IsWhole) (x0 x1 : Vec F S1x1x1024x1024 .f32) (y : S1x1x132.Idx) :
    ∃ pc ∈ (kernelRun0 c i arg1 harg1 arg2 harg2 arg3 harg3 x0 x1).1, y ∈ pc.1.set :=
  View.cover_of_tiledL (kernelRun0 c i arg1 harg1 arg2 harg2 arg3 harg3 x0 x1).1 S1x1x132.size (by sl_kernel_rfl) y

/-- What the body leaves in the output staging buffer: its stores read back over junk. -/
def out0_2 (c : Dev nD) (i : grid0.Coords) (arg1 : Memref sig .tc .vmem S1x1x1024x1024 .f32) (harg1 : arg1.IsWhole) (arg2 : Memref sig .tc .vmem S1x1x1024x1024 .f32) (harg2 : arg2.IsWhole)
    (arg3 : Memref sig .tc .vmem S1x1x132 .f32) (harg3 : arg3.IsWhole) (x0 x1 : Vec F S1x1x1024x1024 .f32) : Vec F S1x1x132 .f32 :=
  VO0_2.read (Elt F) (VO0_2.writes (Elt F) VO0_2.junk (kernelRun0 c i arg1 harg1 arg2 harg2 arg3 harg3 x0 x1).1)

/-- Region 0's proof data on core `c`. The two input windows read one array: each holds half of its share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (ms0_0 t) (hs0_0 t) (ms0_1 t) (hs0_1 t) (ms0_2 t) (hs0_2 t) (iblk0 V c 0 t) (iblk0 V c 1 t)
  Φ _ := Pipeline.ΦA spec0 c
  q w := match w with
    | ⟨0, _⟩ => (fullShare : PosShare TreeShare).left
    | ⟨1, _⟩ => (fullShare : PosShare TreeShare).right
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t
    = out0_2 c (grid0.coords t) (ms0_0 t) (hs0_0 t) (ms0_1 t) (hs0_1 t) (ms0_2 t) (hs0_2 t) (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1000000 in
/-- The body at any point: the input memrefs hold their blocks, so the body's triple applies; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold out0_2
  iintro ⟨HΦ, Ho, ⟨%d0, H0⟩, ⟨%d1, H1⟩, ⟨%d2, H2⟩⟩
  iapply ((kernelRun0 c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_2 c _ _ _ _ _ _ _ _ _)

theorem body_obligation0 (c : Dev nD) : BodyObligation (dat0 (F := F) V c) (defs₀ (F := F)) Variants.none () Set.univ := fun t => by
  rw [bigSep_W0, bigSep_W0]
  exact sound_body0 V c t

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev ms1_0 (t : Fin cfg1.N) : Memref sig .tc .vmem S32x132 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S132x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S32x256 .f32 := win1_5.stage (cfg1.slots t 5)
abbrev hs1_5 (t : Fin cfg1.N) : (ms1_5 t).IsWhole := hstage1_5 ((cfg1.slots t 5).cast nbuf1_5)

abbrev VO1_5 : View sig .tc .vmem S32x256 .f32 := (Memref.whole cc1_stg5_0 : Memref sig .tc .vmem S32x256 .f32).view

theorem cover1_5 (c : Dev nD) (i : grid1.Coords)
    (arg1 : Memref sig .tc .vmem S32x132 .f32) (harg1 : arg1.IsWhole) (arg2 : Memref sig .tc .vmem S132x256 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S32x256 .f32) (harg6 : arg6.IsWhole)
    (x0 : Vec F S32x132 .f32) (x1 : Vec F S132x256 .f32) (x2 x3 x4 : Vec F S256 .f32) (y : S32x256.Idx) :
    ∃ pc ∈ (kernelRun1 c i arg1 harg1 arg2 harg2 arg3 harg3 arg4 harg4 arg5 harg5 arg6 harg6 x0 x1 x2 x3 x4).1, y ∈ pc.1.set :=
  View.cover_of_tiledL (kernelRun1 c i arg1 harg1 arg2 harg2 arg3 harg3 arg4 harg4 arg5 harg5 arg6 harg6 x0 x1 x2 x3 x4).1 S32x256.size (by sl_kernel_rfl) y

def out1_5 (c : Dev nD) (i : grid1.Coords)
    (arg1 : Memref sig .tc .vmem S32x132 .f32) (harg1 : arg1.IsWhole) (arg2 : Memref sig .tc .vmem S132x256 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S32x256 .f32) (harg6 : arg6.IsWhole)
    (x0 : Vec F S32x132 .f32) (x1 : Vec F S132x256 .f32) (x2 x3 x4 : Vec F S256 .f32) : Vec F S32x256 .f32 :=
  VO1_5.read (Elt F) (VO1_5.writes (Elt F) VO1_5.junk (kernelRun1 c i arg1 harg1 arg2 harg2 arg3 harg3 arg4 harg4 arg5 harg5 arg6 harg6 x0 x1 x2 x3 x4).1)

/-- Region 1's proof data on core `c`: six windows on six distinct arrays, each at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 c (grid1.coords t) (ms1_0 t) (hs1_0 t) (ms1_1 t) (hs1_1 t) (ms1_2 t) (hs1_2 t) (ms1_3 t) (hs1_3 t) (ms1_4 t) (hs1_4 t) (ms1_5 t) (hs1_5 t)
        (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem before1_0 (c : Dev nD) (t : Fin cfg1.N) (d) : (dat1 V c).before 0 t d = iblk1 V c 0 t :=
  before1_0_of V (dat1 V c) (A_eq1 V c 0) (after1_0 V c) t d
theorem after1_1 (c : Dev nD) (t : Fin cfg1.N) : (dat1 V c).after 1 t = iblk1 V c 1 t := by dsimp only [dat1]
theorem before1_1 (c : Dev nD) (t : Fin cfg1.N) (d) : (dat1 V c).before 1 t d = iblk1 V c 1 t :=
  before1_1_of V (dat1 V c) (A_eq1 V c 1) (after1_1 V c) t d
theorem after1_2 (c : Dev nD) (t : Fin cfg1.N) : (dat1 V c).after 2 t = iblk1 V c 2 t := by dsimp only [dat1]
theorem before1_2 (c : Dev nD) (t : Fin cfg1.N) (d) : (dat1 V c).before 2 t d = iblk1 V c 2 t :=
  before1_2_of V (dat1 V c) (A_eq1 V c 2) (after1_2 V c) t d
theorem after1_3 (c : Dev nD) (t : Fin cfg1.N) : (dat1 V c).after 3 t = iblk1 V c 3 t := by dsimp only [dat1]
theorem before1_3 (c : Dev nD) (t : Fin cfg1.N) (d) : (dat1 V c).before 3 t d = iblk1 V c 3 t :=
  before1_3_of V (dat1 V c) (A_eq1 V c 3) (after1_3 V c) t d
theorem after1_4 (c : Dev nD) (t : Fin cfg1.N) : (dat1 V c).after 4 t = iblk1 V c 4 t := by dsimp only [dat1]
theorem before1_4 (c : Dev nD) (t : Fin cfg1.N) (d) : (dat1 V c).before 4 t d = iblk1 V c 4 t :=
  before1_4_of V (dat1 V c) (A_eq1 V c 4) (after1_4 V c) t d
theorem after1_5 (c : Dev nD) (t : Fin cfg1.N) : (dat1 V c).after 5 t
    = out1_5 c (grid1.coords t) (ms1_0 t) (hs1_0 t) (ms1_1 t) (hs1_1 t) (ms1_2 t) (hs1_2 t) (ms1_3 t) (hs1_3 t) (ms1_4 t) (hs1_4 t) (ms1_5 t) (hs1_5 t)
        (iblk1 V c 0 t) (iblk1 V c 1 t) (iblk1 V c 2 t) (iblk1 V c 3 t) (iblk1 V c 4 t) := by dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1_5
  iintro ⟨HΦ, Ho, ⟨%d0, H0⟩, ⟨%d1, H1⟩, ⟨%d2, H2⟩, ⟨%d3, H3⟩, ⟨%d4, H4⟩, ⟨%d5, H5⟩⟩
  iapply ((kernelRun1 c (grid1.coords t) _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover1_5 c _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.BRun.lean ====
/-
  The run of the whole program: region 0, the host reshape, region 1.

  Between two items a core holds every unscoped buffer whole at known contents: the launch memory
  `B0`; after region 0 the same with the feature array at what the write-backs left (`B1`); after
  the reshape (`B2`); after region 1 with the result array at what its write-back left (`B3`).
  Region 0's two input windows read ONE array: at entry its full share is split in two halves, one
  per window, and at exit the halves are joined again — an input window never changes its array, so
  both halves still hold the entry contents. Every weakly fair execution terminates and ends with
  every unscoped buffer at `B3`; in particular the arguments are unchanged.
-/
import proofs.«117902_j75557064671630_2_alg».proof.Proof.BRegions
import proofs.«117902_j75557064671630_2_alg».proof.Proof.Gen.Kernel.Regions
import Idealize.ShloMosaic.Lib.Pipeline.RegionsLoop
import Idealize.ShloMosaic.Lib.Pipeline.FrameSuffix

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen
open Idealize.ShloMosaic.Pipeline (Seg HostSeg RegionSeg)

variable {F : FTy → Type} [FloatOps F]

local notation "𝕄" => MT nD τ sig Unit (Elt F) ℕ (UR sig nD τ) ℕ

/-! ## Region 0's arrays against the core's unscoped buffers -/

section Shared

variable (V : (c : Dev nD) → (b : Ref sig .tc) → Buf (Elt F) ((c : Thread nD τ).loc b))

/-- The core's unscoped buffers, one by one. -/
theorem unscopedBufs_chain (c : Dev nD) (W : (b : Ref sig .tc) → Buf (Elt F) ((c : Thread nD τ).loc b)) :
    (unscopedBufs (Ix := Unit) (Name := ℕ) (U := UR sig nD τ) (Lvl := ℕ) c W : sProp 𝕄)
      = iprop((((c : Thread nD τ).loc main_arg0) ↦{fullShare} W main_arg0) ∗ (((c : Thread nD τ).loc main_arg1) ↦{fullShare} W main_arg1)
        ∗ (((c : Thread nD τ).loc main_arg2) ↦{fullShare} W main_arg2) ∗ (((c : Thread nD τ).loc main_arg3) ↦{fullShare} W main_arg3)
        ∗ (((c : Thread nD τ).loc main_arg4) ↦{fullShare} W main_arg4) ∗ (((c : Thread nD τ).loc main_v0) ↦{fullShare} W main_v0)
        ∗ (((c : Thread nD τ).loc main_v1) ↦{fullShare} W main_v1) ∗ (((c : Thread nD τ).loc main_v2) ↦{fullShare} W main_v2)) := by
  unfold unscopedBufs
  exact bigSep_eq_bigSepL_of_eq [main_arg0, main_arg1, main_arg2, main_arg3, main_arg4, main_v0, main_v1, main_v2] (by decide) (by decide) _

/-- Region 0's three windowed arrays: the shared argument array at its two half shares, the feature array whole. -/
theorem arrays0_eq (c : Dev nD) (Fv : (w : Fin cfg0.W) → Buf (Elt F) ((cfg0.win w).arr.view.loc (c : Thread nD τ))) :
    ((dat0 V c).arrays Fv : sProp 𝕄)
      = iprop((((c : Thread nD τ).loc main_arg0) ↦{(fullShare : PosShare TreeShare).left} Fv 0)
        ∗ (((c : Thread nD τ).loc main_arg0) ↦{(fullShare : PosShare TreeShare).right} Fv 1)
        ∗ (((c : Thread nD τ).loc main_v0) ↦{fullShare} Fv 2)) := by
  unfold Pipeline.Dat.arrays
  rw [bigSep_W0, (arr_whole0 0).set_eq_univ, (arr_whole0 2).set_eq_univ]
  rfl

/-- ENTRY: the unscoped buffers at `V` are region 0's arrays at their entry contents and the rest. -/
theorem entry0 (c : Dev nD) :
    (unscopedBufs (Ix := Unit) (Name := ℕ) (U := UR sig nD τ) (Lvl := ℕ) c (V c) : sProp 𝕄)
      ⊢ iprop((dat0 V c).arrays ((dat0 V c).arrAt · 0)
          ∗ Pipeline.unscopedRest (Ix := Unit) (Name := ℕ) (U := UR sig nD τ) (Lvl := ℕ) spec0 c (V c)) := by
  rw [unscopedBufs_chain, arrays0_eq, unscopedRest0_eq]
  iintro ⟨Ha0, Ha1, Ha2, Ha3, Ha4, Hv0, Hv1, Hv2⟩
  ihave Hs := (pointsTo_share (PosShare.mem_left_op_right (fullShare : PosShare TreeShare))).1 $$ Ha0
  icases Hs with ⟨HL, HR⟩
  isplitl [HL HR Hv0]
  · isplitl [HL]; · iexact HL
    isplitl [HR]; · iexact HR
    iexact Hv0
  isplitl [Ha1]; · iexact Ha1
  isplitl [Ha2]; · iexact Ha2
  isplitl [Ha3]; · iexact Ha3
  isplitl [Ha4]; · iexact Ha4
  isplitl [Hv1]; · iexact Hv1
  iexact Hv2

/-- EXIT: region 0's arrays at their final contents and the rest at `V` are the unscoped buffers at any `V'` that
    has the feature array at what the write-backs left and agrees with `V` elsewhere. -/
theorem exit0 (c : Dev nD) (V' : (b : Ref sig .tc) → Buf (Elt F) ((c : Thread nD τ).loc b))
    (h0 : V' main_v0 = (dat0 V c).arrAt 2 cfg0.N)
    (ha0 : V' main_arg0 = V c main_arg0) (ha1 : V' main_arg1 = V c main_arg1) (ha2 : V' main_arg2 = V c main_arg2)
    (ha3 : V' main_arg3 = V c main_arg3) (ha4 : V' main_arg4 = V c main_arg4) (hv1 : V' main_v1 = V c main_v1) (hv2 : V' main_v2 = V c main_v2) :
    iprop((dat0 V c).arrays ((dat0 V c).arrAt · cfg0.N)
        ∗ Pipeline.unscopedRest (Ix := Unit) (Name := ℕ) (U := UR sig nD τ) (Lvl := ℕ) spec0 c (V c))
      ⊢ (unscopedBufs (Ix := Unit) (Name := ℕ) (U := UR sig nD τ) (Lvl := ℕ) c V' : sProp 𝕄) := by
  rw [unscopedBufs_chain, arrays0_eq, unscopedRest0_eq, h0, ha0, ha1, ha2, ha3, ha4, hv1, hv2,
    show (dat0 V c).arrAt 0 cfg0.N = V c main_arg0 from ((dat0 V c).arrAt_in 0 rfl _).trans (A_eq0 V c 0),
    show (dat0 V c).arrAt 1 cfg0.N = V c main_arg0 from ((dat0 V c).arrAt_in 1 rfl _).trans (A_eq0 V c 1)]
  iintro ⟨⟨HL, HR, Hv0⟩, Ha1, Ha2, Ha3, Ha4, Hv1, Hv2⟩
  isplitl [HL HR]
  · iapply (pointsTo_share (PosShare.mem_left_op_right (fullShare : PosShare TreeShare))).2
    isplitl [HL]; · iexact HL
    iexact HR
  isplitl [Ha1]; · iexact Ha1
  isplitl [Ha2]; · iexact Ha2
  isplitl [Ha3]; · iexact Ha3
  isplitl [Ha4]; · iexact Ha4
  isplitl [Hv0]; · iexact Hv0
  isplitl [Hv1]; · iexact Hv1
  iexact Hv2

end Shared

/-! ## The buffer contents at each boundary -/

variable (m : (ℓ : Loc nD τ sig) → Buf (Elt F) ℓ) (ρ : Dev nD → PrngReg)

/-- Core `c`'s buffers at launch. -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b
/-- After region 0: the feature array at what the write-backs left, everything else as launched. -/
def B1 (c : Dev nD) : Valuation τ sig (Elt F) :=
  Function.update (B0 m ρ c) main_v0 ((dat0 (E0 m ρ) c).arrAt 2 cfg0.N : Buf (Elt F) ((c : Thread nD τ).loc main_v0))
abbrev E1 : (c : Dev nD) → (b : Ref sig .tc) → Buf (Elt F) ((c : Thread nD τ).loc b) := fun c b => B1 m ρ c b
theorem B1_v0 (c : Dev nD) : E1 m ρ c main_v0 = (dat0 (E0 m ρ) c).arrAt 2 cfg0.N := by
  show Function.update _ _ _ _ = _; exact Function.update_self ..
theorem B1_of_ne (c : Dev nD) (r : Ref sig .tc) (h : r ≠ main_v0) : E1 m ρ c r = E0 m ρ c r := by
  show Function.update _ _ _ _ = _
  exact Function.update_of_ne (StableHlo.devRef_ne_of_ne h : (Proc.devRef .tc r : DevRef τ sig) ≠ Proc.devRef .tc main_v0) ..
/-- After the host reshape. -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b
/-- After region 1: its arrays at what the pipeline leaves, every other buffer as entered. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- The host reshape writes the reshaped feature array only. -/
theorem B2_of_ne (c : Dev nD) (r : Ref sig .tc) (h : r ∉ hostOps1_W) : E2 m ρ c r = E1 m ρ c r :=
  StableHlo.after_of_writes_sub hostOps1 _ hostOps1_writes h

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m ρ c) ∗ ∃ r, prngReg c r)

/-! ## The regions as segments -/

set_option backward.isDefEq.respectTransparency.types false in
/-- REGION 0: entered from every unscoped buffer at `B0`, left at `B1`. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := entry0 (E0 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (E0 m ρ) c (E1 m ρ c) (B1_v0 m ρ c)
      (B1_of_ne m ρ c main_arg0 (by decide)) (B1_of_ne m ρ c main_arg1 (by decide)) (B1_of_ne m ρ c main_arg2 (by decide))
      (B1_of_ne m ρ c main_arg3 (by decide)) (B1_of_ne m ρ c main_arg4 (by decide)) (B1_of_ne m ρ c main_v1 (by decide)) (B1_of_ne m ρ c main_v2 (by decide))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1: entered from every unscoped buffer at `B2`, left at `B3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segsF : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ) ]

theorem main_run (c : Dev nD) : main (F := F) c = Pipeline.Seg.run (segsF m ρ) := (main_chain c).trans (by chain_rfl)

set_option backward.isDefEq.respectTransparency.types false in
/-- THE RUN: from any memory with zero counters every weakly fair execution terminates, nothing faulting, and every
    final state holds every unscoped buffer at `B3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-! ## The arguments end as launched -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := B2_of_ne m ρ c main_arg0 (by decide)
    _ = B0 m ρ c (Proc.devRef .tc main_arg0) := B1_of_ne m ρ c main_arg0 (by decide)
    _ = m ((c : Thread nD τ).loc main_arg0) := rfl
theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := (B3_arr m ρ c 1).trans (((dat1 (E2 m ρ) c).arrAt_in 1 rfl _).trans (A_eq1 (E2 m ρ) c 1))
    _ = B1 m ρ c (Proc.devRef .tc main_arg1) := B2_of_ne m ρ c main_arg1 (by decide)
    _ = B0 m ρ c (Proc.devRef .tc main_arg1) := B1_of_ne m ρ c main_arg1 (by decide)
    _ = m ((c : Thread nD τ).loc main_arg1) := rfl
theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := (B3_arr m ρ c 2).trans (((dat1 (E2 m ρ) c).arrAt_in 2 rfl _).trans (A_eq1 (E2 m ρ) c 2))
    _ = B1 m ρ c (Proc.devRef .tc main_arg2) := B2_of_ne m ρ c main_arg2 (by decide)
    _ = B0 m ρ c (Proc.devRef .tc main_arg2) := B1_of_ne m ρ c main_arg2 (by decide)
    _ = m ((c : Thread nD τ).loc main_arg2) := rfl
theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := (B3_arr m ρ c 3).trans (((dat1 (E2 m ρ) c).arrAt_in 3 rfl _).trans (A_eq1 (E2 m ρ) c 3))
    _ = B1 m ρ c (Proc.devRef .tc main_arg3) := B2_of_ne m ρ c main_arg3 (by decide)
    _ = B0 m ρ c (Proc.devRef .tc main_arg3) := B1_of_ne m ρ c main_arg3 (by decide)
    _ = m ((c : Thread nD τ).loc main_arg3) := rfl
theorem B3_main_arg4 (c : Dev nD) : B3 m ρ c (Proc.devRef .tc main_arg4) = m ((c : Thread nD τ).loc main_arg4) :=
  calc B3 m ρ c (Proc.devRef .tc main_arg4)
    _ = B2 m ρ c (Proc.devRef .tc main_arg4) := (B3_arr m ρ c 4).trans (((dat1 (E2 m ρ) c).arrAt_in 4 rfl _).trans (A_eq1 (E2 m ρ) c 4))
    _ = B1 m ρ c (Proc.devRef .tc main_arg4) := B2_of_ne m ρ c main_arg4 (by decide)
    _ = B0 m ρ c (Proc.devRef .tc main_arg4) := B1_of_ne m ρ c main_arg4 (by decide)
    _ = m ((c : Thread nD τ).loc main_arg4) := rfl

/-- THE FRAME at any float instance: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c)⟩) (run_main m ρ)

/-- The result array ends at what region 1's write-back left. -/
theorem result_eq (c : Dev nD) : B3 m ρ c (Proc.devRef .tc main_v2) = (dat1 (E2 m ρ) c).arrAt 5 cfg1.N := B3_arr m ρ c 5

end Cert.Kernel.Frm

end
-- ==== Proof.Frames.lean ====
/-
  The three frame claims and the idealization claim.

  The word-level program and its idealization run to the end, fault nowhere and leave their
  arguments unchanged: the run of the two regions around the host reshape, read at the arguments.
  The reference has no kernel: its frame is its run with the result dropped. The idealization
  pass rewrote nothing, so its claim is trivial.
-/
import proofs.«117902_j75557064671630_2_alg».proof.Defs
import proofs.«117902_j75557064671630_2_alg».proof.Proof.KRun
import proofs.«117902_j75557064671630_2_alg».proof.Proof.BRun
import proofs.«117902_j75557064671630_2_alg».proof.Proof.Gen.ReferenceIdeal.Run
import proofs.«117902_j75557064671630_2_alg».proof.Proof.Gen.Pre_finite_inputs

noncomputable section

open Idealize.ShloMosaic Idealize.ShloMosaic.TcCoe Idealize.SL.Sem

namespace Cert.Proof.Frames

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

end Cert.Proof.Frames

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibRowStages.lean ====
/-
  Row-wise stages on matrices of extended reals: the matrix product, a bias row added to every row, the floor at zero.

  On the extended reals an [n, k] matrix times a [k, d] matrix has at (p, o) the sum over j of a(p, j) * w(j, o); adding a
  one-row matrix to every row adds b(0, j) at (p, j); flooring takes the maximum with what the zero word of the 32-bit
  float format denotes.  Each of the three works one row at a time: row p of the result depends on row p of the matrix
  operand only.  So if row q of a matrix ab is row p of a matrix a, the same holds of their images under any of the three
  (`RowEq`, `mm_row`, `addRow_row`, `relu_row`), hence under any composition: a stage computed on a block of rows is the
  same rows of the stage of the whole matrix.  Nothing is distributed or cancelled, so this holds at the infinities too.

  The operations a vector unit and a host program apply are these functions, entry by entry: a matrix unit's product into
  the zero accumulator and the host's contraction with the same dimension numbers are `mm` whatever the operands' float
  formats; a bias row spread over the rows and added is `addRow` (for the unit's spread of a one-row matrix, and for the
  host's vector placed as a row and then spread); the maximum against a splat of the zero word is `relu` (splat from a
  scalar constant by the unit, from a scalar array by the host); a change to a narrower float format changes nothing.
-/
import Idealize.ShloMosaic.PureOps.Ideal
import Idealize.ShloMosaic.PureOps.Ideal.Laws
import Idealize.ShloMosaic.Lib.ValueIdx
import Idealize.ShloMosaic.Lib.Pipeline.Value
import proofs.«117902_j75557064671630_2_alg».proof.Proof.LibPlainDot
import proofs.«117902_j75557064671630_2_alg».proof.Proof.LibBiasRow
import proofs.«117902_j75557064671630_2_alg».proof.Proof.LibRowBroadcast

noncomputable section

open scoped BigOperators

namespace Cert.LibRowStages

open Idealize.ShloMosaic Idealize.ShloMosaic.ValueIdx

/-- An [a, b] matrix of extended reals. -/
abbrev Mat (a b : ℕ) : Type := (⟨2, ![a, b]⟩ : Shape).Idx → EReal

/-- The floor of the rectifier: what the zero word of the 32-bit float format denotes (never evaluated: the same word
    stands on both sides of every equation). -/
def floor0 : EReal := Ideal.ofBits .f32 0x00000000#32

/-- The matrix product: entry (p, o) is the sum over j of a(p, j) * w(j, o). -/
def mm {n k d : ℕ} (a : Mat n k) (w : Mat k d) : Mat n d :=
  fun i => ∑ j : Fin k, a (ix2 (i 0) j) * w (ix2 j (i 1))

/-- A one-row matrix added to every row: entry (p, j) gains b(0, j). -/
def addRow {n k : ℕ} (a : Mat n k) (b : Mat 1 k) : Mat n k :=
  fun i => a i + b (ix2 (0 : Fin 1) (i 1))

/-- Every entry floored at zero. -/
def relu {n k : ℕ} (a : Mat n k) : Mat n k := fun i => max (a i) floor0

/-! ## One row at a time -/

/-- Row q of ab is row p of a. -/
def RowEq {m n k : ℕ} (ab : Mat m k) (q : Fin m) (a : Mat n k) (p : Fin n) : Prop :=
  ∀ j : Fin k, ab (ix2 q j) = a (ix2 p j)

theorem mm_row {m n k d : ℕ} {ab : Mat m k} {q : Fin m} {a : Mat n k} {p : Fin n} (h : RowEq ab q a p) (w : Mat k d) :
    RowEq (mm ab w) q (mm a w) p := fun o => by
  show ∑ j : Fin k, ab (ix2 q j) * w (ix2 j o) = ∑ j : Fin k, a (ix2 p j) * w (ix2 j o)
  exact Finset.sum_congr rfl fun j _ => by rw [h j]

theorem addRow_row {m n k : ℕ} {ab : Mat m k} {q : Fin m} {a : Mat n k} {p : Fin n} (h : RowEq ab q a p) (b : Mat 1 k) :
    RowEq (addRow ab b) q (addRow a b) p := fun j => by
  show ab (ix2 q j) + b (ix2 (0 : Fin 1) j) = a (ix2 p j) + b (ix2 (0 : Fin 1) j)
  rw [h j]

theorem relu_row {m n k : ℕ} {ab : Mat m k} {q : Fin m} {a : Mat n k} {p : Fin n} (h : RowEq ab q a p) :
    RowEq (relu ab) q (relu a) p := fun j => by
  show max (ab (ix2 q j)) floor0 = max (a (ix2 p j)) floor0
  rw [h j]

/-! ## The machine's operations are these functions -/

/-- A matrix unit's product into the zero accumulator is the matrix product, whatever the operands' formats. -/
theorem matmul_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    matmul D prec l r (constant ⟨2, ![n, d]⟩ .f32 0x00000000#32) = mm l r := by
  funext i
  obtain ⟨p, o, rfl⟩ : ∃ (p : Fin n) (o : Fin d), i = ix2 p o := ⟨i 0, i 1, eq_ix2 i⟩
  exact Cert.LibPlainDot.matmul_zero_apply D hlc hrc hln hrn hlb hrb prec l r p o

/-- The host's contraction with the same dimension numbers is the matrix product. -/
theorem dotGeneral_eq_mm {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, k]⟩ φ₁) (r : FVec Ideal ⟨2, ![k, d]⟩ φ₂) :
    Host.dotGeneral D prec l r = mm l r := by
  funext i
  obtain ⟨p, o, rfl⟩ : ∃ (p : Fin n) (o : Fin d), i = ix2 p o := ⟨i 0, i 1, eq_ix2 i⟩
  exact Cert.LibPlainDot.dotGeneral_apply D hlc hrc hln hrn hlb hrb prec .single l r p o

/-- Adding a one-row matrix spread over the rows is `addRow`. -/
theorem addf_spread_eq_addRow {n k : ℕ} (h : (⟨2, ![1, k]⟩ : Shape).Broadcasts ⟨2, ![n, k]⟩)
    (a : FVec Ideal ⟨2, ![n, k]⟩ .f32) (b : FVec Ideal ⟨2, ![1, k]⟩ .f32) :
    addf a (broadcastTo ⟨2, ![n, k]⟩ b h) = addRow a b := by
  funext i
  obtain ⟨p, j, rfl⟩ : ∃ (p : Fin n) (j : Fin k), i = ix2 p j := ⟨i 0, i 1, eq_ix2 i⟩
  show a (ix2 p j) + broadcastTo ⟨2, ![n, k]⟩ b h (ix2 p j) = a (ix2 p j) + b (ix2 (0 : Fin 1) j)
  rw [Cert.LibBiasRow.row_spread_apply h b p j]

/-- The maximum against a splat of the zero word is `relu`. -/
theorem maximumf_zero_eq_relu {n k : ℕ} (a : FVec Ideal ⟨2, ![n, k]⟩ .f32) :
    maximumf a (broadcast ⟨2, ![n, k]⟩ (Scalar.ofBits (F := Ideal) .f32 0x00000000#32)) = relu a := rfl

/-- A change to a narrower float format changes no extended real. -/
theorem truncf_eq {s : Shape} {φ ψ : FTy} (a : FVec Ideal s φ) (h : ψ.bits < φ.bits) :
    (truncf ψ a h : FVec Ideal s ψ) = a := rfl

/-! ## The host program's spellings -/

/-- Adding a vector placed as a row and spread over the rows is `addRow` of the vector reshaped to a row. -/
theorem addf_hostBias_eq_addRow {n k : ℕ} (h1 : (⟨1, ![k]⟩ : Shape).BroadcastsInDim ⟨2, ![1, k]⟩ ![1])
    (h2 : (⟨2, ![1, k]⟩ : Shape).BroadcastsInDim ⟨2, ![n, k]⟩ ![0, 1]) (hc : (⟨1, ![k]⟩ : Shape).ShapeCasts ⟨2, ![1, k]⟩)
    (a : FVec Ideal ⟨2, ![n, k]⟩ .f32) (v : FVec Ideal ⟨1, ![k]⟩ .f32) :
    addf a (broadcastInDim ⟨2, ![n, k]⟩ ![0, 1] h2 (broadcastInDim ⟨2, ![1, k]⟩ ![1] h1 v))
      = addRow a (shapeCast ⟨2, ![1, k]⟩ v hc) := by
  funext i
  obtain ⟨p, j, rfl⟩ : ∃ (p : Fin n) (j : Fin k), i = ix2 p j := ⟨i 0, i 1, eq_ix2 i⟩
  show a (ix2 p j) + broadcastInDim ⟨2, ![n, k]⟩ ![0, 1] h2 (broadcastInDim ⟨2, ![1, k]⟩ ![1] h1 v) (ix2 p j)
    = a (ix2 p j) + shapeCast ⟨2, ![1, k]⟩ v hc (ix2 (0 : Fin 1) j)
  rw [Cert.LibRowBroadcast.row_mat_apply h2 _ p j, Cert.LibRowBroadcast.vec_row_apply h1 v 0 j,
    Cert.LibBiasRow.vec_as_row_apply hc v 0 j]

/-- The maximum against the zero word spread from a scalar is `relu`. -/
theorem maximumf_hostZero_eq_relu {n k : ℕ} (h : (⟨0, ![]⟩ : Shape).BroadcastsInDim ⟨2, ![n, k]⟩ ![])
    (a : FVec Ideal ⟨2, ![n, k]⟩ .f32) :
    maximumf a (broadcastInDim ⟨2, ![n, k]⟩ ![] h (constant (F := Ideal) ⟨0, ![]⟩ .f32 0x00000000#32)) = relu a := by
  funext i
  show max (a i) (broadcastInDim ⟨2, ![n, k]⟩ ![] h (constant (F := Ideal) ⟨0, ![]⟩ .f32 0x00000000#32) i) = max (a i) floor0
  rw [broadcastInDim_apply ![] h _ i ix0 (fun a => a.elim0)]
  rfl

end Cert.LibRowStages

end
-- ==== Proof.LibLayer.lean ====
/-
  One layer of a perceptron on matrices of extended reals, and the machine's two spellings of it.

  A layer takes an [n, k] matrix a, a [k, d] weight matrix w and a one-row bias matrix b to the [n, d] matrix whose entry
  (p, o) is  max(sum over j of a(p, j) * w(j, o) + b(0, o), 0)  — the zero being what the zero word of the 32-bit float
  format denotes.  Row p of the result depends on row p of a only (`layer_row`), so a layer of a block of rows is the
  same rows of the layer of the whole matrix; nothing is distributed or cancelled, so this holds at the infinities.

  A matrix unit spells a layer as a product into the zero accumulator, the bias row spread over the rows and added, and
  the maximum against a splat of the zero word (`unit_layer`).  A host program spells it as a contraction with the same
  dimension numbers, the bias VECTOR placed as a row, spread over the rows and added, and the maximum against the zero
  word spread from a scalar (`host_layer`): the same layer, its bias row the vector reshaped to one row.  Both hold for
  operands of any float formats and any extents.
-/
import Idealize.ShloMosaic.PureOps.Ideal
import Idealize.ShloMosaic.Lib.ValueIdx
import Idealize.ShloMosaic.Lib.Pipeline.Value
import proofs.«117902_j75557064671630_2_alg».proof.Proof.LibRowStages

noncomputable section

namespace Cert.LibLayer

open Idealize.ShloMosaic Idealize.ShloMosaic.ValueIdx Cert.LibRowStages

/-- One layer: the product with the weights, the bias row added to every row, the floor at zero. -/
def layer {n k d : ℕ} (a : Mat n k) (w : Mat k d) (b : Mat 1 d) : Mat n d := relu (addRow (mm a w) b)

/-- A layer works one row at a time. -/
theorem layer_row {m n k d : ℕ} {ab : Mat m k} {q : Fin m} {a : Mat n k} {p : Fin n} (h : RowEq ab q a p)
    (w : Mat k d) (b : Mat 1 d) : RowEq (layer ab w b) q (layer a w b) p :=
  relu_row (addRow_row (mm_row h w) b)

/-! ## The machine's two spellings -/

/-- A matrix unit's layer: the product into the zero accumulator, the bias row spread over the rows and added, the
    maximum against a splat of the zero word.  Whatever the operands' float formats. -/
theorem unit_layer {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (hb : (⟨2, ![1, d]⟩ : Shape).Broadcasts ⟨2, ![n, d]⟩)
    (l : FVec Ideal ⟨2, ![n, k]⟩ φ₁) (w : FVec Ideal ⟨2, ![k, d]⟩ φ₂) (b : FVec Ideal ⟨2, ![1, d]⟩ .f32) :
    maximumf (addf (matmul D none l w (constant ⟨2, ![n, d]⟩ .f32 0x00000000#32)) (broadcastTo ⟨2, ![n, d]⟩ b hb))
        (broadcast ⟨2, ![n, d]⟩ (Scalar.ofBits (F := Ideal) .f32 0x00000000#32))
      = layer l w b := by
  rw [matmul_eq_mm D hlc hrc hln hrn hlb hrb none l w, addf_spread_eq_addRow hb, maximumf_zero_eq_relu]
  rfl

/-- A host program's layer: the contraction with the same dimension numbers, the bias vector placed as a row, spread
    over the rows and added, the maximum against the zero word spread from a scalar.  The bias row is the vector
    reshaped to one row. -/
theorem host_layer {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![d]⟩ : Shape).BroadcastsInDim ⟨2, ![1, d]⟩ ![1])
    (h2 : (⟨2, ![1, d]⟩ : Shape).BroadcastsInDim ⟨2, ![n, d]⟩ ![0, 1])
    (h0 : (⟨0, ![]⟩ : Shape).BroadcastsInDim ⟨2, ![n, d]⟩ ![])
    (hc : (⟨1, ![d]⟩ : Shape).ShapeCasts ⟨2, ![1, d]⟩)
    (l : FVec Ideal ⟨2, ![n, k]⟩ φ₁) (w : FVec Ideal ⟨2, ![k, d]⟩ φ₂) (v : FVec Ideal ⟨1, ![d]⟩ .f32) :
    maximumf (addf (Host.dotGeneral D none l w)
          (broadcastInDim ⟨2, ![n, d]⟩ ![0, 1] h2 (broadcastInDim ⟨2, ![1, d]⟩ ![1] h1 v)))
        (broadcastInDim ⟨2, ![n, d]⟩ ![] h0 (constant (F := Ideal) ⟨0, ![]⟩ .f32 0x00000000#32))
      = layer l w (shapeCast ⟨2, ![1, d]⟩ v hc) := by
  rw [dotGeneral_eq_mm D hlc hrc hln hrn hlb hrb none l w, addf_hostBias_eq_addRow h1 h2 hc, maximumf_hostZero_eq_relu h0]
  rfl

end Cert.LibLayer

end
-- ==== Proof.LibColReduce.lean ====
/-
  A reduction down the columns of a matrix, read at one column.

  For an [n, d] matrix add-reduced over its first axis into a [d] vector, the entry at column e is the sum of
  the entries (0, e), …, (n-1, e). Stated for the kernel's vector reduction at the extended reals, for any
  extents and float format.
-/
import Idealize.ShloMosaic.PureOps.Ideal.Laws
import Idealize.ShloMosaic.Lib.ValueIdx

noncomputable section
namespace Cert.LibColReduce
open Idealize.ShloMosaic Idealize.ShloMosaic.ValueIdx

variable {φ : FTy}

/-- Column e with the coordinate y put back on the reduced axis is the entry (y, e). -/
theorem lift_col {n d : ℕ} (h : (⟨2, ![n, d]⟩ : Shape).Reduces [0] ⟨1, ![d]⟩) (e : Fin d) (y : Fin n) :
    h.lift (ix1 e) y = ix2 y e :=
  funext fun a => Fin.ext (by
    match a with
    | ⟨0, _⟩ => rfl
    | ⟨1, _⟩ => rfl)

/-- A vector add-reduction down the columns: the column's sum. -/
theorem multiReduction_add_col {n d : ℕ} (src : FVec Ideal ⟨2, ![n, d]⟩ φ) (acc : BitVec φ.bits)
    (h : (⟨2, ![n, d]⟩ : Shape).Reduces [0] ⟨1, ![d]⟩) (hφ : FKind.Formats φ) (hacc : acc = FKind.add.neutral φ hφ) (e : Fin d) :
    multiReduction .add [0] ⟨1, ![d]⟩ src acc h hφ hacc (ix1 e) = ∑ y : Fin n, src (ix2 y e) :=
  (Ideal.multiReduction_add_single src acc h hφ hacc (ix1 e)).trans
    (Finset.sum_congr rfl fun y _ => congrArg src (lift_col h e y))

end Cert.LibColReduce
end
-- ==== Proof.LibBatchNormTrain.lean ====
/-
  Batch normalisation with the batch's own statistics, on matrices of extended reals, and the machine's two spellings
  of it.

  For an [n, d] matrix h the column means form the one-row matrix  m(0, o) = (sum over y of h(y, o)) / N,  N being what a
  given word of the 32-bit float format denotes (a program divides by the word it was given, which need not be n).  The
  centred matrix is  c(p, o) = h(p, o) - m(0, o),  the column variances are the column means of the entrywise squares
  c * c, the deviations are  s(0, o) = sqrt(variance(0, o) + eps),  and the normalised matrix is
      out(p, o) = g(0, o) * c(p, o) / s(0, o) + b(0, o)
  for a scale row g and a shift row b.  Every operation is the extended reals' own (the quotient and the root as the
  ideal reading of a float division and a float square root define them), nothing is distributed or cancelled, so the
  equations below hold at the infinities and at a zero deviation as well.

  A vector unit spells this with a reduction down the columns into the neutral accumulator, the result reshaped to one
  row, divided by a splat of the word, spread over the rows and subtracted, and so on (`unit_bnTrain`); a host program
  with a reduction from a zero initial value, a division by the word spread from a scalar, the vector placed as a row
  and the row spread over the rows (`host_bnTrain`).  Both are `bnTrain`, for any extents.  The head of a network — one
  layer followed by this normalisation — is `head`.
-/
import Idealize.ShloMosaic.PureOps.Ideal
import Idealize.ShloMosaic.PureOps.Ideal.Laws
import Idealize.ShloMosaic.Lib.ValueIdx
import Idealize.ShloMosaic.Lib.Pipeline.Value
import proofs.«117902_j75557064671630_2_alg».proof.Proof.LibLayer
import proofs.«117902_j75557064671630_2_alg».proof.Proof.LibColReduce

noncomputable section

open scoped BigOperators

namespace Cert.LibBatchNormTrain

open Idealize.ShloMosaic Idealize.ShloMosaic.ValueIdx Cert.LibRowStages Cert.LibLayer

/-- A [d] vector of extended reals. -/
abbrev Row (d : ℕ) : Type := (⟨1, ![d]⟩ : Shape).Idx → EReal

variable {n d : ℕ}

/-- A vector as a one-row matrix. -/
def asRow (v : Row d) : Mat 1 d := fun i => v (ix1 (i 1))

/-- The column means as a one-row matrix: the column's sum divided by N. -/
def colMean (N : EReal) (h : Mat n d) : Mat 1 d := fun i => Ideal.div (∑ y : Fin n, h (ix2 y (i 1))) N

/-- A one-row matrix subtracted from every row. -/
def subRow (h : Mat n d) (m : Mat 1 d) : Mat n d := fun i => h i - m (ix2 (0 : Fin 1) (i 1))

/-- Every row multiplied, entry by entry, by a one-row matrix (the row is the left factor). -/
def mulRow (g : Mat 1 d) (h : Mat n d) : Mat n d := fun i => g (ix2 (0 : Fin 1) (i 1)) * h i

/-- Every row divided, entry by entry, by a one-row matrix. -/
def divRow (h : Mat n d) (m : Mat 1 d) : Mat n d := fun i => Ideal.div (h i) (m (ix2 (0 : Fin 1) (i 1)))

/-- The entrywise square. -/
def sq (a : Mat n d) : Mat n d := fun i => a i * a i

/-- The column deviations of a centred matrix: the root of the mean square plus eps. -/
def sdRow (N eps : EReal) (c : Mat n d) : Mat 1 d := fun i => Ideal.sqrt (colMean N (sq c) i + eps)

/-- Normalisation by the batch's own statistics: centre the columns, divide by their deviations, scale and shift. -/
def bnTrain (N eps : EReal) (h : Mat n d) (g b : Mat 1 d) : Mat n d :=
  addRow (divRow (mulRow g (subRow h (colMean N h))) (sdRow N eps (subRow h (colMean N h)))) b

/-- The head: one layer (weights w, bias vector b), then the normalisation (scale vector g, shift vector be). -/
def head {k : ℕ} (N eps : EReal) (a : Mat n k) (w : Mat k d) (b g be : Row d) : Mat n d :=
  bnTrain N eps (layer a w (asRow b)) (asRow g) (asRow be)

/-! ## Read at an entry -/

theorem bnTrain_apply (N eps : EReal) (h : Mat n d) (g b : Mat 1 d) (p : Fin n) (o : Fin d) :
    bnTrain N eps h g b (ix2 p o)
      = Ideal.div (g (ix2 (0 : Fin 1) o) * (h (ix2 p o) - Ideal.div (∑ y : Fin n, h (ix2 y o)) N))
          (Ideal.sqrt (Ideal.div (∑ y : Fin n, (h (ix2 y o) - Ideal.div (∑ z : Fin n, h (ix2 z o)) N)
              * (h (ix2 y o) - Ideal.div (∑ z : Fin n, h (ix2 z o)) N)) N + eps))
        + b (ix2 (0 : Fin 1) o) := rfl

/-! ## A vector unit's spelling -/

/-- A vector reshaped to one row is `asRow`. -/
theorem shapeCast_eq_asRow (hc : (⟨1, ![d]⟩ : Shape).ShapeCasts ⟨2, ![1, d]⟩) (v : Row d) :
    shapeCast ⟨2, ![1, d]⟩ v hc = asRow v := by
  funext i
  obtain ⟨u, e, rfl⟩ : ∃ (u : Fin 1) (e : Fin d), i = ix2 u e := ⟨i 0, i 1, eq_ix2 i⟩
  exact Cert.LibBiasRow.vec_as_row_apply hc v u e

/-- The column sums into the neutral accumulator, reshaped to one row and divided by a splat of the word: the means. -/
theorem unit_colMean (hc : (⟨1, ![d]⟩ : Shape).ShapeCasts ⟨2, ![1, d]⟩)
    (hr : (⟨2, ![n, d]⟩ : Shape).Reduces [0] ⟨1, ![d]⟩) (hφ : FKind.Formats .f32) (acc : BitVec FTy.f32.bits)
    (hacc : acc = FKind.add.neutral .f32 hφ) (Nb : BitVec 32) (h : FVec Ideal ⟨2, ![n, d]⟩ .f32) :
    divf (shapeCast ⟨2, ![1, d]⟩ (multiReduction .add [0] ⟨1, ![d]⟩ h acc hr hφ hacc) hc)
        (broadcast ⟨2, ![1, d]⟩ (Scalar.ofBits (F := Ideal) .f32 Nb))
      = colMean (Ideal.ofBits .f32 Nb) h := by
  funext i
  obtain ⟨u, e, rfl⟩ : ∃ (u : Fin 1) (e : Fin d), i = ix2 u e := ⟨i 0, i 1, eq_ix2 i⟩
  show Ideal.div (shapeCast ⟨2, ![1, d]⟩ (multiReduction .add [0] ⟨1, ![d]⟩ h acc hr hφ hacc) hc (ix2 u e)) (Ideal.ofBits .f32 Nb)
    = Ideal.div (∑ y : Fin n, h (ix2 y e)) (Ideal.ofBits .f32 Nb)
  rw [Cert.LibBiasRow.vec_as_row_apply hc _ u e, Cert.LibColReduce.multiReduction_add_col]

/-- Subtracting a one-row matrix spread over the rows is `subRow`. -/
theorem subf_spread_eq_subRow (hb : (⟨2, ![1, d]⟩ : Shape).Broadcasts ⟨2, ![n, d]⟩)
    (a : FVec Ideal ⟨2, ![n, d]⟩ .f32) (m : FVec Ideal ⟨2, ![1, d]⟩ .f32) :
    subf a (broadcastTo ⟨2, ![n, d]⟩ m hb) = subRow a m := by
  funext i
  obtain ⟨p, o, rfl⟩ : ∃ (p : Fin n) (o : Fin d), i = ix2 p o := ⟨i 0, i 1, eq_ix2 i⟩
  show a (ix2 p o) - broadcastTo ⟨2, ![n, d]⟩ m hb (ix2 p o) = a (ix2 p o) - m (ix2 (0 : Fin 1) o)
  rw [Cert.LibBiasRow.row_spread_apply hb m p o]

/-- Multiplying a one-row matrix spread over the rows into a matrix is `mulRow`. -/
theorem mulf_spread_eq_mulRow (hb : (⟨2, ![1, d]⟩ : Shape).Broadcasts ⟨2, ![n, d]⟩)
    (g : FVec Ideal ⟨2, ![1, d]⟩ .f32) (a : FVec Ideal ⟨2, ![n, d]⟩ .f32) :
    mulf (broadcastTo ⟨2, ![n, d]⟩ g hb) a = mulRow g a := by
  funext i
  obtain ⟨p, o, rfl⟩ : ∃ (p : Fin n) (o : Fin d), i = ix2 p o := ⟨i 0, i 1, eq_ix2 i⟩
  show broadcastTo ⟨2, ![n, d]⟩ g hb (ix2 p o) * a (ix2 p o) = g (ix2 (0 : Fin 1) o) * a (ix2 p o)
  rw [Cert.LibBiasRow.row_spread_apply hb g p o]

/-- Dividing by a one-row matrix spread over the rows is `divRow`. -/
theorem divf_spread_eq_divRow (hb : (⟨2, ![1, d]⟩ : Shape).Broadcasts ⟨2, ![n, d]⟩)
    (a : FVec Ideal ⟨2, ![n, d]⟩ .f32) (m : FVec Ideal ⟨2, ![1, d]⟩ .f32) :
    divf a (broadcastTo ⟨2, ![n, d]⟩ m hb) = divRow a m := by
  funext i
  obtain ⟨p, o, rfl⟩ : ∃ (p : Fin n) (o : Fin d), i = ix2 p o := ⟨i 0, i 1, eq_ix2 i⟩
  show Ideal.div (a (ix2 p o)) (broadcastTo ⟨2, ![n, d]⟩ m hb (ix2 p o)) = Ideal.div (a (ix2 p o)) (m (ix2 (0 : Fin 1) o))
  rw [Cert.LibBiasRow.row_spread_apply hb m p o]

/-- A vector unit's normalisation: the means by a reduction down the columns, reshaped to a row and divided by a splat of
    the word N; the centred matrix; its squares' means the same way; eps added as a splat, the root taken, the row spread
    and divided into the scaled centred matrix; the shift row spread and added. -/
theorem unit_bnTrain (hc : (⟨1, ![d]⟩ : Shape).ShapeCasts ⟨2, ![1, d]⟩)
    (hb : (⟨2, ![1, d]⟩ : Shape).Broadcasts ⟨2, ![n, d]⟩)
    (hr : (⟨2, ![n, d]⟩ : Shape).Reduces [0] ⟨1, ![d]⟩) (hφ : FKind.Formats .f32) (acc : BitVec FTy.f32.bits)
    (hacc : acc = FKind.add.neutral .f32 hφ) (Nb epsb : BitVec 32)
    (h : FVec Ideal ⟨2, ![n, d]⟩ .f32) (g be : FVec Ideal ⟨1, ![d]⟩ .f32) :
    addf
        (divf
          (mulf (broadcastTo ⟨2, ![n, d]⟩ (shapeCast ⟨2, ![1, d]⟩ g hc) hb)
            (subf h (broadcastTo ⟨2, ![n, d]⟩
              (divf (shapeCast ⟨2, ![1, d]⟩ (multiReduction .add [0] ⟨1, ![d]⟩ h acc hr hφ hacc) hc)
                (broadcast ⟨2, ![1, d]⟩ (Scalar.ofBits (F := Ideal) .f32 Nb))) hb)))
          (broadcastTo ⟨2, ![n, d]⟩
            (sqrt (addf
              (divf (shapeCast ⟨2, ![1, d]⟩ (multiReduction .add [0] ⟨1, ![d]⟩
                  (mulf
                    (subf h (broadcastTo ⟨2, ![n, d]⟩
                      (divf (shapeCast ⟨2, ![1, d]⟩ (multiReduction .add [0] ⟨1, ![d]⟩ h acc hr hφ hacc) hc)
                        (broadcast ⟨2, ![1, d]⟩ (Scalar.ofBits (F := Ideal) .f32 Nb))) hb))
                    (subf h (broadcastTo ⟨2, ![n, d]⟩
                      (divf (shapeCast ⟨2, ![1, d]⟩ (multiReduction .add [0] ⟨1, ![d]⟩ h acc hr hφ hacc) hc)
                        (broadcast ⟨2, ![1, d]⟩ (Scalar.ofBits (F := Ideal) .f32 Nb))) hb)))
                  acc hr hφ hacc) hc)
                (broadcast ⟨2, ![1, d]⟩ (Scalar.ofBits (F := Ideal) .f32 Nb)))
              (broadcast ⟨2, ![1, d]⟩ (Scalar.ofBits (F := Ideal) .f32 epsb)))) hb))
        (broadcastTo ⟨2, ![n, d]⟩ (shapeCast ⟨2, ![1, d]⟩ be hc) hb)
      = bnTrain (Ideal.ofBits .f32 Nb) (Ideal.ofBits .f32 epsb) h (asRow g) (asRow be) := by
  rw [unit_colMean hc hr hφ acc hacc Nb h, subf_spread_eq_subRow hb,
    shapeCast_eq_asRow hc g, shapeCast_eq_asRow hc be, mulf_spread_eq_mulRow hb, divf_spread_eq_divRow hb,
    addf_spread_eq_addRow hb]
  show addRow (divRow _ (sqrt (addf (divf (shapeCast ⟨2, ![1, d]⟩ (multiReduction .add [0] ⟨1, ![d]⟩
      (sq (subRow h (colMean (Ideal.ofBits .f32 Nb) h))) acc hr hφ hacc) hc)
      (broadcast ⟨2, ![1, d]⟩ (Scalar.ofBits (F := Ideal) .f32 Nb)))
      (broadcast ⟨2, ![1, d]⟩ (Scalar.ofBits (F := Ideal) .f32 epsb))))) _ = _
  rw [unit_colMean hc hr hφ acc hacc Nb]
  rfl

/-! ## A host program's spelling -/

/-- A vector placed as a row is `asRow`. -/
theorem vecRow_eq_asRow (h1 : (⟨1, ![d]⟩ : Shape).BroadcastsInDim ⟨2, ![1, d]⟩ ![1]) (v : Row d) :
    broadcastInDim ⟨2, ![1, d]⟩ ![1] h1 v = asRow v := by
  funext i
  obtain ⟨u, e, rfl⟩ : ∃ (u : Fin 1) (e : Fin d), i = ix2 u e := ⟨i 0, i 1, eq_ix2 i⟩
  exact Cert.LibRowBroadcast.vec_row_apply h1 v u e

/-- The column sums from a zero initial value, divided by the word spread from a scalar, as a row: the means. -/
theorem host_colMean (hrt : (⟨2, ![n, d]⟩ : Shape).ReducesTo [0] ⟨1, ![d]⟩)
    (hr : (⟨2, ![n, d]⟩ : Shape).Reduces [0] ⟨1, ![d]⟩) (hu : 0 < (⟨0, ![]⟩ : Shape).numel)
    (h0 : (⟨0, ![]⟩ : Shape).BroadcastsInDim ⟨1, ![d]⟩ ![]) (Nb : BitVec 32) (h : FVec Ideal ⟨2, ![n, d]⟩ .f32) :
    asRow (Host.divf (Host.reduceAdd h (constant (F := Ideal) ⟨0, ![]⟩ .f32 0x00000000#32) hrt hu)
        (broadcastInDim ⟨1, ![d]⟩ ![] h0 (constant (F := Ideal) ⟨0, ![]⟩ .f32 Nb)))
      = colMean (Ideal.ofBits .f32 Nb) h := by
  funext i
  obtain ⟨u, e, rfl⟩ : ∃ (u : Fin 1) (e : Fin d), i = ix2 u e := ⟨i 0, i 1, eq_ix2 i⟩
  show Ideal.div (Host.reduceAdd h (constant (F := Ideal) ⟨0, ![]⟩ .f32 0x00000000#32) hrt hu (ix1 e))
      (broadcastInDim ⟨1, ![d]⟩ ![] h0 (constant (F := Ideal) ⟨0, ![]⟩ .f32 Nb) (ix1 e))
    = Ideal.div (∑ y : Fin n, h (ix2 y e)) (Ideal.ofBits .f32 Nb)
  rw [broadcastInDim_apply ![] h0 _ (ix1 e) ix0 (fun a => a.elim0)]
  simp only [Host.reduceAdd, Ideal.hostReduceAdd_def]
  rw [Ideal.hostReduceAdd_single hrt hr]
  show Ideal.div (Ideal.ofBits .f32 0x00000000#32 + _) (Ideal.ofBits .f32 Nb) = _
  rw [Ideal.ofBits_zero_f32, zero_add]
  exact congrArg (Ideal.div · _) (Finset.sum_congr rfl fun y _ => congrArg h (Cert.LibColReduce.lift_col hr e y))

/-- Subtracting a row spread over the rows is `subRow`. -/
theorem subf_hostSpread_eq_subRow (h2 : (⟨2, ![1, d]⟩ : Shape).BroadcastsInDim ⟨2, ![n, d]⟩ ![0, 1])
    (a : FVec Ideal ⟨2, ![n, d]⟩ .f32) (m : FVec Ideal ⟨2, ![1, d]⟩ .f32) :
    subf a (broadcastInDim ⟨2, ![n, d]⟩ ![0, 1] h2 m) = subRow a m := by
  funext i
  obtain ⟨p, o, rfl⟩ : ∃ (p : Fin n) (o : Fin d), i = ix2 p o := ⟨i 0, i 1, eq_ix2 i⟩
  show a (ix2 p o) - broadcastInDim ⟨2, ![n, d]⟩ ![0, 1] h2 m (ix2 p o) = a (ix2 p o) - m (ix2 (0 : Fin 1) o)
  rw [Cert.LibRowBroadcast.row_mat_apply h2 m p o]

/-- Multiplying a row spread over the rows into a matrix is `mulRow`. -/
theorem mulf_hostSpread_eq_mulRow (h2 : (⟨2, ![1, d]⟩ : Shape).BroadcastsInDim ⟨2, ![n, d]⟩ ![0, 1])
    (g : FVec Ideal ⟨2, ![1, d]⟩ .f32) (a : FVec Ideal ⟨2, ![n, d]⟩ .f32) :
    mulf (broadcastInDim ⟨2, ![n, d]⟩ ![0, 1] h2 g) a = mulRow g a := by
  funext i
  obtain ⟨p, o, rfl⟩ : ∃ (p : Fin n) (o : Fin d), i = ix2 p o := ⟨i 0, i 1, eq_ix2 i⟩
  show broadcastInDim ⟨2, ![n, d]⟩ ![0, 1] h2 g (ix2 p o) * a (ix2 p o) = g (ix2 (0 : Fin 1) o) * a (ix2 p o)
  rw [Cert.LibRowBroadcast.row_mat_apply h2 g p o]

/-- Dividing by a row spread over the rows is `divRow`. -/
theorem divf_hostSpread_eq_divRow (h2 : (⟨2, ![1, d]⟩ : Shape).BroadcastsInDim ⟨2, ![n, d]⟩ ![0, 1])
    (a : FVec Ideal ⟨2, ![n, d]⟩ .f32) (m : FVec Ideal ⟨2, ![1, d]⟩ .f32) :
    Host.divf a (broadcastInDim ⟨2, ![n, d]⟩ ![0, 1] h2 m) = divRow a m := by
  funext i
  obtain ⟨p, o, rfl⟩ : ∃ (p : Fin n) (o : Fin d), i = ix2 p o := ⟨i 0, i 1, eq_ix2 i⟩
  show Ideal.div (a (ix2 p o)) (broadcastInDim ⟨2, ![n, d]⟩ ![0, 1] h2 m (ix2 p o)) = Ideal.div (a (ix2 p o)) (m (ix2 (0 : Fin 1) o))
  rw [Cert.LibRowBroadcast.row_mat_apply h2 m p o]

/-- Adding a row spread over the rows is `addRow`. -/
theorem addf_hostSpread_eq_addRow (h2 : (⟨2, ![1, d]⟩ : Shape).BroadcastsInDim ⟨2, ![n, d]⟩ ![0, 1])
    (a : FVec Ideal ⟨2, ![n, d]⟩ .f32) (b : FVec Ideal ⟨2, ![1, d]⟩ .f32) :
    addf a (broadcastInDim ⟨2, ![n, d]⟩ ![0, 1] h2 b) = addRow a b := by
  funext i
  obtain ⟨p, o, rfl⟩ : ∃ (p : Fin n) (o : Fin d), i = ix2 p o := ⟨i 0, i 1, eq_ix2 i⟩
  show a (ix2 p o) + broadcastInDim ⟨2, ![n, d]⟩ ![0, 1] h2 b (ix2 p o) = a (ix2 p o) + b (ix2 (0 : Fin 1) o)
  rw [Cert.LibRowBroadcast.row_mat_apply h2 b p o]

/-- The root of the mean square plus eps spread from a scalar, as a row: the deviations. -/
theorem host_sdRow (hrt : (⟨2, ![n, d]⟩ : Shape).ReducesTo [0] ⟨1, ![d]⟩)
    (hr : (⟨2, ![n, d]⟩ : Shape).Reduces [0] ⟨1, ![d]⟩) (hu : 0 < (⟨0, ![]⟩ : Shape).numel)
    (h0 : (⟨0, ![]⟩ : Shape).BroadcastsInDim ⟨1, ![d]⟩ ![]) (Nb epsb : BitVec 32) (c : FVec Ideal ⟨2, ![n, d]⟩ .f32) :
    asRow (Host.sqrt (addf
        (Host.divf (Host.reduceAdd (mulf c c) (constant (F := Ideal) ⟨0, ![]⟩ .f32 0x00000000#32) hrt hu)
          (broadcastInDim ⟨1, ![d]⟩ ![] h0 (constant (F := Ideal) ⟨0, ![]⟩ .f32 Nb)))
        (broadcastInDim ⟨1, ![d]⟩ ![] h0 (constant (F := Ideal) ⟨0, ![]⟩ .f32 epsb))))
      = sdRow (Ideal.ofBits .f32 Nb) (Ideal.ofBits .f32 epsb) c := by
  funext i
  obtain ⟨u, e, rfl⟩ : ∃ (u : Fin 1) (e : Fin d), i = ix2 u e := ⟨i 0, i 1, eq_ix2 i⟩
  have hm := congrFun (host_colMean hrt hr hu h0 Nb (mulf c c)) (ix2 u e)
  show Ideal.sqrt (asRow (Host.divf (Host.reduceAdd (mulf c c) (constant (F := Ideal) ⟨0, ![]⟩ .f32 0x00000000#32) hrt hu)
          (broadcastInDim ⟨1, ![d]⟩ ![] h0 (constant (F := Ideal) ⟨0, ![]⟩ .f32 Nb))) (ix2 u e)
        + broadcastInDim ⟨1, ![d]⟩ ![] h0 (constant (F := Ideal) ⟨0, ![]⟩ .f32 epsb) (ix1 e))
    = Ideal.sqrt (colMean (Ideal.ofBits .f32 Nb) (sq c) (ix2 u e) + Ideal.ofBits .f32 epsb)
  rw [hm, broadcastInDim_apply ![] h0 _ (ix1 e) ix0 (fun a => a.elim0)]
  rfl

/-- A host program's normalisation: the means by a reduction from a zero initial value divided by the word N spread
    from a scalar, placed as a row, spread over the rows and subtracted; the centred matrix's squares' means the same
    way; eps spread from a scalar and added, the root taken, placed as a row, spread and divided into the scaled centred
    matrix; the shift vector placed as a row, spread and added. -/
theorem host_bnTrain (hrt : (⟨2, ![n, d]⟩ : Shape).ReducesTo [0] ⟨1, ![d]⟩)
    (hr : (⟨2, ![n, d]⟩ : Shape).Reduces [0] ⟨1, ![d]⟩) (hu : 0 < (⟨0, ![]⟩ : Shape).numel)
    (h0 : (⟨0, ![]⟩ : Shape).BroadcastsInDim ⟨1, ![d]⟩ ![])
    (h1 : (⟨1, ![d]⟩ : Shape).BroadcastsInDim ⟨2, ![1, d]⟩ ![1])
    (h2 : (⟨2, ![1, d]⟩ : Shape).BroadcastsInDim ⟨2, ![n, d]⟩ ![0, 1]) (Nb epsb : BitVec 32)
    (h : FVec Ideal ⟨2, ![n, d]⟩ .f32) (g be : FVec Ideal ⟨1, ![d]⟩ .f32) :
    addf
        (Host.divf
          (mulf (broadcastInDim ⟨2, ![n, d]⟩ ![0, 1] h2 (broadcastInDim ⟨2, ![1, d]⟩ ![1] h1 g))
            (subf h (broadcastInDim ⟨2, ![n, d]⟩ ![0, 1] h2 (broadcastInDim ⟨2, ![1, d]⟩ ![1] h1
              (Host.divf (Host.reduceAdd h (constant (F := Ideal) ⟨0, ![]⟩ .f32 0x00000000#32) hrt hu)
                (broadcastInDim ⟨1, ![d]⟩ ![] h0 (constant (F := Ideal) ⟨0, ![]⟩ .f32 Nb)))))))
          (broadcastInDim ⟨2, ![n, d]⟩ ![0, 1] h2 (broadcastInDim ⟨2, ![1, d]⟩ ![1] h1
            (Host.sqrt (addf
              (Host.divf (Host.reduceAdd
                  (mulf
                    (subf h (broadcastInDim ⟨2, ![n, d]⟩ ![0, 1] h2 (broadcastInDim ⟨2, ![1, d]⟩ ![1] h1
                      (Host.divf (Host.reduceAdd h (constant (F := Ideal) ⟨0, ![]⟩ .f32 0x00000000#32) hrt hu)
                        (broadcastInDim ⟨1, ![d]⟩ ![] h0 (constant (F := Ideal) ⟨0, ![]⟩ .f32 Nb))))))
                    (subf h (broadcastInDim ⟨2, ![n, d]⟩ ![0, 1] h2 (broadcastInDim ⟨2, ![1, d]⟩ ![1] h1
                      (Host.divf (Host.reduceAdd h (constant (F := Ideal) ⟨0, ![]⟩ .f32 0x00000000#32) hrt hu)
                        (broadcastInDim ⟨1, ![d]⟩ ![] h0 (constant (F := Ideal) ⟨0, ![]⟩ .f32 Nb)))))))
                  (constant (F := Ideal) ⟨0, ![]⟩ .f32 0x00000000#32) hrt hu)
                (broadcastInDim ⟨1, ![d]⟩ ![] h0 (constant (F := Ideal) ⟨0, ![]⟩ .f32 Nb)))
              (broadcastInDim ⟨1, ![d]⟩ ![] h0 (constant (F := Ideal) ⟨0, ![]⟩ .f32 epsb)))))))
        (broadcastInDim ⟨2, ![n, d]⟩ ![0, 1] h2 (broadcastInDim ⟨2, ![1, d]⟩ ![1] h1 be))
      = bnTrain (Ideal.ofBits .f32 Nb) (Ideal.ofBits .f32 epsb) h (asRow g) (asRow be) := by
  simp only [vecRow_eq_asRow h1]
  rw [host_colMean hrt hr hu h0 Nb h, subf_hostSpread_eq_subRow h2, host_sdRow hrt hr hu h0 Nb epsb,
    mulf_hostSpread_eq_mulRow h2, divf_hostSpread_eq_divRow h2, addf_hostSpread_eq_addRow h2]
  rfl

end Cert.LibBatchNormTrain

end
-- ==== Proof.HeadKernel.lean ====
/-
  The second kernel's stored value is the head.

  The kernel multiplies the [32, 132] feature matrix into the [132, 256] weights on the matrix unit, adds the bias row,
  floors at zero, and normalises each of the 256 columns by the statistics of its 32 entries: the column sums divided by
  the word for 32, the centred matrix, the sums of its squares divided by the same word, the word for eps added, the root,
  the scale and the shift.  Read on the extended reals that is `head` at those two words: the layer is the unit's spelling
  of a layer, what follows the unit's spelling of the normalisation.
-/
import Idealize.ShloMosaic.PureOps.Ideal
import Idealize.ShloMosaic.Lib.ValueIdx
import Idealize.ShloMosaic.Lib.Pipeline.Value
import proofs.«117902_j75557064671630_2_alg».proof.Proof.Gen.KernelIdeal.Skeleton
import proofs.«117902_j75557064671630_2_alg».proof.Proof.LibBatchNormTrain

noncomputable section

open Idealize.ShloMosaic Idealize.ShloMosaic.TcCoe

namespace Cert.KernelIdeal.HeadValue

open Cert.KernelIdeal Cert.KernelIdeal.Gen Cert.LibRowStages Cert.LibLayer Cert.LibBatchNormTrain

/-- The layer the kernel computes first: the product into the zero splat, the bias row spread and added, the maximum
    against the splat of the zero word. -/
theorem layer_eq (v0 : FVec Ideal S32x132 .f32) (v2 : FVec Ideal S132x256 .f32) (v3 : FVec Ideal S256 .f32) :
    maximumf
        (addf (matmul dot_S32x132_S132x256_S32x256_1_0_0_1_n_n (some .fp32) (shapeCast S32x132 v0 shapeCasts_S32x132_S32x132) v2
            (constant S32x256 .f32 0x00000000#32))
          (broadcastTo S32x256 (shapeCast S1x256 v3 shapeCasts_S256_S1x256) broadcasts_S1x256_S32x256))
        (broadcast S32x256 (Scalar.ofBits (F := Ideal) .f32 0x00000000#32))
      = layer v0 v2 (asRow v3) := by
  rw [shapeCast_self, matmul_eq_mm dot_S32x132_S132x256_S32x256_1_0_0_1_n_n rfl rfl rfl rfl rfl rfl,
    addf_spread_eq_addRow broadcasts_S1x256_S32x256, maximumf_zero_eq_relu, shapeCast_eq_asRow shapeCasts_S256_S1x256]
  rfl

/-- The value the second kernel stores is the head of its five operands, at the words for 32 and for eps. -/
theorem k1_pay1_eq_head (v0 : Vec Ideal S32x132 .f32) (v2 : Vec Ideal S132x256 .f32) (v3 v4 v5 : Vec Ideal S256 .f32) :
    k1_pay1 (F := Ideal) v0 v2 v3 v4 v5
      = head (Ideal.ofBits .f32 0x42000000#32) (Ideal.ofBits .f32 0x3727C5AC#32) v0 v2 v3 v4 v5 := by
  unfold k1_pay1
  refine (unit_bnTrain shapeCasts_S256_S1x256 broadcasts_S1x256_S32x256 reduces_S32x256_S256 (.inl rfl) 0x00000000#32 rfl
    0x42000000#32 0x3727C5AC#32 _ v4 v5).trans ?_
  rw [layer_eq]
  rfl

end Cert.KernelIdeal.HeadValue

end
-- ==== Proof.KValue1.lean ====
/-
  The value of the second region: the output array ends holding the head of the five arrays the region is entered with.

  The region's grid has one point, and at it every window's block is its whole array, read through zero offsets. So
  the body's five loads read the five arrays as the region finds them, its one store covers the output staging buffer
  with its payload of them, and the one write-back covers the output array with that payload. On the extended reals the
  payload is the head — a layer, then the normalisation by the batch's own statistics — at the words for 32 and for eps.
-/
import proofs.«117902_j75557064671630_2_alg».proof.Proof.KRegions
import proofs.«117902_j75557064671630_2_alg».proof.Proof.HeadKernel
import Idealize.ShloMosaic.Lib.Pipeline.Value
import Idealize.ShloMosaic.Lib.Pipeline.FrameBody

set_option maxRecDepth 16384

noncomputable section

open Idealize.ShloMosaic Idealize.ShloMosaic.TcCoe

namespace Cert.KernelIdeal.KVal1

open Idealize.SL Idealize.SL.Sem
open Idealize.ShloMosaic.Pipeline (Dat Cfg Window)
open Cert.KernelIdeal Cert.KernelIdeal.Gen Cert.KernelIdeal.Frm

variable {F : FTy → Type} [FloatOps F]

/-- The offsets of an access at the origin of a matrix, of a vector. -/
theorem origin2 : (![0, 0] : Fin 2 → Nat) = fun _ => 0 := funext fun a => by fin_cases a <;> rfl
theorem origin1 : (![0] : Fin 1 → Nat) = fun _ => 0 := funext fun a => by fin_cases a; rfl

/-- What the body leaves in the output staging buffer is its payload of the five loaded blocks: the body's one store
    goes through the whole buffer, and each load through a whole buffer reads its contents. -/
theorem out1_5_eq (c : Dev nD) (i : grid1.Coords)
    (arg1 : Memref sig .tc .vmem S32x132 .f32) (harg1 : arg1.IsWhole) (arg2 : Memref sig .tc .vmem S132x256 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S32x256 .f32) (harg6 : arg6.IsWhole)
    (x0 : Vec F S32x132 .f32) (x1 : Vec F S132x256 .f32) (x2 x3 x4 : Vec F S256 .f32) :
    out1_5 c i arg1 harg1 arg2 harg2 arg3 harg3 arg4 harg4 arg5 harg5 arg6 harg6 x0 x1 x2 x3 x4 = k1_pay1 x0 x1 x2 x3 x4 := by
  unfold out1_5
  rw [View.read_writes_eq_canon _ _ _ (cover1_5 c i arg1 harg1 arg2 harg2 arg3 harg3 arg4 harg4 arg5 harg5 arg6 harg6 x0 x1 x2 x3 x4)]
  unfold kernelRun1
  dsimp only
  rw [View.canon_unit_zero origin2]
  simp only [View.readAt_eq_ld, harg1.read_unread, harg2.read_unread, harg3.read_unread, harg4.read_unread, harg5.read_unread,
    View.ld_unit_zero (S := S32x132) origin2, View.ld_unit_zero (S := S132x256) origin2, View.ld_unit_zero (S := S256) origin1]

variable (V : (c : Dev nD) → (b : Ref sig .tc) → Buf (Elt F) ((c : Thread nD τ).loc b))

/-- The grid has one point, and there every window's block is its whole array read through zero offsets. -/
theorem iblk1_0 (c : Dev nD) (t : Fin cfg1.N) : (iblk1 V c 0 t : Vec F S32x132 .f32) = V c main_v1 := by
  obtain rfl := fin_N1 t
  have hz' : (fun a => win1_0.index t1_0 a * main_v1.ty.shape.size a) = fun _ => 0 := funext fun a => by fin_cases a <;> decide
  exact Memref.read_access_unit_zero (Elt F) main_v1 hz' (fun a => by rw [congrFun hz' a]; simp) (V c main_v1)
theorem iblk1_1 (c : Dev nD) (t : Fin cfg1.N) : (iblk1 V c 1 t : Vec F S132x256 .f32) = V c main_arg1 := by
  obtain rfl := fin_N1 t
  have hz' : (fun a => win1_1.index t1_0 a * main_arg1.ty.shape.size a) = fun _ => 0 := funext fun a => by fin_cases a <;> decide
  exact Memref.read_access_unit_zero (Elt F) main_arg1 hz' (fun a => by rw [congrFun hz' a]; simp) (V c main_arg1)
theorem iblk1_2 (c : Dev nD) (t : Fin cfg1.N) : (iblk1 V c 2 t : Vec F S256 .f32) = V c main_arg2 := by
  obtain rfl := fin_N1 t
  have hz' : (fun a => win1_2.index t1_0 a * main_arg2.ty.shape.size a) = fun _ => 0 := funext fun a => by fin_cases a; decide
  exact Memref.read_access_unit_zero (Elt F) main_arg2 hz' (fun a => by rw [congrFun hz' a]; simp) (V c main_arg2)
theorem iblk1_3 (c : Dev nD) (t : Fin cfg1.N) : (iblk1 V c 3 t : Vec F S256 .f32) = V c main_arg3 := by
  obtain rfl := fin_N1 t
  have hz' : (fun a => win1_3.index t1_0 a * main_arg3.ty.shape.size a) = fun _ => 0 := funext fun a => by fin_cases a; decide
  exact Memref.read_access_unit_zero (Elt F) main_arg3 hz' (fun a => by rw [congrFun hz' a]; simp) (V c main_arg3)
theorem iblk1_4 (c : Dev nD) (t : Fin cfg1.N) : (iblk1 V c 4 t : Vec F S256 .f32) = V c main_arg4 := by
  obtain rfl := fin_N1 t
  have hz' : (fun a => win1_4.index t1_0 a * main_arg4.ty.shape.size a) = fun _ => 0 := funext fun a => by fin_cases a; decide
  exact Memref.read_access_unit_zero (Elt F) main_arg4 hz' (fun a => by rw [congrFun hz' a]; simp) (V c main_arg4)

/-- What the one point leaves in the output staging buffer: the payload of the five arrays as the region finds them. -/
theorem after1_5_eq (c : Dev nD) (t : Fin cfg1.N) :
    ((dat1 V c).after 5 t : Vec F S32x256 .f32)
      = k1_pay1 (V c main_v1) (V c main_arg1) (V c main_arg2) (V c main_arg3) (V c main_arg4) := by
  rw [after1_5, out1_5_eq, iblk1_0 V c t, iblk1_1 V c t, iblk1_2 V c t, iblk1_3 V c t, iblk1_4 V c t]

section AtIdeal

variable (W : (c : Dev nD) → (b : Ref sig .tc) → Buf (Elt Ideal) ((c : Thread nD τ).loc b))

/-- The head of the five arrays the region is entered with, at the words for 32 and for eps. -/
def G (c : Dev nD) : Vec Ideal S32x256 .f32 :=
  Cert.LibBatchNormTrain.head (Ideal.ofBits .f32 0x42000000#32) (Ideal.ofBits .f32 0x3727C5AC#32)
    (W c main_v1 : Vec Ideal S32x132 .f32) (W c main_arg1 : Vec Ideal S132x256 .f32) (W c main_arg2 : Vec Ideal S256 .f32)
    (W c main_arg3 : Vec Ideal S256 .f32) (W c main_arg4 : Vec Ideal S256 .f32)

/-- What the one point writes back is the block (the whole array) of the head. -/
theorem flushed1_5_eq (c : Dev nD) (t : Fin cfg1.N) :
    (dat1 W c).flushed 5 t = ((cfg1.win 5).blk t).view.read (Elt Ideal) (G W c) := by
  show (cfg1.win 5).cut (grid1.coords t) ((dat1 W c).after 5 t) = _
  rw [after1_5_eq W c t, Cert.KernelIdeal.HeadValue.k1_pay1_eq_head]
  obtain rfl := fin_N1 t
  have hz' : (fun a => win1_5.index t1_0 a * main_v2.ty.shape.size a) = fun _ => 0 := funext fun a => by fin_cases a <;> decide
  exact (Memref.read_access_unit_zero (Elt Ideal) main_v2 hz' (fun a => by rw [congrFun hz' a]; simp) (G W c)).symm

/-- The output array after the region: the head of the five arrays the region was entered with. -/
theorem final1_5 (c : Dev nD) : (dat1 W c).arrAt 5 cfg1.N = G W c :=
  (dat1 W c).arrAt_eq_of_cover 5 (G W c) (fun t _ => flushed1_5_eq W c t) fun i =>
    ⟨t1_0, flush1_5 t1_0, by
      show i ∈ ((View.whole main_v2).slice (win1_5.rect t1_0)).set
      rw [View.set_slice_whole, Rect.mem_set_unit]
      intro a
      have h0 : (i 0 : Nat) < 32 := (i 0).isLt
      have h1 : (i 1 : Nat) < 256 := (i 1).isLt
      match a with
      | ⟨0, _⟩ => show win1_5.index t1_0 0 * win1_5.size 0 ≤ (i 0 : Nat) ∧ (i 0 : Nat) < win1_5.index t1_0 0 * win1_5.size 0 + win1_5.xsize (grid1.coords t1_0) 0
                  rw [show win1_5.index t1_0 0 * win1_5.size 0 = 0 from by decide, show win1_5.xsize (grid1.coords t1_0) 0 = 32 from by decide]; omega
      | ⟨1, _⟩ => show win1_5.index t1_0 1 * win1_5.size 1 ≤ (i 1 : Nat) ∧ (i 1 : Nat) < win1_5.index t1_0 1 * win1_5.size 1 + win1_5.xsize (grid1.coords t1_0) 1
                  rw [show win1_5.index t1_0 1 * win1_5.size 1 = 0 from by decide, show win1_5.xsize (grid1.coords t1_0) 1 = 256 from by decide]; omega⟩

/-- The same with the head written out. -/
theorem final1_5_head (c : Dev nD) :
    ((dat1 W c).arrAt 5 cfg1.N : Vec Ideal S32x256 .f32)
      = Cert.LibBatchNormTrain.head (Ideal.ofBits .f32 0x42000000#32) (Ideal.ofBits .f32 0x3727C5AC#32)
          (W c main_v1 : Vec Ideal S32x132 .f32) (W c main_arg1 : Vec Ideal S132x256 .f32) (W c main_arg2 : Vec Ideal S256 .f32)
          (W c main_arg3 : Vec Ideal S256 .f32) (W c main_arg4 : Vec Ideal S256 .f32) :=
  final1_5 W c
end AtIdeal

end Cert.KernelIdeal.KVal1

end
-- ==== Proof.KValue0a.lean ====
/-
  Region 0's body as a pure function of its two input planes.

  One trip of a channel's loop loads 16 rows of the plane and updates the four carried accumulators
  (the 64 bin counts, the sum and the sum of squares of the pivot-shifted entries, the sum of the
  patch variances) by the body's named payloads; 64 trips from the zero accumulators, then the
  closing payloads, give the 132 features of the image. Nothing here depends on memory: the
  accumulators after `n` trips are a recursion on `n` over the plane's chunks.
-/
import proofs.«117902_j75557064671630_2_alg».proof.Proof.KRegions
import Idealize.ShloMosaic.Lib.Pipeline.Value

set_option maxRecDepth 16384

noncomputable section

namespace Cert.KernelIdeal.KVal0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Frm

variable {F : FTy → Type} [FloatOps F]

/-- The four carried accumulators of a channel's loop. -/
abbrev Acc (F : FTy → Type) [FloatOps F] : Type := FVec F S1x64 .f32 × FVec F S1x1 .f32 × FVec F S1x1 .f32 × FVec F S1x1 .f32

/-- Rows 16k … 16k+15 of a plane: what trip `k` of channel 1's loop loads. -/
def chunk1 (x : Vec F S1x1x1024x1024 .f32) (k : Fin k0_t1_loop.trips) : Vec F S1x1x16x1024 .f32 :=
  View.ld x (Rect.unit (s := S1x1x1024x1024) (k0_off1 k) S1x1x16x1024.size (k0_off1_inb k))
/-- The same for channel 2's loop. -/
def chunk2 (x : Vec F S1x1x1024x1024 .f32) (k : Fin k0_t2_loop.trips) : Vec F S1x1x16x1024 .f32 :=
  View.ld x (Rect.unit (s := S1x1x1024x1024) (k0_off2 k) S1x1x16x1024.size (k0_off2_inb k))

/-- One trip of channel 1's loop on the accumulators. -/
def step1 (v0 : IVec S1x64x1 32) (x : Vec F S1x1x1024x1024 .f32) (k : Fin k0_t1_loop.trips) (acc : Acc F) : Acc F :=
  (k0_pay3 v0 acc.1 (chunk1 x k), k0_pay5 acc.2.1 (chunk1 x k), k0_pay6 acc.2.2.1 (chunk1 x k),
    k0_pay22 acc.2.2.2 (k0_pay8 (chunk1 x k)) (k0_pay9 (chunk1 x k)))
/-- One trip of channel 2's loop on the accumulators. -/
def step2 (v21 : IVec S1x64x1 32) (x : Vec F S1x1x1024x1024 .f32) (k : Fin k0_t2_loop.trips) (acc : Acc F) : Acc F :=
  (k0_pay11 v21 acc.1 (chunk2 x k), k0_pay13 acc.2.1 (chunk2 x k), k0_pay14 acc.2.2.1 (chunk2 x k),
    k0_pay30 acc.2.2.2 (k0_pay16 (chunk2 x k)) (k0_pay17 (chunk2 x k)))

theorem tripR1_eq (c : Dev nD) (i : grid0.Coords) (arg1 : Memref sig .tc .vmem S1x1x1024x1024 .f32) (harg1 : arg1.IsWhole) (arg2 : Memref sig .tc .vmem S1x1x1024x1024 .f32) (harg2 : arg2.IsWhole)
    (arg3 : Memref sig .tc .vmem S1x1x132 .f32) (harg3 : arg3.IsWhole) (v0 : IVec S1x64x1 32) (x0 : Vec F S1x1x1024x1024 .f32)
    (k : Fin k0_t1_loop.trips) (acc : Acc F) :
    tripR_k0_t1 (F := F) Variants.none c none i arg1 harg1 arg2 harg2 arg3 harg3 v0 (harg1.unread x0) k acc = step1 v0 x0 k acc := by
  unfold tripR_k0_t1 trip_k0_t1
  dsimp only
  sl_unfold_words
  simp only [View.readAt_eq_ld, harg1.read_unread]
  rfl

theorem tripR2_eq (c : Dev nD) (i : grid0.Coords) (arg1 : Memref sig .tc .vmem S1x1x1024x1024 .f32) (harg1 : arg1.IsWhole) (arg2 : Memref sig .tc .vmem S1x1x1024x1024 .f32) (harg2 : arg2.IsWhole)
    (arg3 : Memref sig .tc .vmem S1x1x132 .f32) (harg3 : arg3.IsWhole) (v21 : IVec S1x64x1 32) (x1 : Vec F S1x1x1024x1024 .f32)
    (k : Fin k0_t2_loop.trips) (acc : Acc F) :
    tripR_k0_t2 (F := F) Variants.none c none i arg1 harg1 arg2 harg2 arg3 harg3 v21 (harg2.unread x1) k acc = step2 v21 x1 k acc := by
  unfold tripR_k0_t2 trip_k0_t2
  dsimp only
  sl_unfold_words
  simp only [View.readAt_eq_ld, harg2.read_unread]
  rfl

/-- The accumulators of channel 1 before trip `n`, from `init`. -/
def run1 (v0 : IVec S1x64x1 32) (x : Vec F S1x1x1024x1024 .f32) (init : Acc F) : ℕ → Acc F
  | 0 => init
  | n + 1 => if h : n < k0_t1_loop.trips then step1 v0 x ⟨n, h⟩ (run1 v0 x init n) else run1 v0 x init n
/-- The accumulators of channel 2 before trip `n`, from `init`. -/
def run2 (v21 : IVec S1x64x1 32) (x : Vec F S1x1x1024x1024 .f32) (init : Acc F) : ℕ → Acc F
  | 0 => init
  | n + 1 => if h : n < k0_t2_loop.trips then step2 v21 x ⟨n, h⟩ (run2 v21 x init n) else run2 v21 x init n

theorem st1_eq (c : Dev nD) (i : grid0.Coords) (arg1 : Memref sig .tc .vmem S1x1x1024x1024 .f32) (harg1 : arg1.IsWhole) (arg2 : Memref sig .tc .vmem S1x1x1024x1024 .f32) (harg2 : arg2.IsWhole)
    (arg3 : Memref sig .tc .vmem S1x1x132 .f32) (harg3 : arg3.IsWhole) (v0 : IVec S1x64x1 32) (x0 : Vec F S1x1x1024x1024 .f32) (init : Acc F) :
    ∀ n, n ≤ k0_t1_loop.trips →
      st_k0_t1 (F := F) Variants.none c none i arg1 harg1 arg2 harg2 arg3 harg3 v0 (harg1.unread x0) init n = run1 v0 x0 init n
  | 0, _ => rfl
  | n + 1, hn => by
    have hlt : n < k0_t1_loop.trips := hn
    have := st_k0_t1_succ (F := F) Variants.none c none i arg1 harg1 arg2 harg2 arg3 harg3 v0 (harg1.unread x0) init ⟨n, hlt⟩
    rw [this, tripR1_eq, st1_eq c i arg1 harg1 arg2 harg2 arg3 harg3 v0 x0 init n (Nat.le_of_lt hlt)]
    show _ = if h : n < k0_t1_loop.trips then _ else _
    rw [dif_pos hlt]

theorem st2_eq (c : Dev nD) (i : grid0.Coords) (arg1 : Memref sig .tc .vmem S1x1x1024x1024 .f32) (harg1 : arg1.IsWhole) (arg2 : Memref sig .tc .vmem S1x1x1024x1024 .f32) (harg2 : arg2.IsWhole)
    (arg3 : Memref sig .tc .vmem S1x1x132 .f32) (harg3 : arg3.IsWhole) (v21 : IVec S1x64x1 32) (x1 : Vec F S1x1x1024x1024 .f32) (init : Acc F) :
    ∀ n, n ≤ k0_t2_loop.trips →
      st_k0_t2 (F := F) Variants.none c none i arg1 harg1 arg2 harg2 arg3 harg3 v21 (harg2.unread x1) init n = run2 v21 x1 init n
  | 0, _ => rfl
  | n + 1, hn => by
    have hlt : n < k0_t2_loop.trips := hn
    have := st_k0_t2_succ (F := F) Variants.none c none i arg1 harg1 arg2 harg2 arg3 harg3 v21 (harg2.unread x1) init ⟨n, hlt⟩
    rw [this, tripR2_eq, st2_eq c i arg1 harg1 arg2 harg2 arg3 harg3 v21 x1 init n (Nat.le_of_lt hlt)]
    show _ = if h : n < k0_t2_loop.trips then _ else _
    rw [dif_pos hlt]

/-- The bin numbers 0 … 63 along the middle axis. -/
abbrev bins : IVec S1x64x1 32 := iota .tc S1x64x1 32 [1] iota_S1x64x1_d1_w32

/-- Channel 1's accumulators after its loop. -/
def loop1 (x0 : Vec F S1x1x1024x1024 .f32) : Acc F :=
  run1 bins x0 (k0_pay18, k0_pay19, k0_pay20, k0_pay21) (Scf.trips k0_t1_loop.lb k0_t1_loop.ub k0_t1_loop.st)
/-- Channel 2's accumulators after its loop. -/
def loop2 (x1 : Vec F S1x1x1024x1024 .f32) : Acc F :=
  run2 bins x1 (k0_pay26, k0_pay27, k0_pay28, k0_pay29) (Scf.trips k0_t2_loop.lb k0_t2_loop.ub k0_t2_loop.st)

/-- THE IMAGE'S FEATURES: the 132 features of one image as a pure function of its two planes. -/
def imgFeat (x0 x1 : Vec F S1x1x1024x1024 .f32) : FVec F S1x1x132 .f32 :=
  k0_pay1 (k0_pay23 (loop1 x0).1) (k0_pay24 (loop1 x0).2.1 (loop1 x0).2.2.1) (k0_pay25 (loop1 x0).2.2.2)
    (loop2 x1).2.2.1 (loop2 x1).2.2.2 (k0_pay31 (loop2 x1).1) (k0_pay32 (loop2 x1).2.1) (FloatOps.ofBits FTy.f32 1233125376#32)

theorem hz3 : (![0, 0, 0] : Fin 3 → Nat) = fun _ => 0 := funext fun a => by fin_cases a <;> rfl

/-- What the body leaves in the output staging buffer is the image's features of the two input blocks. -/
theorem out0_2_eq (c : Dev nD) (i : grid0.Coords) (arg1 : Memref sig .tc .vmem S1x1x1024x1024 .f32) (harg1 : arg1.IsWhole) (arg2 : Memref sig .tc .vmem S1x1x1024x1024 .f32) (harg2 : arg2.IsWhole)
    (arg3 : Memref sig .tc .vmem S1x1x132 .f32) (harg3 : arg3.IsWhole) (x0 x1 : Vec F S1x1x1024x1024 .f32) :
    out0_2 (F := F) c i arg1 harg1 arg2 harg2 arg3 harg3 x0 x1 = imgFeat x0 x1 := by
  unfold out0_2
  rw [View.read_writes_eq_canon _ _ _ (cover0_2 c i arg1 harg1 arg2 harg2 arg3 harg3 x0 x1)]
  unfold kernelRun0
  dsimp only
  sl_unfold_words
  rw [View.canon_unit_zero hz3]
  rw [st1_eq c i arg1 harg1 arg2 harg2 arg3 harg3 _ x0 _ _ (le_refl _), st2_eq c i arg1 harg1 arg2 harg2 arg3 harg3 _ x1 _ _ (le_refl _)]
  rfl

end Cert.KernelIdeal.KVal0

end
-- ==== Proof.KValue0b.lean ====
/-
  The value of the first region: the feature array ends holding, in row p, the features of image p.

  The region's grid has 32 points. At point t the two input windows take planes (t, 1) and (t, 2) of the one argument
  array — a block's coordinate on an axis is the block index times the block size plus the coordinate inside the block,
  and the block indices are (t, 1, 0, 0) and (t, 2, 0, 0) —, the body leaves the features of those two planes in the
  output staging buffer, and the write-back puts them in block (t, 0, 0) of the [32, 1, 132] feature array, which is its
  row t. The 32 rows tile the array, so after the region it is one function of the argument: row p is the features of
  planes (p, 1) and (p, 2).
-/
import proofs.«117902_j75557064671630_2_alg».proof.Proof.KValue0a
import Idealize.ShloMosaic.Lib.Pipeline.Value
import Idealize.ShloMosaic.Lib.ValueIdx

set_option maxRecDepth 16384

noncomputable section

open Idealize.ShloMosaic Idealize.ShloMosaic.TcCoe

namespace Cert.KernelIdeal.KVal0b

open Idealize.SL Idealize.SL.Sem
open Idealize.ShloMosaic.Pipeline (Dat Cfg Window)
open Cert.KernelIdeal Cert.KernelIdeal.Gen Cert.KernelIdeal.Frm Cert.KernelIdeal.KVal0

variable {F : FTy → Type} [FloatOps F]

/-- Plane (p, ch) of a stack of 32 three-channel images, as a [1, 1, 1024, 1024] block. -/
def plane (a : S32x3x1024x1024.Idx → Elt F .f32) (p : Fin 32) (ch : Fin 3) : Vec F S1x1x1024x1024 .f32 :=
  fun y => a (ValueIdx.ix4 p ch (y 2) (y 3))

/-- The [32, 1, 132] array of features: row p holds the features of image p's second and third planes. -/
def G0 (a : S32x3x1024x1024.Idx → Elt F .f32) : S32x1x132.Idx → Elt F .f32 :=
  fun i => imgFeat (plane a (i 0) 1) (plane a (i 0) 2) (ValueIdx.ix3 (0 : Fin 1) (0 : Fin 1) (i 2))

/-- Row p of the features. -/
theorem G0_row (a : S32x3x1024x1024.Idx → Elt F .f32) (p : Fin 32) (j : Fin 132) :
    G0 a (ValueIdx.ix3 p (0 : Fin 1) j) = imgFeat (plane a p 1) (plane a p 2) (ValueIdx.ix3 (0 : Fin 1) (0 : Fin 1) j) := rfl

/-- A grid point as an image number. -/
abbrev img (t : Fin cfg0.N) : Fin 32 := Fin.cast N_0 t

/-- The three index maps, decided over the grid: point t takes planes (t, 1) and (t, 2) and gives row t. -/
theorem idx_facts : ∀ t : Fin cfg0.N,
    (win0_0.index t (0 : Fin 4) = t.val ∧ win0_0.index t (1 : Fin 4) = 1 ∧ win0_0.index t (2 : Fin 4) = 0 ∧ win0_0.index t (3 : Fin 4) = 0)
    ∧ (win0_1.index t (0 : Fin 4) = t.val ∧ win0_1.index t (1 : Fin 4) = 2 ∧ win0_1.index t (2 : Fin 4) = 0 ∧ win0_1.index t (3 : Fin 4) = 0)
    ∧ (win0_2.index t (0 : Fin 3) = t.val ∧ win0_2.index t (1 : Fin 3) = 0 ∧ win0_2.index t (2 : Fin 3) = 0) :=
  (by decide +kernel : ∀ t : Fin grid0.N, _)

variable (V : (c : Dev nD) → (b : Ref sig .tc) → Buf (Elt F) ((c : Thread nD τ).loc b))

/-- The first input block at point t is plane (t, 1) of the argument. -/
theorem iblk0_0 (c : Dev nD) (t : Fin cfg0.N) :
    (iblk0 V c 0 t : Vec F S1x1x1024x1024 .f32) = plane (V c main_arg0) (img t) 1 := by
  obtain ⟨⟨e0, e1, e2, e3⟩, -, -⟩ := idx_facts t
  funext y
  show V c main_arg0 (((cfg0.win 0).blk t).view.emb y) = V c main_arg0 (ValueIdx.ix4 (img t) 1 (y 2) (y 3))
  congr 1
  funext a; apply Fin.ext
  match a with
  | ⟨0, _⟩ => show win0_0.index t (0 : Fin 4) * 1 + 1 * (y 0).val = t.val; have hy : (y 0).val < 1 := (y 0).isLt; omega
  | ⟨1, _⟩ => show win0_0.index t (1 : Fin 4) * 1 + 1 * (y 1).val = 1; have hy : (y 1).val < 1 := (y 1).isLt; omega
  | ⟨2, _⟩ => show win0_0.index t (2 : Fin 4) * 1024 + 1 * (y 2).val = (y 2).val; omega
  | ⟨3, _⟩ => show win0_0.index t (3 : Fin 4) * 1024 + 1 * (y 3).val = (y 3).val; omega

/-- The second input block at point t is plane (t, 2) of the same argument. -/
theorem iblk0_1 (c : Dev nD) (t : Fin cfg0.N) :
    (iblk0 V c 1 t : Vec F S1x1x1024x1024 .f32) = plane (V c main_arg0) (img t) 2 := by
  obtain ⟨-, ⟨e0, e1, e2, e3⟩, -⟩ := idx_facts t
  funext y
  show V c main_arg0 (((cfg0.win 1).blk t).view.emb y) = V c main_arg0 (ValueIdx.ix4 (img t) 2 (y 2) (y 3))
  congr 1
  funext a; apply Fin.ext
  match a with
  | ⟨0, _⟩ => show win0_1.index t (0 : Fin 4) * 1 + 1 * (y 0).val = t.val; have hy : (y 0).val < 1 := (y 0).isLt; omega
  | ⟨1, _⟩ => show win0_1.index t (1 : Fin 4) * 1 + 1 * (y 1).val = 2; have hy : (y 1).val < 1 := (y 1).isLt; omega
  | ⟨2, _⟩ => show win0_1.index t (2 : Fin 4) * 1024 + 1 * (y 2).val = (y 2).val; omega
  | ⟨3, _⟩ => show win0_1.index t (3 : Fin 4) * 1024 + 1 * (y 3).val = (y 3).val; omega

/-- What point t leaves in the output staging buffer: the features of image t's second and third planes. -/
theorem after0_2_eq (c : Dev nD) (t : Fin cfg0.N) :
    ((dat0 V c).after 2 t : Vec F S1x1x132 .f32)
      = imgFeat (plane (V c main_arg0) (img t) 1) (plane (V c main_arg0) (img t) 2) := by
  rw [after0_2, out0_2_eq, iblk0_0 V c t, iblk0_1 V c t]

/-- What point t writes back is its block — row t — of the feature array. -/
theorem flushed0_eq (c : Dev nD) (t : Fin cfg0.N) :
    (dat0 V c).flushed 2 t = ((cfg0.win 2).blk t).view.read (Elt F) (G0 (V c main_arg0)) := by
  obtain ⟨-, -, ⟨e0, e1, e2⟩⟩ := idx_facts t
  show (cfg0.win 2).cut (grid0.coords t) ((dat0 V c).after 2 t) = _
  rw [after0_2_eq V c t]
  funext j
  have hj0 : (j 0).val < 1 := (j 0).isLt
  have hj1 : (j 1).val < 1 := (j 1).isLt
  have hj2 : (j 2).val < 132 := (j 2).isLt
  have hemb : ((cfg0.win 2).blk t).view.emb j = ValueIdx.ix3 (img t) (0 : Fin 1) (⟨(j 2).val, hj2⟩ : Fin 132) := by
    funext a; apply Fin.ext
    match a with
    | ⟨0, _⟩ => show win0_2.index t (0 : Fin 3) * 1 + 1 * (j 0).val = t.val; omega
    | ⟨1, _⟩ => show win0_2.index t (1 : Fin 3) * 1 + 1 * (j 1).val = 0; omega
    | ⟨2, _⟩ => show win0_2.index t (2 : Fin 3) * 132 + 1 * (j 2).val = (j 2).val; omega
  show imgFeat (plane (V c main_arg0) (img t) 1) (plane (V c main_arg0) (img t) 2) j
    = G0 (V c main_arg0) (((cfg0.win 2).blk t).view.emb j)
  rw [hemb, G0_row]
  congr 1
  funext a; apply Fin.ext
  match a with
  | ⟨0, _⟩ => show (j 0).val = 0; omega
  | ⟨1, _⟩ => show (j 1).val = 0; omega
  | ⟨2, _⟩ => rfl

/-- An index of the feature array is in point t's block iff each coordinate is in the block's range on its axis. -/
theorem mem_blk (t : Fin cfg0.N) (i : S32x1x132.Idx) :
    i ∈ ((cfg0.win 2).blk t).view.set ↔ ∀ a : Fin 3, win0_2.index t a * S1x1x132.size a ≤ (i a).val ∧ (i a).val < win0_2.index t a * S1x1x132.size a + S1x1x132.size a := by
  show i ∈ ((View.whole main_v0).slice (win0_2.rect t)).set ↔ _
  rw [View.set_slice_whole, Rect.mem_set_unit]
  exact Iff.rfl

/-- Every row is some point's block: row p is point p's. -/
theorem cover (i : S32x1x132.Idx) : ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 132 := (i 2).isLt
  let t : Fin cfg0.N := Fin.cast N_0.symm ⟨(i 0).val, hi0⟩
  have ht : t.val = (i 0).val := rfl
  obtain ⟨-, -, ⟨e0, e1, e2⟩⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 132 ≤ (i 2).val ∧ (i 2).val < win0_2.index t (2 : Fin 3) * 132 + 132; omega

/-- The feature array after the region: row p holds the features of image p's second and third planes of the argument the
    region was entered with. -/
theorem final0 (c : Dev nD) : (dat0 V c).arrAt 2 cfg0.N = G0 (V c main_arg0) :=
  (dat0 V c).arrAt_eq_of_cover 2 (G0 (V c main_arg0)) (fun t _ => flushed0_eq V c t) cover

end Cert.KernelIdeal.KVal0b

end
-- ==== Proof.KFinal.lean ====
/-
  The kernel's result as a function of its arguments.

  Region 1 writes the head of what it is handed; it is handed the arguments and, through the host
  reshape, the feature array region 0 left: per image the 132 features of its two planes.
-/
import proofs.«117902_j75557064671630_2_alg».proof.Proof.KRun
import proofs.«117902_j75557064671630_2_alg».proof.Proof.KValue1
import proofs.«117902_j75557064671630_2_alg».proof.Proof.KValue0b
import Idealize.ShloMosaic.Lib.StableHlo.Run

set_option maxRecDepth 16384

noncomputable section

namespace Cert.KernelIdeal.KFin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Frm Cert.KernelIdeal.KVal0 Cert.KernelIdeal.KVal0b

section Generic
variable {F : FTy → Type} [FloatOps F]
variable (m : (ℓ : Loc nD τ sig) → Buf (Elt F) ℓ) (ρ : Dev nD → PrngReg)

/-- The host reshape: region 1's feature operand is the feature array with its unit axis dropped. -/
theorem E2_v1 (c : Dev nD) :
    (E2 m ρ c main_v1 : Vec F S32x132 .f32) = shapeCast S32x132 (E1 m ρ c main_v0 : Vec F S32x1x132 .f32) shapeCasts_S32x1x132_S32x132 := by
  show StableHlo.after hostOps1 (B1 m ρ c) (Proc.devRef .tc main_v1) = _
  after_results
  rfl

theorem E2_arg1 (c : Dev nD) : E2 m ρ c main_arg1 = m ((c : Thread nD τ).loc main_arg1) :=
  (B2_of_ne m ρ c main_arg1 (by decide)).trans ((B1_of_ne m ρ c main_arg1 (by decide)).trans rfl)
theorem E2_arg2 (c : Dev nD) : E2 m ρ c main_arg2 = m ((c : Thread nD τ).loc main_arg2) :=
  (B2_of_ne m ρ c main_arg2 (by decide)).trans ((B1_of_ne m ρ c main_arg2 (by decide)).trans rfl)
theorem E2_arg3 (c : Dev nD) : E2 m ρ c main_arg3 = m ((c : Thread nD τ).loc main_arg3) :=
  (B2_of_ne m ρ c main_arg3 (by decide)).trans ((B1_of_ne m ρ c main_arg3 (by decide)).trans rfl)
theorem E2_arg4 (c : Dev nD) : E2 m ρ c main_arg4 = m ((c : Thread nD τ).loc main_arg4) :=
  (B2_of_ne m ρ c main_arg4 (by decide)).trans ((B1_of_ne m ρ c main_arg4 (by decide)).trans rfl)

/-- The feature array after region 0: the features of every image's two planes. -/
theorem E1_v0 (c : Dev nD) : (E1 m ρ c main_v0 : Vec F S32x1x132 .f32) = G0 (m ((c : Thread nD τ).loc main_arg0)) :=
  (B1_v0 m ρ c).trans (final0 (E0 m ρ) c)

end Generic

variable (m : (ℓ : Loc nD τ sig) → Buf (Elt Ideal) ℓ) (ρ : Dev nD → PrngReg)

/-- THE KERNEL'S RESULT at the ideal instance. -/
def result (c : Dev nD) : Buf (Elt Ideal) ((c.tc : Thread nD τ).loc main_v2) :=
  Cert.LibBatchNormTrain.head (Ideal.ofBits .f32 0x42000000#32) (Ideal.ofBits .f32 0x3727C5AC#32)
    (shapeCast S32x132 (G0 (m ((c : Thread nD τ).loc main_arg0))) shapeCasts_S32x1x132_S32x132 : Vec Ideal S32x132 .f32)
    (m ((c : Thread nD τ).loc main_arg1) : Vec Ideal S132x256 .f32) (m ((c : Thread nD τ).loc main_arg2) : Vec Ideal S256 .f32)
    (m ((c : Thread nD τ).loc main_arg3) : Vec Ideal S256 .f32) (m ((c : Thread nD τ).loc main_arg4) : Vec Ideal S256 .f32)

theorem kernel_result (c : Dev nD) : B3 m ρ c (Proc.devRef .tc main_v2) = result m c := by
  rw [result_eq, Cert.KernelIdeal.KVal1.final1_5_head (E2 m ρ) c, E2_v1, E2_arg1, E2_arg2, E2_arg3, E2_arg4, E1_v0]
  rfl

end Cert.KernelIdeal.KFin

end
-- ==== Proof.HeadReference.lean ====
/-
  The reference's last stages are the head.

  From the [32, 132] feature matrix on, the reference contracts with the [132, 256] weights, adds the bias vector placed
  as a row and spread over the rows, floors at zero against the zero word spread from a scalar, and normalises each of
  the 256 columns by the statistics of its 32 entries: sums from a zero initial value divided by the word for 32 spread
  from a scalar, the centred matrix, the sums of its squares divided by the same word, the word for eps added, the root,
  the scale and the shift.  Read on the extended reals that is `head` at those two words, whatever the feature matrix:
  the first five stages are the host's spelling of a layer, the rest the host's spelling of the normalisation.
-/
import Idealize.ShloMosaic.PureOps.Ideal
import Idealize.ShloMosaic.PureOps.Ideal.Laws
import Idealize.ShloMosaic.Lib.ValueIdx
import Idealize.ShloMosaic.Lib.Pipeline.Value
import proofs.«117902_j75557064671630_2_alg».proof.Proof.Gen.ReferenceIdeal.Read
import proofs.«117902_j75557064671630_2_alg».proof.Proof.LibBatchNormTrain

noncomputable section

open Idealize.ShloMosaic Idealize.ShloMosaic.TcCoe

namespace Cert.ReferenceIdeal.HeadValue

open Cert.ReferenceIdeal Cert.ReferenceIdeal.Gen Cert.ReferenceIdeal.Read Cert.LibRowStages Cert.LibLayer
  Cert.LibBatchNormTrain

/-- The layer: the contraction, the bias vector placed as a row and spread, the maximum against the spread zero word —
    a layer of whatever matrix stands in the feature matrix's place. -/
theorem layer_eq (f : FVec Ideal S32x132 .f32) (x1 : FVec Ideal S132x256 .f32) (x2 : FVec Ideal S256 .f32) :
    maximumf
        (addf (Host.dotGeneral dot_S32x132_S132x256_S32x256_1_0_0_1_n_n none f x1)
          (broadcastInDim S32x256 ![0, 1] bcast_S1x256_S32x256_0_1 (broadcastInDim S1x256 ![1] bcast_S256_S1x256_1 x2)))
        (broadcastInDim S32x256 ![] bcast_S_S32x256 (constant (F := Ideal) S_ .f32 0x00000000#32))
      = layer f x1 (asRow x2) := by
  rw [dotGeneral_eq_mm dot_S32x132_S132x256_S32x256_1_0_0_1_n_n rfl rfl rfl rfl rfl rfl,
    vecRow_eq_asRow bcast_S256_S1x256_1, addf_hostSpread_eq_addRow bcast_S1x256_S32x256_0_1,
    maximumf_hostZero_eq_relu bcast_S_S32x256]
  rfl

/-- The stage after the rectifier is the layer of the feature-matrix stage. -/
theorem val_main_v116_eq_layer (x0 : (⟨S32x3x1024x1024, .f32⟩ : BufTy).Contents (Elt Ideal))
    (x1 : (⟨S132x256, .f32⟩ : BufTy).Contents (Elt Ideal)) (x2 : (⟨S256, .f32⟩ : BufTy).Contents (Elt Ideal)) :
    val_main_v116 (F := Ideal) x0 x1 x2 = layer (val_main_v111 (F := Ideal) x0) x1 (asRow x2) := by
  unfold val_main_v116 val_main_v115 val_main_v114 val_main_v113 val_main_v112 val_main_call2_v0 val_main_call2_cst
  exact layer_eq _ x1 x2

/-- The reference's result is the head of the feature-matrix stage and the four parameter arrays, at the words for 32
    and for eps. -/
theorem val_main_v141_eq_head (x0 : (⟨S32x3x1024x1024, .f32⟩ : BufTy).Contents (Elt Ideal))
    (x1 : (⟨S132x256, .f32⟩ : BufTy).Contents (Elt Ideal)) (x2 x3 x4 : (⟨S256, .f32⟩ : BufTy).Contents (Elt Ideal)) :
    val_main_v141 (F := Ideal) x0 x1 x2 x3 x4
      = head (Ideal.ofBits .f32 0x42000000#32) (Ideal.ofBits .f32 0x3727C5AC#32) (val_main_v111 (F := Ideal) x0) x1 x2 x3 x4 := by
  unfold val_main_v141 val_main_v140 val_main_v139 val_main_v138 val_main_v137 val_main_v136 val_main_v135 val_main_v134
    val_main_v133 val_main_cst_38 val_main_v132 val_main_v131 val_main_v130 val_main_v129 val_main_v128 val_main_v127
    val_main_v126 val_main_v125 val_main_cst_37 val_main_v124 val_main_cst_36 val_main_v123 val_main_v122 val_main_v121
    val_main_v120 val_main_v119 val_main_v118 val_main_cst_35 val_main_v117 val_main_cst_34
  refine (host_bnTrain reducesTo_S32x256_S256_d0 (by decide) h_S_ bcast_S_S256 bcast_S256_S1x256_1 bcast_S1x256_S32x256_0_1
    0x42000000#32 0x3727C5AC#32 _ x3 x4).trans ?_
  rw [val_main_v116_eq_layer]
  rfl

end Cert.ReferenceIdeal.HeadValue

end
-- ==== Proof.KPayFinal.lean ====
/-
  The first kernel's closing arithmetic and its stored row, read entry by entry on the extended reals.

  After a channel's loop the 64 bin counts are divided by their total plus a guard word; the plane's variance is taken
  in the shifted form (sum of squares - (sum * sum) / N) / (N - 1) with the words for N = 2^20 and N - 1; the mean
  patch variance is the sum of the patch variances over the word for 16384. The stored row lays the first channel's
  64 normalised counts, the second channel's 64, then the first channel's two variances and the second channel's two
  side by side, and gains a leading unit axis. So each of the 132 features of an image is one of these expressions in
  the final accumulators of the two loops.
-/
import proofs.«117902_j75557064671630_2_alg».proof.Proof.KValue0a
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.TcCoe
open Idealize.ShloMosaic.ValueIdx
open Cert.KernelIdeal Cert.KernelIdeal.Gen Cert.KernelIdeal.KVal0

/-- What the words of the closing arithmetic denote: the guard added to a histogram's total, the number of pixels of a
    plane, that number less one, the number of patches of a plane. -/
abbrev eps8 : EReal := Ideal.ofBits .f32 0x322BCC77#32
abbrev wN : EReal := Ideal.ofBits .f32 0x49800000#32
abbrev wN1 : EReal := Ideal.ofBits .f32 0x497FFFF0#32
abbrev w16384 : EReal := Ideal.ofBits .f32 0x46800000#32

/-! ## A row's total, and a histogram divided by its guarded total -/

private theorem rowLift {n d : ℕ} (h : (⟨2, ![n, d]⟩ : Shape).Reduces [1] ⟨1, ![n]⟩) (p : Fin n) (c : Fin d) :
    h.lift (ix1 p) c = ix2 p c :=
  funext fun a => Fin.ext (by
    match a with
    | ⟨0, _⟩ => rfl
    | ⟨1, _⟩ => rfl)

/-- An add-reduction along a row of a matrix: the row's sum (the neutral accumulator adds nothing). -/
private theorem rowSum {n d : ℕ} (src : FVec Ideal ⟨2, ![n, d]⟩ .f32) (acc : BitVec 32)
    (h : (⟨2, ![n, d]⟩ : Shape).Reduces [1] ⟨1, ![n]⟩) (hφ : FKind.Formats .f32) (hacc : acc = FKind.add.neutral .f32 hφ) (p : Fin n) :
    multiReduction .add [1] ⟨1, ![n]⟩ src acc h hφ hacc (ix1 p) = ∑ c : Fin d, src (ix2 p c) :=
  (Ideal.multiReduction_add_single src acc h hφ hacc (ix1 p)).trans
    (Finset.sum_congr rfl fun c _ => congrArg src (rowLift h p c))

/-- A one-row matrix divided by its row total plus a word, the total reshaped to [1, 1] and spread along the row:
    entry q is the entry over the total plus the word. -/
private theorem normalised_apply {d : ℕ} (hc : (⟨1, ![1]⟩ : Shape).ShapeCasts ⟨2, ![1, 1]⟩)
    (hb : (⟨2, ![1, 1]⟩ : Shape).Broadcasts ⟨2, ![1, d]⟩) (hr : (⟨2, ![1, d]⟩ : Shape).Reduces [1] ⟨1, ![1]⟩)
    (hφ : FKind.Formats .f32) (acc : BitVec 32) (hacc : acc = FKind.add.neutral .f32 hφ) (w : BitVec 32)
    (h : FVec Ideal ⟨2, ![1, d]⟩ .f32) (q : Fin d) :
    divf h (broadcastTo ⟨2, ![1, d]⟩
        (addf (shapeCast ⟨2, ![1, 1]⟩ (multiReduction .add [1] ⟨1, ![1]⟩ h acc hr hφ hacc) hc)
          (broadcast ⟨2, ![1, 1]⟩ (Scalar.ofBits (F := Ideal) .f32 w))) hb) (ix2 (0 : Fin 1) q)
      = Ideal.div (h (ix2 (0 : Fin 1) q)) ((∑ k : Fin d, h (ix2 (0 : Fin 1) k)) + Ideal.ofBits .f32 w) := by
  show Ideal.div (h (ix2 (0 : Fin 1) q)) (broadcastTo ⟨2, ![1, d]⟩
        (addf (shapeCast ⟨2, ![1, 1]⟩ (multiReduction .add [1] ⟨1, ![1]⟩ h acc hr hφ hacc) hc)
          (broadcast ⟨2, ![1, 1]⟩ (Scalar.ofBits (F := Ideal) .f32 w))) hb (ix2 (0 : Fin 1) q)) = _
  rw [broadcastTo_apply _ hb (ix2 (0 : Fin 1) q) (ix2 (0 : Fin 1) (0 : Fin 1)) (fun a => by
    match a with
    | ⟨0, _⟩ => rfl
    | ⟨1, _⟩ => rfl)]
  show Ideal.div _ (shapeCast ⟨2, ![1, 1]⟩ (multiReduction .add [1] ⟨1, ![1]⟩ h acc hr hφ hacc) hc (ix2 (0 : Fin 1) (0 : Fin 1))
      + Ideal.ofBits .f32 w) = _
  rw [shapeCast_a_1a_apply _ hc (0 : Fin 1) (0 : Fin 1), rowSum]

/-- The first channel's histogram after its loop, divided by its total plus the guard word (no zero word stands in front
    of the total: the reduction's neutral accumulator adds nothing). -/
theorem k0_pay23_apply (h : FVec Ideal S1x64 .f32) (q : Fin 64) :
    k0_pay23 (F := Ideal) h (ix2 (0 : Fin 1) q)
      = Ideal.div (h (ix2 (0 : Fin 1) q)) ((∑ k : Fin 64, h (ix2 (0 : Fin 1) k)) + eps8) := by
  unfold k0_pay23
  exact normalised_apply shapeCasts_S1_S1x1 broadcasts_S1x1_S1x64 reduces_S1x64_S1 (.inl rfl) 0x00000000#32 rfl 0x322BCC77#32 h q

/-- The second channel's, the same text. -/
theorem k0_pay31_apply (h : FVec Ideal S1x64 .f32) (q : Fin 64) :
    k0_pay31 (F := Ideal) h (ix2 (0 : Fin 1) q)
      = Ideal.div (h (ix2 (0 : Fin 1) q)) ((∑ k : Fin 64, h (ix2 (0 : Fin 1) k)) + eps8) := by
  unfold k0_pay31
  exact normalised_apply shapeCasts_S1_S1x1 broadcasts_S1x1_S1x64 reduces_S1x64_S1 (.inl rfl) 0x00000000#32 rfl 0x322BCC77#32 h q

/-! ## The closing arithmetic on the [1, 1] accumulators: entry by entry -/

/-- The plane's variance in the shifted form: (sum of squares - (sum * sum) / N) / (N - 1). -/
theorem k0_pay24_apply (s q : FVec Ideal S1x1 .f32) (i : S1x1.Idx) :
    k0_pay24 (F := Ideal) s q i = Ideal.div (q i - Ideal.div (s i * s i) wN) wN1 := rfl

/-- The mean patch variance: the sum of the patch variances over the number of patches. -/
theorem k0_pay25_apply (vs : FVec Ideal S1x1 .f32) (i : S1x1.Idx) :
    k0_pay25 (F := Ideal) vs i = Ideal.div (vs i) w16384 := rfl

/-- The second channel's first step: the square of the sum. -/
theorem k0_pay32_apply (s : FVec Ideal S1x1 .f32) (i : S1x1.Idx) :
    k0_pay32 (F := Ideal) s i = s i * s i := rfl

/-! ## Six one-row pieces laid side by side, of widths 64, 64, 1, 1, 1, 1: column j is in the piece whose span holds it -/

/-- Columns 0 … 63 are the first piece's. -/
private theorem row6_0 {α : Type} (x0 x1 : S1x64.Idx → α) (x2 x3 x4 x5 : S1x1.Idx → α)
    (h : Shape.Concatenates [S1x64, S1x64, S1x1, S1x1, S1x1, S1x1] S1x132 1) (j : Fin 132) (hj : j.val < 64) :
    concatenate S1x132 1 [⟨S1x64, x0⟩, ⟨S1x64, x1⟩, ⟨S1x1, x2⟩, ⟨S1x1, x3⟩, ⟨S1x1, x4⟩, ⟨S1x1, x5⟩] h (ix2 (0 : Fin 1) j) = x0 (ix2 (0 : Fin 1) (⟨j.val, hj⟩ : Fin 64)) :=
  concatenate_apply_piece (t := S1x132) (1 : Fin 2) [⟨S1x64, x0⟩, ⟨S1x64, x1⟩, ⟨S1x1, x2⟩, ⟨S1x1, x3⟩, ⟨S1x1, x4⟩, ⟨S1x1, x5⟩] h
    (ix2 (0 : Fin 1) j) 0 (by show (0 : ℕ) < 6; omega) S1x64 x0 rfl rfl 0 rfl (ix2 (0 : Fin 1) (⟨j.val, hj⟩ : Fin 64))
    (fun b hb => by
      match b with
      | ⟨0, _⟩ => rfl
      | ⟨1, _⟩ => exact absurd rfl hb)
    (by show 0 + j.val = j.val; omega)

/-- Columns 64 … 127 are the second piece's. -/
private theorem row6_1 {α : Type} (x0 x1 : S1x64.Idx → α) (x2 x3 x4 x5 : S1x1.Idx → α)
    (h : Shape.Concatenates [S1x64, S1x64, S1x1, S1x1, S1x1, S1x1] S1x132 1) (j : Fin 132) (hlo : 64 ≤ j.val) (hhi : j.val < 128) :
    concatenate S1x132 1 [⟨S1x64, x0⟩, ⟨S1x64, x1⟩, ⟨S1x1, x2⟩, ⟨S1x1, x3⟩, ⟨S1x1, x4⟩, ⟨S1x1, x5⟩] h (ix2 (0 : Fin 1) j) = x1 (ix2 (0 : Fin 1) (⟨j.val - 64, by omega⟩ : Fin 64)) :=
  concatenate_apply_piece (t := S1x132) (1 : Fin 2) [⟨S1x64, x0⟩, ⟨S1x64, x1⟩, ⟨S1x1, x2⟩, ⟨S1x1, x3⟩, ⟨S1x1, x4⟩, ⟨S1x1, x5⟩] h
    (ix2 (0 : Fin 1) j) 1 (by show (1 : ℕ) < 6; omega) S1x64 x1 rfl rfl (64 + 0) rfl (ix2 (0 : Fin 1) (⟨j.val - 64, by omega⟩ : Fin 64))
    (fun b hb => by
      match b with
      | ⟨0, _⟩ => rfl
      | ⟨1, _⟩ => exact absurd rfl hb)
    (by show (64 + 0) + (j.val - 64) = j.val; omega)

/-- Column 128 is the third piece. -/
private theorem row6_2 {α : Type} (x0 x1 : S1x64.Idx → α) (x2 x3 x4 x5 : S1x1.Idx → α)
    (h : Shape.Concatenates [S1x64, S1x64, S1x1, S1x1, S1x1, S1x1] S1x132 1) (j : Fin 132) (hj : j.val = 128) :
    concatenate S1x132 1 [⟨S1x64, x0⟩, ⟨S1x64, x1⟩, ⟨S1x1, x2⟩, ⟨S1x1, x3⟩, ⟨S1x1, x4⟩, ⟨S1x1, x5⟩] h (ix2 (0 : Fin 1) j) = x2 (ix2 (0 : Fin 1) (0 : Fin 1)) :=
  concatenate_apply_piece (t := S1x132) (1 : Fin 2) [⟨S1x64, x0⟩, ⟨S1x64, x1⟩, ⟨S1x1, x2⟩, ⟨S1x1, x3⟩, ⟨S1x1, x4⟩, ⟨S1x1, x5⟩] h
    (ix2 (0 : Fin 1) j) 2 (by show (2 : ℕ) < 6; omega) S1x1 x2 rfl rfl (64 + (64 + 0)) rfl (ix2 (0 : Fin 1) (0 : Fin 1))
    (fun b hb => by
      match b with
      | ⟨0, _⟩ => rfl
      | ⟨1, _⟩ => exact absurd rfl hb)
    (by show (64 + (64 + 0)) + 0 = j.val; omega)

/-- Column 129 is the fourth piece. -/
private theorem row6_3 {α : Type} (x0 x1 : S1x64.Idx → α) (x2 x3 x4 x5 : S1x1.Idx → α)
    (h : Shape.Concatenates [S1x64, S1x64, S1x1, S1x1, S1x1, S1x1] S1x132 1) (j : Fin 132) (hj : j.val = 129) :
    concatenate S1x132 1 [⟨S1x64, x0⟩, ⟨S1x64, x1⟩, ⟨S1x1, x2⟩, ⟨S1x1, x3⟩, ⟨S1x1, x4⟩, ⟨S1x1, x5⟩] h (ix2 (0 : Fin 1) j) = x3 (ix2 (0 : Fin 1) (0 : Fin 1)) :=
  concatenate_apply_piece (t := S1x132) (1 : Fin 2) [⟨S1x64, x0⟩, ⟨S1x64, x1⟩, ⟨S1x1, x2⟩, ⟨S1x1, x3⟩, ⟨S1x1, x4⟩, ⟨S1x1, x5⟩] h
    (ix2 (0 : Fin 1) j) 3 (by show (3 : ℕ) < 6; omega) S1x1 x3 rfl rfl (64 + (64 + (1 + 0))) rfl (ix2 (0 : Fin 1) (0 : Fin 1))
    (fun b hb => by
      match b with
      | ⟨0, _⟩ => rfl
      | ⟨1, _⟩ => exact absurd rfl hb)
    (by show (64 + (64 + (1 + 0))) + 0 = j.val; omega)

/-- Column 130 is the fifth piece. -/
private theorem row6_4 {α : Type} (x0 x1 : S1x64.Idx → α) (x2 x3 x4 x5 : S1x1.Idx → α)
    (h : Shape.Concatenates [S1x64, S1x64, S1x1, S1x1, S1x1, S1x1] S1x132 1) (j : Fin 132) (hj : j.val = 130) :
    concatenate S1x132 1 [⟨S1x64, x0⟩, ⟨S1x64, x1⟩, ⟨S1x1, x2⟩, ⟨S1x1, x3⟩, ⟨S1x1, x4⟩, ⟨S1x1, x5⟩] h (ix2 (0 : Fin 1) j) = x4 (ix2 (0 : Fin 1) (0 : Fin 1)) :=
  concatenate_apply_piece (t := S1x132) (1 : Fin 2) [⟨S1x64, x0⟩, ⟨S1x64, x1⟩, ⟨S1x1, x2⟩, ⟨S1x1, x3⟩, ⟨S1x1, x4⟩, ⟨S1x1, x5⟩] h
    (ix2 (0 : Fin 1) j) 4 (by show (4 : ℕ) < 6; omega) S1x1 x4 rfl rfl (64 + (64 + (1 + (1 + 0)))) rfl (ix2 (0 : Fin 1) (0 : Fin 1))
    (fun b hb => by
      match b with
      | ⟨0, _⟩ => rfl
      | ⟨1, _⟩ => exact absurd rfl hb)
    (by show (64 + (64 + (1 + (1 + 0)))) + 0 = j.val; omega)

/-- Column 131 is the sixth piece. -/
private theorem row6_5 {α : Type} (x0 x1 : S1x64.Idx → α) (x2 x3 x4 x5 : S1x1.Idx → α)
    (h : Shape.Concatenates [S1x64, S1x64, S1x1, S1x1, S1x1, S1x1] S1x132 1) (j : Fin 132) (hj : j.val = 131) :
    concatenate S1x132 1 [⟨S1x64, x0⟩, ⟨S1x64, x1⟩, ⟨S1x1, x2⟩, ⟨S1x1, x3⟩, ⟨S1x1, x4⟩, ⟨S1x1, x5⟩] h (ix2 (0 : Fin 1) j) = x5 (ix2 (0 : Fin 1) (0 : Fin 1)) :=
  concatenate_apply_piece (t := S1x132) (1 : Fin 2) [⟨S1x64, x0⟩, ⟨S1x64, x1⟩, ⟨S1x1, x2⟩, ⟨S1x1, x3⟩, ⟨S1x1, x4⟩, ⟨S1x1, x5⟩] h
    (ix2 (0 : Fin 1) j) 5 (by show (5 : ℕ) < 6; omega) S1x1 x5 rfl rfl (64 + (64 + (1 + (1 + (1 + 0))))) rfl (ix2 (0 : Fin 1) (0 : Fin 1))
    (fun b hb => by
      match b with
      | ⟨0, _⟩ => rfl
      | ⟨1, _⟩ => exact absurd rfl hb)
    (by show (64 + (64 + (1 + (1 + (1 + 0))))) + 0 = j.val; omega)

/-! ## The stored row of 132 features: the six pieces side by side, then a leading unit axis -/

/-- Entries 0 … 63: the first channel's normalised histogram. -/
theorem k0_pay1_hist1 (v12 : FVec Ideal S1x64 .f32) (v18 v20 v27_2 v27_3 : FVec Ideal S1x1 .f32) (v33 : FVec Ideal S1x64 .f32) (v34 : FVec Ideal S1x1 .f32) (cst_19 : Ideal .f32) (j : Fin 132) (hj : j.val < 64) :
    k0_pay1 (F := Ideal) v12 v18 v20 v27_2 v27_3 v33 v34 cst_19 (ix3 (0 : Fin 1) (0 : Fin 1) j) = v12 (ix2 (0 : Fin 1) (⟨j.val, hj⟩ : Fin 64)) := by
  unfold k0_pay1
  refine (shapeCast_ab_1ab_apply _ shapeCasts_S1x132_S1x1x132 (0 : Fin 1) (0 : Fin 1) j).trans ?_
  refine (row6_0 _ _ _ _ _ _ concatenates_S1x64_S1x64_S1x1_S1x1_S1x1_S1x1_S1x132_d1 j hj).trans ?_
  rfl

/-- Entries 64 … 127: the second channel's normalised histogram. -/
theorem k0_pay1_hist2 (v12 : FVec Ideal S1x64 .f32) (v18 v20 v27_2 v27_3 : FVec Ideal S1x1 .f32) (v33 : FVec Ideal S1x64 .f32) (v34 : FVec Ideal S1x1 .f32) (cst_19 : Ideal .f32) (j : Fin 132) (hlo : 64 ≤ j.val) (hhi : j.val < 128) :
    k0_pay1 (F := Ideal) v12 v18 v20 v27_2 v27_3 v33 v34 cst_19 (ix3 (0 : Fin 1) (0 : Fin 1) j) = v33 (ix2 (0 : Fin 1) (⟨j.val - 64, by omega⟩ : Fin 64)) := by
  unfold k0_pay1
  refine (shapeCast_ab_1ab_apply _ shapeCasts_S1x132_S1x1x132 (0 : Fin 1) (0 : Fin 1) j).trans ?_
  refine (row6_1 _ _ _ _ _ _ concatenates_S1x64_S1x64_S1x1_S1x1_S1x1_S1x1_S1x132_d1 j hlo hhi).trans ?_
  rfl

/-- Entry 128: the first channel's variance. -/
theorem k0_pay1_gv1 (v12 : FVec Ideal S1x64 .f32) (v18 v20 v27_2 v27_3 : FVec Ideal S1x1 .f32) (v33 : FVec Ideal S1x64 .f32) (v34 : FVec Ideal S1x1 .f32) (cst_19 : Ideal .f32) (j : Fin 132) (hj : j.val = 128) :
    k0_pay1 (F := Ideal) v12 v18 v20 v27_2 v27_3 v33 v34 cst_19 (ix3 (0 : Fin 1) (0 : Fin 1) j) = v18 (ix2 (0 : Fin 1) (0 : Fin 1)) := by
  unfold k0_pay1
  refine (shapeCast_ab_1ab_apply _ shapeCasts_S1x132_S1x1x132 (0 : Fin 1) (0 : Fin 1) j).trans ?_
  refine (row6_2 _ _ _ _ _ _ concatenates_S1x64_S1x64_S1x1_S1x1_S1x1_S1x1_S1x132_d1 j hj).trans ?_
  rfl

/-- Entry 129: the first channel's mean patch variance. -/
theorem k0_pay1_lv1 (v12 : FVec Ideal S1x64 .f32) (v18 v20 v27_2 v27_3 : FVec Ideal S1x1 .f32) (v33 : FVec Ideal S1x64 .f32) (v34 : FVec Ideal S1x1 .f32) (cst_19 : Ideal .f32) (j : Fin 132) (hj : j.val = 129) :
    k0_pay1 (F := Ideal) v12 v18 v20 v27_2 v27_3 v33 v34 cst_19 (ix3 (0 : Fin 1) (0 : Fin 1) j) = v20 (ix2 (0 : Fin 1) (0 : Fin 1)) := by
  unfold k0_pay1
  refine (shapeCast_ab_1ab_apply _ shapeCasts_S1x132_S1x1x132 (0 : Fin 1) (0 : Fin 1) j).trans ?_
  refine (row6_3 _ _ _ _ _ _ concatenates_S1x64_S1x64_S1x1_S1x1_S1x1_S1x1_S1x132_d1 j hj).trans ?_
  rfl

/-- Entry 130: the second channel's variance, its last two steps taken here. -/
theorem k0_pay1_gv2 (v12 : FVec Ideal S1x64 .f32) (v18 v20 v27_2 v27_3 : FVec Ideal S1x1 .f32) (v33 : FVec Ideal S1x64 .f32) (v34 : FVec Ideal S1x1 .f32) (cst_19 : Ideal .f32) (j : Fin 132) (hj : j.val = 130) :
    k0_pay1 (F := Ideal) v12 v18 v20 v27_2 v27_3 v33 v34 cst_19 (ix3 (0 : Fin 1) (0 : Fin 1) j)
      = Ideal.div (v27_2 (ix2 (0 : Fin 1) (0 : Fin 1)) - Ideal.div (v34 (ix2 (0 : Fin 1) (0 : Fin 1))) cst_19) wN1 := by
  unfold k0_pay1
  refine (shapeCast_ab_1ab_apply _ shapeCasts_S1x132_S1x1x132 (0 : Fin 1) (0 : Fin 1) j).trans ?_
  refine (row6_4 _ _ _ _ _ _ concatenates_S1x64_S1x64_S1x1_S1x1_S1x1_S1x1_S1x132_d1 j hj).trans ?_
  rfl

/-- Entry 131: the second channel's mean patch variance, its division taken here. -/
theorem k0_pay1_lv2 (v12 : FVec Ideal S1x64 .f32) (v18 v20 v27_2 v27_3 : FVec Ideal S1x1 .f32) (v33 : FVec Ideal S1x64 .f32) (v34 : FVec Ideal S1x1 .f32) (cst_19 : Ideal .f32) (j : Fin 132) (hj : j.val = 131) :
    k0_pay1 (F := Ideal) v12 v18 v20 v27_2 v27_3 v33 v34 cst_19 (ix3 (0 : Fin 1) (0 : Fin 1) j) = Ideal.div (v27_3 (ix2 (0 : Fin 1) (0 : Fin 1))) w16384 := by
  unfold k0_pay1
  refine (shapeCast_ab_1ab_apply _ shapeCasts_S1x132_S1x1x132 (0 : Fin 1) (0 : Fin 1) j).trans ?_
  refine (row6_5 _ _ _ _ _ _ concatenates_S1x64_S1x64_S1x1_S1x1_S1x1_S1x1_S1x132_d1 j hj).trans ?_
  rfl

/-! ## One image's 132 features, from the two loops' final accumulators -/

/-- Features 0 … 63: the first plane's bin counts over their total plus the guard. -/
theorem imgFeat_hist1 (x0 x1 : Vec Ideal S1x1x1024x1024 .f32) (j : Fin 132) (hj : j.val < 64) :
    imgFeat (F := Ideal) x0 x1 (ix3 (0 : Fin 1) (0 : Fin 1) j)
      = Ideal.div ((loop1 x0).1 (ix2 (0 : Fin 1) (⟨j.val, hj⟩ : Fin 64)))
          ((∑ k : Fin 64, (loop1 x0).1 (ix2 (0 : Fin 1) k)) + eps8) :=
  (k0_pay1_hist1 _ _ _ _ _ _ _ _ j hj).trans (k0_pay23_apply _ _)

/-- Features 64 … 127: the second plane's bin counts over their total plus the guard. -/
theorem imgFeat_hist2 (x0 x1 : Vec Ideal S1x1x1024x1024 .f32) (j : Fin 132) (hlo : 64 ≤ j.val) (hhi : j.val < 128) :
    imgFeat (F := Ideal) x0 x1 (ix3 (0 : Fin 1) (0 : Fin 1) j)
      = Ideal.div ((loop2 x1).1 (ix2 (0 : Fin 1) (⟨j.val - 64, by omega⟩ : Fin 64)))
          ((∑ k : Fin 64, (loop2 x1).1 (ix2 (0 : Fin 1) k)) + eps8) :=
  (k0_pay1_hist2 _ _ _ _ _ _ _ _ j hlo hhi).trans (k0_pay31_apply _ _)

/-- Feature 128: the first plane's variance in the shifted form. -/
theorem imgFeat_gv1 (x0 x1 : Vec Ideal S1x1x1024x1024 .f32) (j : Fin 132) (hj : j.val = 128) :
    imgFeat (F := Ideal) x0 x1 (ix3 (0 : Fin 1) (0 : Fin 1) j)
      = Ideal.div ((loop1 x0).2.2.1 (ix2 (0 : Fin 1) (0 : Fin 1))
          - Ideal.div ((loop1 x0).2.1 (ix2 (0 : Fin 1) (0 : Fin 1)) * (loop1 x0).2.1 (ix2 (0 : Fin 1) (0 : Fin 1))) wN) wN1 :=
  (k0_pay1_gv1 _ _ _ _ _ _ _ _ j hj).trans (k0_pay24_apply _ _ _)

/-- Feature 129: the first plane's mean patch variance. -/
theorem imgFeat_lv1 (x0 x1 : Vec Ideal S1x1x1024x1024 .f32) (j : Fin 132) (hj : j.val = 129) :
    imgFeat (F := Ideal) x0 x1 (ix3 (0 : Fin 1) (0 : Fin 1) j)
      = Ideal.div ((loop1 x0).2.2.2 (ix2 (0 : Fin 1) (0 : Fin 1))) w16384 :=
  (k0_pay1_lv1 _ _ _ _ _ _ _ _ j hj).trans (k0_pay25_apply _ _)

/-- Feature 130: the second plane's variance in the shifted form. -/
theorem imgFeat_gv2 (x0 x1 : Vec Ideal S1x1x1024x1024 .f32) (j : Fin 132) (hj : j.val = 130) :
    imgFeat (F := Ideal) x0 x1 (ix3 (0 : Fin 1) (0 : Fin 1) j)
      = Ideal.div ((loop2 x1).2.2.1 (ix2 (0 : Fin 1) (0 : Fin 1))
          - Ideal.div ((loop2 x1).2.1 (ix2 (0 : Fin 1) (0 : Fin 1)) * (loop2 x1).2.1 (ix2 (0 : Fin 1) (0 : Fin 1))) wN) wN1 :=
  k0_pay1_gv2 _ _ _ _ _ _ _ _ j hj

/-- Feature 131: the second plane's mean patch variance. -/
theorem imgFeat_lv2 (x0 x1 : Vec Ideal S1x1x1024x1024 .f32) (j : Fin 132) (hj : j.val = 131) :
    imgFeat (F := Ideal) x0 x1 (ix3 (0 : Fin 1) (0 : Fin 1) j)
      = Ideal.div ((loop2 x1).2.2.2 (ix2 (0 : Fin 1) (0 : Fin 1))) w16384 :=
  k0_pay1_lv2 _ _ _ _ _ _ _ _ j hj

end Cert.KernelIdeal.PayValue

end
-- ==== Proof.LibTripSums.lean ====
/-
  Accumulation by a counted loop, as a closed sum.

  A loop of n trips carries a value: before trip 0 it is init, and trip k turns the carried value s into s + g k, where g k
  (trip k's contribution) does not depend on s.  Then after the n trips the carried value is init + g 0 + … + g (n-1):
  init plus the sum of the contributions.  The same componentwise for a carried tuple, and pointwise for a carried vector.
  Everything is in an arbitrary additive commutative monoid.
-/
import Mathlib.Algebra.BigOperators.Group.Finset.Basic
import Mathlib.Algebra.BigOperators.Fin
import Mathlib.Data.Fintype.BigOperators

noncomputable section

namespace Idealize.ShloMosaic

open scoped BigOperators

/-! ### One carried value -/

/-- The carried value after n trips is init plus the sum of the trips' contributions (sum over the range of n). -/
theorem trip_sum_range {M : Type*} [AddCommMonoid M] (n : ℕ) (st g : ℕ → M) (init : M) (h0 : st 0 = init)
    (hs : ∀ k, k < n → st (k + 1) = st k + g k) : st n = init + ∑ k ∈ Finset.range n, g k := by
  induction n with
  | zero => simp [h0]
  | succ m ih =>
    rw [hs m (Nat.lt_succ_self m), ih fun k hk => hs k (Nat.lt_succ_of_lt hk), Finset.sum_range_succ, add_assoc]

/-- The carried value after n trips is init plus the sum over k : Fin n of the trips' contributions. -/
theorem trip_sum {M : Type*} [AddCommMonoid M] (n : ℕ) (st g : ℕ → M) (init : M) (h0 : st 0 = init)
    (hs : ∀ k, k < n → st (k + 1) = st k + g k) : st n = init + ∑ k : Fin n, g k := by
  rw [trip_sum_range n st g init h0 hs, Fin.sum_univ_eq_sum_range]

/-- The same when a trip adds the carried value on the right: st (k+1) = g k + st k. -/
theorem trip_sum_left {M : Type*} [AddCommMonoid M] (n : ℕ) (st g : ℕ → M) (init : M) (h0 : st 0 = init)
    (hs : ∀ k, k < n → st (k + 1) = g k + st k) : st n = init + ∑ k : Fin n, g k :=
  trip_sum n st g init h0 fun k hk => by rw [hs k hk, add_comm]

/-- The same with the contributions indexed by the trips k : Fin n themselves. -/
theorem trip_sum_fin {M : Type*} [AddCommMonoid M] (n : ℕ) (st : ℕ → M) (g : Fin n → M) (init : M) (h0 : st 0 = init)
    (hs : ∀ k : Fin n, st ((k : ℕ) + 1) = st k + g k) : st n = init + ∑ k : Fin n, g k := by
  have h := trip_sum n st (fun k => if hk : k < n then g ⟨k, hk⟩ else 0) init h0 fun k hk => by
    rw [dif_pos hk]; exact hs ⟨k, hk⟩
  rw [h]
  exact congrArg _ (Finset.sum_congr rfl fun k _ => by rw [dif_pos k.isLt])

/-- With init the zero of the monoid, the carried value after n trips is the sum of the contributions. -/
theorem trip_sum_zero {M : Type*} [AddCommMonoid M] (n : ℕ) (st g : ℕ → M) (h0 : st 0 = 0)
    (hs : ∀ k, k < n → st (k + 1) = st k + g k) : st n = ∑ k : Fin n, g k := by
  rw [trip_sum n st g 0 h0 hs, zero_add]

/-! ### A carried vector, pointwise -/

/-- A carried vector updated pointwise: st (k+1) i = st k i + g k i gives st n i = init i + ∑ k, g k i. -/
theorem trip_sum_pointwise {ι M : Type*} [AddCommMonoid M] (n : ℕ) (st g : ℕ → ι → M) (init : ι → M)
    (h0 : ∀ i, st 0 i = init i) (hs : ∀ k, k < n → ∀ i, st (k + 1) i = st k i + g k i) (i : ι) :
    st n i = init i + ∑ k : Fin n, g k i :=
  trip_sum n (fun k => st k i) (fun k => g k i) (init i) (h0 i) fun k hk => hs k hk i

/-- The pointwise form as an equation of vectors. -/
theorem trip_sum_vector {ι M : Type*} [AddCommMonoid M] (n : ℕ) (st g : ℕ → ι → M) (init : ι → M)
    (h0 : st 0 = init) (hs : ∀ k, k < n → st (k + 1) = fun i => st k i + g k i) :
    st n = fun i => init i + ∑ k : Fin n, g k i :=
  funext fun i => trip_sum_pointwise n st g init (fun i => congrFun h0 i) (fun k hk i => congrFun (hs k hk) i) i

/-! ### A carried tuple, componentwise -/

/-- A carried pair updated componentwise. -/
theorem trip_sum2 {M₁ M₂ : Type*} [AddCommMonoid M₁] [AddCommMonoid M₂] (n : ℕ) (st : ℕ → M₁ × M₂)
    (g₁ : ℕ → M₁) (g₂ : ℕ → M₂) (i₁ : M₁) (i₂ : M₂) (h0 : st 0 = (i₁, i₂))
    (hs : ∀ k, k < n → st (k + 1) = ((st k).1 + g₁ k, (st k).2 + g₂ k)) :
    st n = (i₁ + ∑ k : Fin n, g₁ k, i₂ + ∑ k : Fin n, g₂ k) := by
  refine Prod.ext ?_ ?_
  · exact trip_sum n (fun k => (st k).1) g₁ i₁ (by rw [h0]) fun k hk => by rw [hs k hk]
  · exact trip_sum n (fun k => (st k).2) g₂ i₂ (by rw [h0]) fun k hk => by rw [hs k hk]

/-- A carried 4-tuple updated componentwise, each component by its own contributions. -/
theorem trip_sum4 {M₁ M₂ M₃ M₄ : Type*} [AddCommMonoid M₁] [AddCommMonoid M₂] [AddCommMonoid M₃] [AddCommMonoid M₄]
    (n : ℕ) (st : ℕ → M₁ × M₂ × M₃ × M₄) (g₁ : ℕ → M₁) (g₂ : ℕ → M₂) (g₃ : ℕ → M₃) (g₄ : ℕ → M₄)
    (i₁ : M₁) (i₂ : M₂) (i₃ : M₃) (i₄ : M₄) (h0 : st 0 = (i₁, i₂, i₃, i₄))
    (hs : ∀ k, k < n → st (k + 1)
      = ((st k).1 + g₁ k, (st k).2.1 + g₂ k, (st k).2.2.1 + g₃ k, (st k).2.2.2 + g₄ k)) :
    st n = (i₁ + ∑ k : Fin n, g₁ k, i₂ + ∑ k : Fin n, g₂ k, i₃ + ∑ k : Fin n, g₃ k, i₄ + ∑ k : Fin n, g₄ k) := by
  refine Prod.ext ?_ (Prod.ext ?_ (Prod.ext ?_ ?_))
  · exact trip_sum n (fun k => (st k).1) g₁ i₁ (by rw [h0]) fun k hk => by rw [hs k hk]
  · exact trip_sum n (fun k => (st k).2.1) g₂ i₂ (by rw [h0]) fun k hk => by rw [hs k hk]
  · exact trip_sum n (fun k => (st k).2.2.1) g₃ i₃ (by rw [h0]) fun k hk => by rw [hs k hk]
  · exact trip_sum n (fun k => (st k).2.2.2) g₄ i₄ (by rw [h0]) fun k hk => by rw [hs k hk]

/-- A carried 4-tuple whose components are given separately (four sequences), each with its own recursion. -/
theorem trip_sum4_sep {M₁ M₂ M₃ M₄ : Type*} [AddCommMonoid M₁] [AddCommMonoid M₂] [AddCommMonoid M₃] [AddCommMonoid M₄]
    (n : ℕ) (s₁ g₁ : ℕ → M₁) (s₂ g₂ : ℕ → M₂) (s₃ g₃ : ℕ → M₃) (s₄ g₄ : ℕ → M₄)
    (i₁ : M₁) (i₂ : M₂) (i₃ : M₃) (i₄ : M₄) (h0 : s₁ 0 = i₁ ∧ s₂ 0 = i₂ ∧ s₃ 0 = i₃ ∧ s₄ 0 = i₄)
    (hs : ∀ k, k < n → s₁ (k + 1) = s₁ k + g₁ k ∧ s₂ (k + 1) = s₂ k + g₂ k ∧ s₃ (k + 1) = s₃ k + g₃ k
      ∧ s₄ (k + 1) = s₄ k + g₄ k) :
    s₁ n = i₁ + ∑ k : Fin n, g₁ k ∧ s₂ n = i₂ + ∑ k : Fin n, g₂ k ∧ s₃ n = i₃ + ∑ k : Fin n, g₃ k
      ∧ s₄ n = i₄ + ∑ k : Fin n, g₄ k :=
  ⟨trip_sum n s₁ g₁ i₁ h0.1 fun k hk => (hs k hk).1, trip_sum n s₂ g₂ i₂ h0.2.1 fun k hk => (hs k hk).2.1,
    trip_sum n s₃ g₃ i₃ h0.2.2.1 fun k hk => (hs k hk).2.2.1, trip_sum n s₄ g₄ i₄ h0.2.2.2 fun k hk => (hs k hk).2.2.2⟩

end Idealize.ShloMosaic
-- ==== Proof.KLoopSum.lean ====
/-
  A channel's loop as a sum over its 64 chunks.

  Whatever is read off the carried accumulators by a map `proj` into an additive commutative
  monoid, if one trip adds to it a quantity `g` of the trip's chunk, then after `n` trips it is
  its initial value plus the sum of `g` over the first `n` chunks. A chunk's entry (r, col) is
  the plane's entry (16k + r, col).
-/
import proofs.«117902_j75557064671630_2_alg».proof.Proof.KValue0a
import proofs.«117902_j75557064671630_2_alg».proof.Proof.LibTripSums
import Idealize.ShloMosaic.Lib.ValueIdx

set_option maxRecDepth 16384

noncomputable section

namespace Cert.KernelIdeal.KVal0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Frm
open Idealize.ShloMosaic.ValueIdx

variable {F : FTy → Type} [FloatOps F]

theorem run1_succ (v0 : IVec S1x64x1 32) (x : Vec F S1x1x1024x1024 .f32) (init : Acc F) (k : ℕ) (hk : k < k0_t1_loop.trips) :
    run1 v0 x init (k + 1) = step1 v0 x ⟨k, hk⟩ (run1 v0 x init k) := by
  show (if h : k < k0_t1_loop.trips then step1 v0 x ⟨k, h⟩ (run1 v0 x init k) else run1 v0 x init k) = _
  exact dif_pos hk
theorem run2_succ (v21 : IVec S1x64x1 32) (x : Vec F S1x1x1024x1024 .f32) (init : Acc F) (k : ℕ) (hk : k < k0_t2_loop.trips) :
    run2 v21 x init (k + 1) = step2 v21 x ⟨k, hk⟩ (run2 v21 x init k) := by
  show (if h : k < k0_t2_loop.trips then step2 v21 x ⟨k, h⟩ (run2 v21 x init k) else run2 v21 x init k) = _
  exact dif_pos hk

/-- A reading of channel 1's accumulators that each trip increases by `g` of its chunk is, after `n` trips, the
    initial reading plus the sum of `g` over the chunks. -/
theorem run1_sum {M : Type} [AddCommMonoid M] (proj : Acc F → M) (g : Vec F S1x1x16x1024 .f32 → M)
    (v0 : IVec S1x64x1 32) (x : Vec F S1x1x1024x1024 .f32) (init : Acc F)
    (hstep : ∀ (k : Fin k0_t1_loop.trips) (acc : Acc F), proj (step1 v0 x k acc) = proj acc + g (chunk1 x k))
    (n : ℕ) (hn : n ≤ k0_t1_loop.trips) :
    proj (run1 v0 x init n) = proj init + ∑ k : Fin n, g (chunk1 x ⟨k.val, lt_of_lt_of_le k.isLt hn⟩) :=
  trip_sum_fin n (fun j => proj (run1 v0 x init j)) (fun k => g (chunk1 x ⟨k.val, lt_of_lt_of_le k.isLt hn⟩)) (proj init) rfl
    fun k => by
      show proj (run1 v0 x init (k.val + 1)) = _
      rw [run1_succ v0 x init k.val (lt_of_lt_of_le k.isLt hn)]
      exact hstep _ _
/-- The same for channel 2's loop. -/
theorem run2_sum {M : Type} [AddCommMonoid M] (proj : Acc F → M) (g : Vec F S1x1x16x1024 .f32 → M)
    (v21 : IVec S1x64x1 32) (x : Vec F S1x1x1024x1024 .f32) (init : Acc F)
    (hstep : ∀ (k : Fin k0_t2_loop.trips) (acc : Acc F), proj (step2 v21 x k acc) = proj acc + g (chunk2 x k))
    (n : ℕ) (hn : n ≤ k0_t2_loop.trips) :
    proj (run2 v21 x init n) = proj init + ∑ k : Fin n, g (chunk2 x ⟨k.val, lt_of_lt_of_le k.isLt hn⟩) :=
  trip_sum_fin n (fun j => proj (run2 v21 x init j)) (fun k => g (chunk2 x ⟨k.val, lt_of_lt_of_le k.isLt hn⟩)) (proj init) rfl
    fun k => by
      show proj (run2 v21 x init (k.val + 1)) = _
      rw [run2_succ v21 x init k.val (lt_of_lt_of_le k.isLt hn)]
      exact hstep _ _

/-- Each loop makes 64 trips. -/
theorem trips1 : Scf.trips k0_t1_loop.lb k0_t1_loop.ub k0_t1_loop.st = 64 := by decide
theorem trips2 : Scf.trips k0_t2_loop.lb k0_t2_loop.ub k0_t2_loop.st = 64 := by decide

/-- Entry (r, col) of chunk `k` is entry (16k + r, col) of the plane. -/
theorem chunk1_apply (x : Vec F S1x1x1024x1024 .f32) (k : Fin k0_t1_loop.trips) (r : Fin 16) (col : Fin 1024) (h : 16 * k.val + r.val < 1024) :
    chunk1 x k (ix4 0 0 r col) = x (ix4 0 0 ⟨16 * k.val + r.val, h⟩ col) := by
  unfold chunk1
  show x ((Rect.unit (s := S1x1x1024x1024) (k0_off1 k) S1x1x16x1024.size (k0_off1_inb k)).emb (ix4 0 0 r col)) = _
  congr 1
  funext a; apply Fin.ext
  rw [Rect.emb_apply]
  have hoff := k0_off1_eq k
  match a with
  | ⟨0, _⟩ => show k0_off1 k 0 + 1 * 0 = 0; rw [hoff]; rfl
  | ⟨1, _⟩ => show k0_off1 k 1 + 1 * 0 = 0; rw [hoff]; rfl
  | ⟨2, _⟩ => show k0_off1 k 2 + 1 * r.val = 16 * k.val + r.val; rw [hoff]; show 16 * k.val + 1 * r.val = _; omega
  | ⟨3, _⟩ => show k0_off1 k 3 + 1 * col.val = col.val; rw [hoff]; show 0 + 1 * col.val = _; omega
theorem chunk2_apply (x : Vec F S1x1x1024x1024 .f32) (k : Fin k0_t2_loop.trips) (r : Fin 16) (col : Fin 1024) (h : 16 * k.val + r.val < 1024) :
    chunk2 x k (ix4 0 0 r col) = x (ix4 0 0 ⟨16 * k.val + r.val, h⟩ col) := by
  unfold chunk2
  show x ((Rect.unit (s := S1x1x1024x1024) (k0_off2 k) S1x1x16x1024.size (k0_off2_inb k)).emb (ix4 0 0 r col)) = _
  congr 1
  funext a; apply Fin.ext
  rw [Rect.emb_apply]
  have hoff := k0_off2_eq k
  match a with
  | ⟨0, _⟩ => show k0_off2 k 0 + 1 * 0 = 0; rw [hoff]; rfl
  | ⟨1, _⟩ => show k0_off2 k 1 + 1 * 0 = 0; rw [hoff]; rfl
  | ⟨2, _⟩ => show k0_off2 k 2 + 1 * r.val = 16 * k.val + r.val; rw [hoff]; show 16 * k.val + 1 * r.val = _; omega
  | ⟨3, _⟩ => show k0_off2 k 3 + 1 * col.val = col.val; rw [hoff]; show 0 + 1 * col.val = _; omega

end Cert.KernelIdeal.KVal0

end
-- ==== Proof.KPayChunk.lean ====
/-
  Region 0's per-chunk payloads read at an index, at the extended reals.

  One trip of the sweep loads 16 rows of a 1024 x 1024 plane and updates four accumulators: the 64-bin
  histogram, the sum and the sum of squares of the pixels shifted by the pivot 128, and the running sum of the
  8 x 8 patch variances. Each lemma below reads one updated accumulator at an index as the carried value plus
  an explicit finite sum over the chunk, so that the 64 trips add up.
-/
import proofs.«117902_j75557064671630_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Idealize.ShloMosaic Idealize.ShloMosaic.TcCoe
open Idealize.ShloMosaic.ValueIdx
open Cert.KernelIdeal Cert.KernelIdeal.Gen

/-! ## Reductions along one axis, with the inserted index named by coordinates -/

/-- Row p of a matrix with the coordinate c put back on the reduced (column) axis is the entry (p, c). -/
theorem lift_row {n d : ℕ} (h : (⟨2, ![n, d]⟩ : Shape).Reduces [1] ⟨1, ![n]⟩) (p : Fin n) (c : Fin d) :
    h.lift (ix1 p) c = ix2 p c :=
  funext fun a => Fin.ext (by
    match a with
    | ⟨0, _⟩ => rfl
    | ⟨1, _⟩ => rfl)

/-- Column e with the coordinate y put back on the reduced (row) axis is the entry (y, e). -/
theorem lift_col {n d : ℕ} (h : (⟨2, ![n, d]⟩ : Shape).Reduces [0] ⟨1, ![d]⟩) (e : Fin d) (y : Fin n) :
    h.lift (ix1 e) y = ix2 y e :=
  funext fun a => Fin.ext (by
    match a with
    | ⟨0, _⟩ => rfl
    | ⟨1, _⟩ => rfl)

/-- An add-reduction along the rows of a matrix: the row's sum. -/
theorem sum_row {n d : ℕ} (src : FVec Ideal ⟨2, ![n, d]⟩ .f32) (acc : BitVec 32)
    (h : (⟨2, ![n, d]⟩ : Shape).Reduces [1] ⟨1, ![n]⟩) (hφ : FKind.Formats .f32) (hacc : acc = FKind.add.neutral .f32 hφ) (p : Fin n) :
    multiReduction .add [1] ⟨1, ![n]⟩ src acc h hφ hacc (ix1 p) = ∑ c : Fin d, src (ix2 p c) :=
  (Ideal.multiReduction_add_single src acc h hφ hacc (ix1 p)).trans
    (Finset.sum_congr rfl fun c _ => congrArg src (lift_row h p c))

/-- An add-reduction down the columns of a matrix: the column's sum. -/
theorem sum_col {n d : ℕ} (src : FVec Ideal ⟨2, ![n, d]⟩ .f32) (acc : BitVec 32)
    (h : (⟨2, ![n, d]⟩ : Shape).Reduces [0] ⟨1, ![d]⟩) (hφ : FKind.Formats .f32) (hacc : acc = FKind.add.neutral .f32 hφ) (e : Fin d) :
    multiReduction .add [0] ⟨1, ![d]⟩ src acc h hφ hacc (ix1 e) = ∑ y : Fin n, src (ix2 y e) :=
  (Ideal.multiReduction_add_single src acc h hφ hacc (ix1 e)).trans
    (Finset.sum_congr rfl fun y _ => congrArg src (lift_col h e y))

/-- A vector viewed as a one-column matrix reads its entry. -/
theorem cast_col_apply {α : Type} {n : ℕ} (x : (⟨1, ![n]⟩ : Shape).Idx → α) (h : (⟨1, ![n]⟩ : Shape).ShapeCasts ⟨2, ![n, 1]⟩)
    (p : Fin n) (u : Fin 1) : shapeCast ⟨2, ![n, 1]⟩ x h (ix2 p u) = x (ix1 p) :=
  shapeCast_apply x h (ix2 p u) (ix1 p) (by
    rw [Shape.rowMajor_val_one, Shape.rowMajor_val_two]
    show p.val = p.val * 1 + u.val
    have := u.isLt; omega)

/-! ## The chunk, shifted by the pivot -/

/-- The pivot 128 every pixel is shifted by before the sums are taken. -/
abbrev pivot : EReal := Ideal.ofBits .f32 0x43000000#32

/-- The loaded block of 16 rows viewed as a matrix reads the block's entry. -/
theorem k0_pay2_apply (v49 : Vec Ideal S1x1x16x1024 .f32) (r : Fin 16) (col : Fin 1024) :
    k0_pay2 v49 (ix2 r col) = v49 (ix4 0 0 r col) :=
  shapeCast_apply _ _ (ix2 r col) (ix4 0 0 r col) (by
    rw [Shape.rowMajor_val_two, Shape.rowMajor_val_four]
    show ((0 * 1 + 0) * 16 + r.val) * 1024 + col.val = r.val * 1024 + col.val
    omega)

/-- The shifted chunk: pixel minus pivot. -/
theorem k0_pay4_apply (v49 : Vec Ideal S1x1x16x1024 .f32) (r : Fin 16) (col : Fin 1024) :
    k0_pay4 v49 (ix2 r col) = v49 (ix4 0 0 r col) - pivot := by
  show k0_pay2 v49 (ix2 r col) - pivot = _
  rw [k0_pay2_apply]

/-- The carried sum after one trip: the carried value plus the chunk's sum of shifted pixels (the reductions'
    zero accumulators do not appear: a reduction over one axis is read as the plain sum over it). -/
theorem k0_pay5_apply (s : FVec Ideal S1x1 .f32) (v49 : Vec Ideal S1x1x16x1024 .f32) :
    k0_pay5 s v49 (ix2 0 0) = s (ix2 0 0) + ∑ r : Fin 16, ∑ col : Fin 1024, (v49 (ix4 0 0 r col) - pivot) := by
  unfold k0_pay5
  show s (ix2 0 0) + _ = _
  congr 1
  refine (shapeCast_a_1a_apply _ _ 0 0).trans ?_
  refine (sum_col _ _ _ _ _ 0).trans ?_
  refine Finset.sum_congr rfl fun r _ => ?_
  refine (cast_col_apply _ _ r 0).trans ?_
  refine (sum_row _ _ _ _ _ r).trans ?_
  exact Finset.sum_congr rfl fun col _ => k0_pay4_apply v49 r col

/-- The carried sum of squares after one trip: the carried value plus the chunk's sum of squared shifted pixels. -/
theorem k0_pay6_apply (q : FVec Ideal S1x1 .f32) (v49 : Vec Ideal S1x1x16x1024 .f32) :
    k0_pay6 q v49 (ix2 0 0) = q (ix2 0 0) + ∑ r : Fin 16, ∑ col : Fin 1024,
      (v49 (ix4 0 0 r col) - pivot) * (v49 (ix4 0 0 r col) - pivot) := by
  unfold k0_pay6
  show q (ix2 0 0) + _ = _
  congr 1
  refine (shapeCast_a_1a_apply _ _ 0 0).trans ?_
  refine (sum_col _ _ _ _ _ 0).trans ?_
  refine Finset.sum_congr rfl fun r _ => ?_
  refine (cast_col_apply _ _ r 0).trans ?_
  refine (sum_row _ _ _ _ _ r).trans ?_
  refine Finset.sum_congr rfl fun col _ => ?_
  show k0_pay4 v49 (ix2 r col) * k0_pay4 v49 (ix2 r col) = _
  rw [k0_pay4_apply]

/-! ## The patch sums: 16 rows cut into 2 bands of 8 rows, 1024 columns into 128 runs of 8 -/

/-- A rank-4 index with the coordinate b put back on the reduced last axis. -/
theorem lift_last4 {n0 n1 n2 n3 : ℕ} (h : (⟨4, ![n0, n1, n2, n3]⟩ : Shape).Reduces [3] ⟨3, ![n0, n1, n2]⟩)
    (i : Fin n0) (a : Fin n1) (c : Fin n2) (b : Fin n3) : h.lift (ix3 i a c) b = ix4 i a c b :=
  funext fun x => Fin.ext (by
    match x with
    | ⟨0, _⟩ => rfl
    | ⟨1, _⟩ => rfl
    | ⟨2, _⟩ => rfl
    | ⟨3, _⟩ => rfl)

/-- A rank-3 index with the coordinate a put back on the reduced middle axis. -/
theorem lift_mid3 {n0 n1 n2 : ℕ} (h : (⟨3, ![n0, n1, n2]⟩ : Shape).Reduces [1] ⟨2, ![n0, n2]⟩)
    (i : Fin n0) (c : Fin n2) (a : Fin n1) : h.lift (ix2 i c) a = ix3 i a c :=
  funext fun x => Fin.ext (by
    match x with
    | ⟨0, _⟩ => rfl
    | ⟨1, _⟩ => rfl
    | ⟨2, _⟩ => rfl)

/-- An add-reduction over the last axis of a rank-4 array: the sum over that coordinate. -/
theorem sum_last4 {n0 n1 n2 n3 : ℕ} (src : FVec Ideal ⟨4, ![n0, n1, n2, n3]⟩ .f32) (acc : BitVec 32)
    (h : (⟨4, ![n0, n1, n2, n3]⟩ : Shape).Reduces [3] ⟨3, ![n0, n1, n2]⟩) (hφ : FKind.Formats .f32)
    (hacc : acc = FKind.add.neutral .f32 hφ) (i : Fin n0) (a : Fin n1) (c : Fin n2) :
    multiReduction .add [3] ⟨3, ![n0, n1, n2]⟩ src acc h hφ hacc (ix3 i a c) = ∑ b : Fin n3, src (ix4 i a c b) :=
  (Ideal.multiReduction_add_single src acc h hφ hacc (ix3 i a c)).trans
    (Finset.sum_congr rfl fun b _ => congrArg src (lift_last4 h i a c b))

/-- An add-reduction over the middle axis of a rank-3 array: the sum over that coordinate. -/
theorem sum_mid3 {n0 n1 n2 : ℕ} (src : FVec Ideal ⟨3, ![n0, n1, n2]⟩ .f32) (acc : BitVec 32)
    (h : (⟨3, ![n0, n1, n2]⟩ : Shape).Reduces [1] ⟨2, ![n0, n2]⟩) (hφ : FKind.Formats .f32)
    (hacc : acc = FKind.add.neutral .f32 hφ) (i : Fin n0) (c : Fin n2) :
    multiReduction .add [1] ⟨2, ![n0, n2]⟩ src acc h hφ hacc (ix2 i c) = ∑ a : Fin n1, src (ix3 i a c) :=
  (Ideal.multiReduction_add_single src acc h hφ hacc (ix2 i c)).trans
    (Finset.sum_congr rfl fun a _ => congrArg src (lift_mid3 h i c a))

/-- Row a of band i of the chunk: row 8 i + a. -/
abbrev patchRow (i : Fin 2) (a : Fin 8) : Fin 16 := ⟨8 * i.val + a.val, by omega⟩

/-- Column b of run pc: column 8 pc + b. -/
abbrev patchCol (pc : Fin 128) (b : Fin 8) : Fin 1024 := ⟨8 * pc.val + b.val, by omega⟩

/-- The 64 the square of a patch's sum is divided by, and the 63 the patch's centred sum of squares is. -/
abbrev w64 : EReal := Ideal.ofBits .f32 0x42800000#32
abbrev w63 : EReal := Ideal.ofBits .f32 0x427C0000#32

/-- The shifted chunk cut into patches is row-major: entry (i, a, pc, b) is the shifted pixel at row 8 i + a,
    column 8 pc + b. -/
theorem k0_pay7_apply (v49 : Vec Ideal S1x1x16x1024 .f32) (i : Fin 2) (a : Fin 8) (pc : Fin 128) (b : Fin 8) :
    k0_pay7 v49 (ix4 i a pc b) = v49 (ix4 0 0 (patchRow i a) (patchCol pc b)) - pivot := by
  refine (shapeCast_apply _ _ (ix4 i a pc b) (ix2 (patchRow i a) (patchCol pc b)) ?_).trans (k0_pay4_apply v49 _ _)
  rw [Shape.rowMajor_val_two, Shape.rowMajor_val_four]
  show (8 * i.val + a.val) * 1024 + (8 * pc.val + b.val) = ((i.val * 8 + a.val) * 128 + pc.val) * 8 + b.val
  omega

/-- A patch's sum of shifted pixels. -/
theorem k0_pay8_apply (v49 : Vec Ideal S1x1x16x1024 .f32) (i : Fin 2) (pc : Fin 128) :
    k0_pay8 v49 (ix2 i pc) = ∑ a : Fin 8, ∑ b : Fin 8, (v49 (ix4 0 0 (patchRow i a) (patchCol pc b)) - pivot) := by
  unfold k0_pay8
  refine (sum_mid3 _ _ _ _ _ i pc).trans ?_
  refine Finset.sum_congr rfl fun a _ => ?_
  refine (sum_last4 _ _ _ _ _ i a pc).trans ?_
  exact Finset.sum_congr rfl fun b _ => k0_pay7_apply v49 i a pc b

/-- The squared shifted pixel of a patch entry. -/
theorem k0_pay9_apply (v49 : Vec Ideal S1x1x16x1024 .f32) (i : Fin 2) (a : Fin 8) (pc : Fin 128) (b : Fin 8) :
    k0_pay9 v49 (ix4 i a pc b) = (v49 (ix4 0 0 (patchRow i a) (patchCol pc b)) - pivot)
      * (v49 (ix4 0 0 (patchRow i a) (patchCol pc b)) - pivot) := by
  show k0_pay7 v49 (ix4 i a pc b) * k0_pay7 v49 (ix4 i a pc b) = _
  rw [k0_pay7_apply]

/-- The carried sum of patch variances after one trip, over any patch sums v86 and squared entries v87: the carried
    value plus, over the 2 x 128 patches of the chunk, (sum of squares - (sum)(sum)/64)/63. -/
theorem k0_pay22_apply_gen (vs : FVec Ideal S1x1 .f32) (v86 : FVec Ideal S2x128 .f32) (v87 : FVec Ideal S2x8x128x8 .f32) :
    k0_pay22 vs v86 v87 (ix2 0 0) = vs (ix2 0 0) + ∑ i : Fin 2, ∑ pc : Fin 128,
      Ideal.div ((∑ a : Fin 8, ∑ b : Fin 8, v87 (ix4 i a pc b))
        - Ideal.div (v86 (ix2 i pc) * v86 (ix2 i pc)) w64) w63 := by
  unfold k0_pay22
  show vs (ix2 0 0) + _ = _
  congr 1
  refine (shapeCast_a_1a_apply _ _ 0 0).trans ?_
  refine (sum_col _ _ _ _ _ 0).trans ?_
  refine Finset.sum_congr rfl fun i _ => ?_
  refine (cast_col_apply _ _ i 0).trans ?_
  refine (sum_row _ _ _ _ _ i).trans ?_
  refine Finset.sum_congr rfl fun pc _ => ?_
  show Ideal.div (_ - Ideal.div (v86 (ix2 i pc) * v86 (ix2 i pc)) w64) w63 = _
  congr 2
  refine (sum_mid3 _ _ _ _ _ i pc).trans ?_
  exact Finset.sum_congr rfl fun a _ => sum_last4 _ _ _ _ _ i a pc

/-- The carried sum of patch variances after one trip of the sweep: with y the shifted pixel at row 8 i + a, column
    8 pc + b, the carried value plus the sum over the chunk's patches of ((sum of y y) - (sum of y)(sum of y)/64)/63. -/
theorem k0_pay22_apply (vs : FVec Ideal S1x1 .f32) (v49 : Vec Ideal S1x1x16x1024 .f32) :
    k0_pay22 vs (k0_pay8 v49) (k0_pay9 v49) (ix2 0 0) = vs (ix2 0 0) + ∑ i : Fin 2, ∑ pc : Fin 128,
      Ideal.div ((∑ a : Fin 8, ∑ b : Fin 8, (v49 (ix4 0 0 (patchRow i a) (patchCol pc b)) - pivot)
            * (v49 (ix4 0 0 (patchRow i a) (patchCol pc b)) - pivot))
        - Ideal.div ((∑ a : Fin 8, ∑ b : Fin 8, (v49 (ix4 0 0 (patchRow i a) (patchCol pc b)) - pivot))
            * (∑ a : Fin 8, ∑ b : Fin 8, (v49 (ix4 0 0 (patchRow i a) (patchCol pc b)) - pivot))) w64) w63 := by
  rw [k0_pay22_apply_gen]
  refine congrArg (fun t => vs (ix2 0 0) + t) ?_
  refine Finset.sum_congr rfl fun i _ => Finset.sum_congr rfl fun pc _ => ?_
  rw [k0_pay8_apply]
  refine congrArg (fun t => Ideal.div (t - Ideal.div _ w64) w63) ?_
  exact Finset.sum_congr rfl fun a _ => Finset.sum_congr rfl fun b _ => k0_pay9_apply v49 i a pc b

/-! ## The histogram: each pixel's bin compared with the 64 bin numbers -/

/-- A rank-3 index with the coordinate c put back on the reduced last axis. -/
theorem lift_last3 {n0 n1 n2 : ℕ} (h : (⟨3, ![n0, n1, n2]⟩ : Shape).Reduces [2] ⟨2, ![n0, n1]⟩)
    (r : Fin n0) (q : Fin n1) (c : Fin n2) : h.lift (ix2 r q) c = ix3 r q c :=
  funext fun x => Fin.ext (by
    match x with
    | ⟨0, _⟩ => rfl
    | ⟨1, _⟩ => rfl
    | ⟨2, _⟩ => rfl)

/-- An add-reduction over the last axis of a rank-3 array: the sum over that coordinate. -/
theorem sum_last3 {n0 n1 n2 : ℕ} (src : FVec Ideal ⟨3, ![n0, n1, n2]⟩ .f32) (acc : BitVec 32)
    (h : (⟨3, ![n0, n1, n2]⟩ : Shape).Reduces [2] ⟨2, ![n0, n1]⟩) (hφ : FKind.Formats .f32)
    (hacc : acc = FKind.add.neutral .f32 hφ) (r : Fin n0) (q : Fin n1) :
    multiReduction .add [2] ⟨2, ![n0, n1]⟩ src acc h hφ hacc (ix2 r q) = ∑ c : Fin n2, src (ix3 r q c) :=
  (Ideal.multiReduction_add_single src acc h hφ hacc (ix2 r q)).trans
    (Finset.sum_congr rfl fun c _ => congrArg src (lift_last3 h r q c))

/-- The bin of a pixel x: the floor of x/4, clipped below by 0 and above by 63, as a 32-bit integer. -/
def idxOfK (x : EReal) : BitVec 32 :=
  Ideal.fptosi 32 (min (Scalar.sitofp (F := Ideal) .f32 63#32)
    (max (Scalar.sitofp (F := Ideal) .f32 0#32) (Ideal.liftRound Int.floor (x * Ideal.ofBits .f32 0x3E800000#32))))

/-- Whether a pixel falls in a bin, as a float: the comparison bit of the pixel's bin with the bin number,
    widened to 32 bits and converted. -/
def maskK (x : EReal) (bin : BitVec 32) : EReal :=
  FloatOps.sitofp (F := Ideal) .f32 ((IntOp.cmpi .eq (idxOfK x) bin).setWidth 32)

/-- The mask is 1 when the pixel's bin is the bin number and 0 otherwise. -/
theorem maskK_eq (x : EReal) (bin : BitVec 32) : maskK x bin = if idxOfK x = bin then 1 else 0 := by
  unfold maskK
  by_cases h : idxOfK x = bin
  · rw [if_pos h]
    have e : ((IntOp.cmpi .eq (idxOfK x) bin).setWidth 32 : BitVec 32) = 1#32 := by
      simp [IntOp.cmpi, h]
    rw [e]
    show (((1#32 : BitVec 32).toInt : ℝ) : EReal) = 1
    simp
  · rw [if_neg h]
    have hb : (idxOfK x == bin) = false := beq_eq_false_iff_ne.mpr h
    have e : ((IntOp.cmpi .eq (idxOfK x) bin).setWidth 32 : BitVec 32) = 0#32 := by
      simp [IntOp.cmpi, hb]
    rw [e]
    show (((0#32 : BitVec 32).toInt : ℝ) : EReal) = 0
    simp

/-- The bin numbers: entry (0, q, 0) of the iota along the bins' axis is q. -/
theorem binIota_apply (h : S1x64x1.Iotas .tc 32 [1]) (q : Fin 64) :
    iota .tc S1x64x1 32 [1] h (ix3 0 q 0) = BitVec.ofNat 32 q.val :=
  iota_single_apply .tc S1x64x1 32 1 h (ix3 0 q 0)

/-- The carried histogram after one trip, at bin q: the carried count plus, over the chunk's pixels, the mask of the
    pixel's bin against the bin number v0 holds at (0, q, 0). -/
theorem k0_pay3_apply (v0 : IVec S1x64x1 32) (hist : FVec Ideal S1x64 .f32) (v49 : Vec Ideal S1x1x16x1024 .f32) (q : Fin 64) :
    k0_pay3 v0 hist v49 (ix2 0 q) = hist (ix2 0 q) + ∑ r : Fin 16, ∑ col : Fin 1024,
      maskK (v49 (ix4 0 0 r col)) (v0 (ix3 0 q 0)) := by
  unfold k0_pay3
  show hist (ix2 0 q) + _ = _
  refine congrArg (fun t => hist (ix2 0 q) + t) ?_
  refine (shapeCast_a_1a_apply _ _ 0 q).trans ?_
  refine (sum_col _ _ _ _ _ q).trans ?_
  refine Finset.sum_congr rfl fun r _ => ?_
  refine (sum_last3 _ _ _ _ _ r q).trans ?_
  refine Finset.sum_congr rfl fun col _ => ?_
  refine congrArg₂ (fun a b : BitVec 32 => FloatOps.sitofp (F := Ideal) .f32 ((IntOp.cmpi .eq a b).setWidth 32)) ?_ ?_
  · refine (broadcastTo_apply _ _ (ix3 r q col) (ix3 r 0 col) (fun a => by
      match a with
      | ⟨0, _⟩ => rfl
      | ⟨1, _⟩ => rfl
      | ⟨2, _⟩ => rfl)).trans ?_
    refine (shapeCast_apply _ _ (ix3 r 0 col) (ix2 r col) (by
      rw [Shape.rowMajor_val_two, Shape.rowMajor_val_three]
      show r.val * 1024 + col.val = (r.val * 1 + 0) * 1024 + col.val
      omega)).trans ?_
    show idxOfK (k0_pay2 v49 (ix2 r col)) = _
    rw [k0_pay2_apply]
  · exact broadcastTo_apply _ _ (ix3 r q col) (ix3 0 q 0) (fun a => by
      match a with
      | ⟨0, _⟩ => rfl
      | ⟨1, _⟩ => rfl
      | ⟨2, _⟩ => rfl)

/-! ## The second channel's payloads: the same operations on its own chunk -/

theorem k0_pay11_eq (v21 : IVec S1x64x1 32) (hist : FVec Ideal S1x64 .f32) (v49 : Vec Ideal S1x1x16x1024 .f32) :
    k0_pay11 v21 hist v49 = k0_pay3 v21 hist v49 := rfl

theorem k0_pay13_eq (s : FVec Ideal S1x1 .f32) (v49 : Vec Ideal S1x1x16x1024 .f32) :
    k0_pay13 s v49 = k0_pay5 s v49 := rfl

theorem k0_pay14_eq (q : FVec Ideal S1x1 .f32) (v49 : Vec Ideal S1x1x16x1024 .f32) :
    k0_pay14 q v49 = k0_pay6 q v49 := rfl

theorem k0_pay16_eq (v49 : Vec Ideal S1x1x16x1024 .f32) : k0_pay16 v49 = k0_pay8 v49 := rfl

theorem k0_pay17_eq (v49 : Vec Ideal S1x1x16x1024 .f32) : k0_pay17 v49 = k0_pay9 v49 := rfl

theorem k0_pay30_eq (vs : FVec Ideal S1x1 .f32) (v86 : FVec Ideal S2x128 .f32) (v87 : FVec Ideal S2x8x128x8 .f32) :
    k0_pay30 vs v86 v87 = k0_pay22 vs v86 v87 := rfl

/-- The second channel's carried histogram after one trip, at bin q. -/
theorem k0_pay11_apply (v21 : IVec S1x64x1 32) (hist : FVec Ideal S1x64 .f32) (v49 : Vec Ideal S1x1x16x1024 .f32) (q : Fin 64) :
    k0_pay11 v21 hist v49 (ix2 0 q) = hist (ix2 0 q) + ∑ r : Fin 16, ∑ col : Fin 1024,
      maskK (v49 (ix4 0 0 r col)) (v21 (ix3 0 q 0)) :=
  k0_pay3_apply v21 hist v49 q

/-- The second channel's carried sum after one trip. -/
theorem k0_pay13_apply (s : FVec Ideal S1x1 .f32) (v49 : Vec Ideal S1x1x16x1024 .f32) :
    k0_pay13 s v49 (ix2 0 0) = s (ix2 0 0) + ∑ r : Fin 16, ∑ col : Fin 1024, (v49 (ix4 0 0 r col) - pivot) :=
  k0_pay5_apply s v49

/-- The second channel's carried sum of squares after one trip. -/
theorem k0_pay14_apply (q : FVec Ideal S1x1 .f32) (v49 : Vec Ideal S1x1x16x1024 .f32) :
    k0_pay14 q v49 (ix2 0 0) = q (ix2 0 0) + ∑ r : Fin 16, ∑ col : Fin 1024,
      (v49 (ix4 0 0 r col) - pivot) * (v49 (ix4 0 0 r col) - pivot) :=
  k0_pay6_apply q v49

/-- The second channel's carried sum of patch variances after one trip. -/
theorem k0_pay30_apply (vs : FVec Ideal S1x1 .f32) (v49 : Vec Ideal S1x1x16x1024 .f32) :
    k0_pay30 vs (k0_pay16 v49) (k0_pay17 v49) (ix2 0 0) = vs (ix2 0 0) + ∑ i : Fin 2, ∑ pc : Fin 128,
      Ideal.div ((∑ a : Fin 8, ∑ b : Fin 8, (v49 (ix4 0 0 (patchRow i a) (patchCol pc b)) - pivot)
            * (v49 (ix4 0 0 (patchRow i a) (patchCol pc b)) - pivot))
        - Ideal.div ((∑ a : Fin 8, ∑ b : Fin 8, (v49 (ix4 0 0 (patchRow i a) (patchCol pc b)) - pivot))
            * (∑ a : Fin 8, ∑ b : Fin 8, (v49 (ix4 0 0 (patchRow i a) (patchCol pc b)) - pivot))) w64) w63 :=
  k0_pay22_apply vs v49

end Cert.KernelIdeal.PayValue
end
-- ==== Proof.LibVarianceForms.lean ====
/-
  Two arrangements of a sample variance, on the extended reals.

  For real numbers x_i (i in a finite index set of n elements) with mean m = (∑ x_i)/n, and ANY real pivot c,

      ∑ (x_i - m)² = ∑ (x_i - c)² - (∑ (x_i - c))² / n,

  because x_i - m = (x_i - c) - (∑ (x_i - c))/n.  The left side is the textbook "centred" sum of squares; the right side is
  the "shifted one-pass" form, which needs only the two running sums ∑ (x_i - c) and ∑ (x_i - c)².  Dividing both by the same
  number (n - 1 for the unbiased sample variance) keeps them equal.

  The statements are in the extended reals with every x_i real-valued, with the quotient written as Ideal.div (the exact
  quotient of the ideal reading of floats), with the sums written the way a host reduction (0 + ∑) and an accumulating loop
  (nested ∑ over chunks) produce them.  Also here: the coercion of a finite real sum, a finite sum of real-valued terms is
  real-valued, reindexing a flat sum as a nested one along an equivalence with a product, and adding the float zero.
-/
import Idealize.ShloMosaic.PureOps.Ideal
import Idealize.ShloMosaic.PureOps.Ideal.Laws
import Mathlib.Tactic.FieldSimp
import Mathlib.Tactic.Ring
import Mathlib.Algebra.BigOperators.Field

noncomputable section

open Idealize.ShloMosaic

namespace Idealize.ShloMosaic

open scoped BigOperators

/-! ### Real-valued extended reals and their sums -/

/-- The coercion of a finite sum of reals is the sum of the coercions. -/
theorem ereal_coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- A finite sum of real-valued extended reals is real-valued. -/
theorem ereal_sum_real_valued {ι : Type*} (s : Finset ι) (x : ι → EReal) (hx : ∀ i ∈ s, ∃ r : ℝ, x i = (r : EReal)) :
    ∃ r : ℝ, ∑ i ∈ s, x i = (r : EReal) := by
  induction s using Finset.cons_induction with
  | empty => exact ⟨0, by simp⟩
  | cons a s ha ih =>
    obtain ⟨ra, hra⟩ := hx a (Finset.mem_cons_self a s)
    obtain ⟨rs, hrs⟩ := ih fun i hi => hx i (Finset.mem_cons.2 (Or.inr hi))
    exact ⟨ra + rs, by rw [Finset.sum_cons, hra, hrs, EReal.coe_add]⟩

/-- A sum over a whole finite type of real-valued extended reals is real-valued. -/
theorem ereal_sum_univ_real_valued {ι : Type*} [Fintype ι] (x : ι → EReal) (hx : ∀ i, ∃ r : ℝ, x i = (r : EReal)) :
    ∃ r : ℝ, ∑ i, x i = (r : EReal) :=
  ereal_sum_real_valued Finset.univ x fun i _ => hx i

/-- Sum, difference and product of real-valued extended reals are real-valued. -/
theorem ereal_add_real_valued {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem ereal_sub_real_valued {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

theorem ereal_mul_real_valued {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

/-- The exact quotient of two reals, the divisor not zero, is the real quotient. -/
theorem Ideal.div_coe_coe (a : ℝ) {b : ℝ} (hb : b ≠ 0) : Ideal.div (a : EReal) (b : EReal) = ((a / b : ℝ) : EReal) := by
  rw [Ideal.div_coe hb, ← EReal.coe_mul, mul_one_div]

/-- The exact quotient of a real-valued extended real by a nonzero real is real-valued. -/
theorem ereal_div_real_valued {x : EReal} (hx : ∃ r : ℝ, x = (r : EReal)) {b : ℝ} (hb : b ≠ 0) :
    ∃ r : ℝ, Ideal.div x (b : EReal) = (r : EReal) := by
  obtain ⟨a, rfl⟩ := hx; exact ⟨a / b, Ideal.div_coe_coe a hb⟩

/-! ### Adding the float zero -/

/-- Adding the f32 zero word on the left changes nothing. -/
theorem Ideal.ofBits_zero_f32_add (s : EReal) : Ideal.ofBits .f32 0x00000000#32 + s = s := by
  rw [Ideal.ofBits_zero_f32, zero_add]

/-- Adding the f32 zero word on the right changes nothing. -/
theorem Ideal.add_ofBits_zero_f32 (s : EReal) : s + Ideal.ofBits .f32 0x00000000#32 = s := by
  rw [Ideal.ofBits_zero_f32, add_zero]

/-! ### A flat sum as a nested one -/

/-- A sum over ι, reindexed along ι ≃ α × β, is the sum over α of the sums over β. -/
theorem sum_nest2 {M ι α β : Type*} [AddCommMonoid M] [Fintype ι] [Fintype α] [Fintype β] (e : ι ≃ α × β) (g : ι → M) :
    ∑ a, ∑ b, g (e.symm (a, b)) = ∑ i, g i := by
  rw [← Fintype.sum_prod_type' (fun a b => g (e.symm (a, b)))]
  exact Equiv.sum_comp e.symm g

/-- A sum over ι, reindexed along ι ≃ α × β × γ, is the triple nested sum. -/
theorem sum_nest3 {M ι α β γ : Type*} [AddCommMonoid M] [Fintype ι] [Fintype α] [Fintype β] [Fintype γ]
    (e : ι ≃ α × β × γ) (g : ι → M) :
    ∑ a, ∑ b, ∑ c, g (e.symm (a, b, c)) = ∑ i, g i := by
  rw [← sum_nest2 e g]
  refine Finset.sum_congr rfl fun a _ => ?_
  exact (Fintype.sum_prod_type' (fun b c => g (e.symm (a, b, c)))).symm

/-! ### The variance identity over the reals -/

/-- Over the reals: the centred sum of squares is the shifted one-pass form, for any pivot c. -/
theorem real_centered_eq_shifted {ι : Type*} [Fintype ι] (r : ι → ℝ) (c n : ℝ) (hn : n = (Fintype.card ι : ℝ)) (hn0 : n ≠ 0) :
    ∑ i, (r i - (∑ i, r i) / n) * (r i - (∑ i, r i) / n)
      = (∑ i, (r i - c) * (r i - c)) - ((∑ i, (r i - c)) * (∑ i, (r i - c))) / n := by
  have hS : ∑ i, (r i - c) = (∑ i, r i) - n * c := by
    rw [Finset.sum_sub_distrib, Finset.sum_const, Finset.card_univ, nsmul_eq_mul, hn]
  have hL : ∑ i, (r i - (∑ i, r i) / n) * (r i - (∑ i, r i) / n)
      = (∑ i, r i * r i) - 2 * ((∑ i, r i) / n) * (∑ i, r i) + n * (((∑ i, r i) / n) * ((∑ i, r i) / n)) := by
    have : ∀ i, (r i - (∑ i, r i) / n) * (r i - (∑ i, r i) / n)
        = r i * r i - 2 * ((∑ i, r i) / n) * r i + ((∑ i, r i) / n) * ((∑ i, r i) / n) := fun i => by ring
    rw [Finset.sum_congr rfl fun i _ => this i, Finset.sum_add_distrib, Finset.sum_sub_distrib, ← Finset.mul_sum,
      Finset.sum_const, Finset.card_univ, nsmul_eq_mul, hn]
  have hQ : ∑ i, (r i - c) * (r i - c) = (∑ i, r i * r i) - 2 * c * (∑ i, r i) + n * (c * c) := by
    have : ∀ i, (r i - c) * (r i - c) = r i * r i - 2 * c * r i + c * c := fun i => by ring
    rw [Finset.sum_congr rfl fun i _ => this i, Finset.sum_add_distrib, Finset.sum_sub_distrib, ← Finset.mul_sum,
      Finset.sum_const, Finset.card_univ, nsmul_eq_mul, hn]
  rw [hL, hQ, hS]
  field_simp
  ring

/-! ### The variance identity on the extended reals -/

/-- On the extended reals, over real witnesses r i: the host's centred sum of squares (each sum from 0, the mean the exact
    quotient by n) is the shifted one-pass form (the sum of squares of x - c, minus the exact quotient by n of the squared
    sum of x - c). -/
theorem ereal_centered_eq_shifted_coe {ι : Type*} [Fintype ι] (r : ι → ℝ) (c n : ℝ) (hn : n = (Fintype.card ι : ℝ)) (hn0 : n ≠ 0) :
    (0 : EReal) + ∑ i, ((r i : EReal) - Ideal.div (0 + ∑ i, (r i : EReal)) (n : EReal))
        * ((r i : EReal) - Ideal.div (0 + ∑ i, (r i : EReal)) (n : EReal))
      = (∑ i, ((r i : EReal) - (c : EReal)) * ((r i : EReal) - (c : EReal)))
        - Ideal.div ((∑ i, ((r i : EReal) - (c : EReal))) * (∑ i, ((r i : EReal) - (c : EReal)))) (n : EReal) := by
  simp only [zero_add, ← ereal_coe_sum, Ideal.div_coe_coe _ hn0, ← EReal.coe_sub, ← EReal.coe_mul]
  exact congrArg _ (real_centered_eq_shifted r c n hn hn0)

/-- The variance numerators, every ingredient named: for real-valued x i, a real pivot c (spelled cE) and the count n
    (spelled nE), with m the mean (∑ x)/n, S the sum of x - c and Q the sum of (x - c)²: ∑ (x - m)² = Q - S·S/n.
    The names let the two sides be whatever arrangement of those sums a program computes (a nested sum, an accumulator):
    the caller proves hm, hS, hQ by reindexing. -/
theorem variance_num_shift_of_eq {ι : Type*} [Fintype ι] (x : ι → EReal) (hx : ∀ i, ∃ r : ℝ, x i = (r : EReal))
    (c n : ℝ) (hn : n = (Fintype.card ι : ℝ)) (hn0 : n ≠ 0)
    {cE nE m S Q : EReal} (hc : cE = (c : EReal)) (hnE : nE = (n : EReal))
    (hm : m = Ideal.div (∑ i, x i) nE) (hS : S = ∑ i, (x i - cE)) (hQ : Q = ∑ i, (x i - cE) * (x i - cE)) :
    ∑ i, (x i - m) * (x i - m) = Q - Ideal.div (S * S) nE := by
  choose r hr using hx
  obtain rfl : x = fun i => (r i : EReal) := funext hr
  subst hc hnE hm hS hQ
  simpa only [zero_add] using ereal_centered_eq_shifted_coe r c n hn hn0

/-- The centred sum of squares in the host's spelling (both sums from 0) is the shifted one-pass form over the same
    index type. -/
theorem variance_num_shift {ι : Type*} [Fintype ι] (x : ι → EReal) (hx : ∀ i, ∃ r : ℝ, x i = (r : EReal))
    (c n : ℝ) (hn : n = (Fintype.card ι : ℝ)) (hn0 : n ≠ 0) {cE nE : EReal} (hc : cE = (c : EReal)) (hnE : nE = (n : EReal)) :
    0 + ∑ i, (x i - Ideal.div (0 + ∑ i, x i) nE) * (x i - Ideal.div (0 + ∑ i, x i) nE)
      = (∑ i, (x i - cE) * (x i - cE)) - Ideal.div ((∑ i, (x i - cE)) * (∑ i, (x i - cE))) nE := by
  rw [zero_add, zero_add]
  exact variance_num_shift_of_eq x hx c n hn hn0 hc hnE rfl rfl rfl

/-- The sample variance two ways over one index type: the host's (∑ (x - mean)²)/n₁ is the one-pass
    ((∑ (x - c)²) - (∑ (x - c))·(∑ (x - c))/n)/n₁, whatever the last divisor n₁ (n - 1 for the unbiased variance). -/
theorem variance_shift {ι : Type*} [Fintype ι] (x : ι → EReal) (hx : ∀ i, ∃ r : ℝ, x i = (r : EReal))
    (c n : ℝ) (hn : n = (Fintype.card ι : ℝ)) (hn0 : n ≠ 0) {cE nE : EReal} (hc : cE = (c : EReal)) (hnE : nE = (n : EReal))
    (n₁ : EReal) :
    Ideal.div (0 + ∑ i, (x i - Ideal.div (0 + ∑ i, x i) nE) * (x i - Ideal.div (0 + ∑ i, x i) nE)) n₁
      = Ideal.div ((∑ i, (x i - cE) * (x i - cE)) - Ideal.div ((∑ i, (x i - cE)) * (∑ i, (x i - cE))) nE) n₁ :=
  congrArg (fun t => Ideal.div t n₁) (variance_num_shift x hx c n hn hn0 hc hnE)

/-- The centred sum of squares over ι against the one-pass form whose sums run NESTED over α then β (chunks, then a
    chunk's entries), f j k being the entry x (e.symm (j, k)); n is the product of the two extents. -/
theorem variance_num_shift_nest2 {ι α β : Type*} [Fintype ι] [Fintype α] [Fintype β] (e : ι ≃ α × β)
    (x : ι → EReal) (hx : ∀ i, ∃ r : ℝ, x i = (r : EReal)) (f : α → β → EReal) (hf : ∀ j k, f j k = x (e.symm (j, k)))
    (c n : ℝ) (hn : n = (Fintype.card α : ℝ) * (Fintype.card β : ℝ)) (hn0 : n ≠ 0)
    {cE nE : EReal} (hc : cE = (c : EReal)) (hnE : nE = (n : EReal)) :
    0 + ∑ i, (x i - Ideal.div (0 + ∑ i, x i) nE) * (x i - Ideal.div (0 + ∑ i, x i) nE)
      = (∑ j, ∑ k, (f j k - cE) * (f j k - cE)) - Ideal.div ((∑ j, ∑ k, (f j k - cE)) * (∑ j, ∑ k, (f j k - cE))) nE := by
  have hcard : n = (Fintype.card ι : ℝ) := by
    rw [hn, Fintype.card_congr e, Fintype.card_prod, Nat.cast_mul]
  rw [zero_add, zero_add]
  refine variance_num_shift_of_eq x hx c n hcard hn0 hc hnE rfl ?_ ?_
  · simp only [hf]; exact sum_nest2 e fun i => x i - cE
  · simp only [hf]; exact sum_nest2 e fun i => (x i - cE) * (x i - cE)

/-- The sample variance two ways, the one-pass side's sums nested over α then β. -/
theorem variance_shift_nest2 {ι α β : Type*} [Fintype ι] [Fintype α] [Fintype β] (e : ι ≃ α × β)
    (x : ι → EReal) (hx : ∀ i, ∃ r : ℝ, x i = (r : EReal)) (f : α → β → EReal) (hf : ∀ j k, f j k = x (e.symm (j, k)))
    (c n : ℝ) (hn : n = (Fintype.card α : ℝ) * (Fintype.card β : ℝ)) (hn0 : n ≠ 0)
    {cE nE : EReal} (hc : cE = (c : EReal)) (hnE : nE = (n : EReal)) (n₁ : EReal) :
    Ideal.div (0 + ∑ i, (x i - Ideal.div (0 + ∑ i, x i) nE) * (x i - Ideal.div (0 + ∑ i, x i) nE)) n₁
      = Ideal.div ((∑ j, ∑ k, (f j k - cE) * (f j k - cE))
          - Ideal.div ((∑ j, ∑ k, (f j k - cE)) * (∑ j, ∑ k, (f j k - cE))) nE) n₁ :=
  congrArg (fun t => Ideal.div t n₁) (variance_num_shift_nest2 e x hx f hf c n hn hn0 hc hnE)

/-- The centred sum of squares over ι against the one-pass form whose sums run nested THREE deep over α, β, γ (chunks,
    a chunk's rows, a row's entries), f j k l being the entry x (e.symm (j, k, l)); n is the product of the three extents. -/
theorem variance_num_shift_nest3 {ι α β γ : Type*} [Fintype ι] [Fintype α] [Fintype β] [Fintype γ] (e : ι ≃ α × β × γ)
    (x : ι → EReal) (hx : ∀ i, ∃ r : ℝ, x i = (r : EReal)) (f : α → β → γ → EReal)
    (hf : ∀ j k l, f j k l = x (e.symm (j, k, l)))
    (c n : ℝ) (hn : n = (Fintype.card α : ℝ) * ((Fintype.card β : ℝ) * (Fintype.card γ : ℝ))) (hn0 : n ≠ 0)
    {cE nE : EReal} (hc : cE = (c : EReal)) (hnE : nE = (n : EReal)) :
    0 + ∑ i, (x i - Ideal.div (0 + ∑ i, x i) nE) * (x i - Ideal.div (0 + ∑ i, x i) nE)
      = (∑ j, ∑ k, ∑ l, (f j k l - cE) * (f j k l - cE))
        - Ideal.div ((∑ j, ∑ k, ∑ l, (f j k l - cE)) * (∑ j, ∑ k, ∑ l, (f j k l - cE))) nE := by
  have hcard : n = (Fintype.card ι : ℝ) := by
    rw [hn, Fintype.card_congr e, Fintype.card_prod, Fintype.card_prod, Nat.cast_mul, Nat.cast_mul]
  rw [zero_add, zero_add]
  refine variance_num_shift_of_eq x hx c n hcard hn0 hc hnE rfl ?_ ?_
  · simp only [hf]; exact sum_nest3 e fun i => x i - cE
  · simp only [hf]; exact sum_nest3 e fun i => (x i - cE) * (x i - cE)

/-- The sample variance two ways, the one-pass side's sums nested three deep. -/
theorem variance_shift_nest3 {ι α β γ : Type*} [Fintype ι] [Fintype α] [Fintype β] [Fintype γ] (e : ι ≃ α × β × γ)
    (x : ι → EReal) (hx : ∀ i, ∃ r : ℝ, x i = (r : EReal)) (f : α → β → γ → EReal)
    (hf : ∀ j k l, f j k l = x (e.symm (j, k, l)))
    (c n : ℝ) (hn : n = (Fintype.card α : ℝ) * ((Fintype.card β : ℝ) * (Fintype.card γ : ℝ))) (hn0 : n ≠ 0)
    {cE nE : EReal} (hc : cE = (c : EReal)) (hnE : nE = (n : EReal)) (n₁ : EReal) :
    Ideal.div (0 + ∑ i, (x i - Ideal.div (0 + ∑ i, x i) nE) * (x i - Ideal.div (0 + ∑ i, x i) nE)) n₁
      = Ideal.div ((∑ j, ∑ k, ∑ l, (f j k l - cE) * (f j k l - cE))
          - Ideal.div ((∑ j, ∑ k, ∑ l, (f j k l - cE)) * (∑ j, ∑ k, ∑ l, (f j k l - cE))) nE) n₁ :=
  congrArg (fun t => Ideal.div t n₁) (variance_num_shift_nest3 e x hx f hf c n hn hn0 hc hnE)

end Idealize.ShloMosaic
-- ==== Proof.KFeatSums.lean ====
/-
  A channel's carried values after its 64 trips, as explicit sums over the plane.

  The loop sweeps the plane in 64 chunks of 16 rows; each trip adds to each carried value the chunk's contribution, all
  starting from zero.  So after the loop: the carried sum is the sum over chunk j, row a of the chunk and column col of the
  shifted entry x(16·j + a, col) - pivot; the carried sum of squares the same sum of the squares; the carried sum of patch
  variances the sum over chunk j, band i and run pc of the one-pass variance of the 8×8 patch at rows 16·j + 8·i …, columns
  8·pc …; the carried count of bin q the number of entries whose bin is q (a sum of ones and zeros).
-/
import proofs.«117902_j75557064671630_2_alg».proof.Proof.KLoopSum
import proofs.«117902_j75557064671630_2_alg».proof.Proof.KPayChunk
import proofs.«117902_j75557064671630_2_alg».proof.Proof.LibVarianceForms

set_option maxRecDepth 16384

noncomputable section

namespace Cert.KernelIdeal.KVal0

open Idealize.ShloMosaic Idealize.ShloMosaic.TcCoe
open Cert.KernelIdeal Cert.KernelIdeal.Gen Cert.KernelIdeal.KVal0 Cert.KernelIdeal.PayValue Idealize.ShloMosaic.ValueIdx

/-! ### The initial accumulators are zero -/

theorem k0_pay18_zero (q : Fin 64) : (k0_pay18 (F := Ideal)) (ix2 0 q) = 0 := Ideal.ofBits_zero_f32
theorem k0_pay19_zero : (k0_pay19 (F := Ideal)) (ix2 0 0) = 0 := Ideal.ofBits_zero_f32
theorem k0_pay20_zero : (k0_pay20 (F := Ideal)) (ix2 0 0) = 0 := Ideal.ofBits_zero_f32
theorem k0_pay21_zero : (k0_pay21 (F := Ideal)) (ix2 0 0) = 0 := Ideal.ofBits_zero_f32
theorem k0_pay26_zero (q : Fin 64) : (k0_pay26 (F := Ideal)) (ix2 0 q) = 0 := Ideal.ofBits_zero_f32
theorem k0_pay27_zero : (k0_pay27 (F := Ideal)) (ix2 0 0) = 0 := Ideal.ofBits_zero_f32
theorem k0_pay28_zero : (k0_pay28 (F := Ideal)) (ix2 0 0) = 0 := Ideal.ofBits_zero_f32
theorem k0_pay29_zero : (k0_pay29 (F := Ideal)) (ix2 0 0) = 0 := Ideal.ofBits_zero_f32

/-! ### The carried sum and sum of squares after the loop -/

/-- Channel 1's carried sum after the loop: the sum over the plane, by chunk, row and column, of the shifted entries. -/
theorem loop1_sum (x : Vec Ideal S1x1x1024x1024 .f32) :
    (loop1 x).2.1 (ix2 0 0) = ∑ j : Fin 64, ∑ a : Fin 16, ∑ col : Fin 1024, (x (ix4 0 0 ⟨16 * j.val + a.val, by omega⟩ col) - pivot) := by
  unfold loop1
  rw [trips1]
  refine (run1_sum (fun acc : Acc Ideal => acc.2.1 (ix2 0 0))
    (fun v49 => ∑ r : Fin 16, ∑ col : Fin 1024, (v49 (ix4 0 0 r col) - pivot)) bins x _
    (fun k acc => k0_pay5_apply acc.2.1 (chunk1 x k)) 64 (by decide)).trans ?_
  show (k0_pay19 (F := Ideal)) (ix2 0 0) + _ = _
  rw [k0_pay19_zero, zero_add]
  refine Finset.sum_congr rfl fun j _ => Finset.sum_congr rfl fun a _ => Finset.sum_congr rfl fun col _ => ?_
  rw [chunk1_apply x _ a col (by have := j.isLt; have := a.isLt; show 16 * j.val + a.val < 1024; omega)]

/-- Channel 1's carried sum of squares after the loop. -/
theorem loop1_sumsq (x : Vec Ideal S1x1x1024x1024 .f32) :
    (loop1 x).2.2.1 (ix2 0 0) = ∑ j : Fin 64, ∑ a : Fin 16, ∑ col : Fin 1024, (x (ix4 0 0 ⟨16 * j.val + a.val, by omega⟩ col) - pivot) * (x (ix4 0 0 ⟨16 * j.val + a.val, by omega⟩ col) - pivot) := by
  unfold loop1
  rw [trips1]
  refine (run1_sum (fun acc : Acc Ideal => acc.2.2.1 (ix2 0 0))
    (fun v49 => ∑ r : Fin 16, ∑ col : Fin 1024, (v49 (ix4 0 0 r col) - pivot) * (v49 (ix4 0 0 r col) - pivot)) bins x _
    (fun k acc => k0_pay6_apply acc.2.2.1 (chunk1 x k)) 64 (by decide)).trans ?_
  show (k0_pay20 (F := Ideal)) (ix2 0 0) + _ = _
  rw [k0_pay20_zero, zero_add]
  refine Finset.sum_congr rfl fun j _ => Finset.sum_congr rfl fun a _ => Finset.sum_congr rfl fun col _ => ?_
  rw [chunk1_apply x _ a col (by have := j.isLt; have := a.isLt; show 16 * j.val + a.val < 1024; omega)]

/-- Channel 2's carried sum after the loop. -/
theorem loop2_sum (x : Vec Ideal S1x1x1024x1024 .f32) :
    (loop2 x).2.1 (ix2 0 0) = ∑ j : Fin 64, ∑ a : Fin 16, ∑ col : Fin 1024, (x (ix4 0 0 ⟨16 * j.val + a.val, by omega⟩ col) - pivot) := by
  unfold loop2
  rw [trips2]
  refine (run2_sum (fun acc : Acc Ideal => acc.2.1 (ix2 0 0))
    (fun v49 => ∑ r : Fin 16, ∑ col : Fin 1024, (v49 (ix4 0 0 r col) - pivot)) bins x _
    (fun k acc => k0_pay13_apply acc.2.1 (chunk2 x k)) 64 (by decide)).trans ?_
  show (k0_pay27 (F := Ideal)) (ix2 0 0) + _ = _
  rw [k0_pay27_zero, zero_add]
  refine Finset.sum_congr rfl fun j _ => Finset.sum_congr rfl fun a _ => Finset.sum_congr rfl fun col _ => ?_
  rw [chunk2_apply x _ a col (by have := j.isLt; have := a.isLt; show 16 * j.val + a.val < 1024; omega)]

/-- Channel 2's carried sum of squares after the loop. -/
theorem loop2_sumsq (x : Vec Ideal S1x1x1024x1024 .f32) :
    (loop2 x).2.2.1 (ix2 0 0) = ∑ j : Fin 64, ∑ a : Fin 16, ∑ col : Fin 1024, (x (ix4 0 0 ⟨16 * j.val + a.val, by omega⟩ col) - pivot) * (x (ix4 0 0 ⟨16 * j.val + a.val, by omega⟩ col) - pivot) := by
  unfold loop2
  rw [trips2]
  refine (run2_sum (fun acc : Acc Ideal => acc.2.2.1 (ix2 0 0))
    (fun v49 => ∑ r : Fin 16, ∑ col : Fin 1024, (v49 (ix4 0 0 r col) - pivot) * (v49 (ix4 0 0 r col) - pivot)) bins x _
    (fun k acc => k0_pay14_apply acc.2.2.1 (chunk2 x k)) 64 (by decide)).trans ?_
  show (k0_pay28 (F := Ideal)) (ix2 0 0) + _ = _
  rw [k0_pay28_zero, zero_add]
  refine Finset.sum_congr rfl fun j _ => Finset.sum_congr rfl fun a _ => Finset.sum_congr rfl fun col _ => ?_
  rw [chunk2_apply x _ a col (by have := j.isLt; have := a.isLt; show 16 * j.val + a.val < 1024; omega)]

/-! ### The carried sum of patch variances after the loop -/

/-- A patch entry of chunk k of channel 1's plane: row a, column b of the patch in band i, run pc is the plane's entry
    (16·k + 8·i + a, 8·pc + b). -/
theorem chunk1_patch_apply (x : Vec Ideal S1x1x1024x1024 .f32) (k : Fin k0_t1_loop.trips) (i : Fin 2) (a : Fin 8)
    (pc : Fin 128) (b : Fin 8) (h : 16 * k.val + 8 * i.val + a.val < 1024) :
    chunk1 x k (ix4 0 0 (patchRow i a) (patchCol pc b))
      = x (ix4 0 0 ⟨16 * k.val + 8 * i.val + a.val, h⟩ ⟨8 * pc.val + b.val, by omega⟩) := by
  rw [chunk1_apply x k (patchRow i a) (patchCol pc b) (by show 16 * k.val + (8 * i.val + a.val) < 1024; omega)]
  have hR : (⟨16 * k.val + (patchRow i a).val, by show 16 * k.val + (8 * i.val + a.val) < 1024; omega⟩ : Fin 1024)
      = ⟨16 * k.val + 8 * i.val + a.val, h⟩ :=
    Fin.ext (by show 16 * k.val + (8 * i.val + a.val) = 16 * k.val + 8 * i.val + a.val; omega)
  rw [hR]
/-- The same for channel 2's plane. -/
theorem chunk2_patch_apply (x : Vec Ideal S1x1x1024x1024 .f32) (k : Fin k0_t2_loop.trips) (i : Fin 2) (a : Fin 8)
    (pc : Fin 128) (b : Fin 8) (h : 16 * k.val + 8 * i.val + a.val < 1024) :
    chunk2 x k (ix4 0 0 (patchRow i a) (patchCol pc b))
      = x (ix4 0 0 ⟨16 * k.val + 8 * i.val + a.val, h⟩ ⟨8 * pc.val + b.val, by omega⟩) := by
  rw [chunk2_apply x k (patchRow i a) (patchCol pc b) (by show 16 * k.val + (8 * i.val + a.val) < 1024; omega)]
  have hR : (⟨16 * k.val + (patchRow i a).val, by show 16 * k.val + (8 * i.val + a.val) < 1024; omega⟩ : Fin 1024)
      = ⟨16 * k.val + 8 * i.val + a.val, h⟩ :=
    Fin.ext (by show 16 * k.val + (8 * i.val + a.val) = 16 * k.val + 8 * i.val + a.val; omega)
  rw [hR]

/-- What one trip adds to the carried sum of patch variances, as a function of the trip's chunk. -/
def patchVarSum (v49 : Vec Ideal S1x1x16x1024 .f32) : EReal :=
  ∑ i : Fin 2, ∑ pc : Fin 128,
    Ideal.div ((∑ a : Fin 8, ∑ b : Fin 8, (v49 (ix4 0 0 (patchRow i a) (patchCol pc b)) - pivot)
          * (v49 (ix4 0 0 (patchRow i a) (patchCol pc b)) - pivot))
      - Ideal.div ((∑ a : Fin 8, ∑ b : Fin 8, (v49 (ix4 0 0 (patchRow i a) (patchCol pc b)) - pivot))
          * (∑ a : Fin 8, ∑ b : Fin 8, (v49 (ix4 0 0 (patchRow i a) (patchCol pc b)) - pivot))) w64) w63

/-- Channel 1's carried sum of patch variances after the loop: over chunk j, band i and run pc, the patch's one-pass
    variance ((sum of z·z) - (sum of z)·(sum of z)/64)/63 with z the shifted entry (16·j + 8·i + a, 8·pc + b). -/
theorem loop1_patch (x : Vec Ideal S1x1x1024x1024 .f32) :
    (loop1 x).2.2.2 (ix2 0 0) = ∑ j : Fin 64, ∑ i : Fin 2, ∑ pc : Fin 128,
        Ideal.div ((∑ a : Fin 8, ∑ b : Fin 8, (x (ix4 0 0 ⟨16 * j.val + 8 * i.val + a.val, by omega⟩ ⟨8 * pc.val + b.val, by omega⟩) - pivot) * (x (ix4 0 0 ⟨16 * j.val + 8 * i.val + a.val, by omega⟩ ⟨8 * pc.val + b.val, by omega⟩) - pivot))
          - Ideal.div ((∑ a : Fin 8, ∑ b : Fin 8, (x (ix4 0 0 ⟨16 * j.val + 8 * i.val + a.val, by omega⟩ ⟨8 * pc.val + b.val, by omega⟩) - pivot)) * (∑ a : Fin 8, ∑ b : Fin 8, (x (ix4 0 0 ⟨16 * j.val + 8 * i.val + a.val, by omega⟩ ⟨8 * pc.val + b.val, by omega⟩) - pivot))) w64) w63 := by
  unfold loop1
  rw [trips1]
  refine (run1_sum (fun acc : Acc Ideal => acc.2.2.2 (ix2 0 0)) patchVarSum bins x _
    (fun k acc => k0_pay22_apply acc.2.2.2 (chunk1 x k)) 64 (by decide)).trans ?_
  show (k0_pay21 (F := Ideal)) (ix2 0 0) + _ = _
  rw [k0_pay21_zero, zero_add]
  refine Finset.sum_congr rfl fun j _ => ?_
  unfold patchVarSum
  refine Finset.sum_congr rfl fun i _ => Finset.sum_congr rfl fun pc _ => ?_
  have hz : ∀ a b : Fin 8, chunk1 x ⟨j.val, lt_of_lt_of_le j.isLt (by decide)⟩ (ix4 0 0 (patchRow i a) (patchCol pc b))
      = x (ix4 0 0 ⟨16 * j.val + 8 * i.val + a.val, by omega⟩ ⟨8 * pc.val + b.val, by omega⟩) :=
    fun a b => chunk1_patch_apply x _ i a pc b _
  simp only [hz]

/-- Channel 2's carried sum of patch variances after the loop. -/
theorem loop2_patch (x : Vec Ideal S1x1x1024x1024 .f32) :
    (loop2 x).2.2.2 (ix2 0 0) = ∑ j : Fin 64, ∑ i : Fin 2, ∑ pc : Fin 128,
        Ideal.div ((∑ a : Fin 8, ∑ b : Fin 8, (x (ix4 0 0 ⟨16 * j.val + 8 * i.val + a.val, by omega⟩ ⟨8 * pc.val + b.val, by omega⟩) - pivot) * (x (ix4 0 0 ⟨16 * j.val + 8 * i.val + a.val, by omega⟩ ⟨8 * pc.val + b.val, by omega⟩) - pivot))
          - Ideal.div ((∑ a : Fin 8, ∑ b : Fin 8, (x (ix4 0 0 ⟨16 * j.val + 8 * i.val + a.val, by omega⟩ ⟨8 * pc.val + b.val, by omega⟩) - pivot)) * (∑ a : Fin 8, ∑ b : Fin 8, (x (ix4 0 0 ⟨16 * j.val + 8 * i.val + a.val, by omega⟩ ⟨8 * pc.val + b.val, by omega⟩) - pivot))) w64) w63 := by
  unfold loop2
  rw [trips2]
  refine (run2_sum (fun acc : Acc Ideal => acc.2.2.2 (ix2 0 0)) patchVarSum bins x _
    (fun k acc => k0_pay30_apply acc.2.2.2 (chunk2 x k)) 64 (by decide)).trans ?_
  show (k0_pay29 (F := Ideal)) (ix2 0 0) + _ = _
  rw [k0_pay29_zero, zero_add]
  refine Finset.sum_congr rfl fun j _ => ?_
  unfold patchVarSum
  refine Finset.sum_congr rfl fun i _ => Finset.sum_congr rfl fun pc _ => ?_
  have hz : ∀ a b : Fin 8, chunk2 x ⟨j.val, lt_of_lt_of_le j.isLt (by decide)⟩ (ix4 0 0 (patchRow i a) (patchCol pc b))
      = x (ix4 0 0 ⟨16 * j.val + 8 * i.val + a.val, by omega⟩ ⟨8 * pc.val + b.val, by omega⟩) :=
    fun a b => chunk2_patch_apply x _ i a pc b _
  simp only [hz]

/-! ### The carried bin counts after the loop -/

/-- The bin number the loops compare against at bin q is the word of q. -/
theorem bins_apply (q : Fin 64) : bins (ix3 0 q 0) = BitVec.ofNat 32 q.val := binIota_apply _ q

/-- Channel 1's carried count of bin q after the loop: over chunk j, row a and column col, 1 for an entry whose bin is q. -/
theorem loop1_hist (x : Vec Ideal S1x1x1024x1024 .f32) (q : Fin 64) :
    (loop1 x).1 (ix2 0 q) = ∑ j : Fin 64, ∑ a : Fin 16, ∑ col : Fin 1024, (if idxOfK (x (ix4 0 0 ⟨16 * j.val + a.val, by omega⟩ col)) = BitVec.ofNat 32 q.val then (1 : EReal) else 0) := by
  unfold loop1
  rw [trips1]
  refine (run1_sum (fun acc : Acc Ideal => acc.1 (ix2 0 q))
    (fun v49 => ∑ r : Fin 16, ∑ col : Fin 1024, maskK (v49 (ix4 0 0 r col)) (bins (ix3 0 q 0))) bins x _
    (fun k acc => k0_pay3_apply bins acc.1 (chunk1 x k) q) 64 (by decide)).trans ?_
  show (k0_pay18 (F := Ideal)) (ix2 0 q) + _ = _
  rw [k0_pay18_zero, zero_add]
  refine Finset.sum_congr rfl fun j _ => Finset.sum_congr rfl fun a _ => Finset.sum_congr rfl fun col _ => ?_
  rw [maskK_eq, bins_apply,
    chunk1_apply x _ a col (by have := j.isLt; have := a.isLt; show 16 * j.val + a.val < 1024; omega)]

/-- Channel 2's carried count of bin q after the loop. -/
theorem loop2_hist (x : Vec Ideal S1x1x1024x1024 .f32) (q : Fin 64) :
    (loop2 x).1 (ix2 0 q) = ∑ j : Fin 64, ∑ a : Fin 16, ∑ col : Fin 1024, (if idxOfK (x (ix4 0 0 ⟨16 * j.val + a.val, by omega⟩ col)) = BitVec.ofNat 32 q.val then (1 : EReal) else 0) := by
  unfold loop2
  rw [trips2]
  refine (run2_sum (fun acc : Acc Ideal => acc.1 (ix2 0 q))
    (fun v49 => ∑ r : Fin 16, ∑ col : Fin 1024, maskK (v49 (ix4 0 0 r col)) (bins (ix3 0 q 0))) bins x _
    (fun k acc => k0_pay11_apply bins acc.1 (chunk2 x k) q) 64 (by decide)).trans ?_
  show (k0_pay26 (F := Ideal)) (ix2 0 q) + _ = _
  rw [k0_pay26_zero, zero_add]
  refine Finset.sum_congr rfl fun j _ => Finset.sum_congr rfl fun a _ => Finset.sum_congr rfl fun col _ => ?_
  rw [maskK_eq, bins_apply,
    chunk2_apply x _ a col (by have := j.isLt; have := a.isLt; show 16 * j.val + a.val < 1024; omega)]

end Cert.KernelIdeal.KVal0

end
-- ==== Proof.LibCountSums.lean ====
/-
  Counting sums: sums of terms "u if a condition holds, else 0", rearranged.

  (1) Such a sum over an index set that is a product (in bijection with α × β, or α × β × γ) is the nested sum over the factors.
  (2) Segments.  Let every item (q, i) carry a label idx q i < B and be sent to the cell idx q i + B·q of a table of N·B cells
      (segment q occupies the cells B·q … B·q + B - 1).  Then the items landing in cell B·p + k, k < B, are exactly the items
      of segment p with label k: a different segment's cells are disjoint from segment p's.  So the sum over ALL items of
      "u if the item's cell is B·p + k" is the sum over segment p's items of "u if the label is k".
  Everything is in an arbitrary additive commutative monoid (the extended reals among them).
-/
import Mathlib.Algebra.BigOperators.Group.Finset.Basic
import Mathlib.Algebra.BigOperators.Ring.Finset
import Mathlib.Data.Fintype.BigOperators
import Mathlib.Tactic.NormNum
import Mathlib.Data.EReal.Basic

noncomputable section

namespace Idealize.ShloMosaic

open scoped BigOperators

/-! ### A conditional sum over a product index -/

/-- A conditional sum over ι, reindexed along ι ≃ α × β, is the nested conditional sum over α then β. -/
theorem sum_ite_nest2 {M ι α β : Type*} [AddCommMonoid M] [Fintype ι] [Fintype α] [Fintype β] (e : ι ≃ α × β)
    (P : ι → Prop) [DecidablePred P] (u : ι → M) :
    ∑ a, ∑ b, (if P (e.symm (a, b)) then u (e.symm (a, b)) else 0) = ∑ i, if P i then u i else 0 := by
  rw [← Fintype.sum_prod_type' (fun a b => if P (e.symm (a, b)) then u (e.symm (a, b)) else 0)]
  exact Equiv.sum_comp e.symm fun i => if P i then u i else 0

/-- A conditional sum over ι, reindexed along ι ≃ α × β × γ, is the conditional sum nested three deep. -/
theorem sum_ite_nest3 {M ι α β γ : Type*} [AddCommMonoid M] [Fintype ι] [Fintype α] [Fintype β] [Fintype γ]
    (e : ι ≃ α × β × γ) (P : ι → Prop) [DecidablePred P] (u : ι → M) :
    ∑ a, ∑ b, ∑ c, (if P (e.symm (a, b, c)) then u (e.symm (a, b, c)) else 0) = ∑ i, if P i then u i else 0 := by
  rw [← sum_ite_nest2 e P u]
  refine Finset.sum_congr rfl fun a _ => ?_
  exact (Fintype.sum_prod_type' (fun b c => if P (e.symm (a, b, c)) then u (e.symm (a, b, c)) else 0)).symm

/-- Counting the indices with a given label: the count over ι ≃ α × β is the nested count. -/
theorem sum_count_nest2 {M ι α β κ : Type*} [AddCommMonoid M] [Fintype ι] [Fintype α] [Fintype β] [DecidableEq κ]
    (e : ι ≃ α × β) (idx : ι → κ) (k : κ) (u : M) :
    ∑ a, ∑ b, (if idx (e.symm (a, b)) = k then u else 0) = ∑ i, if idx i = k then u else 0 :=
  sum_ite_nest2 e (fun i => idx i = k) fun _ => u

/-- Counting the indices with a given label: the count over ι ≃ α × β × γ is the count nested three deep. -/
theorem sum_count_nest3 {M ι α β γ κ : Type*} [AddCommMonoid M] [Fintype ι] [Fintype α] [Fintype β] [Fintype γ]
    [DecidableEq κ] (e : ι ≃ α × β × γ) (idx : ι → κ) (k : κ) (u : M) :
    ∑ a, ∑ b, ∑ c, (if idx (e.symm (a, b, c)) = k then u else 0) = ∑ i, if idx i = k then u else 0 :=
  sum_ite_nest3 e (fun i => idx i = k) fun _ => u

/-- A sum over the indices satisfying a condition is the conditional sum over all indices. -/
theorem sum_filter_eq_sum_ite {M ι : Type*} [AddCommMonoid M] [Fintype ι] (P : ι → Prop) [DecidablePred P] (u : ι → M) :
    ∑ i ∈ Finset.univ.filter P, u i = ∑ i, if P i then u i else 0 :=
  Finset.sum_filter P u

/-! ### Segments -/

/-- Cells of different segments are different: idx + B·q = B·p + k with idx, k < B forces q = p. -/
theorem segment_cell_inj {B q p a k : ℕ} (ha : a < B) (hk : k < B) (h : a + B * q = B * p + k) : q = p := by
  rcases lt_trichotomy q p with hlt | heq | hgt
  · have h1 : B * (q + 1) ≤ B * p := Nat.mul_le_mul_left B hlt
    rw [Nat.mul_succ] at h1
    omega
  · exact heq
  · have h1 : B * (p + 1) ≤ B * q := Nat.mul_le_mul_left B hgt
    rw [Nat.mul_succ] at h1
    omega

/-- Segment sum, cells as natural numbers: over all items (q, i), "u q i if the cell idx q i + B·q is B·p + k" sums to
    "u p i if the label idx p i is k" over segment p's items. -/
theorem sum_segment_nat {M ι : Type*} [AddCommMonoid M] [Fintype ι] {N B : ℕ} (idx : Fin N → ι → ℕ)
    (hidx : ∀ q i, idx q i < B) (u : Fin N → ι → M) (p : Fin N) {k : ℕ} (hk : k < B) :
    ∑ q : Fin N, ∑ i, (if idx q i + B * (q : ℕ) = B * (p : ℕ) + k then u q i else 0)
      = ∑ i, if idx p i = k then u p i else 0 := by
  rw [Finset.sum_eq_single p]
  · refine Finset.sum_congr rfl fun i _ => ?_
    have hiff : (idx p i + B * (p : ℕ) = B * (p : ℕ) + k) ↔ idx p i = k := by omega
    simp only [hiff]
  · intro q _ hq
    refine Finset.sum_eq_zero fun i _ => if_neg fun h => hq ?_
    exact Fin.ext (segment_cell_inj (hidx q i) hk h)
  · intro hp
    exact absurd (Finset.mem_univ p) hp

/-- Segment sum, cells as integers (an index word read signed). -/
theorem sum_segment_int {M ι : Type*} [AddCommMonoid M] [Fintype ι] {N B : ℕ} (idx : Fin N → ι → ℕ)
    (hidx : ∀ q i, idx q i < B) (seg : Fin N → ι → ℤ)
    (hseg : ∀ q i, seg q i = (idx q i : ℤ) + (B : ℤ) * ((q : ℕ) : ℤ)) (u : Fin N → ι → M) (p : Fin N) {k : ℕ} (hk : k < B) :
    ∑ q : Fin N, ∑ i, (if seg q i = (B : ℤ) * ((p : ℕ) : ℤ) + (k : ℤ) then u q i else 0)
      = ∑ i, if idx p i = k then u p i else 0 := by
  have hiff : ∀ q i, (seg q i = (B : ℤ) * ((p : ℕ) : ℤ) + (k : ℤ)) ↔ (idx q i + B * (q : ℕ) = B * (p : ℕ) + k) := fun q i => by
    rw [hseg]; norm_cast
  simp only [hiff]
  exact sum_segment_nat idx hidx u p hk

/-- Segment sum over a FLAT item index E ≃ Fin N × ι (all segments' items in one list), cells as natural numbers:
    ∑ over j : E of "u j if seg j = B·p + k" is the sum over segment p's items of "u if the label is k". -/
theorem sum_segment_flat_nat {M ι E : Type*} [AddCommMonoid M] [Fintype ι] [Fintype E] {N B : ℕ} (e : E ≃ Fin N × ι)
    (idx : Fin N → ι → ℕ) (hidx : ∀ q i, idx q i < B) (seg : E → ℕ)
    (hseg : ∀ q i, seg (e.symm (q, i)) = idx q i + B * (q : ℕ)) (u : E → M) (p : Fin N) {k : ℕ} (hk : k < B) :
    ∑ j, (if seg j = B * (p : ℕ) + k then u j else 0) = ∑ i, if idx p i = k then u (e.symm (p, i)) else 0 := by
  rw [← sum_ite_nest2 e (fun j => seg j = B * (p : ℕ) + k) u]
  simp only [hseg]
  exact sum_segment_nat idx hidx (fun q i => u (e.symm (q, i))) p hk

/-- Segment sum over a flat item index, cells as integers. -/
theorem sum_segment_flat_int {M ι E : Type*} [AddCommMonoid M] [Fintype ι] [Fintype E] {N B : ℕ} (e : E ≃ Fin N × ι)
    (idx : Fin N → ι → ℕ) (hidx : ∀ q i, idx q i < B) (seg : E → ℤ)
    (hseg : ∀ q i, seg (e.symm (q, i)) = (idx q i : ℤ) + (B : ℤ) * ((q : ℕ) : ℤ)) (u : E → M) (p : Fin N) {k : ℕ}
    (hk : k < B) :
    ∑ j, (if seg j = (B : ℤ) * ((p : ℕ) : ℤ) + (k : ℤ) then u j else 0)
      = ∑ i, if idx p i = k then u (e.symm (p, i)) else 0 := by
  rw [← sum_ite_nest2 e (fun j => seg j = (B : ℤ) * ((p : ℕ) : ℤ) + (k : ℤ)) u]
  exact sum_segment_int idx hidx (fun q i => seg (e.symm (q, i))) hseg (fun q i => u (e.symm (q, i))) p hk

/-! ### Words and numbers -/

/-- A 32-bit word equals the word of a small number exactly when its unsigned value is that number. -/
theorem bitvec32_eq_ofNat_iff (b : BitVec 32) {k : ℕ} (hk : k < 2 ^ 32) : b = BitVec.ofNat 32 k ↔ b.toNat = k := by
  have hk' : (BitVec.ofNat 32 k).toNat = k := by rw [BitVec.toNat_ofNat]; exact Nat.mod_eq_of_lt hk
  constructor
  · rintro rfl; exact hk'
  · intro h; exact BitVec.eq_of_toNat_eq (by rw [h, hk'])

/-- A 32-bit word with a small unsigned value reads the same signed. -/
theorem bitvec32_toInt_of_lt (b : BitVec 32) (h : b.toNat < 2 ^ 31) : b.toInt = (b.toNat : ℤ) := by
  rw [BitVec.toInt_eq_toNat_cond, if_pos (by omega)]

end Idealize.ShloMosaic
-- ==== Proof.LibNestIndex.lean ====
/-
  A flat index as a nested one, row-major.

  The numbers below n = a·b are the pairs (j, k), j < a, k < b, through i = j·b + k (so j = i / b, k = i % b); the numbers
  below n = a·b·c are the triples (j, k, l) through i = (j·b + k)·c + l = j·b·c + k·c + l.  This is the order in which a
  reshape of a row-major array lists the entries.  A sum over the flat index is the nested sum over the pair's or the triple's
  coordinates.  Everything is in an arbitrary additive commutative monoid.
-/
import Mathlib.Algebra.BigOperators.Group.Finset.Basic
import Mathlib.Data.Fintype.BigOperators
import Mathlib.Logic.Equiv.Fin.Basic
import Mathlib.Algebra.Group.Fin.Basic
import Mathlib.Tactic.Ring
import Mathlib.Tactic.NormNum

noncomputable section

namespace Idealize.ShloMosaic

open scoped BigOperators

/-! ### The bijections -/

/-- The indices below n = a·b as pairs: the flat index j·b + k is the pair (j, k) (row-major). -/
def finNest2 (a b : ℕ) {n : ℕ} (h : n = a * b) : Fin n ≃ Fin a × Fin b :=
  (finCongr h).trans finProdFinEquiv.symm

/-- The flat index of the pair (j, k) is j·b + k. -/
theorem finNest2_symm_val (a b : ℕ) {n : ℕ} (h : n = a * b) (j : Fin a) (k : Fin b) :
    ((finNest2 a b h).symm (j, k) : ℕ) = (j : ℕ) * b + (k : ℕ) := by
  simp [finNest2, Nat.mul_comm, Nat.add_comm]

/-- The pair of a flat index i is (i / b, i % b). -/
theorem finNest2_apply_val (a b : ℕ) {n : ℕ} (h : n = a * b) (i : Fin n) :
    ((finNest2 a b h i).1 : ℕ) = (i : ℕ) / b ∧ ((finNest2 a b h i).2 : ℕ) = (i : ℕ) % b := by
  simp [finNest2, finProdFinEquiv, Fin.divNat, Fin.modNat]

/-- The indices below n = a·(b·c) as triples: the flat index (j·b + k)·c + l is the triple (j, k, l) (row-major). -/
def finNest3 (a b c : ℕ) {n : ℕ} (h : n = a * (b * c)) : Fin n ≃ Fin a × Fin b × Fin c :=
  (finNest2 a (b * c) h).trans ((Equiv.refl (Fin a)).prodCongr finProdFinEquiv.symm)

/-- The flat index of the triple (j, k, l) is (j·b + k)·c + l. -/
theorem finNest3_symm_val (a b c : ℕ) {n : ℕ} (h : n = a * (b * c)) (j : Fin a) (k : Fin b) (l : Fin c) :
    ((finNest3 a b c h).symm (j, k, l) : ℕ) = ((j : ℕ) * b + (k : ℕ)) * c + (l : ℕ) := by
  have : ((finNest3 a b c h).symm (j, k, l) : ℕ) = ((l : ℕ) + c * (k : ℕ)) + (b * c) * (j : ℕ) := by
    simp [finNest3, finNest2]
  rw [this]; ring

/-- The flat index of the triple (j, k, l), expanded: j·b·c + k·c + l. -/
theorem finNest3_symm_val' (a b c : ℕ) {n : ℕ} (h : n = a * (b * c)) (j : Fin a) (k : Fin b) (l : Fin c) :
    ((finNest3 a b c h).symm (j, k, l) : ℕ) = (j : ℕ) * b * c + (k : ℕ) * c + (l : ℕ) := by
  rw [finNest3_symm_val]; ring

/-! ### Sums over a flat index as nested sums -/

/-- A sum over the flat index is the nested sum over the pairs. -/
theorem sum_fin_nest2 {M : Type*} [AddCommMonoid M] (a b : ℕ) {n : ℕ} (h : n = a * b) (g : Fin n → M) :
    ∑ i, g i = ∑ j : Fin a, ∑ k : Fin b, g ((finNest2 a b h).symm (j, k)) := by
  rw [← Fintype.sum_prod_type' (fun j k => g ((finNest2 a b h).symm (j, k)))]
  exact (Equiv.sum_comp (finNest2 a b h).symm g).symm

/-- A sum over the flat index is the nested sum over the triples. -/
theorem sum_fin_nest3 {M : Type*} [AddCommMonoid M] (a b c : ℕ) {n : ℕ} (h : n = a * (b * c)) (g : Fin n → M) :
    ∑ i, g i = ∑ j : Fin a, ∑ k : Fin b, ∑ l : Fin c, g ((finNest3 a b c h).symm (j, k, l)) := by
  rw [← Equiv.sum_comp (finNest3 a b c h).symm g, Fintype.sum_prod_type]
  exact Finset.sum_congr rfl fun j _ => Fintype.sum_prod_type _

/-- For a summand that depends on the flat index as a number: ∑ over i < a·b of g i = ∑ over j < a, k < b of g (j·b + k). -/
theorem sum_fin_nest2_nat {M : Type*} [AddCommMonoid M] (a b : ℕ) {n : ℕ} (h : n = a * b) (g : ℕ → M) :
    ∑ i : Fin n, g i = ∑ j : Fin a, ∑ k : Fin b, g ((j : ℕ) * b + (k : ℕ)) := by
  rw [sum_fin_nest2 a b h fun i => g i]
  simp only [finNest2_symm_val]

/-- For a summand that depends on the flat index as a number: ∑ over i < a·b·c of g i = the triple sum of g ((j·b + k)·c + l). -/
theorem sum_fin_nest3_nat {M : Type*} [AddCommMonoid M] (a b c : ℕ) {n : ℕ} (h : n = a * (b * c)) (g : ℕ → M) :
    ∑ i : Fin n, g i = ∑ j : Fin a, ∑ k : Fin b, ∑ l : Fin c, g (((j : ℕ) * b + (k : ℕ)) * c + (l : ℕ)) := by
  rw [sum_fin_nest3 a b c h fun i => g i]
  simp only [finNest3_symm_val]

/-- A flat sum of f (q / b) (q % b) over q < a·b is the double sum of f r c over r < a, c < b. -/
theorem sum_fin_divmod {M : Type*} [AddCommMonoid M] (a b : ℕ) {n : ℕ} (h : n = a * b) (f : ℕ → ℕ → M) :
    ∑ q : Fin n, f ((q : ℕ) / b) ((q : ℕ) % b) = ∑ r : Fin a, ∑ c : Fin b, f r c := by
  rw [sum_fin_nest2_nat a b h fun q => f (q / b) (q % b)]
  refine Finset.sum_congr rfl fun r _ => Finset.sum_congr rfl fun c _ => ?_
  have hb : 0 < b := Nat.pos_of_ne_zero fun h0 => by have := c.isLt; omega
  rw [Nat.mul_comm, Nat.mul_add_div hb, Nat.mul_add_mod, Nat.div_eq_of_lt c.isLt, Nat.mod_eq_of_lt c.isLt, Nat.add_zero]

/-- The pair form with the factor written first: ∑ over i < a·b of g i = ∑ over j < a, k < b of g (b·j + k). -/
theorem sum_fin_nest2_nat' {M : Type*} [AddCommMonoid M] (a b : ℕ) {n : ℕ} (h : n = a * b) (g : ℕ → M) :
    ∑ i : Fin n, g i = ∑ j : Fin a, ∑ k : Fin b, g (b * (j : ℕ) + (k : ℕ)) := by
  rw [sum_fin_nest2_nat a b h g]
  simp only [Nat.mul_comm]

/-! ### A function of two indices as a function of two numbers -/

/-- A function on Fin A × Fin B read as a function of two numbers (0 outside the rectangle): sums over computed
    coordinates (16·j + a, 8·p + b, q / 1024 …) are stated over numbers and brought back by natFun2_of_lt. -/
def natFun2 {A B : ℕ} {M : Type*} [Zero M] (f : Fin A → Fin B → M) : ℕ → ℕ → M :=
  fun r c => if h : r < A ∧ c < B then f ⟨r, h.1⟩ ⟨c, h.2⟩ else 0

/-- Inside the rectangle the numeric reading is the function. -/
theorem natFun2_of_lt {A B : ℕ} {M : Type*} [Zero M] (f : Fin A → Fin B → M) {r c : ℕ} (hr : r < A) (hc : c < B) :
    natFun2 f r c = f ⟨r, hr⟩ ⟨c, hc⟩ := dif_pos ⟨hr, hc⟩

/-- At the values of two indices the numeric reading is the function. -/
theorem natFun2_val {A B : ℕ} {M : Type*} [Zero M] (f : Fin A → Fin B → M) (r : Fin A) (c : Fin B) :
    natFun2 f (r : ℕ) (c : ℕ) = f r c := natFun2_of_lt f r.isLt c.isLt

/-! ### Patches of an image

  An image of nj·ni patch rows and w patch columns.  Patch number P (row-major: P = (patch row)·w + (patch column)) is in patch
  row P / w and patch column P % w.  The patch rows are grouped in nj chunks of ni: patch row j·ni + i is the i-th of chunk j. -/

/-- A sum over the patches, by patch number, is the sum over chunks, the chunk's patch rows and the patch columns. -/
theorem sum_patches_outer {M' : Type*} [AddCommMonoid M'] (nj ni w : ℕ) {n : ℕ} (h : n = nj * (ni * w)) (g : ℕ → ℕ → M') :
    ∑ P : Fin n, g ((P : ℕ) / w) ((P : ℕ) % w)
      = ∑ j : Fin nj, ∑ i : Fin ni, ∑ pc : Fin w, g ((j : ℕ) * ni + (i : ℕ)) (pc : ℕ) := by
  rw [sum_fin_nest3_nat nj ni w h fun P => g (P / w) (P % w)]
  refine Finset.sum_congr rfl fun j _ => Finset.sum_congr rfl fun i _ => Finset.sum_congr rfl fun pc _ => ?_
  have hw : 0 < w := Nat.pos_of_ne_zero fun h0 => by have := pc.isLt; omega
  rw [Nat.mul_comm _ w, Nat.mul_add_div hw, Nat.mul_add_mod, Nat.div_eq_of_lt pc.isLt, Nat.mod_eq_of_lt pc.isLt,
    Nat.add_zero]

/-- The 8×8 patches of a 1024×1024 image, f a function of the pixel's (row, column) as numbers.  Patch P : Fin 16384
    (128 per patch row) has entry e : Fin 64 at pixel (8·(P/128) + e/8, 8·(P%128) + e%8).  Summing any function G of a
    patch's 64 entries over all patches is summing it over chunk j : Fin 64 (16 pixel rows), half i : Fin 2 and patch
    column pc : Fin 128, the patch's entry e then at pixel (16·j + 8·i + e/8, 8·pc + e%8). -/
theorem sum_patches_16384 {M M' : Type*} [AddCommMonoid M'] (G : (Fin 64 → M) → M') (f : ℕ → ℕ → M) :
    ∑ P : Fin 16384, G (fun e : Fin 64 => f (8 * ((P : ℕ) / 128) + (e : ℕ) / 8) (8 * ((P : ℕ) % 128) + (e : ℕ) % 8))
      = ∑ j : Fin 64, ∑ i : Fin 2, ∑ pc : Fin 128,
          G (fun e : Fin 64 => f (16 * (j : ℕ) + 8 * (i : ℕ) + (e : ℕ) / 8) (8 * (pc : ℕ) + (e : ℕ) % 8)) := by
  rw [sum_patches_outer 64 2 128 (by norm_num)
    fun pr pc => G (fun e : Fin 64 => f (8 * pr + (e : ℕ) / 8) (8 * pc + (e : ℕ) % 8))]
  refine Finset.sum_congr rfl fun j _ => Finset.sum_congr rfl fun i _ => Finset.sum_congr rfl fun pc _ => ?_
  refine congrArg G (funext fun e => ?_)
  have h8 : 8 * ((j : ℕ) * 2 + (i : ℕ)) = 16 * (j : ℕ) + 8 * (i : ℕ) := by ring
  rw [h8]

/-- The same for f on Fin 1024 × Fin 1024. -/
theorem sum_patches_16384_fin {M M' : Type*} [Zero M] [AddCommMonoid M'] (G : (Fin 64 → M) → M')
    (f : Fin 1024 → Fin 1024 → M) :
    ∑ P : Fin 16384, G (fun e : Fin 64 =>
        f ⟨8 * ((P : ℕ) / 128) + (e : ℕ) / 8, by omega⟩ ⟨8 * ((P : ℕ) % 128) + (e : ℕ) % 8, by omega⟩)
      = ∑ j : Fin 64, ∑ i : Fin 2, ∑ pc : Fin 128, G (fun e : Fin 64 =>
          f ⟨16 * (j : ℕ) + 8 * (i : ℕ) + (e : ℕ) / 8, by omega⟩ ⟨8 * (pc : ℕ) + (e : ℕ) % 8, by omega⟩) := by
  refine Eq.trans ?_ ((sum_patches_16384 G (natFun2 f)).trans ?_)
  · exact Finset.sum_congr rfl fun P _ => congrArg G (funext fun e => (natFun2_of_lt f _ _).symm)
  · exact Finset.sum_congr rfl fun j _ => Finset.sum_congr rfl fun i _ => Finset.sum_congr rfl fun pc _ =>
      congrArg G (funext fun e => natFun2_of_lt f _ _)

/-- The 64 entries of a patch, by entry number e, are its 8 rows a of 8 entries b: e = 8·a + b. -/
theorem sum_patch_entries {M : Type*} [AddCommMonoid M] (h : ℕ → M) :
    ∑ e : Fin 64, h e = ∑ a : Fin 8, ∑ b : Fin 8, h (8 * (a : ℕ) + (b : ℕ)) :=
  sum_fin_nest2_nat' 8 8 (by norm_num) h

/-- A sum over a patch's entries of a function of (e / 8, e % 8) is the double sum over (a, b). -/
theorem sum_patch_entries_divmod {M : Type*} [AddCommMonoid M] (φ : ℕ → ℕ → M) :
    ∑ e : Fin 64, φ ((e : ℕ) / 8) ((e : ℕ) % 8) = ∑ a : Fin 8, ∑ b : Fin 8, φ a b :=
  sum_fin_divmod 8 8 (by norm_num) φ

/-! ### Pixels of a 1024×1024 image -/

/-- The 1024 pixel rows are 64 chunks of 16: row 16·j + a is the a-th of chunk j. -/
theorem sum_pixels_chunks {M : Type*} [AddCommMonoid M] (f : ℕ → ℕ → M) :
    ∑ r : Fin 1024, ∑ c : Fin 1024, f r c = ∑ j : Fin 64, ∑ a : Fin 16, ∑ c : Fin 1024, f (16 * (j : ℕ) + (a : ℕ)) c :=
  sum_fin_nest2_nat' 64 16 (by norm_num) fun r => ∑ c : Fin 1024, f r c

/-- The same for f on Fin 1024 × Fin 1024. -/
theorem sum_pixels_chunks_fin {M : Type*} [AddCommMonoid M] (f : Fin 1024 → Fin 1024 → M) :
    ∑ r : Fin 1024, ∑ c : Fin 1024, f r c
      = ∑ j : Fin 64, ∑ a : Fin 16, ∑ c : Fin 1024, f ⟨16 * (j : ℕ) + (a : ℕ), by omega⟩ c := by
  refine Eq.trans ?_ ((sum_pixels_chunks (natFun2 f)).trans ?_)
  · exact Finset.sum_congr rfl fun r _ => Finset.sum_congr rfl fun c _ => (natFun2_val f r c).symm
  · exact Finset.sum_congr rfl fun j _ => Finset.sum_congr rfl fun a _ => Finset.sum_congr rfl fun c _ =>
      natFun2_of_lt f _ c.isLt

/-- The pixels in one flat list q : Fin 1048576 (row q / 1024, column q % 1024) are the rows' pixels. -/
theorem sum_pixels_flat {M : Type*} [AddCommMonoid M] (f : ℕ → ℕ → M) :
    ∑ q : Fin 1048576, f ((q : ℕ) / 1024) ((q : ℕ) % 1024) = ∑ r : Fin 1024, ∑ c : Fin 1024, f r c :=
  sum_fin_divmod 1024 1024 (by norm_num) f

/-- The same for f on Fin 1024 × Fin 1024. -/
theorem sum_pixels_flat_fin {M : Type*} [AddCommMonoid M] (f : Fin 1024 → Fin 1024 → M) :
    ∑ q : Fin 1048576, f ⟨(q : ℕ) / 1024, by omega⟩ ⟨(q : ℕ) % 1024, by omega⟩ = ∑ r : Fin 1024, ∑ c : Fin 1024, f r c := by
  refine Eq.trans ?_ ((sum_pixels_flat (natFun2 f)).trans ?_)
  · exact Finset.sum_congr rfl fun q _ => (natFun2_of_lt f _ _).symm
  · exact Finset.sum_congr rfl fun r _ => Finset.sum_congr rfl fun c _ => natFun2_val f r c

end Idealize.ShloMosaic
-- ==== Proof.LibPlaneBridge.lean ====
/-
  One 1024×1024 plane f of real-valued entries, read two ways.

  One reading sweeps the plane in 64 chunks of 16 rows and keeps running sums of the pivot-shifted entries f - c: their sum
  and sum of squares over the whole plane (for the variance in its one-pass form) and over each 8×8 patch (for the patch
  variances), and counts of the entries with a given label.  The other reading lists the plane flat (entry q at row q / 1024,
  column q % 1024), takes the variance in its centred form (mean first), lists the patches as 16384 rows of 64 entries
  (patch P = 128·(patch row) + (patch column), entry e = 8·(row in patch) + (column in patch)), and counts labels over the
  flat list, or over the flat list of all 32 planes with plane p's labels moved to the segment 64·p … 64·p + 63.
  The two readings give the same variance, the same mean patch variance and the same counts.

  Quotients are the exact quotient Ideal.div; the numbers 1048576 and 64 enter as extended reals N, w64 with hypotheses
  giving their real values; the pivot c is any real (cE its extended-real spelling); the last divisors (N1, w63, w16384)
  are arbitrary, both sides dividing by the same one.  The nested sums run chunk, row in chunk, column (and chunk, half,
  patch column, row in patch, column in patch); any other order of the inner sums follows by commuting finite sums.
-/
import proofs.«117902_j75557064671630_2_alg».proof.Proof.LibVarianceForms
import proofs.«117902_j75557064671630_2_alg».proof.Proof.LibCountSums
import proofs.«117902_j75557064671630_2_alg».proof.Proof.LibNestIndex

noncomputable section

open Idealize.ShloMosaic

namespace Idealize.ShloMosaic

open scoped BigOperators

/-! ### Small bridges -/

/-- A sum over a patch's 64 entries of F (e / 8) (e % 8), F on Fin 8 × Fin 8, is the double sum of F. -/
theorem sum_patch_entries_fin {M : Type*} [AddCommMonoid M] (F : Fin 8 → Fin 8 → M) :
    ∑ e : Fin 64, F ⟨(e : ℕ) / 8, by omega⟩ ⟨(e : ℕ) % 8, by omega⟩ = ∑ a : Fin 8, ∑ b : Fin 8, F a b := by
  refine Eq.trans ?_ ((sum_patch_entries_divmod (natFun2 F)).trans ?_)
  · exact Finset.sum_congr rfl fun e _ => (natFun2_of_lt F _ _).symm
  · exact Finset.sum_congr rfl fun a _ => Finset.sum_congr rfl fun b _ => natFun2_val F a b

/-- Adding the word of a number to a 32-bit word, no wrap-around: the sum is the word of y exactly when the unsigned
    values add up to y. -/
theorem bitvec32_add_ofNat_eq_iff (b : BitVec 32) {x y : ℕ} (hb : b.toNat + x < 2 ^ 32) (hy : y < 2 ^ 32) :
    b + BitVec.ofNat 32 x = BitVec.ofNat 32 y ↔ b.toNat + x = y := by
  have hx : x % 2 ^ 32 = x := Nat.mod_eq_of_lt (by omega)
  have hl : (b + BitVec.ofNat 32 x).toNat = b.toNat + x := by
    rw [BitVec.toNat_add, BitVec.toNat_ofNat, hx]; exact Nat.mod_eq_of_lt hb
  have hr : (BitVec.ofNat 32 y).toNat = y := by rw [BitVec.toNat_ofNat]; exact Nat.mod_eq_of_lt hy
  constructor
  · intro h; rw [← hl, h, hr]
  · intro h; exact BitVec.eq_of_toNat_eq (by rw [hl, hr, h])

/-! ### The variance of the plane -/

/-- The one-pass variance from the chunked running sums of f - c equals the centred variance of the flat list:
    ((∑ y·y) - (∑ y)·(∑ y)/N)/N1, y = f(16·j + a, col) - c summed over chunk j, row a, column col, is
    (∑ over q of (g q - m)·(g q - m))/N1 with g q = f(q / 1024, q % 1024) and m = (∑ g)/N.  N is 1048576; N1 is arbitrary. -/
theorem plane_variance (f : Fin 1024 → Fin 1024 → EReal) (hf : ∀ r c, ∃ x : ℝ, f r c = (x : EReal))
    (c : ℝ) {cE N : EReal} (hc : cE = (c : EReal)) (hN : N = ((1048576 : ℝ) : EReal)) (N1 : EReal) :
    Ideal.div
        ((∑ j : Fin 64, ∑ a : Fin 16, ∑ col : Fin 1024, (f ⟨16 * (j : ℕ) + (a : ℕ), by omega⟩ col - cE) * (f ⟨16 * (j : ℕ) + (a : ℕ), by omega⟩ col - cE))
          - Ideal.div ((∑ j : Fin 64, ∑ a : Fin 16, ∑ col : Fin 1024, (f ⟨16 * (j : ℕ) + (a : ℕ), by omega⟩ col - cE))
              * (∑ j : Fin 64, ∑ a : Fin 16, ∑ col : Fin 1024, (f ⟨16 * (j : ℕ) + (a : ℕ), by omega⟩ col - cE))) N) N1
      = Ideal.div (∑ q : Fin 1048576, (f ⟨(q : ℕ) / 1024, by omega⟩ ⟨(q : ℕ) % 1024, by omega⟩ - Ideal.div (∑ q : Fin 1048576, f ⟨(q : ℕ) / 1024, by omega⟩ ⟨(q : ℕ) % 1024, by omega⟩) N) * (f ⟨(q : ℕ) / 1024, by omega⟩ ⟨(q : ℕ) % 1024, by omega⟩ - Ideal.div (∑ q : Fin 1048576, f ⟨(q : ℕ) / 1024, by omega⟩ ⟨(q : ℕ) % 1024, by omega⟩) N)) N1 := by
  refine congrArg (fun t => Ideal.div t N1) (Eq.symm ?_)
  refine variance_num_shift_of_eq (fun q : Fin 1048576 => f ⟨(q : ℕ) / 1024, by omega⟩ ⟨(q : ℕ) % 1024, by omega⟩) (fun q => hf _ _) c 1048576
    (by rw [Fintype.card_fin]; norm_num) (by norm_num) hc hN rfl ?_ ?_
  · exact ((sum_pixels_flat_fin fun r col => f r col - cE).trans
      (sum_pixels_chunks_fin fun r col => f r col - cE)).symm
  · exact ((sum_pixels_flat_fin fun r col => (f r col - cE) * (f r col - cE)).trans
      (sum_pixels_chunks_fin fun r col => (f r col - cE) * (f r col - cE))).symm

/-! ### The mean patch variance -/

/-- The mean of the one-pass patch variances, patches visited by chunk j, half i, patch column pc and summed inside by row a
    and column b of the patch (z = f(16·j + 8·i + a, 8·pc + b) - c), equals the mean of the centred patch variances over
    the list of patches P with entries h P e = f(8·(P/128) + e/8, 8·(P%128) + e%8) and patch mean (∑ over e of h P e)/w64.
    w64 is 64; the divisors w63 and w16384 are arbitrary. -/
theorem plane_patch_variance (f : Fin 1024 → Fin 1024 → EReal) (hf : ∀ r c, ∃ x : ℝ, f r c = (x : EReal))
    (c : ℝ) {cE w64 : EReal} (hc : cE = (c : EReal)) (h64 : w64 = ((64 : ℝ) : EReal)) (w63 w16384 : EReal) :
    Ideal.div
        (∑ j : Fin 64, ∑ i : Fin 2, ∑ pc : Fin 128,
          Ideal.div
            ((∑ a : Fin 8, ∑ b : Fin 8, (f ⟨16 * (j : ℕ) + 8 * (i : ℕ) + (a : ℕ), by omega⟩ ⟨8 * (pc : ℕ) + (b : ℕ), by omega⟩ - cE) * (f ⟨16 * (j : ℕ) + 8 * (i : ℕ) + (a : ℕ), by omega⟩ ⟨8 * (pc : ℕ) + (b : ℕ), by omega⟩ - cE))
              - Ideal.div ((∑ a : Fin 8, ∑ b : Fin 8, (f ⟨16 * (j : ℕ) + 8 * (i : ℕ) + (a : ℕ), by omega⟩ ⟨8 * (pc : ℕ) + (b : ℕ), by omega⟩ - cE)) * (∑ a : Fin 8, ∑ b : Fin 8, (f ⟨16 * (j : ℕ) + 8 * (i : ℕ) + (a : ℕ), by omega⟩ ⟨8 * (pc : ℕ) + (b : ℕ), by omega⟩ - cE))) w64) w63) w16384
      = Ideal.div
        (∑ P : Fin 16384,
          Ideal.div (∑ e : Fin 64, (f ⟨8 * ((P : ℕ) / 128) + (e : ℕ) / 8, by omega⟩ ⟨8 * ((P : ℕ) % 128) + (e : ℕ) % 8, by omega⟩ - Ideal.div (∑ e : Fin 64, f ⟨8 * ((P : ℕ) / 128) + (e : ℕ) / 8, by omega⟩ ⟨8 * ((P : ℕ) % 128) + (e : ℕ) % 8, by omega⟩) w64) * (f ⟨8 * ((P : ℕ) / 128) + (e : ℕ) / 8, by omega⟩ ⟨8 * ((P : ℕ) % 128) + (e : ℕ) % 8, by omega⟩ - Ideal.div (∑ e : Fin 64, f ⟨8 * ((P : ℕ) / 128) + (e : ℕ) / 8, by omega⟩ ⟨8 * ((P : ℕ) % 128) + (e : ℕ) % 8, by omega⟩) w64)) w63) w16384 := by
  refine congrArg (fun t => Ideal.div t w16384) (Eq.symm ?_)
  refine (sum_patches_16384_fin
    (fun v : Fin 64 → EReal =>
      Ideal.div (∑ e : Fin 64, (v e - Ideal.div (∑ e : Fin 64, v e) w64) * (v e - Ideal.div (∑ e : Fin 64, v e) w64)) w63)
    f).trans ?_
  refine Finset.sum_congr rfl fun j _ => Finset.sum_congr rfl fun i _ => Finset.sum_congr rfl fun pc _ => ?_
  refine congrArg (fun t => Ideal.div t w63) ?_
  refine variance_num_shift_of_eq (fun e : Fin 64 => f ⟨16 * (j : ℕ) + 8 * (i : ℕ) + (e : ℕ) / 8, by omega⟩ ⟨8 * (pc : ℕ) + (e : ℕ) % 8, by omega⟩) (fun e => hf _ _) c 64
    (by rw [Fintype.card_fin]; norm_num) (by norm_num) hc h64 rfl ?_ ?_
  · exact (sum_patch_entries_fin fun a b => (f ⟨16 * (j : ℕ) + 8 * (i : ℕ) + (a : ℕ), by omega⟩ ⟨8 * (pc : ℕ) + (b : ℕ), by omega⟩ - cE)).symm
  · exact (sum_patch_entries_fin fun a b => (f ⟨16 * (j : ℕ) + 8 * (i : ℕ) + (a : ℕ), by omega⟩ ⟨8 * (pc : ℕ) + (b : ℕ), by omega⟩ - cE) * (f ⟨16 * (j : ℕ) + 8 * (i : ℕ) + (a : ℕ), by omega⟩ ⟨8 * (pc : ℕ) + (b : ℕ), by omega⟩ - cE)).symm

/-! ### Counts of labels -/

/-- Counting the entries of the plane with label κ by chunk, row in chunk and column is counting them by row and column. -/
theorem plane_count_chunks {X K M : Type*} [DecidableEq K] [AddCommMonoid M] (idx : X → K) (κ : K) (u : M)
    (f : Fin 1024 → Fin 1024 → X) :
    ∑ j : Fin 64, ∑ a : Fin 16, ∑ col : Fin 1024, (if idx (f ⟨16 * (j : ℕ) + (a : ℕ), by omega⟩ col) = κ then u else 0)
      = ∑ r : Fin 1024, ∑ col : Fin 1024, if idx (f r col) = κ then u else 0 :=
  (sum_pixels_chunks_fin fun r col => if idx (f r col) = κ then u else 0).symm

/-- Counting the entries of the flat list with label κ is counting them by row and column. -/
theorem plane_count_flat {X K M : Type*} [DecidableEq K] [AddCommMonoid M] (idx : X → K) (κ : K) (u : M)
    (f : Fin 1024 → Fin 1024 → X) :
    ∑ q : Fin 1048576, (if idx (f ⟨(q : ℕ) / 1024, by omega⟩ ⟨(q : ℕ) % 1024, by omega⟩) = κ then u else 0)
      = ∑ r : Fin 1024, ∑ col : Fin 1024, if idx (f r col) = κ then u else 0 :=
  sum_pixels_flat_fin fun r col => if idx (f r col) = κ then u else 0

/-- Counting by chunk, row in chunk and column is counting over the flat list. -/
theorem plane_count_chunks_flat {X K M : Type*} [DecidableEq K] [AddCommMonoid M] (idx : X → K) (κ : K) (u : M)
    (f : Fin 1024 → Fin 1024 → X) :
    ∑ j : Fin 64, ∑ a : Fin 16, ∑ col : Fin 1024, (if idx (f ⟨16 * (j : ℕ) + (a : ℕ), by omega⟩ col) = κ then u else 0)
      = ∑ q : Fin 1048576, if idx (f ⟨(q : ℕ) / 1024, by omega⟩ ⟨(q : ℕ) % 1024, by omega⟩) = κ then u else 0 :=
  (plane_count_chunks idx κ u f).trans (plane_count_flat idx κ u f).symm

/-- The segment count over the flat list of all 32 planes, labels as numbers: entry e is in plane e / 1048576, row
    (e % 1048576) / 1024, column e % 1024; its cell is its label (below 64) plus 64·(its plane).  The entries in cell
    64·p + k, k < 64, are the entries of plane p with label k. -/
theorem sum_segment_planes_nat {M : Type*} [AddCommMonoid M] (A : ℕ → ℕ → ℕ → ℕ)
    (hA : ∀ q r c, q < 32 → r < 1024 → c < 1024 → A q r c < 64) (u : M) (p : Fin 32) {k : ℕ} (hk : k < 64) :
    ∑ e : Fin 33554432,
        (if A ((e : ℕ) / 1048576) ((e : ℕ) % 1048576 / 1024) ((e : ℕ) % 1024) + 64 * ((e : ℕ) / 1048576) = 64 * (p : ℕ) + k
          then u else 0)
      = ∑ r : Fin 1024, ∑ c : Fin 1024, if A p r c = k then u else 0 := by
  have e1 : ∀ e : ℕ, e % 1024 = e % 1048576 % 1024 := fun e => by omega
  have h1 := sum_fin_divmod 32 1048576 (n := 33554432) (by norm_num)
    fun q i => if A q (i / 1024) (i % 1024) + 64 * q = 64 * (p : ℕ) + k then u else 0
  have h2 := sum_segment_nat (fun (q : Fin 32) (i : Fin 1048576) => A q ((i : ℕ) / 1024) ((i : ℕ) % 1024))
    (fun q i => hA _ _ _ q.isLt (by omega) (by omega)) (fun _ _ => u) p hk
  have h3 := sum_fin_divmod 1024 1024 (n := 1048576) (by norm_num) fun r c => if A p r c = k then u else 0
  refine Eq.trans ?_ (h1.trans (h2.trans h3))
  exact Finset.sum_congr rfl fun e _ => by rw [e1 (e : ℕ)]

/-- The segment count over the flat list of all 32 planes, labels as 32-bit words (unsigned value below 64): the cell
    of entry e is its label word plus the word of 64·(e / 1048576) — no wrap-around, the cells are below 2048.  The
    entries whose cell is the word of 64·p + k, k < 64, are the entries of plane p whose label is the word of k. -/
theorem sum_segment_planes_bitvec {X M : Type*} [AddCommMonoid M] (idx : X → BitVec 32)
    (F32 : Fin 32 → Fin 1024 → Fin 1024 → X) (hidx : ∀ q r c, (idx (F32 q r c)).toNat < 64) (u : M) (p : Fin 32) {k : ℕ}
    (hk : k < 64) :
    ∑ e : Fin 33554432,
        (if idx (F32 ⟨(e : ℕ) / 1048576, by omega⟩ ⟨(e : ℕ) % 1048576 / 1024, by omega⟩ ⟨(e : ℕ) % 1024, by omega⟩) + BitVec.ofNat 32 (64 * ((e : ℕ) / 1048576)) = BitVec.ofNat 32 (64 * (p : ℕ) + k) then u else 0)
      = ∑ r : Fin 1024, ∑ c : Fin 1024, if idx (F32 p r c) = BitVec.ofNat 32 k then u else 0 := by
  let A : ℕ → ℕ → ℕ → ℕ := fun q r c =>
    if h : q < 32 ∧ r < 1024 ∧ c < 1024 then (idx (F32 ⟨q, h.1⟩ ⟨r, h.2.1⟩ ⟨c, h.2.2⟩)).toNat else 0
  have hAv : ∀ (q : ℕ) (r : ℕ) (c : ℕ) (hq : q < 32) (hr : r < 1024) (hc : c < 1024),
      A q r c = (idx (F32 ⟨q, hq⟩ ⟨r, hr⟩ ⟨c, hc⟩)).toNat := fun q r c hq hr hc => dif_pos ⟨hq, hr, hc⟩
  have hA : ∀ q r c, q < 32 → r < 1024 → c < 1024 → A q r c < 64 := fun q r c hq hr hc => by
    rw [hAv q r c hq hr hc]; exact hidx _ _ _
  refine Eq.trans ?_ ((sum_segment_planes_nat A hA u p hk).trans ?_)
  · refine Finset.sum_congr rfl fun e _ => if_congr ?_ rfl rfl
    have he := e.isLt
    have hp := p.isLt
    have hlab := hidx ⟨(e : ℕ) / 1048576, by omega⟩ ⟨(e : ℕ) % 1048576 / 1024, by omega⟩ ⟨(e : ℕ) % 1024, by omega⟩
    rw [bitvec32_add_ofNat_eq_iff _ (by omega) (by omega), hAv _ _ _ (by omega) (by omega) (by omega)]
  · refine Finset.sum_congr rfl fun r _ => Finset.sum_congr rfl fun c _ => if_congr ?_ rfl rfl
    rw [bitvec32_eq_ofNat_iff _ (by omega : k < 2 ^ 32), hAv _ _ _ p.isLt r.isLt c.isLt]

end Idealize.ShloMosaic
-- ==== Proof.RefVar.lean ====
/-
  The reference's four variance features, read index by index.

  For each image p and each of the channels 1 and 2 the reference flattens the 1024 x 1024 plane row by row,
  takes its mean (sum from the zero word, divided by the word of 2^20) and its variance (sum from the zero word of
  the squared deviations, divided by the word of 2^20 - 1); and it cuts the plane into 128 x 128 patches of 8 x 8
  pixels (reshape to [32,128,8,128,8], exchange of the two middle axes, reshape to [32,16384,64]), takes each
  patch's variance the same way (divisors the words of 64 and 63) and the mean of the 16384 patch variances
  (divisor the word of 16384).  This module names those quantities as explicit sums over the input's pixels
  (`gvR`, `lvR`) and proves that the reference's stages are these, at every image.
-/
import proofs.«117902_j75557064671630_2_alg».proof.Proof.Gen.ReferenceIdeal.Read
import Idealize.ShloMosaic.Lib.ValueIdx
import Idealize.ShloMosaic.Lib.Pipeline.Value
import Idealize.ShloMosaic.PureOps.Ideal.Laws

noncomputable section

open Idealize.ShloMosaic Idealize.ShloMosaic.TcCoe

namespace Cert.ReferenceIdeal.FeatValue

open Cert.ReferenceIdeal Cert.ReferenceIdeal.Gen Cert.ReferenceIdeal.Read Idealize.ShloMosaic.ValueIdx

/-- The reference's input: image, channel, row, column. -/
abbrev X0 := (⟨S32x3x1024x1024, .f32⟩ : BufTy).Contents (Elt Ideal)

/-- Pixel `k` of channel `ch` of image `p`, the 1024 x 1024 plane flattened row by row:
    `k` denotes the pixel in row `k / 1024`, column `k % 1024`. -/
def pix (x0 : X0) (ch : Fin 3) (p : Fin 32) (k : Fin 1048576) : EReal :=
  x0 (ix4 p ch ⟨k.val / 1024, by have := k.isLt; omega⟩ ⟨k.val % 1024, by omega⟩)

/-- The mean of a flattened plane as the reference computes it: the sum from the zero word over
    all 2^20 pixels, divided by the word of 2^20. -/
def meanOf (pl : Fin 1048576 → EReal) : EReal :=
  Ideal.div (Ideal.ofBits .f32 0x00000000#32 + ∑ k : Fin 1048576, pl k) (Ideal.ofBits .f32 0x49800000#32)

/-- The variance of a flattened plane as the reference computes it: the sum from the zero word
    over all 2^20 pixels of the squared deviation from `meanOf`, divided by the word of 2^20 - 1. -/
def gvOf (pl : Fin 1048576 → EReal) : EReal :=
  Ideal.div (Ideal.ofBits .f32 0x00000000#32 + ∑ k : Fin 1048576, (pl k - meanOf pl) * (pl k - meanOf pl))
    (Ideal.ofBits .f32 0x497FFFF0#32)

/-- Entry `e` of patch `P` as a flat pixel: patch `P = 128 * pr + pc` is the 8 x 8 block in block row
    `pr = P / 128`, block column `pc = P % 128`; entry `e = 8 * i + j` is its row `i = e / 8`, column
    `j = e % 8`; the pixel is row `8 * pr + i`, column `8 * pc + j`, flat `1024 * row + column`. -/
def patchPix (P : Fin 16384) (e : Fin 64) : Fin 1048576 :=
  ⟨1024 * (8 * (P.val / 128) + e.val / 8) + (8 * (P.val % 128) + e.val % 8), by
    have := P.isLt; have := e.isLt; omega⟩

/-- The mean of patch `P`: the sum from the zero word over its 64 entries, divided by the word of 64. -/
def patchMeanOf (pl : Fin 1048576 → EReal) (P : Fin 16384) : EReal :=
  Ideal.div (Ideal.ofBits .f32 0x00000000#32 + ∑ e : Fin 64, pl (patchPix P e)) (Ideal.ofBits .f32 0x42800000#32)

/-- The variance of patch `P`: the sum from the zero word over its 64 entries of the squared
    deviation from `patchMeanOf`, divided by the word of 63. -/
def patchVarOf (pl : Fin 1048576 → EReal) (P : Fin 16384) : EReal :=
  Ideal.div (Ideal.ofBits .f32 0x00000000#32 +
      ∑ e : Fin 64, (pl (patchPix P e) - patchMeanOf pl P) * (pl (patchPix P e) - patchMeanOf pl P))
    (Ideal.ofBits .f32 0x427C0000#32)

/-- The mean patch variance: the sum from the zero word over the 16384 patches of `patchVarOf`,
    divided by the word of 16384. -/
def lvOf (pl : Fin 1048576 → EReal) : EReal :=
  Ideal.div (Ideal.ofBits .f32 0x00000000#32 + ∑ P : Fin 16384, patchVarOf pl P) (Ideal.ofBits .f32 0x46800000#32)

/-- The variance of channel `ch` of image `p`. -/
def gvR (ch : Fin 3) (x0 : X0) (p : Fin 32) : EReal := gvOf (pix x0 ch p)

/-- The mean patch variance of channel `ch` of image `p`. -/
def lvR (ch : Fin 3) (x0 : X0) (p : Fin 32) : EReal := lvOf (pix x0 ch p)

/-! ### Channel 1: the plane and its layouts -/

theorem v1_at (x0 : X0) (i : S32x1024x1024.Idx) :
    val_main_v1 (F := Ideal) x0 i = x0 (ix4 (i 0) 1 (i 1) (i 2)) := by
  rw [val_main_v1_apply, val_main_v0_apply]
  refine congrArg x0 (funext fun a => Fin.ext ?_)
  have h0 : (i 0).val < 32 := (i 0).isLt
  have h1 : (i 1).val < 1024 := (i 1).isLt
  have h2 : (i 2).val < 1024 := (i 2).isLt
  match a with
  | ⟨0, _⟩ => dsimp only [idx_main_v0, idx_main_v1, ix4]; omega
  | ⟨1, _⟩ => rfl
  | ⟨2, _⟩ => dsimp only [idx_main_v0, idx_main_v1, ix4]; omega
  | ⟨3, _⟩ => dsimp only [idx_main_v0, idx_main_v1, ix4]; omega

theorem v52_at (x0 : X0) (i : S32x1048576.Idx) :
    val_main_v52 (F := Ideal) x0 i = pix x0 1 (i 0) (i 1) := by
  rw [val_main_v52_apply, v1_at]
  unfold pix
  refine congrArg x0 (funext fun a => Fin.ext ?_)
  have h0 : (i 0).val < 32 := (i 0).isLt
  have h1 : (i 1).val < 1048576 := (i 1).isLt
  match a with
  | ⟨0, _⟩ => dsimp only [idx_main_v52, ix4]; omega
  | ⟨1, _⟩ => rfl
  | ⟨2, _⟩ => dsimp only [idx_main_v52, ix4]; omega
  | ⟨3, _⟩ => dsimp only [idx_main_v52, ix4]; omega

/-! ### Channel 1: the variance of the plane -/

theorem v53_at (x0 : X0) (i : S32.Idx) :
    val_main_v53 (F := Ideal) x0 i
      = Ideal.ofBits .f32 0x00000000#32 + ∑ k : Fin 1048576, pix x0 1 (i 0) k := by
  have e : ∀ k, val_main_v52 (F := Ideal) x0 (idx_main_v53 i k) = pix x0 1 (i 0) k :=
    fun k => v52_at x0 _
  rw [val_main_v53_apply, val_main_cst_14_apply]
  simp only [e, Ideal.ofBits_def]

theorem v57_at (x0 : X0) (i : S32x1048576.Idx) :
    val_main_v57 (F := Ideal) x0 i = meanOf (pix x0 1 (i 0)) := by
  rw [val_main_v57_apply, val_main_v56_apply, val_main_v54_apply, val_main_v55_apply,
    val_main_cst_15_apply, v53_at]
  rfl

/-- The reference's variance stage of channel 1, read at image `i 0`. -/
theorem v62_at (x0 : X0) (i : S32.Idx) :
    val_main_v62 (F := Ideal) x0 i = gvR 1 x0 (i 0) := by
  have e1 : ∀ k, val_main_v52 (F := Ideal) x0 (idx_main_v60 i k) = pix x0 1 (i 0) k :=
    fun k => v52_at x0 _
  have e2 : ∀ k, val_main_v57 (F := Ideal) x0 (idx_main_v60 i k) = meanOf (pix x0 1 (i 0)) :=
    fun k => v57_at x0 _
  rw [val_main_v62_apply, val_main_v60_apply, val_main_v61_apply, val_main_cst_16_apply,
    val_main_cst_17_apply]
  simp only [val_main_v59_apply, val_main_v58_apply, e1, e2, Ideal.mulf_def, Ideal.subf_def,
    Ideal.hostDivf_def, Ideal.ofBits_def]
  unfold gvR gvOf
  rfl

/-! ### Channel 1: the 8 x 8 patches -/

theorem v63_at (x0 : X0) (i : S32x128x8x128x8.Idx) :
    val_main_v63 (F := Ideal) x0 i
      = x0 (ix4 (i 0) 1
          ⟨8 * (i 1).val + (i 2).val, by
            have h1 : (i 1).val < 128 := (i 1).isLt; have h2 : (i 2).val < 8 := (i 2).isLt; omega⟩
          ⟨8 * (i 3).val + (i 4).val, by
            have h3 : (i 3).val < 128 := (i 3).isLt; have h4 : (i 4).val < 8 := (i 4).isLt; omega⟩) := by
  rw [val_main_v63_apply, v1_at]
  refine congrArg x0 (funext fun a => Fin.ext ?_)
  have h0 : (i 0).val < 32 := (i 0).isLt
  have h1 : (i 1).val < 128 := (i 1).isLt
  have h2 : (i 2).val < 8 := (i 2).isLt
  have h3 : (i 3).val < 128 := (i 3).isLt
  have h4 : (i 4).val < 8 := (i 4).isLt
  match a with
  | ⟨0, _⟩ => dsimp only [idx_main_v63, ix4]; omega
  | ⟨1, _⟩ => rfl
  | ⟨2, _⟩ => dsimp only [idx_main_v63, ix4]; omega
  | ⟨3, _⟩ => dsimp only [idx_main_v63, ix4]; omega

theorem v64_at (x0 : X0) (i : S32x128x128x8x8.Idx) :
    val_main_v64 (F := Ideal) x0 i
      = x0 (ix4 (i 0) 1
          ⟨8 * (i 1).val + (i 3).val, by
            have h1 : (i 1).val < 128 := (i 1).isLt; have h2 : (i 3).val < 8 := (i 3).isLt; omega⟩
          ⟨8 * (i 2).val + (i 4).val, by
            have h3 : (i 2).val < 128 := (i 2).isLt; have h4 : (i 4).val < 8 := (i 4).isLt; omega⟩) := by
  rw [val_main_v64_apply, v63_at]
  rfl

theorem v65_at (x0 : X0) (i : S32x16384x64.Idx) :
    val_main_v65 (F := Ideal) x0 i = pix x0 1 (i 0) (patchPix (i 1) (i 2)) := by
  rw [val_main_v65_apply, v64_at]
  unfold pix patchPix
  refine congrArg x0 (funext fun a => Fin.ext ?_)
  have h0 : (i 0).val < 32 := (i 0).isLt
  have h1 : (i 1).val < 16384 := (i 1).isLt
  have h2 : (i 2).val < 64 := (i 2).isLt
  have hA : (((i 0).val * 16384 + (i 1).val) * 64 + (i 2).val) / 8192 % 128 = (i 1).val / 128 := by omega
  have hB : (((i 0).val * 16384 + (i 1).val) * 64 + (i 2).val) / 8 % 8 = (i 2).val / 8 := by omega
  have hC : (((i 0).val * 16384 + (i 1).val) * 64 + (i 2).val) / 64 % 128 = (i 1).val % 128 := by omega
  have hD : (((i 0).val * 16384 + (i 1).val) * 64 + (i 2).val) % 8 = (i 2).val % 8 := by omega
  match a with
  | ⟨0, _⟩ => dsimp only [idx_main_v65, ix4]; omega
  | ⟨1, _⟩ => rfl
  | ⟨2, _⟩ => dsimp only [idx_main_v65, ix4]; rw [hA, hB]; omega
  | ⟨3, _⟩ => dsimp only [idx_main_v65, ix4]; rw [hC, hD]; omega

theorem v66_at (x0 : X0) (i : S32x16384.Idx) :
    val_main_v66 (F := Ideal) x0 i
      = Ideal.ofBits .f32 0x00000000#32 + ∑ e : Fin 64, pix x0 1 (i 0) (patchPix (i 1) e) := by
  have e1 : ∀ e, val_main_v65 (F := Ideal) x0 (idx_main_v66 i e) = pix x0 1 (i 0) (patchPix (i 1) e) :=
    fun e => v65_at x0 _
  rw [val_main_v66_apply, val_main_cst_18_apply]
  simp only [e1, Ideal.ofBits_def]

theorem v70_at (x0 : X0) (i : S32x16384x64.Idx) :
    val_main_v70 (F := Ideal) x0 i = patchMeanOf (pix x0 1 (i 0)) (i 1) := by
  rw [val_main_v70_apply, val_main_v69_apply, val_main_v67_apply, val_main_v68_apply,
    val_main_cst_19_apply, v66_at]
  rfl

theorem v75_at (x0 : X0) (i : S32x16384.Idx) :
    val_main_v75 (F := Ideal) x0 i = patchVarOf (pix x0 1 (i 0)) (i 1) := by
  have e1 : ∀ e, val_main_v65 (F := Ideal) x0 (idx_main_v73 i e) = pix x0 1 (i 0) (patchPix (i 1) e) :=
    fun e => v65_at x0 _
  have e2 : ∀ e, val_main_v70 (F := Ideal) x0 (idx_main_v73 i e) = patchMeanOf (pix x0 1 (i 0)) (i 1) :=
    fun e => v70_at x0 _
  rw [val_main_v75_apply, val_main_v73_apply, val_main_v74_apply, val_main_cst_20_apply,
    val_main_cst_21_apply]
  simp only [val_main_v72_apply, val_main_v71_apply, e1, e2, Ideal.mulf_def, Ideal.subf_def,
    Ideal.hostDivf_def, Ideal.ofBits_def]
  unfold patchVarOf
  rfl

/-- The reference's mean patch variance stage of channel 1, read at image `i 0`. -/
theorem v78_at (x0 : X0) (i : S32.Idx) :
    val_main_v78 (F := Ideal) x0 i = lvR 1 x0 (i 0) := by
  have e1 : ∀ P, val_main_v75 (F := Ideal) x0 (idx_main_v76 i P) = patchVarOf (pix x0 1 (i 0)) P :=
    fun P => v75_at x0 _
  rw [val_main_v78_apply, val_main_v76_apply, val_main_v77_apply, val_main_cst_22_apply,
    val_main_cst_23_apply]
  simp only [e1, Ideal.hostDivf_def, Ideal.ofBits_def]
  unfold lvR lvOf
  rfl

/-! ### Channel 2: the plane and its layouts -/

theorem v3_at (x0 : X0) (i : S32x1024x1024.Idx) :
    val_main_v3 (F := Ideal) x0 i = x0 (ix4 (i 0) 2 (i 1) (i 2)) := by
  rw [val_main_v3_apply, val_main_v2_apply]
  refine congrArg x0 (funext fun a => Fin.ext ?_)
  have h0 : (i 0).val < 32 := (i 0).isLt
  have h1 : (i 1).val < 1024 := (i 1).isLt
  have h2 : (i 2).val < 1024 := (i 2).isLt
  match a with
  | ⟨0, _⟩ => dsimp only [idx_main_v2, idx_main_v3, ix4]; omega
  | ⟨1, _⟩ => rfl
  | ⟨2, _⟩ => dsimp only [idx_main_v2, idx_main_v3, ix4]; omega
  | ⟨3, _⟩ => dsimp only [idx_main_v2, idx_main_v3, ix4]; omega

theorem v79_at (x0 : X0) (i : S32x1048576.Idx) :
    val_main_v79 (F := Ideal) x0 i = pix x0 2 (i 0) (i 1) := by
  rw [val_main_v79_apply, v3_at]
  unfold pix
  refine congrArg x0 (funext fun a => Fin.ext ?_)
  have h0 : (i 0).val < 32 := (i 0).isLt
  have h1 : (i 1).val < 1048576 := (i 1).isLt
  match a with
  | ⟨0, _⟩ => dsimp only [idx_main_v79, ix4]; omega
  | ⟨1, _⟩ => rfl
  | ⟨2, _⟩ => dsimp only [idx_main_v79, ix4]; omega
  | ⟨3, _⟩ => dsimp only [idx_main_v79, ix4]; omega

/-! ### Channel 2: the variance of the plane -/

theorem v80_at (x0 : X0) (i : S32.Idx) :
    val_main_v80 (F := Ideal) x0 i
      = Ideal.ofBits .f32 0x00000000#32 + ∑ k : Fin 1048576, pix x0 2 (i 0) k := by
  have e : ∀ k, val_main_v79 (F := Ideal) x0 (idx_main_v80 i k) = pix x0 2 (i 0) k :=
    fun k => v79_at x0 _
  rw [val_main_v80_apply, val_main_cst_24_apply]
  simp only [e, Ideal.ofBits_def]

theorem v84_at (x0 : X0) (i : S32x1048576.Idx) :
    val_main_v84 (F := Ideal) x0 i = meanOf (pix x0 2 (i 0)) := by
  rw [val_main_v84_apply, val_main_v83_apply, val_main_v81_apply, val_main_v82_apply,
    val_main_cst_25_apply, v80_at]
  rfl

/-- The reference's variance stage of channel 2, read at image `i 0`. -/
theorem v89_at (x0 : X0) (i : S32.Idx) :
    val_main_v89 (F := Ideal) x0 i = gvR 2 x0 (i 0) := by
  have e1 : ∀ k, val_main_v79 (F := Ideal) x0 (idx_main_v87 i k) = pix x0 2 (i 0) k :=
    fun k => v79_at x0 _
  have e2 : ∀ k, val_main_v84 (F := Ideal) x0 (idx_main_v87 i k) = meanOf (pix x0 2 (i 0)) :=
    fun k => v84_at x0 _
  rw [val_main_v89_apply, val_main_v87_apply, val_main_v88_apply, val_main_cst_26_apply,
    val_main_cst_27_apply]
  simp only [val_main_v86_apply, val_main_v85_apply, e1, e2, Ideal.mulf_def, Ideal.subf_def,
    Ideal.hostDivf_def, Ideal.ofBits_def]
  unfold gvR gvOf
  rfl

/-! ### Channel 2: the 8 x 8 patches -/

theorem v90_at (x0 : X0) (i : S32x128x8x128x8.Idx) :
    val_main_v90 (F := Ideal) x0 i
      = x0 (ix4 (i 0) 2
          ⟨8 * (i 1).val + (i 2).val, by
            have h1 : (i 1).val < 128 := (i 1).isLt; have h2 : (i 2).val < 8 := (i 2).isLt; omega⟩
          ⟨8 * (i 3).val + (i 4).val, by
            have h3 : (i 3).val < 128 := (i 3).isLt; have h4 : (i 4).val < 8 := (i 4).isLt; omega⟩) := by
  rw [val_main_v90_apply, v3_at]
  refine congrArg x0 (funext fun a => Fin.ext ?_)
  have h0 : (i 0).val < 32 := (i 0).isLt
  have h1 : (i 1).val < 128 := (i 1).isLt
  have h2 : (i 2).val < 8 := (i 2).isLt
  have h3 : (i 3).val < 128 := (i 3).isLt
  have h4 : (i 4).val < 8 := (i 4).isLt
  match a with
  | ⟨0, _⟩ => dsimp only [idx_main_v90, ix4]; omega
  | ⟨1, _⟩ => rfl
  | ⟨2, _⟩ => dsimp only [idx_main_v90, ix4]; omega
  | ⟨3, _⟩ => dsimp only [idx_main_v90, ix4]; omega

theorem v91_at (x0 : X0) (i : S32x128x128x8x8.Idx) :
    val_main_v91 (F := Ideal) x0 i
      = x0 (ix4 (i 0) 2
          ⟨8 * (i 1).val + (i 3).val, by
            have h1 : (i 1).val < 128 := (i 1).isLt; have h2 : (i 3).val < 8 := (i 3).isLt; omega⟩
          ⟨8 * (i 2).val + (i 4).val, by
            have h3 : (i 2).val < 128 := (i 2).isLt; have h4 : (i 4).val < 8 := (i 4).isLt; omega⟩) := by
  rw [val_main_v91_apply, v90_at]
  rfl

theorem v92_at (x0 : X0) (i : S32x16384x64.Idx) :
    val_main_v92 (F := Ideal) x0 i = pix x0 2 (i 0) (patchPix (i 1) (i 2)) := by
  rw [val_main_v92_apply, v91_at]
  unfold pix patchPix
  refine congrArg x0 (funext fun a => Fin.ext ?_)
  have h0 : (i 0).val < 32 := (i 0).isLt
  have h1 : (i 1).val < 16384 := (i 1).isLt
  have h2 : (i 2).val < 64 := (i 2).isLt
  have hA : (((i 0).val * 16384 + (i 1).val) * 64 + (i 2).val) / 8192 % 128 = (i 1).val / 128 := by omega
  have hB : (((i 0).val * 16384 + (i 1).val) * 64 + (i 2).val) / 8 % 8 = (i 2).val / 8 := by omega
  have hC : (((i 0).val * 16384 + (i 1).val) * 64 + (i 2).val) / 64 % 128 = (i 1).val % 128 := by omega
  have hD : (((i 0).val * 16384 + (i 1).val) * 64 + (i 2).val) % 8 = (i 2).val % 8 := by omega
  match a with
  | ⟨0, _⟩ => dsimp only [idx_main_v92, ix4]; omega
  | ⟨1, _⟩ => rfl
  | ⟨2, _⟩ => dsimp only [idx_main_v92, ix4]; rw [hA, hB]; omega
  | ⟨3, _⟩ => dsimp only [idx_main_v92, ix4]; rw [hC, hD]; omega

theorem v93_at (x0 : X0) (i : S32x16384.Idx) :
    val_main_v93 (F := Ideal) x0 i
      = Ideal.ofBits .f32 0x00000000#32 + ∑ e : Fin 64, pix x0 2 (i 0) (patchPix (i 1) e) := by
  have e1 : ∀ e, val_main_v92 (F := Ideal) x0 (idx_main_v93 i e) = pix x0 2 (i 0) (patchPix (i 1) e) :=
    fun e => v92_at x0 _
  rw [val_main_v93_apply, val_main_cst_28_apply]
  simp only [e1, Ideal.ofBits_def]

theorem v97_at (x0 : X0) (i : S32x16384x64.Idx) :
    val_main_v97 (F := Ideal) x0 i = patchMeanOf (pix x0 2 (i 0)) (i 1) := by
  rw [val_main_v97_apply, val_main_v96_apply, val_main_v94_apply, val_main_v95_apply,
    val_main_cst_29_apply, v93_at]
  rfl

theorem v102_at (x0 : X0) (i : S32x16384.Idx) :
    val_main_v102 (F := Ideal) x0 i = patchVarOf (pix x0 2 (i 0)) (i 1) := by
  have e1 : ∀ e, val_main_v92 (F := Ideal) x0 (idx_main_v100 i e) = pix x0 2 (i 0) (patchPix (i 1) e) :=
    fun e => v92_at x0 _
  have e2 : ∀ e, val_main_v97 (F := Ideal) x0 (idx_main_v100 i e) = patchMeanOf (pix x0 2 (i 0)) (i 1) :=
    fun e => v97_at x0 _
  rw [val_main_v102_apply, val_main_v100_apply, val_main_v101_apply, val_main_cst_30_apply,
    val_main_cst_31_apply]
  simp only [val_main_v99_apply, val_main_v98_apply, e1, e2, Ideal.mulf_def, Ideal.subf_def,
    Ideal.hostDivf_def, Ideal.ofBits_def]
  unfold patchVarOf
  rfl

/-- The reference's mean patch variance stage of channel 2, read at image `i 0`. -/
theorem v105_at (x0 : X0) (i : S32.Idx) :
    val_main_v105 (F := Ideal) x0 i = lvR 2 x0 (i 0) := by
  have e1 : ∀ P, val_main_v102 (F := Ideal) x0 (idx_main_v103 i P) = patchVarOf (pix x0 2 (i 0)) P :=
    fun P => v102_at x0 _
  rw [val_main_v105_apply, val_main_v103_apply, val_main_v104_apply, val_main_cst_32_apply,
    val_main_cst_33_apply]
  simp only [e1, Ideal.hostDivf_def, Ideal.ofBits_def]
  unfold lvR lvOf
  rfl

end Cert.ReferenceIdeal.FeatValue
-- ==== Proof.KFeatBridge.lean ====
/-
  The kernel's features of one plane in the reference's arrangement.

  After its loop a channel holds S = the sum and Q = the sum of squares of the pivot-shifted entries of its plane, V = the
  sum over the 8×8 patches of their one-pass variances, and for each bin q the count of the entries whose bin is q.  For a
  plane of real entries, listed flat (entry k at row k / 1024, column k % 1024): (Q - S·S/2²⁰)/1048575 is the centred
  variance of the flat list as the reference takes it, V/16384 is the reference's mean of the centred patch variances, and
  the count of bin q is the number of entries of the flat list whose bin is q.
-/
import proofs.«117902_j75557064671630_2_alg».proof.Proof.KFeatSums
import proofs.«117902_j75557064671630_2_alg».proof.Proof.LibPlaneBridge
import proofs.«117902_j75557064671630_2_alg».proof.Proof.RefVar

set_option maxRecDepth 16384

noncomputable section

namespace Cert.KernelIdeal.KVal0

open Idealize.ShloMosaic Idealize.ShloMosaic.TcCoe
open Cert.KernelIdeal Cert.KernelIdeal.Gen Cert.KernelIdeal.KVal0 Cert.KernelIdeal.PayValue Idealize.ShloMosaic.ValueIdx
open Cert.ReferenceIdeal.FeatValue (meanOf gvOf patchPix patchMeanOf patchVarOf lvOf)

/-! ### The words -/

/-- The word 2²⁰ = 1048576, the number of entries of a plane. -/
abbrev wN : EReal := Ideal.ofBits .f32 0x49800000#32
/-- The word 1048575. -/
abbrev wN1 : EReal := Ideal.ofBits .f32 0x497FFFF0#32
/-- The word 16384, the number of patches of a plane. -/
abbrev w16384 : EReal := Ideal.ofBits .f32 0x46800000#32

theorem pivot_eq : pivot = ((128 : ℝ) : EReal) := by
  simp [Ideal.ofBits, Ideal.ieee, -EReal.coe_mul]; norm_num
theorem wN_eq : wN = ((1048576 : ℝ) : EReal) := by
  simp [Ideal.ofBits, Ideal.ieee, -EReal.coe_mul]; norm_num
theorem w64_eq : w64 = ((64 : ℝ) : EReal) := by
  simp [Ideal.ofBits, Ideal.ieee, -EReal.coe_mul]; norm_num

/-! ### The closing payloads at their one entry -/

/-- The variance feature from the carried sum s and sum of squares q: (q - s·s/2²⁰)/1048575. -/
theorem k0_pay24_apply (s q : FVec Ideal S1x1 .f32) :
    k0_pay24 s q (ix2 0 0) = Ideal.div (q (ix2 0 0) - Ideal.div (s (ix2 0 0) * s (ix2 0 0)) wN) wN1 := rfl

/-- The mean patch variance feature from the carried sum v of patch variances: v/16384. -/
theorem k0_pay25_apply (v : FVec Ideal S1x1 .f32) : k0_pay25 v (ix2 0 0) = Ideal.div (v (ix2 0 0)) w16384 := rfl

/-- The squared carried sum. -/
theorem k0_pay32_apply (s : FVec Ideal S1x1 .f32) : k0_pay32 s (ix2 0 0) = s (ix2 0 0) * s (ix2 0 0) := rfl

/-! ### The plane listed flat -/

/-- The plane listed flat, row by row: entry k is the plane's entry (k / 1024, k % 1024). -/
def planeFlat (x : Vec Ideal S1x1x1024x1024 .f32) (k : Fin 1048576) : EReal := x (ix4 0 0 ⟨k.val / 1024, by omega⟩ ⟨k.val % 1024, by omega⟩)

/-- Entry e of patch P in the flat list is the plane's entry (8·(P/128) + e/8, 8·(P%128) + e%8). -/
theorem planeFlat_patchPix (x : Vec Ideal S1x1x1024x1024 .f32) (P : Fin 16384) (e : Fin 64) :
    planeFlat x (patchPix P e) = x (ix4 0 0 ⟨8 * ((P : ℕ) / 128) + (e : ℕ) / 8, by omega⟩ ⟨8 * ((P : ℕ) % 128) + (e : ℕ) % 8, by omega⟩) := by
  unfold planeFlat patchPix
  have hP := P.isLt
  have he := e.isLt
  refine congrArg x (congrArg₂ (ix4 0 0) (Fin.ext ?_) (Fin.ext ?_))
  · show (1024 * (8 * (P.val / 128) + e.val / 8) + (8 * (P.val % 128) + e.val % 8)) / 1024 = 8 * (P.val / 128) + e.val / 8
    omega
  · show (1024 * (8 * (P.val / 128) + e.val / 8) + (8 * (P.val % 128) + e.val % 8)) % 1024 = 8 * (P.val % 128) + e.val % 8
    omega

/-- The centred variance of the flat plane over any last divisor, in sums without the zero word. -/
theorem gv_flat_eq (x : Vec Ideal S1x1x1024x1024 .f32) (n₁ : EReal) :
    Ideal.div (Ideal.ofBits .f32 0x00000000#32
        + ∑ k : Fin 1048576, (planeFlat x k - meanOf (planeFlat x)) * (planeFlat x k - meanOf (planeFlat x))) n₁
      = Ideal.div (∑ q : Fin 1048576, (x (ix4 0 0 ⟨(q : ℕ) / 1024, by omega⟩ ⟨(q : ℕ) % 1024, by omega⟩) - Ideal.div (∑ q : Fin 1048576, x (ix4 0 0 ⟨(q : ℕ) / 1024, by omega⟩ ⟨(q : ℕ) % 1024, by omega⟩)) wN) * (x (ix4 0 0 ⟨(q : ℕ) / 1024, by omega⟩ ⟨(q : ℕ) % 1024, by omega⟩) - Ideal.div (∑ q : Fin 1048576, x (ix4 0 0 ⟨(q : ℕ) / 1024, by omega⟩ ⟨(q : ℕ) % 1024, by omega⟩)) wN)) n₁ := by
  unfold meanOf planeFlat
  rw [Ideal.ofBits_zero_f32_add, Ideal.ofBits_zero_f32_add]

/-- The sum of the centred patch variances of the flat plane, in sums without the zero word. -/
theorem lv_flat_eq (x : Vec Ideal S1x1x1024x1024 .f32) :
    (∑ P : Fin 16384, patchVarOf (planeFlat x) P) = (∑ P : Fin 16384, Ideal.div (∑ e : Fin 64, (x (ix4 0 0 ⟨8 * ((P : ℕ) / 128) + (e : ℕ) / 8, by omega⟩ ⟨8 * ((P : ℕ) % 128) + (e : ℕ) % 8, by omega⟩) - Ideal.div (∑ e : Fin 64, x (ix4 0 0 ⟨8 * ((P : ℕ) / 128) + (e : ℕ) / 8, by omega⟩ ⟨8 * ((P : ℕ) % 128) + (e : ℕ) % 8, by omega⟩)) w64) * (x (ix4 0 0 ⟨8 * ((P : ℕ) / 128) + (e : ℕ) / 8, by omega⟩ ⟨8 * ((P : ℕ) % 128) + (e : ℕ) % 8, by omega⟩) - Ideal.div (∑ e : Fin 64, x (ix4 0 0 ⟨8 * ((P : ℕ) / 128) + (e : ℕ) / 8, by omega⟩ ⟨8 * ((P : ℕ) % 128) + (e : ℕ) % 8, by omega⟩)) w64)) w63) := by
  refine Finset.sum_congr rfl fun P _ => ?_
  unfold patchVarOf patchMeanOf
  simp only [planeFlat_patchPix, Ideal.ofBits_zero_f32_add]

/-! ### Channel 1 -/

/-- Channel 1's one-pass variance over any last divisor n₁ is the centred variance of the flat plane over n₁. -/
theorem loop1_variance (x : Vec Ideal S1x1x1024x1024 .f32) (hx : ∀ y, ∃ r : ℝ, x y = (r : EReal)) (n₁ : EReal) :
    Ideal.div ((loop1 x).2.2.1 (ix2 0 0) - Ideal.div ((loop1 x).2.1 (ix2 0 0) * (loop1 x).2.1 (ix2 0 0)) wN) n₁
      = Ideal.div (∑ q : Fin 1048576, (x (ix4 0 0 ⟨(q : ℕ) / 1024, by omega⟩ ⟨(q : ℕ) % 1024, by omega⟩) - Ideal.div (∑ q : Fin 1048576, x (ix4 0 0 ⟨(q : ℕ) / 1024, by omega⟩ ⟨(q : ℕ) % 1024, by omega⟩)) wN) * (x (ix4 0 0 ⟨(q : ℕ) / 1024, by omega⟩ ⟨(q : ℕ) % 1024, by omega⟩) - Ideal.div (∑ q : Fin 1048576, x (ix4 0 0 ⟨(q : ℕ) / 1024, by omega⟩ ⟨(q : ℕ) % 1024, by omega⟩)) wN)) n₁ := by
  rw [loop1_sum, loop1_sumsq]
  exact plane_variance (fun r c => x (ix4 0 0 r c)) (fun r c => hx _) 128 pivot_eq wN_eq n₁

/-- Channel 1's sum of one-pass patch variances over any divisor w is the sum of the centred patch variances over w. -/
theorem loop1_patch_mean (x : Vec Ideal S1x1x1024x1024 .f32) (hx : ∀ y, ∃ r : ℝ, x y = (r : EReal)) (w : EReal) :
    Ideal.div ((loop1 x).2.2.2 (ix2 0 0)) w
      = Ideal.div (∑ P : Fin 16384, Ideal.div (∑ e : Fin 64, (x (ix4 0 0 ⟨8 * ((P : ℕ) / 128) + (e : ℕ) / 8, by omega⟩ ⟨8 * ((P : ℕ) % 128) + (e : ℕ) % 8, by omega⟩) - Ideal.div (∑ e : Fin 64, x (ix4 0 0 ⟨8 * ((P : ℕ) / 128) + (e : ℕ) / 8, by omega⟩ ⟨8 * ((P : ℕ) % 128) + (e : ℕ) % 8, by omega⟩)) w64) * (x (ix4 0 0 ⟨8 * ((P : ℕ) / 128) + (e : ℕ) / 8, by omega⟩ ⟨8 * ((P : ℕ) % 128) + (e : ℕ) % 8, by omega⟩) - Ideal.div (∑ e : Fin 64, x (ix4 0 0 ⟨8 * ((P : ℕ) / 128) + (e : ℕ) / 8, by omega⟩ ⟨8 * ((P : ℕ) % 128) + (e : ℕ) % 8, by omega⟩)) w64)) w63) w := by
  rw [loop1_patch]
  exact plane_patch_variance (fun r c => x (ix4 0 0 r c)) (fun r c => hx _) 128 pivot_eq w64_eq w63 w

/-- THE VARIANCE FEATURE of channel 1 is the reference's variance of the flat plane. -/
theorem feat_variance1 (x : Vec Ideal S1x1x1024x1024 .f32) (hx : ∀ y, ∃ r : ℝ, x y = (r : EReal)) :
    k0_pay24 (loop1 x).2.1 (loop1 x).2.2.1 (ix2 0 0) = gvOf (planeFlat x) :=
  (k0_pay24_apply _ _).trans ((loop1_variance x hx wN1).trans (gv_flat_eq x wN1).symm)

/-- THE MEAN PATCH VARIANCE FEATURE of channel 1 is the reference's mean patch variance of the flat plane. -/
theorem feat_patch_mean1 (x : Vec Ideal S1x1x1024x1024 .f32) (hx : ∀ y, ∃ r : ℝ, x y = (r : EReal)) :
    k0_pay25 (loop1 x).2.2.2 (ix2 0 0) = lvOf (planeFlat x) := by
  rw [k0_pay25_apply, loop1_patch_mean x hx w16384]
  unfold lvOf
  rw [Ideal.ofBits_zero_f32_add, lv_flat_eq]

/-! ### Channel 2 -/

/-- Channel 2's one-pass variance over any last divisor n₁ is the centred variance of the flat plane over n₁. -/
theorem loop2_variance (x : Vec Ideal S1x1x1024x1024 .f32) (hx : ∀ y, ∃ r : ℝ, x y = (r : EReal)) (n₁ : EReal) :
    Ideal.div ((loop2 x).2.2.1 (ix2 0 0) - Ideal.div ((loop2 x).2.1 (ix2 0 0) * (loop2 x).2.1 (ix2 0 0)) wN) n₁
      = Ideal.div (∑ q : Fin 1048576, (x (ix4 0 0 ⟨(q : ℕ) / 1024, by omega⟩ ⟨(q : ℕ) % 1024, by omega⟩) - Ideal.div (∑ q : Fin 1048576, x (ix4 0 0 ⟨(q : ℕ) / 1024, by omega⟩ ⟨(q : ℕ) % 1024, by omega⟩)) wN) * (x (ix4 0 0 ⟨(q : ℕ) / 1024, by omega⟩ ⟨(q : ℕ) % 1024, by omega⟩) - Ideal.div (∑ q : Fin 1048576, x (ix4 0 0 ⟨(q : ℕ) / 1024, by omega⟩ ⟨(q : ℕ) % 1024, by omega⟩)) wN)) n₁ := by
  rw [loop2_sum, loop2_sumsq]
  exact plane_variance (fun r c => x (ix4 0 0 r c)) (fun r c => hx _) 128 pivot_eq wN_eq n₁

/-- Channel 2's sum of one-pass patch variances over any divisor w is the sum of the centred patch variances over w. -/
theorem loop2_patch_mean (x : Vec Ideal S1x1x1024x1024 .f32) (hx : ∀ y, ∃ r : ℝ, x y = (r : EReal)) (w : EReal) :
    Ideal.div ((loop2 x).2.2.2 (ix2 0 0)) w
      = Ideal.div (∑ P : Fin 16384, Ideal.div (∑ e : Fin 64, (x (ix4 0 0 ⟨8 * ((P : ℕ) / 128) + (e : ℕ) / 8, by omega⟩ ⟨8 * ((P : ℕ) % 128) + (e : ℕ) % 8, by omega⟩) - Ideal.div (∑ e : Fin 64, x (ix4 0 0 ⟨8 * ((P : ℕ) / 128) + (e : ℕ) / 8, by omega⟩ ⟨8 * ((P : ℕ) % 128) + (e : ℕ) % 8, by omega⟩)) w64) * (x (ix4 0 0 ⟨8 * ((P : ℕ) / 128) + (e : ℕ) / 8, by omega⟩ ⟨8 * ((P : ℕ) % 128) + (e : ℕ) % 8, by omega⟩) - Ideal.div (∑ e : Fin 64, x (ix4 0 0 ⟨8 * ((P : ℕ) / 128) + (e : ℕ) / 8, by omega⟩ ⟨8 * ((P : ℕ) % 128) + (e : ℕ) % 8, by omega⟩)) w64)) w63) w := by
  rw [loop2_patch]
  exact plane_patch_variance (fun r c => x (ix4 0 0 r c)) (fun r c => hx _) 128 pivot_eq w64_eq w63 w

/-- THE VARIANCE FEATURE of channel 2, from the carried sum of squares and the squared carried sum, is the reference's
    variance of the flat plane. -/
theorem feat_variance2 (x : Vec Ideal S1x1x1024x1024 .f32) (hx : ∀ y, ∃ r : ℝ, x y = (r : EReal)) :
    Ideal.div ((loop2 x).2.2.1 (ix2 0 0) - Ideal.div (k0_pay32 (loop2 x).2.1 (ix2 0 0)) wN) wN1 = gvOf (planeFlat x) :=
  (loop2_variance x hx wN1).trans (gv_flat_eq x wN1).symm

/-- THE MEAN PATCH VARIANCE FEATURE of channel 2 is the reference's mean patch variance of the flat plane. -/
theorem feat_patch_mean2 (x : Vec Ideal S1x1x1024x1024 .f32) (hx : ∀ y, ∃ r : ℝ, x y = (r : EReal)) :
    Ideal.div ((loop2 x).2.2.2 (ix2 0 0)) w16384 = lvOf (planeFlat x) := by
  rw [loop2_patch_mean x hx w16384]
  unfold lvOf
  rw [Ideal.ofBits_zero_f32_add, lv_flat_eq]

/-! ### The bin counts -/

/-- Channel 1's count of bin q is the number of entries of the plane, by row and column, whose bin is q. -/
theorem loop1_hist_rows (x : Vec Ideal S1x1x1024x1024 .f32) (q : Fin 64) :
    (loop1 x).1 (ix2 0 q)
      = ∑ r : Fin 1024, ∑ col : Fin 1024, if idxOfK (x (ix4 0 0 r col)) = BitVec.ofNat 32 q.val then (1 : EReal) else 0 :=
  (loop1_hist x q).trans (plane_count_chunks idxOfK (BitVec.ofNat 32 q.val) (1 : EReal) fun r col => x (ix4 0 0 r col))

/-- Channel 1's count of bin q is the number of entries of the flat plane whose bin is q. -/
theorem loop1_hist_flat (x : Vec Ideal S1x1x1024x1024 .f32) (q : Fin 64) :
    (loop1 x).1 (ix2 0 q)
      = ∑ k : Fin 1048576, if idxOfK (planeFlat x k) = BitVec.ofNat 32 q.val then (1 : EReal) else 0 :=
  (loop1_hist x q).trans
    (plane_count_chunks_flat idxOfK (BitVec.ofNat 32 q.val) (1 : EReal) fun r col => x (ix4 0 0 r col))

/-- Channel 2's count of bin q, by row and column. -/
theorem loop2_hist_rows (x : Vec Ideal S1x1x1024x1024 .f32) (q : Fin 64) :
    (loop2 x).1 (ix2 0 q)
      = ∑ r : Fin 1024, ∑ col : Fin 1024, if idxOfK (x (ix4 0 0 r col)) = BitVec.ofNat 32 q.val then (1 : EReal) else 0 :=
  (loop2_hist x q).trans (plane_count_chunks idxOfK (BitVec.ofNat 32 q.val) (1 : EReal) fun r col => x (ix4 0 0 r col))

/-- Channel 2's count of bin q, over the flat plane. -/
theorem loop2_hist_flat (x : Vec Ideal S1x1x1024x1024 .f32) (q : Fin 64) :
    (loop2 x).1 (ix2 0 q)
      = ∑ k : Fin 1048576, if idxOfK (planeFlat x k) = BitVec.ofNat 32 q.val then (1 : EReal) else 0 :=
  (loop2_hist x q).trans
    (plane_count_chunks_flat idxOfK (BitVec.ofNat 32 q.val) (1 : EReal) fun r col => x (ix4 0 0 r col))

end Cert.KernelIdeal.KVal0

end
-- ==== Proof.LibJoinFour.lean ====
/-
  Four matrices with the same number of rows, joined side by side along the columns, read at an entry.

  The joined matrix [n, N] has the columns of the first piece, then those of the second, the third and the fourth; entry
  (p, q) is the entry (p, i) of the piece whose span holds column q, i being q less the widths of the pieces before it.
  General in the extents and the element type; the column's place is a hypothesis on the coordinates' values.
-/
import Idealize.ShloMosaic.Lib.Pipeline.Value
import Idealize.ShloMosaic.Lib.ValueIdx

noncomputable section

namespace Cert.LibJoinFour

open Idealize.ShloMosaic Idealize.ShloMosaic.ValueIdx

variable {α : Type} {n a0 a1 a2 a3 N : ℕ}

/-- A column of the first piece. -/
theorem join4_first (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α)
    (h : Shape.Concatenates [⟨2, ![n, a0]⟩, ⟨2, ![n, a1]⟩, ⟨2, ![n, a2]⟩, ⟨2, ![n, a3]⟩] ⟨2, ![n, N]⟩ 1)
    (p : Fin n) (q : Fin N) (i : Fin a0) (hq : i.val = q.val) :
    concatenate ⟨2, ![n, N]⟩ 1 [⟨⟨2, ![n, a0]⟩, x0⟩, ⟨⟨2, ![n, a1]⟩, x1⟩, ⟨⟨2, ![n, a2]⟩, x2⟩, ⟨⟨2, ![n, a3]⟩, x3⟩] h (ix2 p q)
      = x0 (ix2 p i) :=
  concatenate_apply_piece (t := ⟨2, ![n, N]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 p q) 0 (by show (0 : ℕ) < 4; omega) ⟨2, ![n, a0]⟩ x0 rfl rfl 0 rfl (ix2 p i)
    (fun b hb => by
      match b with
      | ⟨0, _⟩ => rfl
      | ⟨1, _⟩ => exact absurd rfl hb)
    (by show 0 + i.val = q.val; omega)

/-- A column of the second piece. -/
theorem join4_second (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α)
    (h : Shape.Concatenates [⟨2, ![n, a0]⟩, ⟨2, ![n, a1]⟩, ⟨2, ![n, a2]⟩, ⟨2, ![n, a3]⟩] ⟨2, ![n, N]⟩ 1)
    (p : Fin n) (q : Fin N) (i : Fin a1) (hq : a0 + i.val = q.val) :
    concatenate ⟨2, ![n, N]⟩ 1 [⟨⟨2, ![n, a0]⟩, x0⟩, ⟨⟨2, ![n, a1]⟩, x1⟩, ⟨⟨2, ![n, a2]⟩, x2⟩, ⟨⟨2, ![n, a3]⟩, x3⟩] h (ix2 p q)
      = x1 (ix2 p i) :=
  concatenate_apply_piece (t := ⟨2, ![n, N]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 p q) 1 (by show (1 : ℕ) < 4; omega) ⟨2, ![n, a1]⟩ x1 rfl rfl (a0 + 0) rfl (ix2 p i)
    (fun b hb => by
      match b with
      | ⟨0, _⟩ => rfl
      | ⟨1, _⟩ => exact absurd rfl hb)
    (by show a0 + 0 + i.val = q.val; omega)

/-- A column of the third piece. -/
theorem join4_third (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α)
    (h : Shape.Concatenates [⟨2, ![n, a0]⟩, ⟨2, ![n, a1]⟩, ⟨2, ![n, a2]⟩, ⟨2, ![n, a3]⟩] ⟨2, ![n, N]⟩ 1)
    (p : Fin n) (q : Fin N) (i : Fin a2) (hq : a0 + a1 + i.val = q.val) :
    concatenate ⟨2, ![n, N]⟩ 1 [⟨⟨2, ![n, a0]⟩, x0⟩, ⟨⟨2, ![n, a1]⟩, x1⟩, ⟨⟨2, ![n, a2]⟩, x2⟩, ⟨⟨2, ![n, a3]⟩, x3⟩] h (ix2 p q)
      = x2 (ix2 p i) :=
  concatenate_apply_piece (t := ⟨2, ![n, N]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 p q) 2 (by show (2 : ℕ) < 4; omega) ⟨2, ![n, a2]⟩ x2 rfl rfl (a0 + (a1 + 0)) rfl (ix2 p i)
    (fun b hb => by
      match b with
      | ⟨0, _⟩ => rfl
      | ⟨1, _⟩ => exact absurd rfl hb)
    (by show a0 + (a1 + 0) + i.val = q.val; omega)

/-- A column of the fourth piece. -/
theorem join4_fourth (x0 : (⟨2, ![n, a0]⟩ : Shape).Idx → α) (x1 : (⟨2, ![n, a1]⟩ : Shape).Idx → α)
    (x2 : (⟨2, ![n, a2]⟩ : Shape).Idx → α) (x3 : (⟨2, ![n, a3]⟩ : Shape).Idx → α)
    (h : Shape.Concatenates [⟨2, ![n, a0]⟩, ⟨2, ![n, a1]⟩, ⟨2, ![n, a2]⟩, ⟨2, ![n, a3]⟩] ⟨2, ![n, N]⟩ 1)
    (p : Fin n) (q : Fin N) (i : Fin a3) (hq : a0 + a1 + a2 + i.val = q.val) :
    concatenate ⟨2, ![n, N]⟩ 1 [⟨⟨2, ![n, a0]⟩, x0⟩, ⟨⟨2, ![n, a1]⟩, x1⟩, ⟨⟨2, ![n, a2]⟩, x2⟩, ⟨⟨2, ![n, a3]⟩, x3⟩] h (ix2 p q)
      = x3 (ix2 p i) :=
  concatenate_apply_piece (t := ⟨2, ![n, N]⟩) (1 : Fin 2) [⟨⟨2, ![n, a0]⟩, x0⟩, ⟨⟨2, ![n, a1]⟩, x1⟩, ⟨⟨2, ![n, a2]⟩, x2⟩, ⟨⟨2, ![n, a3]⟩, x3⟩] h (ix2 p q) 3 (by show (3 : ℕ) < 4; omega) ⟨2, ![n, a3]⟩ x3 rfl rfl (a0 + (a1 + (a2 + 0))) rfl (ix2 p i)
    (fun b hb => by
      match b with
      | ⟨0, _⟩ => rfl
      | ⟨1, _⟩ => exact absurd rfl hb)
    (by show a0 + (a1 + (a2 + 0)) + i.val = q.val; omega)

end Cert.LibJoinFour

end
-- ==== Proof.LibConcatThree.lean ====
/-
  A join of THREE matrices along one axis, read at an index given by its two coordinates.

  Three matrices of one width stacked along the rows (axis 0), or of one height set side by side along the columns
  (axis 1), form one matrix; an entry of the joined matrix is an entry of the piece whose span along the joined axis
  holds the coordinate, at that coordinate less the extents of the pieces before it.  The caller names the piece's
  coordinate and gives the one equation relating it to the joined matrix's coordinate.  Any extents, any element type.
-/
import Idealize.ShloMosaic.Lib.ValueIdx
import Idealize.ShloMosaic.Lib.Pipeline.Value

namespace Idealize.ShloMosaic.ValueIdx

open Idealize.ShloMosaic

variable {α : Type}

/-! ## Along the rows -/

/-- Three matrices stacked along the rows, read at a row `p` inside the FIRST piece: that piece at row `i = p`. -/
theorem concat3_rows_fst {a0 a1 a2 N m : Nat} (x0 : (⟨2, ![a0, m]⟩ : Shape).Idx → α)
    (x1 : (⟨2, ![a1, m]⟩ : Shape).Idx → α) (x2 : (⟨2, ![a2, m]⟩ : Shape).Idx → α)
    (h : Shape.Concatenates [⟨2, ![a0, m]⟩, ⟨2, ![a1, m]⟩, ⟨2, ![a2, m]⟩] ⟨2, ![N, m]⟩ 0)
    (p : Fin N) (q : Fin m) (i : Fin a0) (hi : i.val = p.val) :
    concatenate ⟨2, ![N, m]⟩ 0 [⟨⟨2, ![a0, m]⟩, x0⟩, ⟨⟨2, ![a1, m]⟩, x1⟩, ⟨⟨2, ![a2, m]⟩, x2⟩] h (ix2 p q)
      = x0 (ix2 i q) :=
  concatenate_apply_piece (t := ⟨2, ![N, m]⟩) 0 [⟨⟨2, ![a0, m]⟩, x0⟩, ⟨⟨2, ![a1, m]⟩, x1⟩, ⟨⟨2, ![a2, m]⟩, x2⟩] h (ix2 p q) 0 (Nat.zero_lt_succ _) ⟨2, ![a0, m]⟩ x0 rfl rfl 0 rfl (ix2 i q)
    (fun b hb => by
      match b with
      | ⟨0, _⟩ => exact absurd rfl hb
      | ⟨1, _⟩ => rfl)
    (by show 0 + i.val = p.val; omega)

/-- Three matrices stacked along the rows, read at a row `p` inside the SECOND piece: that piece at row `i`,
    `a0 + i = p`. -/
theorem concat3_rows_snd {a0 a1 a2 N m : Nat} (x0 : (⟨2, ![a0, m]⟩ : Shape).Idx → α)
    (x1 : (⟨2, ![a1, m]⟩ : Shape).Idx → α) (x2 : (⟨2, ![a2, m]⟩ : Shape).Idx → α)
    (h : Shape.Concatenates [⟨2, ![a0, m]⟩, ⟨2, ![a1, m]⟩, ⟨2, ![a2, m]⟩] ⟨2, ![N, m]⟩ 0)
    (p : Fin N) (q : Fin m) (i : Fin a1) (hi : a0 + i.val = p.val) :
    concatenate ⟨2, ![N, m]⟩ 0 [⟨⟨2, ![a0, m]⟩, x0⟩, ⟨⟨2, ![a1, m]⟩, x1⟩, ⟨⟨2, ![a2, m]⟩, x2⟩] h (ix2 p q)
      = x1 (ix2 i q) :=
  concatenate_apply_piece (t := ⟨2, ![N, m]⟩) 0 [⟨⟨2, ![a0, m]⟩, x0⟩, ⟨⟨2, ![a1, m]⟩, x1⟩, ⟨⟨2, ![a2, m]⟩, x2⟩] h (ix2 p q) 1 (Nat.succ_lt_succ (Nat.zero_lt_succ _)) ⟨2, ![a1, m]⟩ x1 rfl rfl a0 (by simp) (ix2 i q)
    (fun b hb => by
      match b with
      | ⟨0, _⟩ => exact absurd rfl hb
      | ⟨1, _⟩ => rfl)
    (by show a0 + i.val = p.val; exact hi)

/-- Three matrices stacked along the rows, read at a row `p` inside the THIRD piece: that piece at row `i`,
    `a0 + a1 + i = p`. -/
theorem concat3_rows_trd {a0 a1 a2 N m : Nat} (x0 : (⟨2, ![a0, m]⟩ : Shape).Idx → α)
    (x1 : (⟨2, ![a1, m]⟩ : Shape).Idx → α) (x2 : (⟨2, ![a2, m]⟩ : Shape).Idx → α)
    (h : Shape.Concatenates [⟨2, ![a0, m]⟩, ⟨2, ![a1, m]⟩, ⟨2, ![a2, m]⟩] ⟨2, ![N, m]⟩ 0)
    (p : Fin N) (q : Fin m) (i : Fin a2) (hi : a0 + a1 + i.val = p.val) :
    concatenate ⟨2, ![N, m]⟩ 0 [⟨⟨2, ![a0, m]⟩, x0⟩, ⟨⟨2, ![a1, m]⟩, x1⟩, ⟨⟨2, ![a2, m]⟩, x2⟩] h (ix2 p q)
      = x2 (ix2 i q) :=
  concatenate_apply_piece (t := ⟨2, ![N, m]⟩) 0 [⟨⟨2, ![a0, m]⟩, x0⟩, ⟨⟨2, ![a1, m]⟩, x1⟩, ⟨⟨2, ![a2, m]⟩, x2⟩] h (ix2 p q) 2 (Nat.succ_lt_succ (Nat.succ_lt_succ (Nat.zero_lt_succ _))) ⟨2, ![a2, m]⟩ x2 rfl rfl (a0 + a1) (by simp) (ix2 i q)
    (fun b hb => by
      match b with
      | ⟨0, _⟩ => exact absurd rfl hb
      | ⟨1, _⟩ => rfl)
    (by show a0 + a1 + i.val = p.val; exact hi)

/-! ## Along the columns -/

/-- Three matrices side by side along the columns, read at a column `q` inside the FIRST piece: that piece at
    column `i = q`. -/
theorem concat3_cols_fst {n b0 b1 b2 M : Nat} (x0 : (⟨2, ![n, b0]⟩ : Shape).Idx → α)
    (x1 : (⟨2, ![n, b1]⟩ : Shape).Idx → α) (x2 : (⟨2, ![n, b2]⟩ : Shape).Idx → α)
    (h : Shape.Concatenates [⟨2, ![n, b0]⟩, ⟨2, ![n, b1]⟩, ⟨2, ![n, b2]⟩] ⟨2, ![n, M]⟩ 1)
    (p : Fin n) (q : Fin M) (i : Fin b0) (hi : i.val = q.val) :
    concatenate ⟨2, ![n, M]⟩ 1 [⟨⟨2, ![n, b0]⟩, x0⟩, ⟨⟨2, ![n, b1]⟩, x1⟩, ⟨⟨2, ![n, b2]⟩, x2⟩] h (ix2 p q)
      = x0 (ix2 p i) :=
  concatenate_apply_piece (t := ⟨2, ![n, M]⟩) 1 [⟨⟨2, ![n, b0]⟩, x0⟩, ⟨⟨2, ![n, b1]⟩, x1⟩, ⟨⟨2, ![n, b2]⟩, x2⟩] h (ix2 p q) 0 (Nat.zero_lt_succ _) ⟨2, ![n, b0]⟩ x0 rfl rfl 0 rfl (ix2 p i)
    (fun b hb => by
      match b with
      | ⟨0, _⟩ => rfl
      | ⟨1, _⟩ => exact absurd rfl hb)
    (by show 0 + i.val = q.val; omega)

/-- Three matrices side by side along the columns, read at a column `q` inside the SECOND piece: that piece at
    column `i`, `b0 + i = q`. -/
theorem concat3_cols_snd {n b0 b1 b2 M : Nat} (x0 : (⟨2, ![n, b0]⟩ : Shape).Idx → α)
    (x1 : (⟨2, ![n, b1]⟩ : Shape).Idx → α) (x2 : (⟨2, ![n, b2]⟩ : Shape).Idx → α)
    (h : Shape.Concatenates [⟨2, ![n, b0]⟩, ⟨2, ![n, b1]⟩, ⟨2, ![n, b2]⟩] ⟨2, ![n, M]⟩ 1)
    (p : Fin n) (q : Fin M) (i : Fin b1) (hi : b0 + i.val = q.val) :
    concatenate ⟨2, ![n, M]⟩ 1 [⟨⟨2, ![n, b0]⟩, x0⟩, ⟨⟨2, ![n, b1]⟩, x1⟩, ⟨⟨2, ![n, b2]⟩, x2⟩] h (ix2 p q)
      = x1 (ix2 p i) :=
  concatenate_apply_piece (t := ⟨2, ![n, M]⟩) 1 [⟨⟨2, ![n, b0]⟩, x0⟩, ⟨⟨2, ![n, b1]⟩, x1⟩, ⟨⟨2, ![n, b2]⟩, x2⟩] h (ix2 p q) 1 (Nat.succ_lt_succ (Nat.zero_lt_succ _)) ⟨2, ![n, b1]⟩ x1 rfl rfl b0 (by simp) (ix2 p i)
    (fun b hb => by
      match b with
      | ⟨0, _⟩ => rfl
      | ⟨1, _⟩ => exact absurd rfl hb)
    (by show b0 + i.val = q.val; exact hi)

/-- Three matrices side by side along the columns, read at a column `q` inside the THIRD piece: that piece at
    column `i`, `b0 + b1 + i = q`. -/
theorem concat3_cols_trd {n b0 b1 b2 M : Nat} (x0 : (⟨2, ![n, b0]⟩ : Shape).Idx → α)
    (x1 : (⟨2, ![n, b1]⟩ : Shape).Idx → α) (x2 : (⟨2, ![n, b2]⟩ : Shape).Idx → α)
    (h : Shape.Concatenates [⟨2, ![n, b0]⟩, ⟨2, ![n, b1]⟩, ⟨2, ![n, b2]⟩] ⟨2, ![n, M]⟩ 1)
    (p : Fin n) (q : Fin M) (i : Fin b2) (hi : b0 + b1 + i.val = q.val) :
    concatenate ⟨2, ![n, M]⟩ 1 [⟨⟨2, ![n, b0]⟩, x0⟩, ⟨⟨2, ![n, b1]⟩, x1⟩, ⟨⟨2, ![n, b2]⟩, x2⟩] h (ix2 p q)
      = x2 (ix2 p i) :=
  concatenate_apply_piece (t := ⟨2, ![n, M]⟩) 1 [⟨⟨2, ![n, b0]⟩, x0⟩, ⟨⟨2, ![n, b1]⟩, x1⟩, ⟨⟨2, ![n, b2]⟩, x2⟩] h (ix2 p q) 2 (Nat.succ_lt_succ (Nat.succ_lt_succ (Nat.zero_lt_succ _))) ⟨2, ![n, b2]⟩ x2 rfl rfl (b0 + b1) (by simp) (ix2 p i)
    (fun b hb => by
      match b with
      | ⟨0, _⟩ => rfl
      | ⟨1, _⟩ => exact absurd rfl hb)
    (by show b0 + b1 + i.val = q.val; exact hi)

end Idealize.ShloMosaic.ValueIdx
-- ==== Proof.RefJoin.lean ====
/-
  The reference's two joins, read at an entry.

  The four variance features of an image (variance and mean patch variance of channel 1, then of channel 2) are set
  side by side as the columns 0, 1, 2, 3 of a [32, 4] matrix; the 132 features of an image are the 64 normalised
  histogram bins of channel 1, then the 64 of channel 2, then those four columns.  This module reads both joins at an
  entry: which piece the column falls in, and at which column of that piece; and it reads a normalised histogram bin
  as the count stage's entry over the image's total count plus the small word.
-/
import proofs.«117902_j75557064671630_2_alg».proof.Proof.RefVar
import proofs.«117902_j75557064671630_2_alg».proof.Proof.LibJoinFour
import proofs.«117902_j75557064671630_2_alg».proof.Proof.LibConcatThree
import Idealize.ShloMosaic.Lib.ValueIdx
import Idealize.ShloMosaic.Lib.Pipeline.Value
import Idealize.ShloMosaic.PureOps.Ideal.Laws

noncomputable section

open Idealize.ShloMosaic Idealize.ShloMosaic.TcCoe

namespace Cert.ReferenceIdeal.FeatValue

open Cert.ReferenceIdeal Cert.ReferenceIdeal.Gen Cert.ReferenceIdeal.Read Idealize.ShloMosaic.ValueIdx

/-! ### The four variance columns -/

theorem v110_c0 (x0 : X0) (p : Fin 32) : val_main_v110 (F := Ideal) x0 (ix2 p (0 : Fin 4)) = gvR 1 x0 p := by
  unfold val_main_v110
  refine (Cert.LibJoinFour.join4_first _ _ _ _ _ p (0 : Fin 4) (0 : Fin 1) rfl).trans ?_
  rw [val_main_v106_apply, v62_at]
  rfl

theorem v110_c1 (x0 : X0) (p : Fin 32) : val_main_v110 (F := Ideal) x0 (ix2 p (1 : Fin 4)) = lvR 1 x0 p := by
  unfold val_main_v110
  refine (Cert.LibJoinFour.join4_second _ _ _ _ _ p (1 : Fin 4) (0 : Fin 1) rfl).trans ?_
  rw [val_main_v107_apply, v78_at]
  rfl

theorem v110_c2 (x0 : X0) (p : Fin 32) : val_main_v110 (F := Ideal) x0 (ix2 p (2 : Fin 4)) = gvR 2 x0 p := by
  unfold val_main_v110
  refine (Cert.LibJoinFour.join4_third _ _ _ _ _ p (2 : Fin 4) (0 : Fin 1) rfl).trans ?_
  rw [val_main_v108_apply, v89_at]
  rfl

theorem v110_c3 (x0 : X0) (p : Fin 32) : val_main_v110 (F := Ideal) x0 (ix2 p (3 : Fin 4)) = lvR 2 x0 p := by
  unfold val_main_v110
  refine (Cert.LibJoinFour.join4_fourth _ _ _ _ _ p (3 : Fin 4) (0 : Fin 1) rfl).trans ?_
  rw [val_main_v109_apply, v105_at]
  rfl

/-! ### The 132 features -/

/-- A column below 64 is that bin of channel 1's normalised histogram. -/
theorem v111_hist1 (x0 : X0) (p : Fin 32) (q : Fin 132) (k : Fin 64) (h : k.val = q.val) :
    val_main_v111 (F := Ideal) x0 (ix2 p q) = val_main_v27 (F := Ideal) x0 (ix2 p k) := by
  unfold val_main_v111
  exact concat3_cols_fst _ _ _ _ p q k h

/-- A column 64 + k, k below 64, is bin k of channel 2's normalised histogram. -/
theorem v111_hist2 (x0 : X0) (p : Fin 32) (q : Fin 132) (k : Fin 64) (h : 64 + k.val = q.val) :
    val_main_v111 (F := Ideal) x0 (ix2 p q) = val_main_v51 (F := Ideal) x0 (ix2 p k) := by
  unfold val_main_v111
  exact concat3_cols_snd _ _ _ _ p q k h

/-- A column 128 + k, k below 4, is variance column k. -/
theorem v111_var (x0 : X0) (p : Fin 32) (q : Fin 132) (k : Fin 4) (h : 64 + 64 + k.val = q.val) :
    val_main_v111 (F := Ideal) x0 (ix2 p q) = val_main_v110 (F := Ideal) x0 (ix2 p k) := by
  unfold val_main_v111
  exact concat3_cols_trd _ _ _ _ p q k h

theorem v111_c128 (x0 : X0) (p : Fin 32) : val_main_v111 (F := Ideal) x0 (ix2 p ⟨128, by omega⟩) = gvR 1 x0 p :=
  (v111_var x0 p ⟨128, by omega⟩ (0 : Fin 4) rfl).trans (v110_c0 x0 p)

theorem v111_c129 (x0 : X0) (p : Fin 32) : val_main_v111 (F := Ideal) x0 (ix2 p ⟨129, by omega⟩) = lvR 1 x0 p :=
  (v111_var x0 p ⟨129, by omega⟩ (1 : Fin 4) rfl).trans (v110_c1 x0 p)

theorem v111_c130 (x0 : X0) (p : Fin 32) : val_main_v111 (F := Ideal) x0 (ix2 p ⟨130, by omega⟩) = gvR 2 x0 p :=
  (v111_var x0 p ⟨130, by omega⟩ (2 : Fin 4) rfl).trans (v110_c2 x0 p)

theorem v111_c131 (x0 : X0) (p : Fin 32) : val_main_v111 (F := Ideal) x0 (ix2 p ⟨131, by omega⟩) = lvR 2 x0 p :=
  (v111_var x0 p ⟨131, by omega⟩ (3 : Fin 4) rfl).trans (v110_c3 x0 p)

/-! ### The normalised histograms, over the count stages -/

/-- The normalised histogram stage of channel 1: the count stage divided by (the sum from the zero word of the
    image's 64 counts, plus the small word). -/
theorem v27_at (x0 : X0) (i : S32x64.Idx) :
    val_main_v27 (F := Ideal) x0 i
      = Ideal.div (val_main_v21 (F := Ideal) x0 i)
          ((Ideal.ofBits .f32 0x00000000#32 + ∑ k : Fin 64, val_main_v21 (F := Ideal) x0 (ix2 (i 0) k))
            + Ideal.ofBits .f32 0x322BCC77#32) := by
  have e : ∀ k, val_main_v21 (F := Ideal) x0 (idx_main_v22 (idx_main_v23 (idx_main_v26 i)) k)
      = val_main_v21 (F := Ideal) x0 (ix2 (i 0) k) :=
    fun k => congrArg _ (funext fun a => by match a with | ⟨0, _⟩ => rfl | ⟨1, _⟩ => rfl)
  rw [val_main_v27_apply, val_main_v26_apply, val_main_v25_apply, val_main_v23_apply,
    val_main_v24_apply, val_main_v22_apply, val_main_cst_4_apply, val_main_cst_5_apply]
  simp only [e, Ideal.hostDivf_def, Ideal.addf_def, Ideal.ofBits_def]

/-- The normalised histogram stage of channel 2: the count stage divided by (the sum from the zero word of the
    image's 64 counts, plus the small word). -/
theorem v51_at (x0 : X0) (i : S32x64.Idx) :
    val_main_v51 (F := Ideal) x0 i
      = Ideal.div (val_main_v45 (F := Ideal) x0 i)
          ((Ideal.ofBits .f32 0x00000000#32 + ∑ k : Fin 64, val_main_v45 (F := Ideal) x0 (ix2 (i 0) k))
            + Ideal.ofBits .f32 0x322BCC77#32) := by
  have e : ∀ k, val_main_v45 (F := Ideal) x0 (idx_main_v46 (idx_main_v47 (idx_main_v50 i)) k)
      = val_main_v45 (F := Ideal) x0 (ix2 (i 0) k) :=
    fun k => congrArg _ (funext fun a => by match a with | ⟨0, _⟩ => rfl | ⟨1, _⟩ => rfl)
  rw [val_main_v51_apply, val_main_v50_apply, val_main_v49_apply, val_main_v47_apply,
    val_main_v48_apply, val_main_v46_apply, val_main_cst_12_apply, val_main_cst_13_apply]
  simp only [e, Ideal.hostDivf_def, Ideal.addf_def, Ideal.ofBits_def]

end Cert.ReferenceIdeal.FeatValue
-- ==== Proof.RefFeatures.lean ====
/-
  The reference's feature matrix, entry by entry.

  Row p of the [32, 132] matrix the reference multiplies by the weights holds, for image p: in the columns 0 … 63 the
  normalised histogram of channel 1 (each of the 64 counts over the sum of the image's counts plus the small word), in
  the columns 64 … 127 the same for channel 2, and in the columns 128, 129, 130, 131 the variance and the mean patch
  variance of channel 1, then of channel 2.  The counts are left as the reference's count stages here; the variances
  are the explicit sums over the pixels of the module that reads them.
-/
import proofs.«117902_j75557064671630_2_alg».proof.Proof.RefJoin
import Idealize.ShloMosaic.Lib.ValueIdx
import Idealize.ShloMosaic.Lib.Pipeline.Value
import Idealize.ShloMosaic.PureOps.Ideal.Laws

noncomputable section

open Idealize.ShloMosaic Idealize.ShloMosaic.TcCoe

namespace Cert.ReferenceIdeal.FeatValue

open Cert.ReferenceIdeal Cert.ReferenceIdeal.Gen Cert.ReferenceIdeal.Read Idealize.ShloMosaic.ValueIdx

/-- The histogram normalisation over a [32, 64] table `h` of counts: entry (p, q) divided by (the sum from the zero
    word of row p's 64 entries, plus the small word). -/
def normOf (h : (⟨S32x64, .f32⟩ : BufTy).Contents (Elt Ideal)) (p : Fin 32) (q : Fin 64) : EReal :=
  Ideal.div (h (ix2 p q))
    ((Ideal.ofBits .f32 0x00000000#32 + ∑ k : Fin 64, h (ix2 p k)) + Ideal.ofBits .f32 0x322BCC77#32)

/-- Entry (p, q) of the reference's feature matrix: by the range of the column `q`, a normalised count of channel 1
    (`q < 64`, bin `q`), of channel 2 (`64 ≤ q < 128`, bin `q - 64`), or one of the four variances. -/
def featsRow (x0 : X0) (p : Fin 32) (q : Fin 132) : EReal :=
  if h1 : q.val < 64 then normOf (val_main_v21 (F := Ideal) x0) p ⟨q.val, h1⟩
  else if h2 : q.val < 128 then normOf (val_main_v45 (F := Ideal) x0) p ⟨q.val - 64, by omega⟩
  else if q.val = 128 then gvR 1 x0 p
  else if q.val = 129 then lvR 1 x0 p
  else if q.val = 130 then gvR 2 x0 p
  else lvR 2 x0 p

/-- The reference's feature matrix. -/
def featsR (x0 : X0) : (⟨S32x132, .f32⟩ : BufTy).Contents (Elt Ideal) := fun i => featsRow x0 (i 0) (i 1)

/-- A column below 64: channel 1's normalised count of that bin. -/
theorem v111_lt64 (x0 : X0) (p : Fin 32) (q : Fin 132) (h : q.val < 64) :
    val_main_v111 (F := Ideal) x0 (ix2 p q) = normOf (val_main_v21 (F := Ideal) x0) p ⟨q.val, h⟩ := by
  rw [v111_hist1 x0 p q ⟨q.val, h⟩ rfl, v27_at]
  rfl

/-- A column from 64 to 127: channel 2's normalised count of bin `q - 64`. -/
theorem v111_lt128 (x0 : X0) (p : Fin 32) (q : Fin 132) (h1 : 64 ≤ q.val) (h2 : q.val < 128) :
    val_main_v111 (F := Ideal) x0 (ix2 p q)
      = normOf (val_main_v45 (F := Ideal) x0) p ⟨q.val - 64, by omega⟩ := by
  rw [v111_hist2 x0 p q ⟨q.val - 64, by omega⟩ (by show 64 + (q.val - 64) = q.val; omega), v51_at]
  rfl

/-- Every entry of the reference's feature stage. -/
theorem v111_row (x0 : X0) (p : Fin 32) (q : Fin 132) :
    val_main_v111 (F := Ideal) x0 (ix2 p q) = featsRow x0 p q := by
  unfold featsRow
  by_cases h1 : q.val < 64
  · rw [dif_pos h1]; exact v111_lt64 x0 p q h1
  · rw [dif_neg h1]
    by_cases h2 : q.val < 128
    · rw [dif_pos h2]; exact v111_lt128 x0 p q (by omega) h2
    · rw [dif_neg h2]
      have hq : q.val < 132 := q.isLt
      by_cases h3 : q.val = 128
      · rw [if_pos h3]
        have : q = ⟨128, by omega⟩ := Fin.ext h3
        rw [this]; exact v111_c128 x0 p
      · rw [if_neg h3]
        by_cases h4 : q.val = 129
        · rw [if_pos h4]
          have : q = ⟨129, by omega⟩ := Fin.ext h4
          rw [this]; exact v111_c129 x0 p
        · rw [if_neg h4]
          by_cases h5 : q.val = 130
          · rw [if_pos h5]
            have : q = ⟨130, by omega⟩ := Fin.ext h5
            rw [this]; exact v111_c130 x0 p
          · rw [if_neg h5]
            have : q = ⟨131, by omega⟩ := Fin.ext (by show q.val = 131; omega)
            rw [this]; exact v111_c131 x0 p

/-- The reference's feature stage is the feature matrix. -/
theorem v111_eq_featsR (x0 : X0) : val_main_v111 (F := Ideal) x0 = featsR x0 :=
  funext fun i => (congrArg (val_main_v111 (F := Ideal) x0) (eq_ix2 i)).trans (v111_row x0 (i 0) (i 1))

end Cert.ReferenceIdeal.FeatValue
-- ==== Proof.LibSegmentSum.lean ====
/-
  A scatter whose operand is a vector, whose scatter indices are a column of start positions and
  whose updates are a vector with one entry per start position (no window axes: every update is a
  single element) is a segment sum: update e lands on operand position n exactly when the e-th
  start position, read as a signed integer, equals n; a start position outside the operand drops
  its update.
-/
import Idealize.ShloMosaic.PureOps.Ideal
import Idealize.ShloMosaic.Lib.ValueIdx

noncomputable section

open scoped BigOperators

namespace Cert.Lib.SegmentSum

open Idealize.ShloMosaic Idealize.ShloMosaic.ValueIdx

/-- A rank-1 index built from a coordinate has that coordinate on its one axis, however the axis
    is written. -/
theorem ix1_apply_any {n : Nat} (a : Fin n) (x : Fin 1) : (ix1 a x).val = a.val := by
  match x with
  | ⟨0, _⟩ => rfl

variable {s si u : Shape}

/-- With no update window axes, every window coordinate is zero. -/
theorem window_eq_zero_of_nil (d : ScatterDims s si u) (h : d.updateWindowDims = []) (j : u.Idx)
    (a : Fin s.rank) : d.window j a = 0 := by
  unfold ScatterDims.window
  split
  · rename_i ha
    have hlt : d.sKept.idxOf a < d.updateWindowDims.length := by
      rw [d.window_length]; exact List.idxOf_lt_length_iff.2 ha
    rw [h] at hlt
    exact absurd hlt (Nat.not_lt_zero _)
  · rfl

/-- **A column scatter is a segment sum.** For an operand vector of extent `N`, a column of `E`
    start positions (scatter indices of shape `[E, 1]`, the index vector on axis 1) and `E`
    single-element updates (no update window axes, operand axis 0 inserted, start positions
    addressing operand axis 0): update `e` lands on operand position `n` exactly when the signed
    value of start position `e` is `n`. -/
theorem resultIdx?_column {N E w : Nat}
    (d : ScatterDims (⟨1, ![N]⟩ : Shape) (⟨2, ![E, 1]⟩ : Shape) (⟨1, ![E]⟩ : Shape))
    (huw : d.updateWindowDims = []) (hsd : d.scatterDimsToOperandDims = [0])
    (hiv : d.indexVectorDim = 1)
    (idx : IVec (⟨2, ![E, 1]⟩ : Shape) w) (e : Fin E) (n : Fin N) :
    d.resultIdx? (ix1 e) idx = some (ix1 n) ↔ (idx (ix2 e 0)).toInt = (n.val : Int) := by
  have hwin : ∀ a, d.window (ix1 e) a = 0 := fun a => window_eq_zero_of_nil d huw _ a
  have hstart : ∀ a, d.start (ix1 e) idx a = (idx (ix2 e 0)).toInt := by
    intro a
    obtain ⟨uw, iw, sd, iv, wf⟩ := d
    simp only at huw hsd hiv
    subst huw hsd hiv
    have ha : a = 0 := Subsingleton.elim _ _
    subst ha
    unfold ScatterDims.start
    rw [dif_pos (List.mem_singleton.2 rfl)]
    congr 2
    funext b
    match b with
    | ⟨0, _⟩ =>
      apply Fin.ext
      unfold ScatterDims.siIdx
      rw [dif_neg (by simp)]
      unfold ScatterDims.siCoord
      simp only [Fin.coe_cast]
      exact ix1_apply_any e _
    | ⟨1, _⟩ =>
      apply Fin.ext
      unfold ScatterDims.siIdx
      rw [dif_pos rfl]
      simp
  unfold ScatterDims.resultIdx?
  constructor
  · intro h
    split at h
    · rename_i hc
      have h0 := congrFun (Option.some.inj h) 0
      have hv : (d.start (ix1 e) idx 0 + d.window (ix1 e) 0).toNat = n.val := congrArg Fin.val h0
      have hc0 : 0 ≤ d.start (ix1 e) idx 0 + d.window (ix1 e) 0 := (hc 0).1
      rw [hwin, hstart] at hv hc0
      omega
    · exact absurd h (by simp)
  · intro h
    have hc : ∀ a, 0 ≤ d.start (ix1 e) idx a + d.window (ix1 e) a ∧
        d.start (ix1 e) idx a + d.window (ix1 e) a < (⟨1, ![N]⟩ : Shape).size a := by
      intro a
      have ha : a = 0 := Subsingleton.elim _ _
      subst ha
      rw [hwin, hstart, h]
      have := n.isLt
      constructor
      · omega
      · show (n.val : Int) + ((0 : Nat) : Int) < (N : Int)
        omega
    rw [dif_pos hc]
    congr 1
    funext a
    have ha : a = 0 := Subsingleton.elim _ _
    subst ha
    apply Fin.ext
    show (d.start (ix1 e) idx 0 + d.window (ix1 e) 0).toNat = n.val
    rw [hwin, hstart, h]
    omega

end Cert.Lib.SegmentSum

end
-- ==== Proof.LibSumIdx1.lean ====
/-
  A sum over a rank-one index set is the sum over its one coordinate.

  An index of a one-axis shape of extent n is a function from the one axis to its coordinate; it is determined by that
  coordinate, so summing over all indices is summing over the coordinate's range.
-/
import Idealize.ShloMosaic.Lib.ValueIdx

namespace Cert.PairLoss

open Idealize.ShloMosaic Idealize.ShloMosaic.ValueIdx

/-- A rank-one index set is its one coordinate's range, so a sum over it is the sum over the coordinate. -/
theorem sum_idx1 {M : Type*} [AddCommMonoid M] {n : Nat} (f : (⟨1, ![n]⟩ : Shape).Idx → M) :
    ∑ j, f j = ∑ a : Fin n, f (ix1 a) := by
  let e : (⟨1, ![n]⟩ : Shape).Idx ≃ Fin n :=
    { toFun := fun j => j 0, invFun := ix1, left_inv := fun j => (eq_ix1 j).symm, right_inv := fun _ => rfl }
  rw [← Equiv.sum_comp e.symm f]
  rfl

end Cert.PairLoss
-- ==== Proof.RefHist.lean ====
/-
  The reference's histogram read at a bin, at the extended reals.

  The reference labels every pixel of a channel of all 32 images with its bin (the floor of a quarter of the pixel,
  clipped to 0..63), moves image p's labels to the segment 64 p .. 64 p + 63, and adds a one into the cell of each
  pixel of the flat list of 32 x 1048576 pixels. The cell 64 p + q therefore holds the number of pixels of image p's
  plane whose bin is q. The clipped floor lies between 0 and 63 whatever the pixel (an infinity included), so the bin
  is a number below 64 with no hypothesis on the input.
-/
import proofs.«117902_j75557064671630_2_alg».proof.Proof.Gen.ReferenceIdeal.Read
import proofs.«117902_j75557064671630_2_alg».proof.Proof.KPayChunk
import proofs.«117902_j75557064671630_2_alg».proof.Proof.LibPlaneBridge
import proofs.«117902_j75557064671630_2_alg».proof.Proof.LibSegmentSum
import proofs.«117902_j75557064671630_2_alg».proof.Proof.LibSumIdx1
import Idealize.ShloMosaic.Lib.IdealHost

noncomputable section

namespace Cert.ReferenceIdeal.HistValue

open Idealize.ShloMosaic Idealize.ShloMosaic.TcCoe
open Idealize.ShloMosaic.ValueIdx
open Cert.ReferenceIdeal Cert.ReferenceIdeal.Gen Cert.ReferenceIdeal.Read
open Cert.KernelIdeal.PayValue (idxOfK maskK)

/-! ## The bin is a number below 64 -/

/-- A value clipped below by 0 and above by 63 is a real number between 0 and 63, whatever the value. -/
theorem clip_real (z : EReal) :
    ∃ r : ℝ, min ((63 : ℝ) : EReal) (max ((0 : ℝ) : EReal) z) = (r : EReal) ∧ 0 ≤ r ∧ r ≤ 63 := by
  have h0 : ((0 : ℝ) : EReal) ≤ min ((63 : ℝ) : EReal) (max ((0 : ℝ) : EReal) z) :=
    le_min (by exact_mod_cast (by norm_num : (0 : ℝ) ≤ 63)) (le_max_left _ _)
  have h63 : min ((63 : ℝ) : EReal) (max ((0 : ℝ) : EReal) z) ≤ ((63 : ℝ) : EReal) := min_le_left _ _
  generalize min ((63 : ℝ) : EReal) (max ((0 : ℝ) : EReal) z) = y at h0 h63
  induction y using EReal.rec
  · exact absurd h0 (by simp)
  · exact ⟨_, rfl, by exact_mod_cast h0, by exact_mod_cast h63⟩
  · exact absurd h63 (by simp)

/-- The two clip bounds, converted from the integers 63 and 0. -/
theorem sitofp_63 : Scalar.sitofp (F := Ideal) .f32 63#32 = ((63 : ℝ) : EReal) := by
  show ((((63#32 : BitVec 32).toInt : ℤ) : ℝ) : EReal) = _
  have h : (63#32 : BitVec 32).toInt = 63 := by decide
  rw [h]; norm_num

theorem sitofp_0 : Scalar.sitofp (F := Ideal) .f32 0#32 = ((0 : ℝ) : EReal) := by
  show ((((0#32 : BitVec 32).toInt : ℤ) : ℝ) : EReal) = _
  have h : (0#32 : BitVec 32).toInt = 0 := by decide
  rw [h]; norm_num

/-- The bin of any pixel, read unsigned, is below 64. -/
theorem idxOfK_lt (x : EReal) : (idxOfK x).toNat < 64 := by
  unfold idxOfK
  rw [sitofp_63, sitofp_0]
  obtain ⟨r, hr, hr0, hr63⟩ := clip_real (Ideal.liftRound Int.floor (x * Ideal.ofBits .f32 0x3E800000#32))
  rw [hr]
  show (BitVec.ofInt 32 (max (-((2 ^ (32 - 1) : ℕ) : ℤ)) (min (((2 ^ (32 - 1) : ℕ) : ℤ) - 1)
    (if 0 ≤ r then ⌊r⌋ else ⌈r⌉)))).toNat < 64
  rw [if_pos hr0]
  have hk0 : 0 ≤ ⌊r⌋ := Int.floor_nonneg.mpr hr0
  have hk63 : ⌊r⌋ ≤ 63 := by
    have h1 : ((⌊r⌋ : ℤ) : ℝ) ≤ 63 := le_trans (Int.floor_le r) hr63
    exact_mod_cast h1
  rw [BitVec.toNat_ofInt]
  omega

/-! ## A word read signed against a small number -/

/-- A 32-bit word read signed is a number below 2^31 exactly when it is that number's word. -/
theorem word_toInt_eq_iff (w : BitVec 32) {k : ℕ} (hk : k < 2 ^ 31) :
    w.toInt = (k : ℤ) ↔ w = BitVec.ofNat 32 k := by
  rw [bitvec32_eq_ofNat_iff w (by omega), BitVec.toInt_eq_toNat_cond]
  have := w.isLt
  split_ifs <;> omega

/-! ## The scatter of ones as a count -/

/-- Ones added at the cells "bin + 64 (image)" of the flat list of all 32 planes, into a table of zeros: cell
    64 p + q holds the number of pixels of plane p whose bin is q. -/
theorem segment_hist (d : ScatterDims S2048 S33554432x1 S33554432)
    (huw : d.updateWindowDims = []) (hsd : d.scatterDimsToOperandDims = [0]) (hiv : d.indexVectorDim = 1)
    (X : Fin 32 → Fin 1024 → Fin 1024 → EReal)
    (zero : S2048.Idx → EReal) (hzero : ∀ n, zero n = 0)
    (ones : S33554432.Idx → EReal) (hones : ∀ j, ones j = 1)
    (idx : IVec S33554432x1 32)
    (hidx : ∀ e : Fin 33554432, idx (ix2 e 0)
      = idxOfK (X ⟨(e : ℕ) / 1048576, by omega⟩ ⟨(e : ℕ) % 1048576 / 1024, by omega⟩ ⟨(e : ℕ) % 1024, by omega⟩)
        + BitVec.ofNat 32 (64 * ((e : ℕ) / 1048576)))
    (p : Fin 32) (q : Fin 64) (n : Fin 2048) (hn : n.val = 64 * p.val + q.val) :
    Ideal.hostScatterAdd d zero idx ones (ix1 n)
      = ∑ r : Fin 1024, ∑ c : Fin 1024, if idxOfK (X p r c) = BitVec.ofNat 32 q.val then (1 : EReal) else 0 := by
  unfold Ideal.hostScatterAdd
  rw [hzero, zero_add, Finset.sum_filter, Cert.PairLoss.sum_idx1]
  refine Eq.trans (Finset.sum_congr rfl fun e _ => ?_)
    (sum_segment_planes_bitvec idxOfK X (fun _ _ _ => idxOfK_lt _) (1 : EReal) p q.isLt)
  rw [hones]
  refine if_congr ?_ rfl rfl
  rw [Cert.Lib.SegmentSum.resultIdx?_column d huw hsd hiv idx e n, hidx e, hn]
  exact word_toInt_eq_iff _ (by have := p.isLt; have := q.isLt; omega)

/-- The reference's accumulating scatter, at the extended reals, is the exact sum: each operand entry plus the updates
    landing on it. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-! ## The first histogram channel (channel 1 of the input), stage by stage -/

/-- Channel 1's plane of image p viewed as a matrix reads the input's entry. -/
theorem plane_cb_apply (x0 : (⟨S32x3x1024x1024, .f32⟩ : BufTy).Contents (Elt Ideal)) (p : Fin 32) (r c : Fin 1024) :
    val_main_v1 (F := Ideal) x0 (ix3 p r c) = x0 (ix4 p 1 r c) := by
  rw [val_main_v1_apply, val_main_v0_apply]
  refine congrArg x0 (funext fun a => Fin.ext ?_)
  have hp := p.isLt; have hr := r.isLt; have hc := c.isLt
  match a with
  | ⟨0, _⟩ => show ((p.val * 1024 + r.val) * 1024 + c.val) / 1048576 = p.val; omega
  | ⟨1, _⟩ => show 1 + 0 = 1; rfl
  | ⟨2, _⟩ => show ((p.val * 1024 + r.val) * 1024 + c.val) / 1024 % 1024 = r.val; omega
  | ⟨3, _⟩ => show ((p.val * 1024 + r.val) * 1024 + c.val) % 1024 = c.val; omega

/-- The flat list of image p's plane: entry i is the pixel at row i / 1024, column i % 1024. -/
theorem flat_cb_apply (x0 : (⟨S32x3x1024x1024, .f32⟩ : BufTy).Contents (Elt Ideal)) (p : Fin 32) (i : Fin 1048576) :
    val_main_v4 (F := Ideal) x0 (ix2 p i)
      = x0 (ix4 p 1 ⟨i.val / 1024, by omega⟩ ⟨i.val % 1024, by omega⟩) := by
  rw [val_main_v4_apply]
  refine (congrArg (val_main_v1 (F := Ideal) x0) (?_ : _ = ix3 p ⟨i.val / 1024, by omega⟩ ⟨i.val % 1024, by omega⟩)).trans
    (plane_cb_apply x0 p _ _)
  refine funext fun a => Fin.ext ?_
  have hp := p.isLt; have hi := i.isLt
  match a with
  | ⟨0, _⟩ => show (p.val * 1048576 + i.val) / 1048576 = p.val; omega
  | ⟨1, _⟩ => show (p.val * 1048576 + i.val) / 1024 % 1024 = i.val / 1024; omega
  | ⟨2, _⟩ => show (p.val * 1048576 + i.val) % 1024 = i.val % 1024; omega

/-- The reference's label of a pixel — floor of the pixel's quarter, clipped between the converted 0 and 63, converted
    to an integer — is the pixel's bin. -/
theorem bin_cb_apply (x0 : (⟨S32x3x1024x1024, .f32⟩ : BufTy).Contents (Elt Ideal)) (p : Fin 32) (i : Fin 1048576) :
    val_main_v9 (F := Ideal) x0 (ix2 p i)
      = idxOfK (x0 (ix4 p 1 ⟨i.val / 1024, by omega⟩ ⟨i.val % 1024, by omega⟩)) := by
  rw [val_main_v9_apply, val_main_v8_apply, val_main_call0_v2_apply, val_main_v7_apply, val_main_v6_apply,
    val_main_call0_v4_apply, val_main_call0_v1_apply, val_main_v5_apply, flat_cb_apply]
  rfl

/-- The segment offset of image p: the word of 64 p. -/
theorem offset_cb_apply (p : Fin 32) (i : Fin 1048576) :
    val_main_v14 (F := Ideal) (ix2 p i) = BitVec.ofNat 32 (64 * p.val) := by
  rw [val_main_v14_apply, val_main_v13_apply, val_main_v11_apply, val_main_v12_apply, val_main_v10_apply,
    val_main_c_1_apply]
  show BitVec.ofNat 32 p.val * BitVec.ofNat 32 64 = _
  rw [← BitVec.ofNat_mul, Nat.mul_comm]

/-- The cell of the e-th pixel of the flat list of all planes: its bin plus 64 times its image. -/
theorem cell_cb_apply (x0 : (⟨S32x3x1024x1024, .f32⟩ : BufTy).Contents (Elt Ideal)) (e : Fin 33554432) :
    val_main_v19 (F := Ideal) x0 (ix2 e 0)
      = idxOfK (x0 (ix4 ⟨(e : ℕ) / 1048576, by omega⟩ 1 ⟨(e : ℕ) % 1048576 / 1024, by omega⟩ ⟨(e : ℕ) % 1024, by omega⟩))
        + BitVec.ofNat 32 (64 * ((e : ℕ) / 1048576)) := by
  rw [val_main_v19_apply, val_main_v16_apply, val_main_v15_apply]
  have hJ : idx_main_v16 (idx_main_v19 (ix2 e 0))
      = ix2 (⟨(e : ℕ) / 1048576, by omega⟩ : Fin 32) (⟨(e : ℕ) % 1048576, by omega⟩ : Fin 1048576) :=
    funext fun a => Fin.ext (by
      match a with
      | ⟨0, _⟩ => rfl
      | ⟨1, _⟩ => rfl)
  rw [hJ, bin_cb_apply, offset_cb_apply]
  show _ + _ = _ + _
  refine congrArg (fun t => idxOfK (x0 t) + BitVec.ofNat 32 (64 * ((e : ℕ) / 1048576))) ?_
  refine funext fun a => Fin.ext ?_
  match a with
  | ⟨0, _⟩ => rfl
  | ⟨1, _⟩ => rfl
  | ⟨2, _⟩ => rfl
  | ⟨3, _⟩ => show (e : ℕ) % 1048576 % 1024 = (e : ℕ) % 1024; omega

/-- **The reference's histogram of channel 1**: entry (p, q) is the number of pixels of image p's plane whose bin is q
    (the scatter's table of zeros contributes nothing: the zero word is the extended real 0). -/
theorem val_main_v21_hist (x0 : (⟨S32x3x1024x1024, .f32⟩ : BufTy).Contents (Elt Ideal)) (p : Fin 32) (q : Fin 64) :
    val_main_v21 (F := Ideal) x0 (ix2 p q)
      = ∑ r : Fin 1024, ∑ col : Fin 1024,
          if idxOfK (x0 (ix4 p 1 r col)) = BitVec.ofNat 32 q.val then (1 : EReal) else 0 := by
  rw [val_main_v21_apply]
  have hn : idx_main_v21 (ix2 p q) = ix1 (⟨p.val * 64 + q.val, by omega⟩ : Fin 2048) :=
    funext fun a => Fin.ext (by
      match a with
      | ⟨0, _⟩ => rfl)
  rw [hn]
  have hz : ∀ n, val_main_v18 (F := Ideal) n = 0 := fun n => by
    rw [val_main_v18_apply, val_main_cst_3_apply]; exact Ideal.ofBits_zero_f32
  have ho : ∀ j, val_main_v17 (F := Ideal) j = 1 := fun j => by
    rw [val_main_v17_apply, val_main_cst_2_apply]; exact Ideal.ofBits_one_f32
  have h := segment_hist scatter_S2048_S33554432x1_S33554432_n_0_0_1 rfl rfl rfl (fun P R C => x0 (ix4 P 1 R C))
    (val_main_v18 (F := Ideal)) hz (val_main_v17 (F := Ideal)) ho (val_main_v19 (F := Ideal) x0)
    (fun e => cell_cb_apply x0 e) p q ⟨p.val * 64 + q.val, by omega⟩ (by show p.val * 64 + q.val = 64 * p.val + q.val; omega)
  unfold val_main_v20
  rw [scatterAdd_ideal]
  exact h

/-! ## The second histogram channel (channel 2 of the input), stage by stage -/

/-- Channel 2's plane of image p viewed as a matrix reads the input's entry. -/
theorem plane_cr_apply (x0 : (⟨S32x3x1024x1024, .f32⟩ : BufTy).Contents (Elt Ideal)) (p : Fin 32) (r c : Fin 1024) :
    val_main_v3 (F := Ideal) x0 (ix3 p r c) = x0 (ix4 p 2 r c) := by
  rw [val_main_v3_apply, val_main_v2_apply]
  refine congrArg x0 (funext fun a => Fin.ext ?_)
  have hp := p.isLt; have hr := r.isLt; have hc := c.isLt
  match a with
  | ⟨0, _⟩ => show ((p.val * 1024 + r.val) * 1024 + c.val) / 1048576 = p.val; omega
  | ⟨1, _⟩ => show 2 + 0 = 2; rfl
  | ⟨2, _⟩ => show ((p.val * 1024 + r.val) * 1024 + c.val) / 1024 % 1024 = r.val; omega
  | ⟨3, _⟩ => show ((p.val * 1024 + r.val) * 1024 + c.val) % 1024 = c.val; omega

/-- The flat list of image p's plane: entry i is the pixel at row i / 1024, column i % 1024. -/
theorem flat_cr_apply (x0 : (⟨S32x3x1024x1024, .f32⟩ : BufTy).Contents (Elt Ideal)) (p : Fin 32) (i : Fin 1048576) :
    val_main_v28 (F := Ideal) x0 (ix2 p i)
      = x0 (ix4 p 2 ⟨i.val / 1024, by omega⟩ ⟨i.val % 1024, by omega⟩) := by
  rw [val_main_v28_apply]
  refine (congrArg (val_main_v3 (F := Ideal) x0) (?_ : _ = ix3 p ⟨i.val / 1024, by omega⟩ ⟨i.val % 1024, by omega⟩)).trans
    (plane_cr_apply x0 p _ _)
  refine funext fun a => Fin.ext ?_
  have hp := p.isLt; have hi := i.isLt
  match a with
  | ⟨0, _⟩ => show (p.val * 1048576 + i.val) / 1048576 = p.val; omega
  | ⟨1, _⟩ => show (p.val * 1048576 + i.val) / 1024 % 1024 = i.val / 1024; omega
  | ⟨2, _⟩ => show (p.val * 1048576 + i.val) % 1024 = i.val % 1024; omega

/-- The reference's label of a pixel — floor of the pixel's quarter, clipped between the converted 0 and 63, converted
    to an integer — is the pixel's bin. -/
theorem bin_cr_apply (x0 : (⟨S32x3x1024x1024, .f32⟩ : BufTy).Contents (Elt Ideal)) (p : Fin 32) (i : Fin 1048576) :
    val_main_v33 (F := Ideal) x0 (ix2 p i)
      = idxOfK (x0 (ix4 p 2 ⟨i.val / 1024, by omega⟩ ⟨i.val % 1024, by omega⟩)) := by
  rw [val_main_v33_apply, val_main_v32_apply, val_main_call1_v2_apply, val_main_v31_apply, val_main_v30_apply,
    val_main_call1_v4_apply, val_main_call1_v1_apply, val_main_v29_apply, flat_cr_apply]
  rfl

/-- The segment offset of image p: the word of 64 p. -/
theorem offset_cr_apply (p : Fin 32) (i : Fin 1048576) :
    val_main_v38 (F := Ideal) (ix2 p i) = BitVec.ofNat 32 (64 * p.val) := by
  rw [val_main_v38_apply, val_main_v37_apply, val_main_v35_apply, val_main_v36_apply, val_main_v34_apply,
    val_main_c_9_apply]
  show BitVec.ofNat 32 p.val * BitVec.ofNat 32 64 = _
  rw [← BitVec.ofNat_mul, Nat.mul_comm]

/-- The cell of the e-th pixel of the flat list of all planes: its bin plus 64 times its image. -/
theorem cell_cr_apply (x0 : (⟨S32x3x1024x1024, .f32⟩ : BufTy).Contents (Elt Ideal)) (e : Fin 33554432) :
    val_main_v43 (F := Ideal) x0 (ix2 e 0)
      = idxOfK (x0 (ix4 ⟨(e : ℕ) / 1048576, by omega⟩ 2 ⟨(e : ℕ) % 1048576 / 1024, by omega⟩ ⟨(e : ℕ) % 1024, by omega⟩))
        + BitVec.ofNat 32 (64 * ((e : ℕ) / 1048576)) := by
  rw [val_main_v43_apply, val_main_v40_apply, val_main_v39_apply]
  have hJ : idx_main_v40 (idx_main_v43 (ix2 e 0))
      = ix2 (⟨(e : ℕ) / 1048576, by omega⟩ : Fin 32) (⟨(e : ℕ) % 1048576, by omega⟩ : Fin 1048576) :=
    funext fun a => Fin.ext (by
      match a with
      | ⟨0, _⟩ => rfl
      | ⟨1, _⟩ => rfl)
  rw [hJ, bin_cr_apply, offset_cr_apply]
  show _ + _ = _ + _
  refine congrArg (fun t => idxOfK (x0 t) + BitVec.ofNat 32 (64 * ((e : ℕ) / 1048576))) ?_
  refine funext fun a => Fin.ext ?_
  match a with
  | ⟨0, _⟩ => rfl
  | ⟨1, _⟩ => rfl
  | ⟨2, _⟩ => rfl
  | ⟨3, _⟩ => show (e : ℕ) % 1048576 % 1024 = (e : ℕ) % 1024; omega

/-- **The reference's histogram of channel 2**: entry (p, q) is the number of pixels of image p's plane whose bin is q
    (the scatter's table of zeros contributes nothing: the zero word is the extended real 0). -/
theorem val_main_v45_hist (x0 : (⟨S32x3x1024x1024, .f32⟩ : BufTy).Contents (Elt Ideal)) (p : Fin 32) (q : Fin 64) :
    val_main_v45 (F := Ideal) x0 (ix2 p q)
      = ∑ r : Fin 1024, ∑ col : Fin 1024,
          if idxOfK (x0 (ix4 p 2 r col)) = BitVec.ofNat 32 q.val then (1 : EReal) else 0 := by
  rw [val_main_v45_apply]
  have hn : idx_main_v45 (ix2 p q) = ix1 (⟨p.val * 64 + q.val, by omega⟩ : Fin 2048) :=
    funext fun a => Fin.ext (by
      match a with
      | ⟨0, _⟩ => rfl)
  rw [hn]
  have hz : ∀ n, val_main_v42 (F := Ideal) n = 0 := fun n => by
    rw [val_main_v42_apply, val_main_cst_11_apply]; exact Ideal.ofBits_zero_f32
  have ho : ∀ j, val_main_v41 (F := Ideal) j = 1 := fun j => by
    rw [val_main_v41_apply, val_main_cst_10_apply]; exact Ideal.ofBits_one_f32
  have h := segment_hist scatter_S2048_S33554432x1_S33554432_n_0_0_1 rfl rfl rfl (fun P R C => x0 (ix4 P 2 R C))
    (val_main_v42 (F := Ideal)) hz (val_main_v41 (F := Ideal)) ho (val_main_v43 (F := Ideal) x0)
    (fun e => cell_cr_apply x0 e) p q ⟨p.val * 64 + q.val, by omega⟩ (by show p.val * 64 + q.val = 64 * p.val + q.val; omega)
  unfold val_main_v44
  rw [scatterAdd_ideal]
  exact h

/-! ## The kernel's mask against the reference's count term -/

/-- The kernel's mask of a pixel against the q-th bin number is the reference's count term of the pixel. -/
theorem maskK_bin (x : EReal) (q : Fin 64) :
    maskK x (BitVec.ofNat 32 q.val) = if idxOfK x = BitVec.ofNat 32 q.val then (1 : EReal) else 0 :=
  Cert.KernelIdeal.PayValue.maskK_eq x _

end Cert.ReferenceIdeal.HistValue
end
-- ==== Proof.FeatBridge.lean ====
/-
  The two programs' feature matrices agree.

  The kernel's [32, 1, 132] feature array, its unit axis dropped, holds in row p the 132 features of planes (p, 1) and
  (p, 2) of the input. The reference's [32, 132] feature matrix holds in row p: in columns 0 … 63 the counts of
  channel 1's 64 bins over their total plus a small word, in columns 64 … 127 the same for channel 2, and in columns
  128 … 131 the variance and the mean patch variance of channel 1, then of channel 2. Column by column the two agree for
  an input of reals: a bin's count is the number of the plane's entries in that bin on both sides (the reference's total
  starts from the zero word, which adds nothing); the kernel's one-pass variances of the pivot-shifted entries are the
  reference's centred variances of the plane listed flat, row by row, which is the reference's own flat list.
-/
import proofs.«117902_j75557064671630_2_alg».proof.Proof.KValue0b
import proofs.«117902_j75557064671630_2_alg».proof.Proof.KPayFinal
import proofs.«117902_j75557064671630_2_alg».proof.Proof.KFeatBridge
import proofs.«117902_j75557064671630_2_alg».proof.Proof.RefFeatures
import proofs.«117902_j75557064671630_2_alg».proof.Proof.RefHist
import Idealize.ShloMosaic.Lib.Pipeline.Value
import Idealize.ShloMosaic.Lib.ValueIdx

set_option maxRecDepth 16384

noncomputable section

open scoped BigOperators

open Idealize.ShloMosaic Idealize.ShloMosaic.TcCoe

namespace Cert.Bridge

open Idealize.ShloMosaic.ValueIdx
open Cert.KernelIdeal Cert.KernelIdeal.Gen
open Cert.KernelIdeal.KVal0 (imgFeat loop1 loop2 planeFlat)
open Cert.KernelIdeal.KVal0b (plane G0 G0_row)
open Cert.ReferenceIdeal.FeatValue (pix gvOf lvOf gvR lvR normOf)

/-- Dropping the unit middle axis of the feature array: entry (p, j) is entry (p, 0, j). -/
theorem cast_row (x : Vec Ideal S32x1x132 .f32) (p : Fin 32) (j : Fin 132) :
    (shapeCast S32x132 x shapeCasts_S32x1x132_S32x132 : Vec Ideal S32x132 .f32) (ix2 p j) = x (ix3 p (0 : Fin 1) j) :=
  shapeCast_apply x _ (ix2 p j) (ix3 p (0 : Fin 1) j) (by
    rw [Shape.rowMajor_val_three, Shape.rowMajor_val_two]
    show (p.val * 1 + 0) * 132 + j.val = p.val * 132 + j.val
    omega)

variable (a : (⟨S32x3x1024x1024, .f32⟩ : BufTy).Contents (Elt Ideal))

/-- A plane of an array of reals is a block of reals. -/
theorem plane_real (ha : ∀ i, ∃ r : ℝ, a i = (r : EReal)) (p : Fin 32) (ch : Fin 3) (y : S1x1x1024x1024.Idx) :
    ∃ r : ℝ, plane a p ch y = (r : EReal) := ha _

/-- A plane listed flat is the reference's flat list of that channel of that image. -/
theorem planeFlat_plane (p : Fin 32) (ch : Fin 3) : planeFlat (plane a p ch) = pix a ch p := rfl

/-- Entry (p, j) of the kernel's feature matrix is feature j of image p's second and third planes. -/
theorem kfeat_at (p : Fin 32) (j : Fin 132) :
    (shapeCast S32x132 (G0 a) shapeCasts_S32x1x132_S32x132 : Vec Ideal S32x132 .f32) (ix2 p j)
      = imgFeat (F := Ideal) (plane a p 1) (plane a p 2) (ix3 (0 : Fin 1) (0 : Fin 1) j) :=
  (cast_row (G0 a) p j).trans (G0_row a p j)

/-- Column 128: the first channel's variance. -/
theorem feat128 (ha : ∀ i, ∃ r : ℝ, a i = (r : EReal)) (p : Fin 32) (j : Fin 132) (hj : j.val = 128) :
    imgFeat (F := Ideal) (plane a p 1) (plane a p 2) (ix3 (0 : Fin 1) (0 : Fin 1) j) = gvR 1 a p :=
  (Cert.KernelIdeal.PayValue.k0_pay1_gv1 _ _ _ _ _ _ _ _ j hj).trans
    (Cert.KernelIdeal.KVal0.feat_variance1 (plane a p 1) (plane_real a ha p 1))

/-- Column 129: the first channel's mean patch variance. -/
theorem feat129 (ha : ∀ i, ∃ r : ℝ, a i = (r : EReal)) (p : Fin 32) (j : Fin 132) (hj : j.val = 129) :
    imgFeat (F := Ideal) (plane a p 1) (plane a p 2) (ix3 (0 : Fin 1) (0 : Fin 1) j) = lvR 1 a p :=
  (Cert.KernelIdeal.PayValue.k0_pay1_lv1 _ _ _ _ _ _ _ _ j hj).trans
    (Cert.KernelIdeal.KVal0.feat_patch_mean1 (plane a p 1) (plane_real a ha p 1))

/-- Column 130: the second channel's variance. -/
theorem feat130 (ha : ∀ i, ∃ r : ℝ, a i = (r : EReal)) (p : Fin 32) (j : Fin 132) (hj : j.val = 130) :
    imgFeat (F := Ideal) (plane a p 1) (plane a p 2) (ix3 (0 : Fin 1) (0 : Fin 1) j) = gvR 2 a p :=
  (Cert.KernelIdeal.PayValue.k0_pay1_gv2 _ _ _ _ _ _ _ _ j hj).trans
    (Cert.KernelIdeal.KVal0.feat_variance2 (plane a p 2) (plane_real a ha p 2))

/-- Column 131: the second channel's mean patch variance. -/
theorem feat131 (ha : ∀ i, ∃ r : ℝ, a i = (r : EReal)) (p : Fin 32) (j : Fin 132) (hj : j.val = 131) :
    imgFeat (F := Ideal) (plane a p 1) (plane a p 2) (ix3 (0 : Fin 1) (0 : Fin 1) j) = lvR 2 a p :=
  (Cert.KernelIdeal.PayValue.k0_pay1_lv2 _ _ _ _ _ _ _ _ j hj).trans
    (Cert.KernelIdeal.KVal0.feat_patch_mean2 (plane a p 2) (plane_real a ha p 2))

/-- Columns 0 … 63, given that the first loop's bin counts are the reference's counts of channel 1: the normalised
    count (the zero word in front of the reference's total adds nothing). -/
theorem feat_hist1_of (p : Fin 32)
    (hcount : ∀ q : Fin 64, (loop1 (F := Ideal) (plane a p 1)).1 (ix2 (0 : Fin 1) q)
      = Cert.ReferenceIdeal.Read.val_main_v21 (F := Ideal) a (ix2 p q))
    (j : Fin 132) (hj : j.val < 64) :
    imgFeat (F := Ideal) (plane a p 1) (plane a p 2) (ix3 (0 : Fin 1) (0 : Fin 1) j)
      = normOf (Cert.ReferenceIdeal.Read.val_main_v21 (F := Ideal) a) p ⟨j.val, hj⟩ := by
  have hsum : (∑ k : Fin 64, (loop1 (F := Ideal) (plane a p 1)).1 (ix2 (0 : Fin 1) k))
      = ∑ k : Fin 64, Cert.ReferenceIdeal.Read.val_main_v21 (F := Ideal) a (ix2 p k) :=
    Finset.sum_congr rfl fun k _ => hcount k
  refine (Cert.KernelIdeal.PayValue.imgFeat_hist1 _ _ j hj).trans ?_
  unfold normOf
  rw [Ideal.ofBits_zero_f32, zero_add, hcount, hsum]

/-- Columns 64 … 127, given that the second loop's bin counts are the reference's counts of channel 2. -/
theorem feat_hist2_of (p : Fin 32)
    (hcount : ∀ q : Fin 64, (loop2 (F := Ideal) (plane a p 2)).1 (ix2 (0 : Fin 1) q)
      = Cert.ReferenceIdeal.Read.val_main_v45 (F := Ideal) a (ix2 p q))
    (j : Fin 132) (hlo : 64 ≤ j.val) (hhi : j.val < 128) :
    imgFeat (F := Ideal) (plane a p 1) (plane a p 2) (ix3 (0 : Fin 1) (0 : Fin 1) j)
      = normOf (Cert.ReferenceIdeal.Read.val_main_v45 (F := Ideal) a) p ⟨j.val - 64, by omega⟩ := by
  have hsum : (∑ k : Fin 64, (loop2 (F := Ideal) (plane a p 2)).1 (ix2 (0 : Fin 1) k))
      = ∑ k : Fin 64, Cert.ReferenceIdeal.Read.val_main_v45 (F := Ideal) a (ix2 p k) :=
    Finset.sum_congr rfl fun k _ => hcount k
  refine (Cert.KernelIdeal.PayValue.imgFeat_hist2 _ _ j hlo hhi).trans ?_
  unfold normOf
  rw [Ideal.ofBits_zero_f32, zero_add, hcount, hsum]

/-- The two feature matrices agree, given the two count equalities. -/
theorem feats_eq_of (ha : ∀ i, ∃ r : ℝ, a i = (r : EReal))
    (h1 : ∀ (p : Fin 32) (q : Fin 64), (loop1 (F := Ideal) (plane a p 1)).1 (ix2 (0 : Fin 1) q)
      = Cert.ReferenceIdeal.Read.val_main_v21 (F := Ideal) a (ix2 p q))
    (h2 : ∀ (p : Fin 32) (q : Fin 64), (loop2 (F := Ideal) (plane a p 2)).1 (ix2 (0 : Fin 1) q)
      = Cert.ReferenceIdeal.Read.val_main_v45 (F := Ideal) a (ix2 p q)) :
    (shapeCast S32x132 (G0 a) shapeCasts_S32x1x132_S32x132 : Vec Ideal S32x132 .f32)
      = Cert.ReferenceIdeal.Read.val_main_v111 (F := Ideal) a := by
  funext i
  obtain ⟨p, j, rfl⟩ : ∃ (p : Fin 32) (j : Fin 132), i = ix2 p j := ⟨i 0, i 1, eq_ix2 i⟩
  refine (kfeat_at a p j).trans ?_
  have hj : j.val < 132 := j.isLt
  by_cases c1 : j.val < 64
  · exact (feat_hist1_of a p (h1 p) j c1).trans (Cert.ReferenceIdeal.FeatValue.v111_lt64 a p j c1).symm
  by_cases c2 : j.val < 128
  · exact (feat_hist2_of a p (h2 p) j (by omega) c2).trans (Cert.ReferenceIdeal.FeatValue.v111_lt128 a p j (by omega) c2).symm
  by_cases c3 : j.val = 128
  · obtain rfl : j = (⟨128, by decide⟩ : Fin 132) := Fin.ext c3
    exact (feat128 a ha p _ rfl).trans (Cert.ReferenceIdeal.FeatValue.v111_c128 a p).symm
  by_cases c4 : j.val = 129
  · obtain rfl : j = (⟨129, by decide⟩ : Fin 132) := Fin.ext c4
    exact (feat129 a ha p _ rfl).trans (Cert.ReferenceIdeal.FeatValue.v111_c129 a p).symm
  by_cases c5 : j.val = 130
  · obtain rfl : j = (⟨130, by decide⟩ : Fin 132) := Fin.ext c5
    exact (feat130 a ha p _ rfl).trans (Cert.ReferenceIdeal.FeatValue.v111_c130 a p).symm
  · obtain rfl : j = (⟨131, by decide⟩ : Fin 132) := Fin.ext (by show j.val = 131; omega)
    exact (feat131 a ha p _ rfl).trans (Cert.ReferenceIdeal.FeatValue.v111_c131 a p).symm

/-- The first loop's count of bin q of plane (p, 1) is the reference's count of channel 1 at (p, q): both are the number
    of the plane's entries, by row and column, whose bin is q. -/
theorem count1 (p : Fin 32) (q : Fin 64) :
    (loop1 (F := Ideal) (plane a p 1)).1 (ix2 (0 : Fin 1) q) = Cert.ReferenceIdeal.Read.val_main_v21 (F := Ideal) a (ix2 p q) :=
  (Cert.KernelIdeal.KVal0.loop1_hist_rows (plane a p 1) q).trans (Cert.ReferenceIdeal.HistValue.val_main_v21_hist a p q).symm

/-- The second loop's count of bin q of plane (p, 2) is the reference's count of channel 2 at (p, q). -/
theorem count2 (p : Fin 32) (q : Fin 64) :
    (loop2 (F := Ideal) (plane a p 2)).1 (ix2 (0 : Fin 1) q) = Cert.ReferenceIdeal.Read.val_main_v45 (F := Ideal) a (ix2 p q) :=
  (Cert.KernelIdeal.KVal0.loop2_hist_rows (plane a p 2) q).trans (Cert.ReferenceIdeal.HistValue.val_main_v45_hist a p q).symm

/-- THE FEATURE MATRICES AGREE: for an input of reals, the kernel's feature array with its unit axis dropped is the
    reference's feature matrix. -/
theorem feats_eq (a : (⟨Cert.KernelIdeal.S32x3x1024x1024, .f32⟩ : BufTy).Contents (Elt Ideal)) (ha : ∀ i, ∃ r : ℝ, a i = (r : EReal)) :
    (shapeCast Cert.KernelIdeal.S32x132 (Cert.KernelIdeal.KVal0b.G0 a) Cert.KernelIdeal.Facts₀.shapeCasts_S32x1x132_S32x132 : Vec Ideal Cert.KernelIdeal.S32x132 .f32)
      = Cert.ReferenceIdeal.Read.val_main_v111 (F := Ideal) a :=
  feats_eq_of a ha (count1 a) (count2 a)

end Cert.Bridge

end
-- ==== Proof.LibFiniteEntries.lean ====
/-
  From "the absolute value of every entry is below a bound" to "every entry is a real number".

  On the extended reals, |x| = max x (-x).  If |x| < y for some y then |x| is not +∞, so x is neither +∞ nor -∞: it is a real.
  The bound a finiteness test uses is the +∞ word, but any bound does.  A test over a whole array ("all entries finite") is
  the conjunction, over all indices, of the one-bit words of the comparisons; when the conjunction is the word 1 every
  comparison holds, so every entry is a real.
-/
import Idealize.ShloMosaic.Lib.ReduceAll
import Idealize.ShloMosaic.Lib.ValueIdx
import Idealize.ShloMosaic.PureOps.Ideal
import Idealize.ShloMosaic.PureOps.Ideal.Laws

noncomputable section

open Idealize.ShloMosaic

namespace Idealize.ShloMosaic

/-- An extended real whose absolute value max x (-x) is below some bound is a real number. -/
theorem ereal_real_of_abs_lt {x y : EReal} (h : max x (-x) < y) : ∃ r : ℝ, x = (r : EReal) := by
  have hne : max x (-x) ≠ ⊤ := ne_top_of_lt h
  induction x using EReal.rec with
  | bot => exact absurd (by simp) hne
  | coe r => exact ⟨r, rfl⟩
  | top => exact absurd (by simp) hne

/-- The comparison word "less than" of the ideal reading is 1 exactly when the order relation holds. -/
theorem Ideal.cmp_olt_eq_one {x y : EReal} : Ideal.cmp .olt x y = 1#1 ↔ x < y := by
  by_cases hxy : x < y <;> simp [Ideal.cmp, hxy]

/-- One entry: if the word of the test |x| < y (the host's absolute value, the ordered "less than") is 1, x is a real. -/
theorem Ideal.real_of_hostAbsf_olt {φ : FTy} {x y : Ideal φ}
    (h : FloatOps.cmpf (F := Ideal) .olt (FloatOps.hostAbsf (F := Ideal) x) y = 1#1) : ∃ r : ℝ, x = (r : EReal) :=
  ereal_real_of_abs_lt (y := y) (Ideal.cmp_olt_eq_one.1 h)

/-- A whole array: if the conjunction over all indices (a reduction by "and" into a result with one index) of the words
    of |v i| < w i is the word 1, every entry of v is a real.  The bound w is arbitrary (a finiteness test spreads the
    +∞ word over the array's shape). -/
theorem real_valued_of_all_abs_lt {φ : FTy} {s t u : Shape} {axes : List (Fin s.rank)} [Subsingleton t.Idx]
    (v w : FVec Ideal s φ) (init : u.Idx → BitVec 1) (h : s.ReducesTo axes t) (hu : 0 < u.numel) (j : t.Idx)
    (e : Host.reduce IntOp.andi (cmpf .olt (Host.absf v) w) init h hu j = 1#1) :
    ∀ i, ∃ r : ℝ, v i = (r : EReal) := fun i =>
  Ideal.real_of_hostAbsf_olt (y := w i) (Host.reduce_andi_all (cmpf .olt (Host.absf v) w) init h hu j e i)

/-- The rank-0 shape has one index. -/
theorem subsingleton_idx_rank0 : Subsingleton (⟨0, ![]⟩ : Shape).Idx := ⟨fun _ _ => funext fun d => d.elim0⟩

/-- The all-entries-finite test of an array v, spelled out: the +∞ word as a rank-0 constant spread over v's shape, the
    comparison |v i| < +∞ at every index, the reduction by "and" over all axes into the rank-0 shape from the constant 1.
    If its one word is 1, every entry of v is a real. -/
theorem real_valued_of_all_finite {s : Shape} {axes : List (Fin s.rank)} (v : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
          (cmpf .olt (Host.absf v) (broadcastInDim s ![] bc (constant (F := Ideal) ⟨0, ![]⟩ .f32 0x7F800000#32)))
          (constantI ⟨0, ![]⟩ 1 1#1) h hu j = 1#1) :
    ∀ i, ∃ r : ℝ, v i = (r : EReal) :=
  haveI := subsingleton_idx_rank0
  real_valued_of_all_abs_lt v _ _ h hu j e

end Idealize.ShloMosaic
-- ==== Proof.FiniteArg0.lean ====
/-
  The precondition of this certificate says that every entry of each of the five argument arrays has absolute value below
  +∞.  Hence every entry of every argument is a real number.
-/
import proofs.«117902_j75557064671630_2_alg».proof.Pre_finite_inputs
import proofs.«117902_j75557064671630_2_alg».proof.Proof.LibFiniteEntries

noncomputable section

open Idealize.ShloMosaic

namespace Cert.FiniteArg0

open Cert.Pre_finite_inputs Cert.Pre_finite_inputs.Facts

variable [Cert.Pre_finite_inputs.Facts]

/-- If the all-finite test of the five arguments is the word 1, every entry of every argument is a real. -/
theorem args_real (a0 : FVec Ideal S32x3x1024x1024 .f32) (a1 : FVec Ideal S132x256 .f32) (a2 a3 a4 : FVec Ideal S256 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [Cert.Pre_finite_inputs.fn, Cert.Pre_finite_inputs.fn_part1, andi] at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_valued_of_all_finite a0 _ _ _ _ e0, real_valued_of_all_finite a1 _ _ _ _ e1,
    real_valued_of_all_finite a2 _ _ _ _ e2, real_valued_of_all_finite a3 _ _ _ _ e3,
    real_valued_of_all_finite a4 _ _ _ _ e4⟩

/-- Every entry of the first argument (the image array) is a real. -/
theorem arg0_real (a0 : FVec Ideal S32x3x1024x1024 .f32) (a1 : FVec Ideal S132x256 .f32) (a2 a3 a4 : FVec Ideal S256 .f32)
    (h : Cert.Pre_finite_inputs.fn (F := Ideal) a0 a1 a2 a3 a4 = fun _ => 1#1) :
    ∀ i, ∃ r : ℝ, a0 i = (r : EReal) :=
  (args_real a0 a1 a2 a3 a4 h).1

end Cert.FiniteArg0
-- ==== Proof.Algebraic.lean ====
/-
  The algebraic claim: at the ideal instance the two programs end with equal results.

  The kernel's result is the head (matmul, bias, floor at zero, batch normalisation over the 32
  rows) of the feature matrix that region 0 wrote — per image, the 132 features of its Cb and Cr
  planes — and the reference's result is the same head of the feature matrix it computes on the
  host. For finite inputs the two feature matrices are equal entry by entry (the pivot-shifted
  variance forms are the mean-centred ones; the masked bin counts are the scattered ones), so the
  results are equal.
-/
import proofs.«117902_j75557064671630_2_alg».proof.Defs
import proofs.«117902_j75557064671630_2_alg».proof.Proof.Frames
import proofs.«117902_j75557064671630_2_alg».proof.Proof.KFinal
import proofs.«117902_j75557064671630_2_alg».proof.Proof.HeadReference
import proofs.«117902_j75557064671630_2_alg».proof.Proof.FeatBridge
import proofs.«117902_j75557064671630_2_alg».proof.Proof.FiniteArg0
import proofs.«117902_j75557064671630_2_alg».proof.Proof.Gen.ReferenceIdeal.Read

noncomputable section

open Idealize.ShloMosaic Idealize.ShloMosaic.TcCoe Idealize.SL.Sem

namespace Cert.Proof.Algebraic

open Cert.KernelIdeal.Frm

theorem algebraic : Cert.algebraic_KernelIdeal_ReferenceIdeal := by
  intro m ρ m' ρ' hpre hagree
  refine ⟨fun c => Cert.KernelIdeal.KFin.result m c, ?_, ?_⟩
  · refine (θ_run Cert.KernelIdeal.defs _ _).mono (fun r h c => ⟨?_, ?_, ?_, ?_, ?_, ?_⟩) (Cert.KernelIdeal.Frm.run_main (F := Ideal) m ρ)
    · exact (h c _ (mem_uc Cert.KernelIdeal.main_v2 (by decide))).trans (Cert.KernelIdeal.KFin.kernel_result m ρ c)
    · exact (h c _ (mem_uc Cert.KernelIdeal.main_arg0 (by decide))).trans (B3_main_arg0 m ρ c)
    · exact (h c _ (mem_uc Cert.KernelIdeal.main_arg1 (by decide))).trans (B3_main_arg1 m ρ c)
    · exact (h c _ (mem_uc Cert.KernelIdeal.main_arg2 (by decide))).trans (B3_main_arg2 m ρ c)
    · exact (h c _ (mem_uc Cert.KernelIdeal.main_arg3 (by decide))).trans (B3_main_arg3 m ρ c)
    · exact (h c _ (mem_uc Cert.KernelIdeal.main_arg4 (by decide))).trans (B3_main_arg4 m ρ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v141_eq, Cert.ReferenceIdeal.HeadValue.val_main_v141_eq_head,
      (hagree c).1, (hagree c).2.1, (hagree c).2.2.1, (hagree c).2.2.2.1, (hagree c).2.2.2.2]
    exact (congrArg (fun f => Cert.LibBatchNormTrain.head (Ideal.ofBits .f32 0x42000000#32) (Ideal.ofBits .f32 0x3727C5AC#32) f _ _ _ _)
      (Cert.Bridge.feats_eq _ (Cert.FiniteArg0.arg0_real _ _ _ _ _ (hpre c)))).symm

end Cert.Proof.Algebraic

end
-- ==== Proof.lean ====
/-
  The certificate of the chrominance-feature kernel against its reference.

  The kernel computes, per image, a normalised 64-bin histogram, a variance and a mean 8x8-patch
  variance of the Cb and of the Cr plane (132 features) in one grid point of a first region, then
  a dense layer, a floor at zero and a batch normalisation over the 32 images in a second region.
  Both programs run to the end without a fault and leave their arguments unchanged; nothing was
  rewritten by the idealization; and at the ideal instance, for finite inputs, the kernel's result
  and the reference's are equal entry by entry.
-/
import proofs.«117902_j75557064671630_2_alg».proof.Defs
import proofs.«117902_j75557064671630_2_alg».proof.Proof.Gen.Kernel
import proofs.«117902_j75557064671630_2_alg».proof.Proof.Gen.KernelIdeal
import proofs.«117902_j75557064671630_2_alg».proof.Proof.Gen.ReferenceIdeal
import proofs.«117902_j75557064671630_2_alg».proof.Proof.Gen.Pre_finite_inputs
import proofs.«117902_j75557064671630_2_alg».proof.Proof.Frames
import proofs.«117902_j75557064671630_2_alg».proof.Proof.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, Cert.Proof.Frames.frame_ri, Cert.Proof.Frames.preserves, Cert.Proof.Algebraic.algebraic⟩

end Cert.Proof

end
